-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v93)) (v1 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_v94) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000x64 : Shape := ⟨2, ![4000, 64]⟩
abbrev S8000x64 : Shape := ⟨2, ![8000, 64]⟩
abbrev S8000x4000 : Shape := ⟨2, ![8000, 4000]⟩
abbrev S256x64 : Shape := ⟨2, ![256, 64]⟩
abbrev S256x320 : Shape := ⟨2, ![256, 320]⟩
abbrev S256x576 : Shape := ⟨2, ![256, 576]⟩
abbrev S256 : Shape := ⟨1, ![256]⟩
abbrev S128x320 : Shape := ⟨2, ![128, 320]⟩
abbrev S128 : Shape := ⟨1, ![128]⟩
abbrev S_ : Shape := ⟨0, ![]⟩

class Facts : Prop where
  bcast_S_S4000x64 : S_.BroadcastsInDim S4000x64 (![] : Fin 0 → Fin S4000x64.rank)
  reducesTo_S4000x64_S_d0_1 : S4000x64.ReducesTo [0, 1] S_
  h_S_ : 0 < S_.numel
  bcast_S_S8000x64 : S_.BroadcastsInDim S8000x64 (![] : Fin 0 → Fin S8000x64.rank)
  reducesTo_S8000x64_S_d0_1 : S8000x64.ReducesTo [0, 1] S_
  bcast_S_S8000x4000 : S_.BroadcastsInDim S8000x4000 (![] : Fin 0 → Fin S8000x4000.rank)
  reducesTo_S8000x4000_S_d0_1 : S8000x4000.ReducesTo [0, 1] S_
  bcast_S_S256x64 : S_.BroadcastsInDim S256x64 (![] : Fin 0 → Fin S256x64.rank)
  reducesTo_S256x64_S_d0_1 : S256x64.ReducesTo [0, 1] S_
  bcast_S_S256x320 : S_.BroadcastsInDim S256x320 (![] : Fin 0 → Fin S256x320.rank)
  reducesTo_S256x320_S_d0_1 : S256x320.ReducesTo [0, 1] S_
  bcast_S_S256x576 : S_.BroadcastsInDim S256x576 (![] : Fin 0 → Fin S256x576.rank)
  reducesTo_S256x576_S_d0_1 : S256x576.ReducesTo [0, 1] S_
  bcast_S_S256 : S_.BroadcastsInDim S256 (![] : Fin 0 → Fin S256.rank)
  reducesTo_S256_S_d0 : S256.ReducesTo [0] S_
  bcast_S_S128x320 : S_.BroadcastsInDim S128x320 (![] : Fin 0 → Fin S128x320.rank)
  reducesTo_S128x320_S_d0_1 : S128x320.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg14 : FVec F S128 .f32) (main_arg15 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  main_v78

def fn_part3 {F : FTy → Type} [FloatOps F] (main_arg11 : FVec F S128x320 .f32) (main_arg12 : FVec F S128x320 .f32) (main_arg13 : FVec F S128 .f32) (main_arg14 : FVec F S128 .f32) (main_arg15 : FVec F S128 .f32) (main_v48 : IVec S_ 1) (main_v49 : FVec F S128x320 .f32) (main_v50 : FVec F S128x320 .f32) : IVec S_ 1 :=
  let main_v51 : IVec S128x320 1 := cmpf .olt main_v49 main_v50
  let main_c_19 : IVec S_ 1 := constantI S_ 1 1#1
  let main_v52 : IVec S_ 1 := (fun x v => Host.reduce IntOp.andi x v reducesTo_S128x320_S_d0_1 h_S_) main_v51 main_c_19
  let main_v53 : IVec S_ 1 := andi main_v48 main_v52
  let main_v54 : FVec F S128x320 .f32 := Host.absf main_arg11
  let main_cst_20 : FVec F S_ .f32 := constant S_ .f32 0x7F800000#32
  let main_v55 : FVec F S128x320 .f32 := broadcastInDim S128x320 ![] bcast_S_S128x320 main_cst_20
  let main_v56 : IVec S128x320 1 := cmpf .olt main_v54 main_v55
  let main_c_21 : IVec S_ 1 := constantI S_ 1 1#1
  let main_v57 : IVec S_ 1 := (fun x v => Host.reduce IntOp.andi x v reducesTo_S128x320_S_d0_1 h_S_) main_v56 main_c_21
  let main_v58 : IVec S_ 1 := andi main_v53 main_v57
  let main_v59 : FVec F S128x320 .f32 := Host.absf main_arg12
  let main_cst_22 : FVec F S_ .f32 := constant S_ .f32 0x7F800000#32
  let main_v60 : FVec F S128x320 .f32 := broadcastInDim S128x320 ![] bcast_S_S128x320 main_cst_22
  let main_v61 : IVec S128x320 1 := cmpf .olt main_v59 main_v60
  let main_c_23 : IVec S_ 1 := constantI S_ 1 1#1
  let main_v62 : IVec S_ 1 := (fun x v => Host.reduce IntOp.andi x v reducesTo_S128x320_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_v63 main_v67

def fn_part2 {F : FTy → Type} [FloatOps F] (main_arg7 : FVec F S256 .f32) (main_arg8 : FVec F S256 .f32) (main_arg9 : FVec F S256 .f32) (main_arg10 : FVec F S128x320 .f32) (main_arg11 : FVec F S128x320 .f32) (main_arg12 : FVec F S128x320 .f32) (main_arg13 : FVec F S128 .f32) (main_arg14 : FVec F S128 .f32) (main_arg15 : FVec F S128 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S128x320 .f32 := Host.absf main_arg10
  let main_cst_18 : FVec F S_ .f32 := constant S_ .f32 0x7F800000#32
  let main_v50 : FVec F S128x320 .f32 := broadcastInDim S128x320 ![] bcast_S_S128x320 main_cst_18
  fn_part3 (F := F) main_arg11 main_arg12 main_arg13 main_arg14 main_arg15 main_v48 main_v49 main_v50

def fn_part1 {F : FTy → Type} [FloatOps F] (main_arg4 : FVec F S256x64 .f32) (main_arg5 : FVec F S256x320 .f32) (main_arg6 : FVec F S256x576 .f32) (main_arg7 : FVec F S256 .f32) (main_arg8 : FVec F S256 .f32) (main_arg9 : FVec F S256 .f32) (main_arg10 : FVec F S128x320 .f32) (main_arg11 : FVec F S128x320 .f32) (main_arg12 : FVec F S128x320 .f32) (main_arg13 : FVec F S128 .f32) (main_arg14 : FVec F S128 .f32) (main_arg15 : FVec F S128 .f32) (main_v13 : IVec S_ 1) (main_v16 : IVec S8000x4000 1) : IVec S_ 1 :=
  let main_c_5 : IVec S_ 1 := constantI S_ 1 1#1
  let main_v17 : IVec S_ 1 := (fun x v => Host.reduce IntOp.andi x v reducesTo_S8000x4000_S_d0_1 h_S_) main_v16 main_c_5
  let main_v18 : IVec S_ 1 := andi main_v13 main_v17
  let main_v19 : FVec F S256x64 .f32 := Host.absf main_arg4
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S256x320 .f32 := Host.absf main_arg5
  let main_cst_8 : FVec F S_ .f32 := constant S_ .f32 0x7F800000#32
  let main_v25 : FVec F S256x320 .f32 := broadcastInDim S256x320 ![] bcast_S_S256x320 main_cst_8
  let main_v26 : IVec S256x320 1 := cmpf .olt main_v24 main_v25
  let main_c_9 : IVec S_ 1 := constantI S_ 1 1#1
  let main_v27 : IVec S_ 1 := (fun x v => Host.reduce IntOp.andi x v reducesTo_S256x320_S_d0_1 h_S_) main_v26 main_c_9
  let main_v28 : IVec S_ 1 := andi main_v23 main_v27
  let main_v29 : FVec F S256x576 .f32 := Host.absf main_arg6
  let main_cst_10 : FVec F S_ .f32 := constant S_ .f32 0x7F800000#32
  let main_v30 : FVec F S256x576 .f32 := broadcastInDim S256x576 ![] bcast_S_S256x576 main_cst_10
  let main_v31 : IVec S256x576 1 := cmpf .olt main_v29 main_v30
  let main_c_11 : IVec S_ 1 := constantI S_ 1 1#1
  let main_v32 : IVec S_ 1 := (fun x v => Host.reduce IntOp.andi x v reducesTo_S256x576_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S4000x64 .f32) (main_arg1 : FVec F S8000x64 .f32) (main_arg2 : FVec F S8000x4000 .f32) (main_arg3 : FVec F S8000x4000 .f32) (main_arg4 : FVec F S256x64 .f32) (main_arg5 : FVec F S256x320 .f32) (main_arg6 : FVec F S256x576 .f32) (main_arg7 : FVec F S256 .f32) (main_arg8 : FVec F S256 .f32) (main_arg9 : FVec F S256 .f32) (main_arg10 : FVec F S128x320 .f32) (main_arg11 : FVec F S128x320 .f32) (main_arg12 : FVec F S128x320 .f32) (main_arg13 : FVec F S128 .f32) (main_arg14 : FVec F S128 .f32) (main_arg15 : FVec F S128 .f32) : IVec S_ 1 :=
  let main_v0 : FVec F S4000x64 .f32 := Host.absf main_arg0
  let main_cst : FVec F S_ .f32 := constant S_ .f32 0x7F800000#32
  let main_v1 : FVec F S4000x64 .f32 := broadcastInDim S4000x64 ![] bcast_S_S4000x64 main_cst
  let main_v2 : IVec S4000x64 1 := cmpf .olt main_v0 main_v1
  let main_c : IVec S_ 1 := constantI S_ 1 1#1
  let main_v3 : IVec S_ 1 := (fun x v => Host.reduce IntOp.andi x v reducesTo_S4000x64_S_d0_1 h_S_) main_v2 main_c
  let main_v4 : FVec F S8000x64 .f32 := Host.absf main_arg1
  let main_cst_0 : FVec F S_ .f32 := constant S_ .f32 0x7F800000#32
  let main_v5 : FVec F S8000x64 .f32 := broadcastInDim S8000x64 ![] bcast_S_S8000x64 main_cst_0
  let main_v6 : IVec S8000x64 1 := cmpf .olt main_v4 main_v5
  let main_c_1 : IVec S_ 1 := constantI S_ 1 1#1
  let main_v7 : IVec S_ 1 := (fun x v => Host.reduce IntOp.andi x v reducesTo_S8000x64_S_d0_1 h_S_) main_v6 main_c_1
  let main_v8 : IVec S_ 1 := andi main_v3 main_v7
  let main_v9 : FVec F S8000x4000 .f32 := Host.absf main_arg2
  let main_cst_2 : FVec F S_ .f32 := constant S_ .f32 0x7F800000#32
  let main_v10 : FVec F S8000x4000 .f32 := broadcastInDim S8000x4000 ![] bcast_S_S8000x4000 main_cst_2
  let main_v11 : IVec S8000x4000 1 := cmpf .olt main_v9 main_v10
  let main_c_3 : IVec S_ 1 := constantI S_ 1 1#1
  let main_v12 : IVec S_ 1 := (fun x v => Host.reduce IntOp.andi x v reducesTo_S8000x4000_S_d0_1 h_S_) main_v11 main_c_3
  let main_v13 : IVec S_ 1 := andi main_v8 main_v12
  let main_v14 : FVec F S8000x4000 .f32 := Host.absf main_arg3
  let main_cst_4 : FVec F S_ .f32 := constant S_ .f32 0x7F800000#32
  let main_v15 : FVec F S8000x4000 .f32 := broadcastInDim S8000x4000 ![] bcast_S_S8000x4000 main_cst_4
  let main_v16 : IVec S8000x4000 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S4000x64 : Shape := ⟨2, ![4000, 64]⟩
abbrev S8000x64 : Shape := ⟨2, ![8000, 64]⟩
abbrev S8000x4000 : Shape := ⟨2, ![8000, 4000]⟩
abbrev S256x64 : Shape := ⟨2, ![256, 64]⟩
abbrev S256x320 : Shape := ⟨2, ![256, 320]⟩
abbrev S256x576 : Shape := ⟨2, ![256, 576]⟩
abbrev S256 : Shape := ⟨1, ![256]⟩
abbrev S128x320 : Shape := ⟨2, ![128, 320]⟩
abbrev S128 : Shape := ⟨1, ![128]⟩
abbrev S1x8000x4000 : Shape := ⟨3, ![1, 8000, 4000]⟩
abbrev S2x8000x4000 : Shape := ⟨3, ![2, 8000, 4000]⟩
abbrev S400x4000 : Shape := ⟨2, ![400, 4000]⟩
abbrev S400x64 : Shape := ⟨2, ![400, 64]⟩
abbrev S64x256 : Shape := ⟨2, ![64, 256]⟩
abbrev S8000x256 : Shape := ⟨2, ![8000, 256]⟩
abbrev S1x256 : Shape := ⟨2, ![1, 256]⟩
abbrev S_ : Shape := ⟨0, ![]⟩
abbrev S8000x320 : Shape := ⟨2, ![8000, 320]⟩
abbrev S2x4000x320 : Shape := ⟨3, ![2, 4000, 320]⟩
abbrev S1x800x4000 : Shape := ⟨3, ![1, 800, 4000]⟩
abbrev S800x320 : Shape := ⟨2, ![800, 320]⟩
abbrev S1x4000x320 : Shape := ⟨3, ![1, 4000, 320]⟩
abbrev S4000x320 : Shape := ⟨2, ![4000, 320]⟩
abbrev S800x4000 : Shape := ⟨2, ![800, 4000]⟩
abbrev S320x128 : Shape := ⟨2, ![320, 128]⟩
abbrev S4000x128 : Shape := ⟨2, ![4000, 128]⟩
abbrev S1x128 : Shape := ⟨2, ![1, 128]⟩
abbrev S400x320 : Shape := ⟨2, ![400, 320]⟩
abbrev S320x256 : Shape := ⟨2, ![320, 256]⟩
abbrev S4000x576 : Shape := ⟨2, ![4000, 576]⟩
abbrev S8000x576 : Shape := ⟨2, ![8000, 576]⟩
abbrev S400x576 : Shape := ⟨2, ![400, 576]⟩
abbrev S576x256 : Shape := ⟨2, ![576, 256]⟩
abbrev S4000x832 : Shape := ⟨2, ![4000, 832]⟩

abbrev nBuf : Space → Nat
  | .hbm => 129
  | .vmem => 39
  | .smem => 0
  | _ => 0

abbrev hbmTy0_0 (i : Nat) : BufTy := match i % 128 with
  | 0 => ⟨S4000x64, .f32⟩
  | 1 => ⟨S8000x64, .f32⟩
  | 2 => ⟨S8000x4000, .f32⟩
  | 3 => ⟨S8000x4000, .f32⟩
  | 4 => ⟨S256x64, .f32⟩
  | 5 => ⟨S256x320, .f32⟩
  | 6 => ⟨S256x576, .f32⟩
  | 7 => ⟨S256, .f32⟩
  | 8 => ⟨S256, .f32⟩
  | 9 => ⟨S256, .f32⟩
  | 10 => ⟨S128x320, .f32⟩
  | 11 => ⟨S128x320, .f32⟩
  | 12 => ⟨S128x320, .f32⟩
  | 13 => ⟨S128, .f32⟩
  | 14 => ⟨S128, .f32⟩
  | 15 => ⟨S128, .f32⟩
  | 16 => ⟨S8000x4000, .bf16⟩
  | 17 => ⟨S8000x4000, .bf16⟩
  | 18 => ⟨S1x8000x4000, .bf16⟩
  | 19 => ⟨S1x8000x4000, .bf16⟩
  | 20 => ⟨S2x8000x4000, .bf16⟩
  | 21 => ⟨S4000x64, .bf16⟩
  | 22 => ⟨S4000x64, .bf16⟩
  | 23 => ⟨S8000x64, .f32⟩
  | 24 => ⟨S64x256, .f32⟩
  | 25 => ⟨S8000x256, .f32⟩
  | 26 => ⟨S1x256, .f32⟩
  | 27 => ⟨S8000x256, .f32⟩
  | 28 => ⟨S8000x256, .f32⟩
  | 29 => ⟨S_, .f32⟩
  | 30 => ⟨S8000x256, .f32⟩
  | 31 => ⟨S8000x256, .f32⟩
  | 32 => ⟨S8000x320, .f32⟩
  | 33 => ⟨S8000x320, .bf16⟩
  | 34 => ⟨S2x4000x320, .f32⟩
  | 35 => ⟨S1x4000x320, .f32⟩
  | 36 => ⟨S4000x320, .f32⟩
  | 37 => ⟨S1x4000x320, .f32⟩
  | 38 => ⟨S4000x320, .f32⟩
  | 39 => ⟨S320x128, .f32⟩
  | 40 => ⟨S4000x128, .f32⟩
  | 41 => ⟨S1x128, .f32⟩
  | 42 => ⟨S4000x128, .f32⟩
  | 43 => ⟨S4000x128, .f32⟩
  | 44 => ⟨S_, .f32⟩
  | 45 => ⟨S4000x128, .f32⟩
  | 46 => ⟨S4000x128, .f32⟩
  | 47 => ⟨S320x128, .f32⟩
  | 48 => ⟨S4000x128, .f32⟩
  | 49 => ⟨S1x128, .f32⟩
  | 50 => ⟨S4000x128, .f32⟩
  | 51 => ⟨S4000x128, .f32⟩
  | 52 => ⟨S_, .f32⟩
  | 53 => ⟨S4000x128, .f32⟩
  | 54 => ⟨S4000x128, .f32⟩
  | 55 => ⟨S4000x320, .f32⟩
  | 56 => ⟨S4000x320, .f32⟩
  | 57 => ⟨S4000x320, .bf16⟩
  | 58 => ⟨S4000x320, .bf16⟩
  | 59 => ⟨S8000x320, .f32⟩
  | 60 => ⟨S320x256, .f32⟩
  | 61 => ⟨S8000x256, .f32⟩
  | 62 => ⟨S1x256, .f32⟩
  | 63 => ⟨S8000x256, .f32⟩
  | 64 => ⟨S8000x256, .f32⟩
  | 65 => ⟨S_, .f32⟩
  | 66 => ⟨S8000x256, .f32⟩
  | 67 => ⟨S8000x256, .f32⟩
  | 68 => ⟨S8000x320, .f32⟩
  | 69 => ⟨S8000x320, .bf16⟩
  | 70 => ⟨S2x4000x320, .f32⟩
  | 71 => ⟨S1x4000x320, .f32⟩
  | 72 => ⟨S4000x320, .f32⟩
  | 73 => ⟨S1x4000x320, .f32⟩
  | 74 => ⟨S4000x320, .f32⟩
  | 75 => ⟨S320x128, .f32⟩
  | 76 => ⟨S4000x128, .f32⟩
  | 77 => ⟨S1x128, .f32⟩
  | 78 => ⟨S4000x128, .f32⟩
  | 79 => ⟨S4000x128, .f32⟩
  | 80 => ⟨S_, .f32⟩
  | 81 => ⟨S4000x128, .f32⟩
  | 82 => ⟨S4000x128, .f32⟩
  | 83 => ⟨S320x128, .f32⟩
  | 84 => ⟨S4000x128, .f32⟩
  | 85 => ⟨S1x128, .f32⟩
  | 86 => ⟨S4000x128, .f32⟩
  | 87 => ⟨S4000x128, .f32⟩
  | 88 => ⟨S_, .f32⟩
  | 89 => ⟨S4000x128, .f32⟩
  | 90 => ⟨S4000x128, .f32⟩
  | 91 => ⟨S4000x576, .f32⟩
  | 92 => ⟨S4000x576, .f32⟩
  | 93 => ⟨S4000x576, .bf16⟩
  | 94 => ⟨S4000x576, .bf16⟩
  | 95 => ⟨S8000x576, .f32⟩
  | 96 => ⟨S576x256, .f32⟩
  | 97 => ⟨S8000x256, .f32⟩
  | 98 => ⟨S1x256, .f32⟩
  | 99 => ⟨S8000x256, .f32⟩
  | 100 => ⟨S8000x256, .f32⟩
  | 101 => ⟨S_, .f32⟩
  | 102 => ⟨S8000x256, .f32⟩
  | 103 => ⟨S8000x256, .f32⟩
  | 104 => ⟨S8000x320, .f32⟩
  | 105 => ⟨S8000x320, .bf16⟩
  | 106 => ⟨S2x4000x320, .f32⟩
  | 107 => ⟨S1x4000x320, .f32⟩
  | 108 => ⟨S4000x320, .f32⟩
  | 109 => ⟨S1x4000x320, .f32⟩
  | 110 => ⟨S4000x320, .f32⟩
  | 111 => ⟨S320x128, .f32⟩
  | 112 => ⟨S4000x128, .f32⟩
  | 113 => ⟨S1x128, .f32⟩
  | 114 => ⟨S4000x128, .f32⟩
  | 115 => ⟨S4000x128, .f32⟩
  | 116 => ⟨S_, .f32⟩
  | 117 => ⟨S4000x128, .f32⟩
  | 118 => ⟨S4000x128, .f32⟩
  | 119 => ⟨S320x128, .f32⟩
  | 120 => ⟨S4000x128, .f32⟩
  | 121 => ⟨S1x128, .f32⟩
  | 122 => ⟨S4000x128, .f32⟩
  | 123 => ⟨S4000x128, .f32⟩
  | 124 => ⟨S_, .f32⟩
  | 125 => ⟨S4000x128, .f32⟩
  | 126 => ⟨S4000x128, .f32⟩
  | 127 => ⟨S4000x832, .f32⟩
  | _ => ⟨S4000x64, .f32⟩

abbrev hbmTy0_1 (i : Nat) : BufTy := match i % 128 with
  | 0 => ⟨S4000x832, .f32⟩
  | _ => ⟨S4000x64, .f32⟩

abbrev hbmTy (i : Nat) : BufTy := match i / 128 with
  | 0 => hbmTy0_0 i
  | 1 => hbmTy0_1 i
  | _ => ⟨S4000x64, .f32⟩

abbrev bufTy : (tb : Table) → Fin (tcTables nBuf tb) → BufTy
  | .hbm, ⟨i, _⟩ => hbmTy i
  | .local _ .vmem, ⟨0, _⟩ => ⟨S400x4000, .bf16⟩
  | .local _ .vmem, ⟨1, _⟩ => ⟨S400x4000, .bf16⟩
  | .local _ .vmem, ⟨2, _⟩ => ⟨S400x4000, .bf16⟩
  | .local _ .vmem, ⟨3, _⟩ => ⟨S400x4000, .bf16⟩
  | .local _ .vmem, ⟨4, _⟩ => ⟨S4000x64, .bf16⟩
  | .local _ .vmem, ⟨5, _⟩ => ⟨S4000x64, .bf16⟩
  | .local _ .vmem, ⟨6, _⟩ => ⟨S400x64, .f32⟩
  | .local _ .vmem, ⟨7, _⟩ => ⟨S400x64, .f32⟩
  | .local _ .vmem, ⟨8, _⟩ => ⟨S1x800x4000, .bf16⟩
  | .local _ .vmem, ⟨9, _⟩ => ⟨S1x800x4000, .bf16⟩
  | .local _ .vmem, ⟨10, _⟩ => ⟨S800x320, .bf16⟩
  | .local _ .vmem, ⟨11, _⟩ => ⟨S800x320, .bf16⟩
  | .local _ .vmem, ⟨12, _⟩ => ⟨S1x4000x320, .f32⟩
  | .local _ .vmem, ⟨13, _⟩ => ⟨S400x4000, .bf16⟩
  | .local _ .vmem, ⟨14, _⟩ => ⟨S400x4000, .bf16⟩
  | .local _ .vmem, ⟨15, _⟩ => ⟨S400x4000, .bf16⟩
  | .local _ .vmem, ⟨16, _⟩ => ⟨S400x4000, .bf16⟩
  | .local _ .vmem, ⟨17, _⟩ => ⟨S4000x320, .bf16⟩
  | .local _ .vmem, ⟨18, _⟩ => ⟨S4000x320, .bf16⟩
  | .local _ .vmem, ⟨19, _⟩ => ⟨S400x320, .f32⟩
  | .local _ .vmem, ⟨20, _⟩ => ⟨S400x320, .f32⟩
  | .local _ .vmem, ⟨21, _⟩ => ⟨S1x800x4000, .bf16⟩
  | .local _ .vmem, ⟨22, _⟩ => ⟨S1x800x4000, .bf16⟩
  | .local _ .vmem, ⟨23, _⟩ => ⟨S800x320, .bf16⟩
  | .local _ .vmem, ⟨24, _⟩ => ⟨S800x320, .bf16⟩
  | .local _ .vmem, ⟨25, _⟩ => ⟨S1x4000x320, .f32⟩
  | .local _ .vmem, ⟨26, _⟩ => ⟨S400x4000, .bf16⟩
  | .local _ .vmem, ⟨27, _⟩ => ⟨S400x4000, .bf16⟩
  | .local _ .vmem, ⟨28, _⟩ => ⟨S400x4000, .bf16⟩
  | .local _ .vmem, ⟨29, _⟩ => ⟨S400x4000, .bf16⟩
  | .local _ .vmem, ⟨30, _⟩ => ⟨S4000x576, .bf16⟩
  | .local _ .vmem, ⟨31, _⟩ => ⟨S4000x576, .bf16⟩
  | .local _ .vmem, ⟨32, _⟩ => ⟨S400x576, .f32⟩
  | .local _ .vmem, ⟨33, _⟩ => ⟨S400x576, .f32⟩
  | .local _ .vmem, ⟨34, _⟩ => ⟨S1x800x4000, .bf16⟩
  | .local _ .vmem, ⟨35, _⟩ => ⟨S1x800x4000, .bf16⟩
  | .local _ .vmem, ⟨36, _⟩ => ⟨S800x320, .bf16⟩
  | .local _ .vmem, ⟨37, _⟩ => ⟨S800x320, .bf16⟩
  | .local _ .vmem, ⟨38, _⟩ => ⟨S1x4000x320, .f32⟩
  | _, _ => ⟨S4000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_call0_cst : Ref sig .tc := ⟨.hbm, 29, rfl⟩
abbrev main_call0_v0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_call1_cst : Ref sig .tc := ⟨.hbm, 44, rfl⟩
abbrev main_call1_v0 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_call2_cst : Ref sig .tc := ⟨.hbm, 52, rfl⟩
abbrev main_call2_v0 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_call3_cst : Ref sig .tc := ⟨.hbm, 65, rfl⟩
abbrev main_call3_v0 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_call4_cst : Ref sig .tc := ⟨.hbm, 80, rfl⟩
abbrev main_call4_v0 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_call5_cst : Ref sig .tc := ⟨.hbm, 88, rfl⟩
abbrev main_call5_v0 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_call6_cst : Ref sig .tc := ⟨.hbm, 101, rfl⟩
abbrev main_call6_v0 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_call7_cst : Ref sig .tc := ⟨.hbm, 116, rfl⟩
abbrev main_call7_v0 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_call8_cst : Ref sig .tc := ⟨.hbm, 124, rfl⟩
abbrev main_call8_v0 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg4_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem3_0 : DmaSem sig := 31
abbrev cc4_sem4_0 : DmaSem sig := 32
abbrev cc4_sem4_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x4000 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x4000 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4000x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4000x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 10], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x800x4000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S800x320 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x4000x320 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x4000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S400x4000 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4000x320 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4000x320 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x320 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨2, ![2, 10], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x800x4000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S800x320 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x4000x320 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, false]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S400x4000 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S400x4000 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S4000x576 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S4000x576 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S400x576 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨2, ![2, 10], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x800x4000 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S800x320 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 1 → Memref sig .tc .vmem S1x4000x320 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true, false]

class Facts₀ : Prop where
  bitsLt_bf16_f32 : FTy.bits .bf16 < FTy.bits .f32
  bcast_S8000x4000_S1x8000x4000_1_2 : S8000x4000.BroadcastsInDim S1x8000x4000 (![1, 2] : Fin 2 → Fin S1x8000x4000.rank)
  concatenates_S1x8000x4000_S1x8000x4000_S2x8000x4000_d0 : Shape.Concatenates [S1x8000x4000, S1x8000x4000] S2x8000x4000 0
  inb_S400x4000_S400x4000_0_0 : ∀ a, (![0, 0] : Fin 2 → Nat) a + S400x4000.size a ≤ S400x4000.size a
  h_S400x4000 : 0 < S400x4000.numel
  shapeCasts_S400x4000_S400x4000 : S400x4000.ShapeCasts S400x4000
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S400x64_S400x64_0_0 : ∀ a, (![0, 0] : Fin 2 → Nat) a + S400x64.size a ≤ S400x64.size a
  h_S400x64 : 0 < S400x64.numel
  transposes_S256x64_S64x256_1_0 : S256x64.Transposes [1, 0] S64x256
  bcast_S256_S1x256_1 : S256.BroadcastsInDim S1x256 (![1] : Fin 1 → Fin S1x256.rank)
  bcast_S1x256_S8000x256_0_1 : S1x256.BroadcastsInDim S8000x256 (![0, 1] : Fin 2 → Fin S8000x256.rank)
  bcast_S_S8000x256 : S_.BroadcastsInDim S8000x256 (![] : Fin 0 → Fin S8000x256.rank)
  concatenates_S8000x64_S8000x256_S8000x320_d1 : Shape.Concatenates [S8000x64, S8000x256] S8000x320 1
  inb_S1x4000x320_S1x4000x320_0_0_0 : ∀ a, (![0, 0, 0] : Fin 3 → Nat) a + S1x4000x320.size a ≤ S1x4000x320.size a
  h_S1x4000x320 : 0 < S1x4000x320.numel
  shapeCasts_S1x4000x320_S4000x320 : S1x4000x320.ShapeCasts S4000x320
  shapeCasts_S4000x320_S1x4000x320 : S4000x320.ShapeCasts S1x4000x320
  inb_S1x800x4000_S1x800x4000_0_0_0 : ∀ a, (![0, 0, 0] : Fin 3 → Nat) a + S1x800x4000.size a ≤ S1x800x4000.size a
  h_S1x800x4000 : 0 < S1x800x4000.numel
  shapeCasts_S1x800x4000_S800x4000 : S1x800x4000.ShapeCasts S800x4000
  inb_S800x320_S800x320_0_0 : ∀ a, (![0, 0] : Fin 2 → Nat) a + S800x320.size a ≤ S800x320.size a
  h_S800x320 : 0 < S800x320.numel
  shapeCasts_S800x320_S800x320 : S800x320.ShapeCasts S800x320
  slices_S2x4000x320_S1x4000x320_0_0_0 : S2x4000x320.Slices ![0, 0, 0] S1x4000x320
  slices_S2x4000x320_S1x4000x320_1_0_0 : S2x4000x320.Slices ![1, 0, 0] S1x4000x320
  transposes_S128x320_S320x128_1_0 : S128x320.Transposes [1, 0] S320x128
  bcast_S128_S1x128_1 : S128.BroadcastsInDim S1x128 (![1] : Fin 1 → Fin S1x128.rank)
  bcast_S1x128_S4000x128_0_1 : S1x128.BroadcastsInDim S4000x128 (![0, 1] : Fin 2 → Fin S4000x128.rank)
  bcast_S_S4000x128 : S_.BroadcastsInDim S4000x128 (![] : Fin 0 → Fin S4000x128.rank)
  concatenates_S4000x64_S4000x128_S4000x128_S4000x320_d1 : Shape.Concatenates [S4000x64, S4000x128, S4000x128] S4000x320 1
  inb_S4000x320_S4000x320_0_0 : ∀ a, (![0, 0] : Fin 2 → Nat) a + S4000x320.size a ≤ S4000x320.size a
  h_S4000x320 : 0 < S4000x320.numel
  shapeCasts_S4000x320_S4000x320 : S4000x320.ShapeCasts S4000x320
  inb_S400x320_S400x320_0_0 : ∀ a, (![0, 0] : Fin 2 → Nat) a + S400x320.size a ≤ S400x320.size a
  h_S400x320 : 0 < S400x320.numel
  transposes_S256x320_S320x256_1_0 : S256x320.Transposes [1, 0] S320x256
  concatenates_S4000x320_S4000x128_S4000x128_S4000x576_d1 : Shape.Concatenates [S4000x320, S4000x128, S4000x128] S4000x576 1
  inb_S4000x576_S4000x576_0_0 : ∀ a, (![0, 0] : Fin 2 → Nat) a + S4000x576.size a ≤ S4000x576.size a
  h_S4000x576 : 0 < S4000x576.numel
  shapeCasts_S4000x576_S4000x576 : S4000x576.ShapeCasts S4000x576
  inb_S400x576_S400x576_0_0 : ∀ a, (![0, 0] : Fin 2 → Nat) a + S400x576.size a ≤ S400x576.size a
  h_S400x576 : 0 < S400x576.numel
  transposes_S256x576_S576x256_1_0 : S256x576.Transposes [1, 0] S576x256
  concatenates_S4000x576_S4000x128_S4000x128_S4000x832_d1 : Shape.Concatenates [S4000x576, S4000x128, S4000x128] S4000x832 1
  dot_S400x4000_S4000x64_S400x64_1_0_0_1_n_n_wf : DotDims.WF S400x4000 S4000x64 S400x64 [1] [0] [0] [1] [] []
  dot_S8000x64_S64x256_S8000x256_1_0_0_1_n_n_wf : DotDims.WF S8000x64 S64x256 S8000x256 [1] [0] [0] [1] [] []
  dot_S800x4000_S800x320_S4000x320_0_0_1_1_n_n_wf : DotDims.WF S800x4000 S800x320 S4000x320 [0] [0] [1] [1] [] []
  dot_S4000x320_S320x128_S4000x128_1_0_0_1_n_n_wf : DotDims.WF S4000x320 S320x128 S4000x128 [1] [0] [0] [1] [] []
  dot_S400x4000_S4000x320_S400x320_1_0_0_1_n_n_wf : DotDims.WF S400x4000 S4000x320 S400x320 [1] [0] [0] [1] [] []
  dot_S8000x320_S320x256_S8000x256_1_0_0_1_n_n_wf : DotDims.WF S8000x320 S320x256 S8000x256 [1] [0] [0] [1] [] []
  dot_S400x4000_S4000x576_S400x576_1_0_0_1_n_n_wf : DotDims.WF S400x4000 S4000x576 S400x576 [1] [0] [0] [1] [] []
  dot_S8000x576_S576x256_S8000x256_1_0_0_1_n_n_wf : DotDims.WF S8000x576 S576x256 S8000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x4000.size a ≤ S8000x4000.size a
  hwx0_0 : ∀ i : grid0.Coords, EltTy.bits .bf16 = 32 ∨ (Rect.block (s := S8000x4000) S400x4000.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x4000.size a ≤ S8000x4000.size a
  hwx0_1 : ∀ i : grid0.Coords, EltTy.bits .bf16 = 32 ∨ (Rect.block (s := S8000x4000) S400x4000.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S4000x64.size a
  hwx0_2 : ∀ i : grid0.Coords, EltTy.bits .bf16 = 32 ∨ (Rect.block (s := S4000x64) S4000x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S4000x64.size a
  hwx0_3 : ∀ i : grid0.Coords, EltTy.bits .bf16 = 32 ∨ (Rect.block (s := S4000x64) S4000x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x64.size a ≤ S8000x64.size a
  hwx0_4 : ∀ i : grid0.Coords, EltTy.bits .f32 = 32 ∨ (Rect.block (s := S8000x64) S400x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x800x4000.size a ≤ S2x8000x4000.size a
  hwx1_0 : ∀ i : grid1.Coords, EltTy.bits .bf16 = 32 ∨ (Rect.block (s := S2x8000x4000) S1x800x4000.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S800x320.size a ≤ S8000x320.size a
  hwx1_1 : ∀ i : grid1.Coords, EltTy.bits .bf16 = 32 ∨ (Rect.block (s := S8000x320) S800x320.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4000x320.size a ≤ S2x4000x320.size a
  hwx1_2 : ∀ i : grid1.Coords, EltTy.bits .f32 = 32 ∨ (Rect.block (s := S2x4000x320) S1x4000x320.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x4000.size a ≤ S8000x4000.size a
  hwx2_0 : ∀ i : grid2.Coords, EltTy.bits .bf16 = 32 ∨ (Rect.block (s := S8000x4000) S400x4000.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S400x4000.size a ≤ S8000x4000.size a
  hwx2_1 : ∀ i : grid2.Coords, EltTy.bits .bf16 = 32 ∨ (Rect.block (s := S8000x4000) S400x4000.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4000x320.size a ≤ S4000x320.size a
  hwx2_2 : ∀ i : grid2.Coords, EltTy.bits .bf16 = 32 ∨ (Rect.block (s := S4000x320) S4000x320.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S4000x320.size a ≤ S4000x320.size a
  hwx2_3 : ∀ i : grid2.Coords, EltTy.bits .bf16 = 32 ∨ (Rect.block (s := S4000x320) S4000x320.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x320.size a ≤ S8000x320.size a
  hwx2_4 : ∀ i : grid2.Coords, EltTy.bits .f32 = 32 ∨ (Rect.block (s := S8000x320) S400x320.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x800x4000.size a ≤ S2x8000x4000.size a
  hwx3_0 : ∀ i : grid3.Coords, EltTy.bits .bf16 = 32 ∨ (Rect.block (s := S2x8000x4000) S1x800x4000.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S800x320.size a ≤ S8000x320.size a
  hwx3_1 : ∀ i : grid3.Coords, EltTy.bits .bf16 = 32 ∨ (Rect.block (s := S8000x320) S800x320.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x4000x320.size a ≤ S2x4000x320.size a
  hwx3_2 : ∀ i : grid3.Coords, EltTy.bits .f32 = 32 ∨ (Rect.block (s := S2x4000x320) S1x4000x320.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x4000.size a ≤ S8000x4000.size a
  hwx4_0 : ∀ i : grid4.Coords, EltTy.bits .bf16 = 32 ∨ (Rect.block (s := S8000x4000) S400x4000.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S400x4000.size a ≤ S8000x4000.size a
  hwx4_1 : ∀ i : grid4.Coords, EltTy.bits .bf16 = 32 ∨ (Rect.block (s := S8000x4000) S400x4000.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S4000x576.size a ≤ S4000x576.size a
  hwx4_2 : ∀ i : grid4.Coords, EltTy.bits .bf16 = 32 ∨ (Rect.block (s := S4000x576) S4000x576.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S4000x576.size a ≤ S4000x576.size a
  hwx4_3 : ∀ i : grid4.Coords, EltTy.bits .bf16 = 32 ∨ (Rect.block (s := S4000x576) S4000x576.size (cc4_transform_3 i) (hinb4_3 i)).WholeWords (EltTy.packing .bf16)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S400x576.size a ≤ S8000x576.size a
  hwx4_4 : ∀ i : grid4.Coords, EltTy.bits .f32 = 32 ∨ (Rect.block (s := S8000x576) S400x576.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x800x4000.size a ≤ S2x8000x4000.size a
  hwx5_0 : ∀ i : grid5.Coords, EltTy.bits .bf16 = 32 ∨ (Rect.block (s := S2x8000x4000) S1x800x4000.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S800x320.size a ≤ S8000x320.size a
  hwx5_1 : ∀ i : grid5.Coords, EltTy.bits .bf16 = 32 ∨ (Rect.block (s := S8000x320) S800x320.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x4000x320.size a ≤ S2x4000x320.size a
  hwx5_2 : ∀ i : grid5.Coords, EltTy.bits .f32 = 32 ∨ (Rect.block (s := S2x4000x320) S1x4000x320.size (cc5_transform_2 i) (hinb5_2 i)).WholeWords (EltTy.packing .f32)

variable [Facts₀]

def dot_S400x4000_S4000x64_S400x64_1_0_0_1_n_n : DotDims S400x4000 S4000x64 S400x64 where
  lhsContracting := [1]
  rhsContracting := [0]
  lhsNonContracting := [0]
  rhsNonContracting := [1]
  lhsBatch := []
  rhsBatch := []
  wf := dot_S400x4000_S4000x64_S400x64_1_0_0_1_n_n_wf
def dot_S8000x64_S64x256_S8000x256_1_0_0_1_n_n : DotDims S8000x64 S64x256 S8000x256 where
  lhsContracting := [1]
  rhsContracting := [0]
  lhsNonContracting := [0]
  rhsNonContracting := [1]
  lhsBatch := []
  rhsBatch := []
  wf := dot_S8000x64_S64x256_S8000x256_1_0_0_1_n_n_wf
def dot_S800x4000_S800x320_S4000x320_0_0_1_1_n_n : DotDims S800x4000 S800x320 S4000x320 where
  lhsContracting := [0]
  rhsContracting := [0]
  lhsNonContracting := [1]
  rhsNonContracting := [1]
  lhsBatch := []
  rhsBatch := []
  wf := dot_S800x4000_S800x320_S4000x320_0_0_1_1_n_n_wf
def dot_S4000x320_S320x128_S4000x128_1_0_0_1_n_n : DotDims S4000x320 S320x128 S4000x128 where
  lhsContracting := [1]
  rhsContracting := [0]
  lhsNonContracting := [0]
  rhsNonContracting := [1]
  lhsBatch := []
  rhsBatch := []
  wf := dot_S4000x320_S320x128_S4000x128_1_0_0_1_n_n_wf
def dot_S400x4000_S4000x320_S400x320_1_0_0_1_n_n : DotDims S400x4000 S4000x320 S400x320 where
  lhsContracting := [1]
  rhsContracting := [0]
  lhsNonContracting := [0]
  rhsNonContracting := [1]
  lhsBatch := []
  rhsBatch := []
  wf := dot_S400x4000_S4000x320_S400x320_1_0_0_1_n_n_wf
def dot_S8000x320_S320x256_S8000x256_1_0_0_1_n_n : DotDims S8000x320 S320x256 S8000x256 where
  lhsContracting := [1]
  rhsContracting := [0]
  lhsNonContracting := [0]
  rhsNonContracting := [1]
  lhsBatch := []
  rhsBatch := []
  wf := dot_S8000x320_S320x256_S8000x256_1_0_0_1_n_n_wf
def dot_S400x4000_S4000x576_S400x576_1_0_0_1_n_n : DotDims S400x4000 S4000x576 S400x576 where
  lhsContracting := [1]
  rhsContracting := [0]
  lhsNonContracting := [0]
  rhsNonContracting := [1]
  lhsBatch := []
  rhsBatch := []
  wf := dot_S400x4000_S4000x576_S400x576_1_0_0_1_n_n_wf
def dot_S8000x576_S576x256_S8000x256_1_0_0_1_n_n : DotDims S8000x576 S576x256 S8000x256 where
  lhsContracting := [1]
  rhsContracting := [0]
  lhsNonContracting := [0]
  rhsNonContracting := [1]
  lhsBatch := []
  rhsBatch := []
  wf := dot_S8000x576_S576x256_S8000x256_1_0_0_1_n_n_wf

abbrev win0_0 : Pipeline.Window sig grid0 :=
  Pipeline.Window.ofSpec (Memref.whole main_v0) S400x4000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S400x4000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S4000x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S4000x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S400x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v4) S1x800x4000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S800x320.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x4000x320.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0) S400x4000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S400x4000.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v35) S4000x320.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S4000x320.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S400x320.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v4) S1x800x4000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S800x320.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v46) S1x4000x320.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v0) S400x4000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v1) S400x4000.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v65) S4000x576.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v66) S4000x576.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v67) S400x576.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v4) S1x800x4000.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v75) S800x320.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v76) S1x4000x320.size cc5_transform_2 reads5_2 true true 1 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S4000x64 : Shape := ⟨2, ![4000, 64]⟩
abbrev S8000x64 : Shape := ⟨2, ![8000, 64]⟩
abbrev S8000x4000 : Shape := ⟨2, ![8000, 4000]⟩
abbrev S256x64 : Shape := ⟨2, ![256, 64]⟩
abbrev S256x320 : Shape := ⟨2, ![256, 320]⟩
abbrev S256x576 : Shape := ⟨2, ![256, 576]⟩
abbrev S256 : Shape := ⟨1, ![256]⟩
abbrev S128x320 : Shape := ⟨2, ![128, 320]⟩
abbrev S128 : Shape := ⟨1, ![128]⟩
abbrev S64x256 : Shape := ⟨2, ![64, 256]⟩
abbrev S8000x256 : Shape := ⟨2, ![8000, 256]⟩
abbrev S1x256 : Shape := ⟨2, ![1, 256]⟩
abbrev S_ : Shape := ⟨0, ![]⟩
abbrev S8000x320 : Shape := ⟨2, ![8000, 320]⟩
abbrev S4000x8000 : Shape := ⟨2, ![4000, 8000]⟩
abbrev S4000x320 : Shape := ⟨2, ![4000, 320]⟩
abbrev S320x128 : Shape := ⟨2, ![320, 128]⟩
abbrev S4000x128 : Shape := ⟨2, ![4000, 128]⟩
abbrev S1x128 : Shape := ⟨2, ![1, 128]⟩
abbrev S320x256 : Shape := ⟨2, ![320, 256]⟩
abbrev S4000x576 : Shape := ⟨2, ![4000, 576]⟩
abbrev S8000x576 : Shape := ⟨2, ![8000, 576]⟩
abbrev S576x256 : Shape := ⟨2, ![576, 256]⟩
abbrev S4000x832 : Shape := ⟨2, ![4000, 832]⟩

abbrev nBuf : Space → Nat
  | .hbm => 118
  | .vmem => 0
  | .smem => 0
  | _ => 0

abbrev bufTy : (tb : Table) → Fin (tcTables nBuf tb) → BufTy
  | .hbm, ⟨0, _⟩ => ⟨S4000x64, .f32⟩
  | .hbm, ⟨1, _⟩ => ⟨S8000x64, .f32⟩
  | .hbm, ⟨2, _⟩ => ⟨S8000x4000, .f32⟩
  | .hbm, ⟨3, _⟩ => ⟨S8000x4000, .f32⟩
  | .hbm, ⟨4, _⟩ => ⟨S256x64, .f32⟩
  | .hbm, ⟨5, _⟩ => ⟨S256x320, .f32⟩
  | .hbm, ⟨6, _⟩ => ⟨S256x576, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S128x320, .f32⟩
  | .hbm, ⟨11, _⟩ => ⟨S128x320, .f32⟩
  | .hbm, ⟨12, _⟩ => ⟨S128x320, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S8000x64, .f32⟩
  | .hbm, ⟨17, _⟩ => ⟨S8000x64, .f32⟩
  | .hbm, ⟨18, _⟩ => ⟨S8000x64, .f32⟩
  | .hbm, ⟨19, _⟩ => ⟨S64x256, .f32⟩
  | .hbm, ⟨20, _⟩ => ⟨S8000x256, .f32⟩
  | .hbm, ⟨21, _⟩ => ⟨S1x256, .f32⟩
  | .hbm, ⟨22, _⟩ => ⟨S8000x256, .f32⟩
  | .hbm, ⟨23, _⟩ => ⟨S8000x256, .f32⟩
  | .hbm, ⟨24, _⟩ => ⟨S_, .f32⟩
  | .hbm, ⟨25, _⟩ => ⟨S8000x256, .f32⟩
  | .hbm, ⟨26, _⟩ => ⟨S8000x256, .f32⟩
  | .hbm, ⟨27, _⟩ => ⟨S8000x320, .f32⟩
  | .hbm, ⟨28, _⟩ => ⟨S4000x8000, .f32⟩
  | .hbm, ⟨29, _⟩ => ⟨S4000x320, .f32⟩
  | .hbm, ⟨30, _⟩ => ⟨S4000x8000, .f32⟩
  | .hbm, ⟨31, _⟩ => ⟨S4000x320, .f32⟩
  | .hbm, ⟨32, _⟩ => ⟨S320x128, .f32⟩
  | .hbm, ⟨33, _⟩ => ⟨S4000x128, .f32⟩
  | .hbm, ⟨34, _⟩ => ⟨S1x128, .f32⟩
  | .hbm, ⟨35, _⟩ => ⟨S4000x128, .f32⟩
  | .hbm, ⟨36, _⟩ => ⟨S4000x128, .f32⟩
  | .hbm, ⟨37, _⟩ => ⟨S_, .f32⟩
  | .hbm, ⟨38, _⟩ => ⟨S4000x128, .f32⟩
  | .hbm, ⟨39, _⟩ => ⟨S4000x128, .f32⟩
  | .hbm, ⟨40, _⟩ => ⟨S320x128, .f32⟩
  | .hbm, ⟨41, _⟩ => ⟨S4000x128, .f32⟩
  | .hbm, ⟨42, _⟩ => ⟨S1x128, .f32⟩
  | .hbm, ⟨43, _⟩ => ⟨S4000x128, .f32⟩
  | .hbm, ⟨44, _⟩ => ⟨S4000x128, .f32⟩
  | .hbm, ⟨45, _⟩ => ⟨S_, .f32⟩
  | .hbm, ⟨46, _⟩ => ⟨S4000x128, .f32⟩
  | .hbm, ⟨47, _⟩ => ⟨S4000x128, .f32⟩
  | .hbm, ⟨48, _⟩ => ⟨S4000x320, .f32⟩
  | .hbm, ⟨49, _⟩ => ⟨S4000x320, .f32⟩
  | .hbm, ⟨50, _⟩ => ⟨S8000x320, .f32⟩
  | .hbm, ⟨51, _⟩ => ⟨S8000x320, .f32⟩
  | .hbm, ⟨52, _⟩ => ⟨S8000x320, .f32⟩
  | .hbm, ⟨53, _⟩ => ⟨S320x256, .f32⟩
  | .hbm, ⟨54, _⟩ => ⟨S8000x256, .f32⟩
  | .hbm, ⟨55, _⟩ => ⟨S1x256, .f32⟩
  | .hbm, ⟨56, _⟩ => ⟨S8000x256, .f32⟩
  | .hbm, ⟨57, _⟩ => ⟨S8000x256, .f32⟩
  | .hbm, ⟨58, _⟩ => ⟨S_, .f32⟩
  | .hbm, ⟨59, _⟩ => ⟨S8000x256, .f32⟩
  | .hbm, ⟨60, _⟩ => ⟨S8000x256, .f32⟩
  | .hbm, ⟨61, _⟩ => ⟨S8000x320, .f32⟩
  | .hbm, ⟨62, _⟩ => ⟨S4000x8000, .f32⟩
  | .hbm, ⟨63, _⟩ => ⟨S4000x320, .f32⟩
  | .hbm, ⟨64, _⟩ => ⟨S4000x8000, .f32⟩
  | .hbm, ⟨65, _⟩ => ⟨S4000x320, .f32⟩
  | .hbm, ⟨66, _⟩ => ⟨S320x128, .f32⟩
  | .hbm, ⟨67, _⟩ => ⟨S4000x128, .f32⟩
  | .hbm, ⟨68, _⟩ => ⟨S1x128, .f32⟩
  | .hbm, ⟨69, _⟩ => ⟨S4000x128, .f32⟩
  | .hbm, ⟨70, _⟩ => ⟨S4000x128, .f32⟩
  | .hbm, ⟨71, _⟩ => ⟨S_, .f32⟩
  | .hbm, ⟨72, _⟩ => ⟨S4000x128, .f32⟩
  | .hbm, ⟨73, _⟩ => ⟨S4000x128, .f32⟩
  | .hbm, ⟨74, _⟩ => ⟨S320x128, .f32⟩
  | .hbm, ⟨75, _⟩ => ⟨S4000x128, .f32⟩
  | .hbm, ⟨76, _⟩ => ⟨S1x128, .f32⟩
  | .hbm, ⟨77, _⟩ => ⟨S4000x128, .f32⟩
  | .hbm, ⟨78, _⟩ => ⟨S4000x128, .f32⟩
  | .hbm, ⟨79, _⟩ => ⟨S_, .f32⟩
  | .hbm, ⟨80, _⟩ => ⟨S4000x128, .f32⟩
  | .hbm, ⟨81, _⟩ => ⟨S4000x128, .f32⟩
  | .hbm, ⟨82, _⟩ => ⟨S4000x576, .f32⟩
  | .hbm, ⟨83, _⟩ => ⟨S4000x576, .f32⟩
  | .hbm, ⟨84, _⟩ => ⟨S8000x576, .f32⟩
  | .hbm, ⟨85, _⟩ => ⟨S8000x576, .f32⟩
  | .hbm, ⟨86, _⟩ => ⟨S8000x576, .f32⟩
  | .hbm, ⟨87, _⟩ => ⟨S576x256, .f32⟩
  | .hbm, ⟨88, _⟩ => ⟨S8000x256, .f32⟩
  | .hbm, ⟨89, _⟩ => ⟨S1x256, .f32⟩
  | .hbm, ⟨90, _⟩ => ⟨S8000x256, .f32⟩
  | .hbm, ⟨91, _⟩ => ⟨S8000x256, .f32⟩
  | .hbm, ⟨92, _⟩ => ⟨S_, .f32⟩
  | .hbm, ⟨93, _⟩ => ⟨S8000x256, .f32⟩
  | .hbm, ⟨94, _⟩ => ⟨S8000x256, .f32⟩
  | .hbm, ⟨95, _⟩ => ⟨S8000x320, .f32⟩
  | .hbm, ⟨96, _⟩ => ⟨S4000x8000, .f32⟩
  | .hbm, ⟨97, _⟩ => ⟨S4000x320, .f32⟩
  | .hbm, ⟨98, _⟩ => ⟨S4000x8000, .f32⟩
  | .hbm, ⟨99, _⟩ => ⟨S4000x320, .f32⟩
  | .hbm, ⟨100, _⟩ => ⟨S320x128, .f32⟩
  | .hbm, ⟨101, _⟩ => ⟨S4000x128, .f32⟩
  | .hbm, ⟨102, _⟩ => ⟨S1x128, .f32⟩
  | .hbm, ⟨103, _⟩ => ⟨S4000x128, .f32⟩
  | .hbm, ⟨104, _⟩ => ⟨S4000x128, .f32⟩
  | .hbm, ⟨105, _⟩ => ⟨S_, .f32⟩
  | .hbm, ⟨106, _⟩ => ⟨S4000x128, .f32⟩
  | .hbm, ⟨107, _⟩ => ⟨S4000x128, .f32⟩
  | .hbm, ⟨108, _⟩ => ⟨S320x128, .f32⟩
  | .hbm, ⟨109, _⟩ => ⟨S4000x128, .f32⟩
  | .hbm, ⟨110, _⟩ => ⟨S1x128, .f32⟩
  | .hbm, ⟨111, _⟩ => ⟨S4000x128, .f32⟩
  | .hbm, ⟨112, _⟩ => ⟨S4000x128, .f32⟩
  | .hbm, ⟨113, _⟩ => ⟨S_, .f32⟩
  | .hbm, ⟨114, _⟩ => ⟨S4000x128, .f32⟩
  | .hbm, ⟨115, _⟩ => ⟨S4000x128, .f32⟩
  | .hbm, ⟨116, _⟩ => ⟨S4000x832, .f32⟩
  | .hbm, ⟨117, _⟩ => ⟨S4000x832, .f32⟩
  | _, _ => ⟨S4000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call0_cst : Ref sig .tc := ⟨.hbm, 24, rfl⟩
abbrev main_call0_v0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call1_cst : Ref sig .tc := ⟨.hbm, 37, rfl⟩
abbrev main_call1_v0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call2_cst : Ref sig .tc := ⟨.hbm, 45, rfl⟩
abbrev main_call2_v0 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_call3_cst : Ref sig .tc := ⟨.hbm, 58, rfl⟩
abbrev main_call3_v0 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call4_cst : Ref sig .tc := ⟨.hbm, 71, rfl⟩
abbrev main_call4_v0 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_call5_cst : Ref sig .tc := ⟨.hbm, 79, rfl⟩
abbrev main_call5_v0 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_call6_cst : Ref sig .tc := ⟨.hbm, 92, rfl⟩
abbrev main_call6_v0 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_call7_cst : Ref sig .tc := ⟨.hbm, 105, rfl⟩
abbrev main_call7_v0 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_call8_cst : Ref sig .tc := ⟨.hbm, 113, rfl⟩
abbrev main_call8_v0 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩

abbrev nD : Nat := 1
abbrev τ : Topo := Topo.v7x

variable {F : FTy → Type} [FloatOps F]

class Facts₀ : Prop where
  transposes_S256x64_S64x256_1_0 : S256x64.Transposes [1, 0] S64x256
  bcast_S256_S1x256_1 : S256.BroadcastsInDim S1x256 (![1] : Fin 1 → Fin S1x256.rank)
  bcast_S1x256_S8000x256_0_1 : S1x256.BroadcastsInDim S8000x256 (![0, 1] : Fin 2 → Fin S8000x256.rank)
  bcast_S_S8000x256 : S_.BroadcastsInDim S8000x256 (![] : Fin 0 → Fin S8000x256.rank)
  concatenates_S8000x64_S8000x256_S8000x320_d1 : Shape.Concatenates [S8000x64, S8000x256] S8000x320 1
  transposes_S8000x4000_S4000x8000_1_0 : S8000x4000.Transposes [1, 0] S4000x8000
  transposes_S128x320_S320x128_1_0 : S128x320.Transposes [1, 0] S320x128
  bcast_S128_S1x128_1 : S128.BroadcastsInDim S1x128 (![1] : Fin 1 → Fin S1x128.rank)
  bcast_S1x128_S4000x128_0_1 : S1x128.BroadcastsInDim S4000x128 (![0, 1] : Fin 2 → Fin S4000x128.rank)
  bcast_S_S4000x128 : S_.BroadcastsInDim S4000x128 (![] : Fin 0 → Fin S4000x128.rank)
  concatenates_S4000x64_S4000x128_S4000x128_S4000x320_d1 : Shape.Concatenates [S4000x64, S4000x128, S4000x128] S4000x320 1
  transposes_S256x320_S320x256_1_0 : S256x320.Transposes [1, 0] S320x256
  concatenates_S4000x320_S4000x128_S4000x128_S4000x576_d1 : Shape.Concatenates [S4000x320, S4000x128, S4000x128] S4000x576 1
  transposes_S256x576_S576x256_1_0 : S256x576.Transposes [1, 0] S576x256
  concatenates_S4000x576_S4000x128_S4000x128_S4000x832_d1 : Shape.Concatenates [S4000x576, S4000x128, S4000x128] S4000x832 1
  dot_S8000x4000_S4000x64_S8000x64_1_0_0_1_n_n_wf : DotDims.WF S8000x4000 S4000x64 S8000x64 [1] [0] [0] [1] [] []
  dot_S8000x64_S64x256_S8000x256_1_0_0_1_n_n_wf : DotDims.WF S8000x64 S64x256 S8000x256 [1] [0] [0] [1] [] []
  dot_S4000x8000_S8000x320_S4000x320_1_0_0_1_n_n_wf : DotDims.WF S4000x8000 S8000x320 S4000x320 [1] [0] [0] [1] [] []
  dot_S4000x320_S320x128_S4000x128_1_0_0_1_n_n_wf : DotDims.WF S4000x320 S320x128 S4000x128 [1] [0] [0] [1] [] []
  dot_S8000x4000_S4000x320_S8000x320_1_0_0_1_n_n_wf : DotDims.WF S8000x4000 S4000x320 S8000x320 [1] [0] [0] [1] [] []
  dot_S8000x320_S320x256_S8000x256_1_0_0_1_n_n_wf : DotDims.WF S8000x320 S320x256 S8000x256 [1] [0] [0] [1] [] []
  dot_S8000x4000_S4000x576_S8000x576_1_0_0_1_n_n_wf : DotDims.WF S8000x4000 S4000x576 S8000x576 [1] [0] [0] [1] [] []
  dot_S8000x576_S576x256_S8000x256_1_0_0_1_n_n_wf : DotDims.WF S8000x576 S576x256 S8000x256 [1] [0] [0] [1] [] []

variable [Facts₀]

def dot_S8000x4000_S4000x64_S8000x64_1_0_0_1_n_n : DotDims S8000x4000 S4000x64 S8000x64 where
  lhsContracting := [1]
  rhsContracting := [0]
  lhsNonContracting := [0]
  rhsNonContracting := [1]
  lhsBatch := []
  rhsBatch := []
  wf := dot_S8000x4000_S4000x64_S8000x64_1_0_0_1_n_n_wf
def dot_S8000x64_S64x256_S8000x256_1_0_0_1_n_n : DotDims S8000x64 S64x256 S8000x256 where
  lhsContracting := [1]
  rhsContracting := [0]
  lhsNonContracting := [0]
  rhsNonContracting := [1]
  lhsBatch := []
  rhsBatch := []
  wf := dot_S8000x64_S64x256_S8000x256_1_0_0_1_n_n_wf
def dot_S4000x8000_S8000x320_S4000x320_1_0_0_1_n_n : DotDims S4000x8000 S8000x320 S4000x320 where
  lhsContracting := [1]
  rhsContracting := [0]
  lhsNonContracting := [0]
  rhsNonContracting := [1]
  lhsBatch := []
  rhsBatch := []
  wf := dot_S4000x8000_S8000x320_S4000x320_1_0_0_1_n_n_wf
def dot_S4000x320_S320x128_S4000x128_1_0_0_1_n_n : DotDims S4000x320 S320x128 S4000x128 where
  lhsContracting := [1]
  rhsContracting := [0]
  lhsNonContracting := [0]
  rhsNonContracting := [1]
  lhsBatch := []
  rhsBatch := []
  wf := dot_S4000x320_S320x128_S4000x128_1_0_0_1_n_n_wf
def dot_S8000x4000_S4000x320_S8000x320_1_0_0_1_n_n : DotDims S8000x4000 S4000x320 S8000x320 where
  lhsContracting := [1]
  rhsContracting := [0]
  lhsNonContracting := [0]
  rhsNonContracting := [1]
  lhsBatch := []
  rhsBatch := []
  wf := dot_S8000x4000_S4000x320_S8000x320_1_0_0_1_n_n_wf
def dot_S8000x320_S320x256_S8000x256_1_0_0_1_n_n : DotDims S8000x320 S320x256 S8000x256 where
  lhsContracting := [1]
  rhsContracting := [0]
  lhsNonContracting := [0]
  rhsNonContracting := [1]
  lhsBatch := []
  rhsBatch := []
  wf := dot_S8000x320_S320x256_S8000x256_1_0_0_1_n_n_wf
def dot_S8000x4000_S4000x576_S8000x576_1_0_0_1_n_n : DotDims S8000x4000 S4000x576 S8000x576 where
  lhsContracting := [1]
  rhsContracting := [0]
  lhsNonContracting := [0]
  rhsNonContracting := [1]
  lhsBatch := []
  rhsBatch := []
  wf := dot_S8000x4000_S4000x576_S8000x576_1_0_0_1_n_n_wf
def dot_S8000x576_S576x256_S8000x256_1_0_0_1_n_n : DotDims S8000x576 S576x256 S8000x256 where
  lhsContracting := [1]
  rhsContracting := [0]
  lhsNonContracting := [0]
  rhsNonContracting := [1]
  lhsBatch := []
  rhsBatch := []
  wf := dot_S8000x576_S576x256_S8000x256_1_0_0_1_n_n_wf

class Facts : Prop extends Facts₀ where

variable [Facts]
-- ==== Proof.Agg0.lean ====
/- The body obligation and the proof data of the region whose kernel computes, per 400-row tile,
   out = x0 * x2 + x1 * x3 (two products over the whole contracted axis, then one sum), at width 64.
   At the region's entry contents `V`: each window's block at a point, the output buffer after the body as a
   function of the four input blocks, the body's triple, the proof data and the body obligation. -/
import proofs.«154590_j17119739641884_2_alg».proof.Proof.Gen.KernelIdeal.Launch
import proofs.«154590_j17119739641884_2_alg».proof.Proof.Gen.KernelIdeal.Skeleton
import proofs.«154590_j17119739641884_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (unfetched, the
    block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (unfetched, the
    block index has not moved), for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (unfetched, the
    block index has not moved), for any proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (unfetched, the
    block index has not moved), for any proof data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev r0_a : Rect S400x4000 := Rect.unit (s := S400x4000) ![0, 0] S400x4000.size inb_S400x4000_S400x4000_0_0
abbrev r0_b : Rect S4000x64 := Rect.unit (s := S4000x64) ![0, 0] S4000x64.size inb_S4000x64_S4000x64_0_0
abbrev r0_o : Rect S400x64 := Rect.unit (s := S400x64) ![0, 0] S400x64.size inb_S400x64_S400x64_0_0

/-! ## What the body leaves in the output window's buffer -/

/-- Window 4's staging buffer after the body, from the four input windows' blocks: its one store, of the sum of
    the two products (window 0 by window 2, window 1 by window 3). -/
def out0_4 (x0 : Vec F S400x4000 .bf16) (x1 : Vec F S400x4000 .bf16) (x2 : Vec F S4000x64 .bf16) (x3 : Vec F S4000x64 .bf16) : Vec F S400x64 .f32 :=
  View.canon [⟨r0_o, k0_pay1 (View.ld x0 r0_a) (View.ld x2 r0_b) (View.ld x1 r0_a) (View.ld x3 r0_b)⟩]

/-- The one store is of the whole buffer, so it covers it. -/
theorem cover0_4 (p0 : Vec F S400x64 .f32) (y : S400x64.Idx) :
    ∃ pc ∈ ([⟨r0_o, p0⟩] : List (View.Piece (Elt F) S400x64 .f32)), y ∈ pc.1.set :=
  View.cover_of_tiled [⟨r0_o, p0⟩] S400x64.size (by rfl) y

/-! ## The body's triple -/

set_option maxHeartbeats 1000000 in
/-- The kernel body on whole staging memrefs, the inputs' at read contents `xW` and the output's at anything, runs to
    the continuation holding the inputs' as they were and the output's at `out0_4` of the inputs'. -/
theorem sound_kernel0 (c : Dev nD) (E : Set ℕ) (i : grid0.Coords)
    (arg1 : Memref sig .tc .vmem S400x4000 .bf16) (harg1 : arg1.IsWhole) (arg2 : Memref sig .tc .vmem S400x4000 .bf16) (harg2 : arg2.IsWhole)
    (arg3 : Memref sig .tc .vmem S4000x64 .bf16) (harg3 : arg3.IsWhole) (arg4 : Memref sig .tc .vmem S4000x64 .bf16) (harg4 : arg4.IsWhole)
    (arg5 : Memref sig .tc .vmem S400x64 .f32) (harg5 : arg5.IsWhole)
    (x0 : Vec F S400x4000 .bf16) (x1 : Vec F S400x4000 .bf16) (x2 : Vec F S4000x64 .bf16) (x3 : Vec F S4000x64 .bf16) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E (cc0__agg_kernel i arg1 harg1 arg2 harg2 arg3 harg3 arg4 harg4 arg5 harg5) K := by
  simp only [cc0__agg_kernel_eq_skeleton]; unfold cc0__agg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of the pipeline on core `c`: the arrays as the region finds them (`V`); after the body at point
    `t` each input's buffer at its block and the output's at `out0_4` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.Pvnv1.lean ====
/-
  One "pvnv" region (pallas region 1): out[i] = stack[i]ᵀ · ct, the 8000 contracted rows taken 800 at a time.
  The grid is 2 × 10, point t = 10·i + k. The output window's block (slab i of the [2, 4000, 320] result) stays in its
  one staging buffer for the ten points of a slab and is written back after the last of them (k = 9). At k = 0 the body
  first stores zeros over the block and then adds the tile's product to what it reads back; at k ≠ 0 it adds the tile's
  product to what the point before left. So what the buffer holds after point t is defined by recursion on t
  (outsAt1): at k = 0 the body's result from the two input blocks alone, otherwise its result from the two input
  blocks and the contents after point t − 1. This file states that recursion, the proof data built on it, and the
  body's run at every point; it says nothing yet about which numbers the result holds.
-/
import proofs.«154590_j17119739641884_2_alg».proof.Proof.Gen.KernelIdeal.Launch
import proofs.«154590_j17119739641884_2_alg».proof.Proof.Gen.KernelIdeal.Skeleton
import proofs.«154590_j17119739641884_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch condition: k = 0 -/

/-- The body's one conditional, from the grid coordinates: "the second coordinate is zero". -/
abbrev cond1_0 (i : grid1.Coords) : Prop :=
  (Scalar.cmpi .ne (Scalar.extui (Scalar.cmpi .eq (BitVec.ofNat 32 (i 1).val) 0#32)) 0#32) = 1#1

/-- It holds exactly at the first point of each slab. -/
theorem hcond1_0 : ∀ t : Fin cfg1.N, cond1_0 (grid1.coords t) ↔ t.val % 10 = 0 :=
  (by decide +kernel : ∀ t : Fin grid1.N, cond1_0 (grid1.coords t) ↔ t.val % 10 = 0)

/-! ## The staging memrefs at a point -/

abbrev VO1_2 : View sig .tc .vmem S1x4000x320 .f32 := (Memref.whole cc1_stg2_0 : Memref sig .tc .vmem S1x4000x320 .f32).view
abbrev ms1_0 (t : Fin cfg1.N) : Memref sig .tc .vmem S1x800x4000 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S800x320 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x4000x320 .f32 := win1_2.stage (cfg1.slots t 2)
abbrev hs1_2 (t : Fin cfg1.N) : (ms1_2 t).IsWhole := hstage1_2 ((cfg1.slots t 2).cast nbuf1_2)

/-! ## The body's run, case by case -/

set_option maxHeartbeats 1000000 in
/-- At k = 0: on whole staging memrefs, the inputs' at their contents and the output's at anything, the body runs and
    leaves the inputs as they were and the output's buffer written with the pieces the run finds. -/
noncomputable def kernelRun1_A (c : Dev nD) (i : grid1.Coords) (arg2 : Memref sig .tc .vmem S1x800x4000 .bf16) (harg2 : arg2.IsWhole)
    (arg3 : Memref sig .tc .vmem S800x320 .bf16) (harg3 : arg3.IsWhole) (arg4 : Memref sig .tc .vmem S1x4000x320 .f32) (harg4 : arg4.IsWhole)
    (hc0 : cond1_0 i) (x0 : Vec F S1x800x4000 .bf16) (x1 : Vec F S800x320 .bf16) :
    { L2 : List (View.Piece (Elt F) S1x4000x320 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc1__pvnv_kernel i arg2 harg2 arg3 harg3 arg4 harg4) K } := by
  refine ⟨?_, fun E K => ?run⟩
  case run =>
    simp only [cc1__pvnv_kernel_eq_skeleton]; unfold cc1__pvnv_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- At k ≠ 0: the same with the output's buffer at its running contents xo2, which the body reads before it stores. -/
noncomputable def kernelRun1_B (c : Dev nD) (i : grid1.Coords) (arg2 : Memref sig .tc .vmem S1x800x4000 .bf16) (harg2 : arg2.IsWhole)
    (arg3 : Memref sig .tc .vmem S800x320 .bf16) (harg3 : arg3.IsWhole) (arg4 : Memref sig .tc .vmem S1x4000x320 .f32) (harg4 : arg4.IsWhole)
    (hc0 : ¬cond1_0 i) (x0 : Vec F S1x800x4000 .bf16) (x1 : Vec F S800x320 .bf16) (xo2 : Vec F S1x4000x320 .f32) :
    { L2 : List (View.Piece (Elt F) S1x4000x320 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc1__pvnv_kernel i arg2 harg2 arg3 harg3 arg4 harg4) K } := by
  refine ⟨?_, fun E K => ?run⟩
  case run =>
    simp only [cc1__pvnv_kernel_eq_skeleton]; unfold cc1__pvnv_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

/-- At k = 0 the run's pieces tile the output block, so they cover it. -/
theorem cover1_A_2 (c : Dev nD) (i : grid1.Coords) (arg2 : Memref sig .tc .vmem S1x800x4000 .bf16) (harg2 : arg2.IsWhole)
    (arg3 : Memref sig .tc .vmem S800x320 .bf16) (harg3 : arg3.IsWhole) (arg4 : Memref sig .tc .vmem S1x4000x320 .f32) (harg4 : arg4.IsWhole)
    (hc0 : cond1_0 i) (x0 : Vec F S1x800x4000 .bf16) (x1 : Vec F S800x320 .bf16) (y : S1x4000x320.Idx) :
    ∃ pc ∈ (kernelRun1_A c i arg2 harg2 arg3 harg3 arg4 harg4 hc0 x0 x1).1, y ∈ pc.1.set :=
  View.cover_of_tiledL (kernelRun1_A c i arg2 harg2 arg3 harg3 arg4 harg4 hc0 x0 x1).1 S1x4000x320.size (by sl_kernel_rfl) y

/-- What the body leaves in the output's buffer at k = 0: its pieces read back. -/
def out1_A_2 (c : Dev nD) (i : grid1.Coords) (arg2 : Memref sig .tc .vmem S1x800x4000 .bf16) (harg2 : arg2.IsWhole)
    (arg3 : Memref sig .tc .vmem S800x320 .bf16) (harg3 : arg3.IsWhole) (arg4 : Memref sig .tc .vmem S1x4000x320 .f32) (harg4 : arg4.IsWhole)
    (hc0 : cond1_0 i) (x0 : Vec F S1x800x4000 .bf16) (x1 : Vec F S800x320 .bf16) : Vec F S1x4000x320 .f32 :=
  VO1_2.read (Elt F) (VO1_2.writes (Elt F) VO1_2.junk (kernelRun1_A c i arg2 harg2 arg3 harg3 arg4 harg4 hc0 x0 x1).1)

/-- At k ≠ 0 the run's pieces tile the output block, so they cover it. -/
theorem cover1_B_2 (c : Dev nD) (i : grid1.Coords) (arg2 : Memref sig .tc .vmem S1x800x4000 .bf16) (harg2 : arg2.IsWhole)
    (arg3 : Memref sig .tc .vmem S800x320 .bf16) (harg3 : arg3.IsWhole) (arg4 : Memref sig .tc .vmem S1x4000x320 .f32) (harg4 : arg4.IsWhole)
    (hc0 : ¬cond1_0 i) (x0 : Vec F S1x800x4000 .bf16) (x1 : Vec F S800x320 .bf16) (xo2 : Vec F S1x4000x320 .f32) (y : S1x4000x320.Idx) :
    ∃ pc ∈ (kernelRun1_B c i arg2 harg2 arg3 harg3 arg4 harg4 hc0 x0 x1 xo2).1, y ∈ pc.1.set :=
  View.cover_of_tiledL (kernelRun1_B c i arg2 harg2 arg3 harg3 arg4 harg4 hc0 x0 x1 xo2).1 S1x4000x320.size (by sl_kernel_rfl) y

/-- What the body leaves in the output's buffer at k ≠ 0, from the contents xo2 it found there. -/
def out1_B_2 (c : Dev nD) (i : grid1.Coords) (arg2 : Memref sig .tc .vmem S1x800x4000 .bf16) (harg2 : arg2.IsWhole)
    (arg3 : Memref sig .tc .vmem S800x320 .bf16) (harg3 : arg3.IsWhole) (arg4 : Memref sig .tc .vmem S1x4000x320 .f32) (harg4 : arg4.IsWhole)
    (hc0 : ¬cond1_0 i) (x0 : Vec F S1x800x4000 .bf16) (x1 : Vec F S800x320 .bf16) (xo2 : Vec F S1x4000x320 .f32) : Vec F S1x4000x320 .f32 :=
  VO1_2.read (Elt F) (VO1_2.writes (Elt F) VO1_2.junk (kernelRun1_B c i arg2 harg2 arg3 harg3 arg4 harg4 hc0 x0 x1 xo2).1)

section Region
variable (V : (c : Dev nD) → (b : Ref sig .tc) → Buf (Elt F) ((c : Thread nD τ).loc b))

/-! ## The windows' blocks, read off the arrays as the region finds them -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What the output's buffer holds after each point -/

/-- The accumulation: the buffer after the body at position n. -/
def outsAt1 (c : Dev nD) : (n : ℕ) → n < cfg1.N → Vec F S1x4000x320 .f32
  | 0, hn => out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩)
      ((hcond1_0 ⟨0, hn⟩).mpr (Nat.zero_mod _)) (iblk1 V c 0 ⟨0, hn⟩) (iblk1 V c 1 ⟨0, hn⟩)
  | n + 1, hn =>
    if h0 : (n + 1) % 10 = 0 then
      out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
        ((hcond1_0 ⟨n + 1, hn⟩).mpr h0) (iblk1 V c 0 ⟨n + 1, hn⟩) (iblk1 V c 1 ⟨n + 1, hn⟩)
    else
      out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
        (fun h => h0 ((hcond1_0 ⟨n + 1, hn⟩).mp h)) (iblk1 V c 0 ⟨n + 1, hn⟩) (iblk1 V c 1 ⟨n + 1, hn⟩) (outsAt1 c n (Nat.lt_of_succ_lt hn))

theorem outsAt1_A (c : Dev nD) (t : Fin cfg1.N) (h0 : t.val % 10 = 0) :
    outsAt1 V c t.val t.isLt = out1_A_2 c (grid1.coords t) (ms1_0 t) (hs1_0 t) (ms1_1 t) (hs1_1 t) (ms1_2 t) (hs1_2 t)
      ((hcond1_0 t).mpr h0) (iblk1 V c 0 t) (iblk1 V c 1 t) := by
  obtain ⟨n, hn⟩ := t
  cases n with
  | zero => exact rfl
  | succ n => exact (dif_pos h0).trans rfl

theorem outsAt1_B (c : Dev nD) (t : Fin cfg1.N) (h0 : ¬t.val % 10 = 0) :
    outsAt1 V c t.val t.isLt = out1_B_2 c (grid1.coords t) (ms1_0 t) (hs1_0 t) (ms1_1 t) (hs1_1 t) (ms1_2 t) (hs1_2 t)
      (fun h => h0 ((hcond1_0 t).mp h)) (iblk1 V c 0 t) (iblk1 V c 1 t)
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- At k ≠ 0 the output's buffer holds what the body left at the point before: it was not written back between. -/
theorem before1_2_B (c : Dev nD) (t : Fin cfg1.N) (h0 : ¬t.val % 10 = 0) (d) :
    (dat1 V c).before 2 t d = (outsAt1 V c (t.val - 1) (Nat.lt_of_le_of_lt (Nat.sub_le _ _) t.isLt)) := by
  have hN : t.val < 20 := lt_of_lt_of_eq t.isLt (show cfg1.N = 20 from N_1)
  rw [Dat.before_out_kept _ 2 rfl t (by omega) (Bool.eq_false_iff.mpr fun h => by have := (flush1_2 _).mp h; dsimp only at this; omega)
    (fun _ => rfl) (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  have hN : t.val < 20 := lt_of_lt_of_eq t.isLt (show cfg1.N = 20 from N_1)
  by_cases h0 : t.val % 10 = 0
  · rw [outsAt1_A V c t h0]
    unfold out1_A_2
    iintro ⟨HΦ, Ho, ⟨%d0, H0⟩, ⟨%d1, H1⟩, ⟨%d2, H2⟩⟩
    iapply ((kernelRun1_A c (grid1.coords t) _ _ _ _ _ _ ((hcond1_0 t).mpr h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_A_2 c _ _ _ _ _ _ _ _ _ _)
  · rw [outsAt1_B V c t h0]
    simp only [before1_2_B V c t h0]
    unfold out1_B_2
    iintro ⟨HΦ, Ho, ⟨%d0, H0⟩, ⟨%d1, H1⟩, ⟨%d2, H2⟩⟩
    iapply ((kernelRun1_B c (grid1.coords t) _ _ _ _ _ _ (fun h => h0 ((hcond1_0 t).mp h)) (iblk1 V c 0 t) (iblk1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Region

end Cert.KernelIdeal.Hand

end
-- ==== Proof.Agg2.lean ====
/- The body obligation and the proof data of the region whose kernel computes, per 400-row tile,
   out = x0 * x2 + x1 * x3 (two products over the whole contracted axis, then one sum), at width 320.
   At the region's entry contents `V`: each window's block at a point, the output buffer after the body as a
   function of the four input blocks, the body's triple, the proof data and the body obligation. -/
import proofs.«154590_j17119739641884_2_alg».proof.Proof.Gen.KernelIdeal.Launch
import proofs.«154590_j17119739641884_2_alg».proof.Proof.Gen.KernelIdeal.Skeleton
import proofs.«154590_j17119739641884_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (unfetched, the
    block index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (unfetched, the
    block index has not moved), for any proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (unfetched, the
    block index has not moved), for any proof data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (unfetched, the
    block index has not moved), for any proof data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each a whole buffer -/

abbrev r2_a : Rect S400x4000 := Rect.unit (s := S400x4000) ![0, 0] S400x4000.size inb_S400x4000_S400x4000_0_0
abbrev r2_b : Rect S4000x320 := Rect.unit (s := S4000x320) ![0, 0] S4000x320.size inb_S4000x320_S4000x320_0_0
abbrev r2_o : Rect S400x320 := Rect.unit (s := S400x320) ![0, 0] S400x320.size inb_S400x320_S400x320_0_0

/-! ## What the body leaves in the output window's buffer -/

/-- Window 4's staging buffer after the body, from the four input windows' blocks: its one store, of the sum of
    the two products (window 0 by window 2, window 1 by window 3). -/
def out2_4 (x0 : Vec F S400x4000 .bf16) (x1 : Vec F S400x4000 .bf16) (x2 : Vec F S4000x320 .bf16) (x3 : Vec F S4000x320 .bf16) : Vec F S400x320 .f32 :=
  View.canon [⟨r2_o, k2_pay1 (View.ld x0 r2_a) (View.ld x2 r2_b) (View.ld x1 r2_a) (View.ld x3 r2_b)⟩]

/-- The one store is of the whole buffer, so it covers it. -/
theorem cover2_4 (p0 : Vec F S400x320 .f32) (y : S400x320.Idx) :
    ∃ pc ∈ ([⟨r2_o, p0⟩] : List (View.Piece (Elt F) S400x320 .f32)), y ∈ pc.1.set :=
  View.cover_of_tiled [⟨r2_o, p0⟩] S400x320.size (by rfl) y

/-! ## The body's triple -/

set_option maxHeartbeats 1000000 in
/-- The kernel body on whole staging memrefs, the inputs' at read contents `xW` and the output's at anything, runs to
    the continuation holding the inputs' as they were and the output's at `out2_4` of the inputs'. -/
theorem sound_kernel2 (c : Dev nD) (E : Set ℕ) (i : grid2.Coords)
    (arg1 : Memref sig .tc .vmem S400x4000 .bf16) (harg1 : arg1.IsWhole) (arg2 : Memref sig .tc .vmem S400x4000 .bf16) (harg2 : arg2.IsWhole)
    (arg3 : Memref sig .tc .vmem S4000x320 .bf16) (harg3 : arg3.IsWhole) (arg4 : Memref sig .tc .vmem S4000x320 .bf16) (harg4 : arg4.IsWhole)
    (arg5 : Memref sig .tc .vmem S400x320 .f32) (harg5 : arg5.IsWhole)
    (x0 : Vec F S400x4000 .bf16) (x1 : Vec F S400x4000 .bf16) (x2 : Vec F S4000x320 .bf16) (x3 : Vec F S4000x320 .bf16) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out2_4 x0 x1 x2 x3)) -∗ K ⟨⟩))
      ⊢ wp frame (wpE (defs₀ (F := F)) Variants.none c none) E (cc2__agg_kernel i arg1 harg1 arg2 harg2 arg3 harg3 arg4 harg4 arg5 harg5) K := by
  simp only [cc2__agg_kernel_eq_skeleton]; unfold cc2__agg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of the pipeline on core `c`: the arrays as the region finds them (`V`); after the body at point
    `t` each input's buffer at its block and the output's at `out2_4` of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the body's triple applies; the invariant and
    the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.KernelIdeal.Hand

end
-- ==== Proof.Pvnv3.lean ====
/-
  One "pvnv" region (pallas region 3): out[i] = stack[i]ᵀ · ct, the 8000 contracted rows taken 800 at a time.
  The grid is 2 × 10, point t = 10·i + k. The output window's block (slab i of the [2, 4000, 320] result) stays in its
  one staging buffer for the ten points of a slab and is written back after the last of them (k = 9). At k = 0 the body
  first stores zeros over the block and then adds the tile's product to what it reads back; at k ≠ 0 it adds the tile's
  product to what the point before left. So what the buffer holds after point t is defined by recursion on t
  (outsAt3): at k = 0 the body's result from the two input blocks alone, otherwise its result from the two input
  blocks and the contents after point t − 1. This file states that recursion, the proof data built on it, and the
  body's run at every point; it says nothing yet about which numbers the result holds.
-/
import proofs.«154590_j17119739641884_2_alg».proof.Proof.Gen.KernelIdeal.Launch
import proofs.«154590_j17119739641884_2_alg».proof.Proof.Gen.KernelIdeal.Skeleton
import proofs.«154590_j17119739641884_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch condition: k = 0 -/

/-- The body's one conditional, from the grid coordinates: "the second coordinate is zero". -/
abbrev cond3_0 (i : grid3.Coords) : Prop :=
  (Scalar.cmpi .ne (Scalar.extui (Scalar.cmpi .eq (BitVec.ofNat 32 (i 1).val) 0#32)) 0#32) = 1#1

/-- It holds exactly at the first point of each slab. -/
theorem hcond3_0 : ∀ t : Fin cfg3.N, cond3_0 (grid3.coords t) ↔ t.val % 10 = 0 :=
  (by decide +kernel : ∀ t : Fin grid3.N, cond3_0 (grid3.coords t) ↔ t.val % 10 = 0)

/-! ## The staging memrefs at a point -/

abbrev VO3_2 : View sig .tc .vmem S1x4000x320 .f32 := (Memref.whole cc3_stg2_0 : Memref sig .tc .vmem S1x4000x320 .f32).view
abbrev ms3_0 (t : Fin cfg3.N) : Memref sig .tc .vmem S1x800x4000 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S800x320 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x4000x320 .f32 := win3_2.stage (cfg3.slots t 2)
abbrev hs3_2 (t : Fin cfg3.N) : (ms3_2 t).IsWhole := hstage3_2 ((cfg3.slots t 2).cast nbuf3_2)

/-! ## The body's run, case by case -/

set_option maxHeartbeats 1000000 in
/-- At k = 0: on whole staging memrefs, the inputs' at their contents and the output's at anything, the body runs and
    leaves the inputs as they were and the output's buffer written with the pieces the run finds. -/
noncomputable def kernelRun3_A (c : Dev nD) (i : grid3.Coords) (arg2 : Memref sig .tc .vmem S1x800x4000 .bf16) (harg2 : arg2.IsWhole)
    (arg3 : Memref sig .tc .vmem S800x320 .bf16) (harg3 : arg3.IsWhole) (arg4 : Memref sig .tc .vmem S1x4000x320 .f32) (harg4 : arg4.IsWhole)
    (hc0 : cond3_0 i) (x0 : Vec F S1x800x4000 .bf16) (x1 : Vec F S800x320 .bf16) :
    { L2 : List (View.Piece (Elt F) S1x4000x320 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc3__pvnv_kernel i arg2 harg2 arg3 harg3 arg4 harg4) K } := by
  refine ⟨?_, fun E K => ?run⟩
  case run =>
    simp only [cc3__pvnv_kernel_eq_skeleton]; unfold cc3__pvnv_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- At k ≠ 0: the same with the output's buffer at its running contents xo2, which the body reads before it stores. -/
noncomputable def kernelRun3_B (c : Dev nD) (i : grid3.Coords) (arg2 : Memref sig .tc .vmem S1x800x4000 .bf16) (harg2 : arg2.IsWhole)
    (arg3 : Memref sig .tc .vmem S800x320 .bf16) (harg3 : arg3.IsWhole) (arg4 : Memref sig .tc .vmem S1x4000x320 .f32) (harg4 : arg4.IsWhole)
    (hc0 : ¬cond3_0 i) (x0 : Vec F S1x800x4000 .bf16) (x1 : Vec F S800x320 .bf16) (xo2 : Vec F S1x4000x320 .f32) :
    { L2 : List (View.Piece (Elt F) S1x4000x320 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc3__pvnv_kernel i arg2 harg2 arg3 harg3 arg4 harg4) K } := by
  refine ⟨?_, fun E K => ?run⟩
  case run =>
    simp only [cc3__pvnv_kernel_eq_skeleton]; unfold cc3__pvnv_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

/-- At k = 0 the run's pieces tile the output block, so they cover it. -/
theorem cover3_A_2 (c : Dev nD) (i : grid3.Coords) (arg2 : Memref sig .tc .vmem S1x800x4000 .bf16) (harg2 : arg2.IsWhole)
    (arg3 : Memref sig .tc .vmem S800x320 .bf16) (harg3 : arg3.IsWhole) (arg4 : Memref sig .tc .vmem S1x4000x320 .f32) (harg4 : arg4.IsWhole)
    (hc0 : cond3_0 i) (x0 : Vec F S1x800x4000 .bf16) (x1 : Vec F S800x320 .bf16) (y : S1x4000x320.Idx) :
    ∃ pc ∈ (kernelRun3_A c i arg2 harg2 arg3 harg3 arg4 harg4 hc0 x0 x1).1, y ∈ pc.1.set :=
  View.cover_of_tiledL (kernelRun3_A c i arg2 harg2 arg3 harg3 arg4 harg4 hc0 x0 x1).1 S1x4000x320.size (by sl_kernel_rfl) y

/-- What the body leaves in the output's buffer at k = 0: its pieces read back. -/
def out3_A_2 (c : Dev nD) (i : grid3.Coords) (arg2 : Memref sig .tc .vmem S1x800x4000 .bf16) (harg2 : arg2.IsWhole)
    (arg3 : Memref sig .tc .vmem S800x320 .bf16) (harg3 : arg3.IsWhole) (arg4 : Memref sig .tc .vmem S1x4000x320 .f32) (harg4 : arg4.IsWhole)
    (hc0 : cond3_0 i) (x0 : Vec F S1x800x4000 .bf16) (x1 : Vec F S800x320 .bf16) : Vec F S1x4000x320 .f32 :=
  VO3_2.read (Elt F) (VO3_2.writes (Elt F) VO3_2.junk (kernelRun3_A c i arg2 harg2 arg3 harg3 arg4 harg4 hc0 x0 x1).1)

/-- At k ≠ 0 the run's pieces tile the output block, so they cover it. -/
theorem cover3_B_2 (c : Dev nD) (i : grid3.Coords) (arg2 : Memref sig .tc .vmem S1x800x4000 .bf16) (harg2 : arg2.IsWhole)
    (arg3 : Memref sig .tc .vmem S800x320 .bf16) (harg3 : arg3.IsWhole) (arg4 : Memref sig .tc .vmem S1x4000x320 .f32) (harg4 : arg4.IsWhole)
    (hc0 : ¬cond3_0 i) (x0 : Vec F S1x800x4000 .bf16) (x1 : Vec F S800x320 .bf16) (xo2 : Vec F S1x4000x320 .f32) (y : S1x4000x320.Idx) :
    ∃ pc ∈ (kernelRun3_B c i arg2 harg2 arg3 harg3 arg4 harg4 hc0 x0 x1 xo2).1, y ∈ pc.1.set :=
  View.cover_of_tiledL (kernelRun3_B c i arg2 harg2 arg3 harg3 arg4 harg4 hc0 x0 x1 xo2).1 S1x4000x320.size (by sl_kernel_rfl) y

/-- What the body leaves in the output's buffer at k ≠ 0, from the contents xo2 it found there. -/
def out3_B_2 (c : Dev nD) (i : grid3.Coords) (arg2 : Memref sig .tc .vmem S1x800x4000 .bf16) (harg2 : arg2.IsWhole)
    (arg3 : Memref sig .tc .vmem S800x320 .bf16) (harg3 : arg3.IsWhole) (arg4 : Memref sig .tc .vmem S1x4000x320 .f32) (harg4 : arg4.IsWhole)
    (hc0 : ¬cond3_0 i) (x0 : Vec F S1x800x4000 .bf16) (x1 : Vec F S800x320 .bf16) (xo2 : Vec F S1x4000x320 .f32) : Vec F S1x4000x320 .f32 :=
  VO3_2.read (Elt F) (VO3_2.writes (Elt F) VO3_2.junk (kernelRun3_B c i arg2 harg2 arg3 harg3 arg4 harg4 hc0 x0 x1 xo2).1)

section Region
variable (V : (c : Dev nD) → (b : Ref sig .tc) → Buf (Elt F) ((c : Thread nD τ).loc b))

/-! ## The windows' blocks, read off the arrays as the region finds them -/

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## What the output's buffer holds after each point -/

/-- The accumulation: the buffer after the body at position n. -/
def outsAt3 (c : Dev nD) : (n : ℕ) → n < cfg3.N → Vec F S1x4000x320 .f32
  | 0, hn => out3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩)
      ((hcond3_0 ⟨0, hn⟩).mpr (Nat.zero_mod _)) (iblk3 V c 0 ⟨0, hn⟩) (iblk3 V c 1 ⟨0, hn⟩)
  | n + 1, hn =>
    if h0 : (n + 1) % 10 = 0 then
      out3_A_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩)
        ((hcond3_0 ⟨n + 1, hn⟩).mpr h0) (iblk3 V c 0 ⟨n + 1, hn⟩) (iblk3 V c 1 ⟨n + 1, hn⟩)
    else
      out3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩)
        (fun h => h0 ((hcond3_0 ⟨n + 1, hn⟩).mp h)) (iblk3 V c 0 ⟨n + 1, hn⟩) (iblk3 V c 1 ⟨n + 1, hn⟩) (outsAt3 c n (Nat.lt_of_succ_lt hn))

theorem outsAt3_A (c : Dev nD) (t : Fin cfg3.N) (h0 : t.val % 10 = 0) :
    outsAt3 V c t.val t.isLt = out3_A_2 c (grid3.coords t) (ms3_0 t) (hs3_0 t) (ms3_1 t) (hs3_1 t) (ms3_2 t) (hs3_2 t)
      ((hcond3_0 t).mpr h0) (iblk3 V c 0 t) (iblk3 V c 1 t) := by
  obtain ⟨n, hn⟩ := t
  cases n with
  | zero => exact rfl
  | succ n => exact (dif_pos h0).trans rfl

theorem outsAt3_B (c : Dev nD) (t : Fin cfg3.N) (h0 : ¬t.val % 10 = 0) :
    outsAt3 V c t.val t.isLt = out3_B_2 c (grid3.coords t) (ms3_0 t) (hs3_0 t) (ms3_1 t) (hs3_1 t) (ms3_2 t) (hs3_2 t)
      (fun h => h0 ((hcond3_0 t).mp h)) (iblk3 V c 0 t) (iblk3 V c 1 t)
      (outsAt3 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- At k ≠ 0 the output's buffer holds what the body left at the point before: it was not written back between. -/
theorem before3_2_B (c : Dev nD) (t : Fin cfg3.N) (h0 : ¬t.val % 10 = 0) (d) :
    (dat3 V c).before 2 t d = (outsAt3 V c (t.val - 1) (Nat.lt_of_le_of_lt (Nat.sub_le _ _) t.isLt)) := by
  have hN : t.val < 20 := lt_of_lt_of_eq t.isLt (show cfg3.N = 20 from N_3)
  rw [Dat.before_out_kept _ 2 rfl t (by omega) (Bool.eq_false_iff.mpr fun h => by have := (flush3_2 _).mp h; dsimp only at this; omega)
    (fun _ => rfl) (fun _ _ => rfl)]
  dsimp only [dat3]

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t))

set_option maxHeartbeats 800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  have hN : t.val < 20 := lt_of_lt_of_eq t.isLt (show cfg3.N = 20 from N_3)
  by_cases h0 : t.val % 10 = 0
  · rw [outsAt3_A V c t h0]
    unfold out3_A_2
    iintro ⟨HΦ, Ho, ⟨%d0, H0⟩, ⟨%d1, H1⟩, ⟨%d2, H2⟩⟩
    iapply ((kernelRun3_A c (grid3.coords t) _ _ _ _ _ _ ((hcond3_0 t).mpr h0) (iblk3 V c 0 t) (iblk3 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover3_A_2 c _ _ _ _ _ _ _ _ _ _)
  · rw [outsAt3_B V c t h0]
    simp only [before3_2_B V c t h0]
    unfold out3_B_2
    iintro ⟨HΦ, Ho, ⟨%d0, H0⟩, ⟨%d1, H1⟩, ⟨%d2, H2⟩⟩
    iapply ((kernelRun3_B c (grid3.coords t) _ _ _ _ _ _ (fun h => h0 ((hcond3_0 t).mp h)) (iblk3 V c 0 t) (iblk3 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover3_B_2 c _ _ _ _ _ _ _ _ _ _ _)

theorem body_obligation3 (c : Dev nD) : BodyObligation (dat3 (F := F) V c) (defs₀ (F := F)) Variants.none () Set.univ := fun t => by
  rw [bigSep_W3, bigSep_W3]
  exact sound_body3 V c t

end Region

end Cert.KernelIdeal.Hand

end
-- ==== Proof.Agg4.lean ====
/- The body obligation and the proof data of the region whose kernel computes, per 400-row tile,
   out = x0 * x2 + x1 * x3 (two products over the whole contracted axis, then one sum), at width 576.
   At the region's entry contents `V`: each window's block at a point, the output buffer after the body as a
   function of the four input blocks, the body's triple, the proof data and the body obligation. -/
import proofs.«154590_j17119739641884_2_alg».proof.Proof.Gen.KernelIdeal.Launch
import proofs.«154590_j17119739641884_2_alg».proof.Proof.Gen.KernelIdeal.Skeleton
import proofs.«154590_j17119739641884_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not (unfetched, the
    block index has not moved), for any proof data whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not (unfetched, the
    block index has not moved), for any proof data whose array is `V`'s and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not (unfetched, the
    block index has not moved), for any proof data whose array is `V`'s and whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not (unfetched, the
    block index has not moved), for any proof data whose array is `V`'s and whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each a whole buffer -/

abbrev r4_a : Rect S400x4000 := Rect.unit (s := S400x4000) ![0, 0] S400x4000.size inb_S400x4000_S400x4000_0_0
abbrev r4_b : Rect S4000x576 := Rect.unit (s := S4000x576) ![0, 0] S4000x576.size inb_S4000x576_S4000x576_0_0
abbrev r4_o : Rect S400x576 := Rect.unit (s := S400x576) ![0, 0] S400x576.size inb_S400x576_S400x576_0_0

/-! ## What the body leaves in the output window's buffer -/

/-- Window 4's staging buffer after the body, from the four input windows' blocks: its one store, of the sum of
    the two products (window 0 by window 2, window 1 by window 3). -/
def out4_4 (x0 : Vec F S400x4000 .bf16) (x1 : Vec F S400x4000 .bf16) (x2 : Vec F S4000x576 .bf16) (x3 : Vec F S4000x576 .bf16) : Vec F S400x576 .f32 :=
  View.canon [⟨r4_o, k4_pay1 (View.ld x0 r4_a) (View.ld x2 r4_b) (View.ld x1 r4_a) (View.ld x3 r4_b)⟩]

/-- The one store is of the whole buffer, so it covers it. -/
theorem cover4_4 (p0 : Vec F S400x576 .f32) (y : S400x576.Idx) :
    ∃ pc ∈ ([⟨r4_o, p0⟩] : List (View.Piece (Elt F) S400x576 .f32)), y ∈ pc.1.set :=
  View.cover_of_tiled [⟨r4_o, p0⟩] S400x576.size (by rfl) y

/-! ## The body's triple -/

set_option maxHeartbeats 1000000 in
/-- The kernel body on whole staging memrefs, the inputs' at read contents `xW` and the output's at anything, runs to
    the continuation holding the inputs' as they were and the output's at `out4_4` of the inputs'. -/
theorem sound_kernel4 (c : Dev nD) (E : Set ℕ) (i : grid4.Coords)
    (arg1 : Memref sig .tc .vmem S400x4000 .bf16) (harg1 : arg1.IsWhole) (arg2 : Memref sig .tc .vmem S400x4000 .bf16) (harg2 : arg2.IsWhole)
    (arg3 : Memref sig .tc .vmem S4000x576 .bf16) (harg3 : arg3.IsWhole) (arg4 : Memref sig .tc .vmem S4000x576 .bf16) (harg4 : arg4.IsWhole)
    (arg5 : Memref sig .tc .vmem S400x576 .f32) (harg5 : arg5.IsWhole)
    (x0 : Vec F S400x4000 .bf16) (x1 : Vec F S400x4000 .bf16) (x2 : Vec F S4000x576 .bf16) (x3 : Vec F S4000x576 .bf16) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out4_4 x0 x1 x2 x3)) -∗ K ⟨⟩))
      ⊢ wp frame (wpE (defs₀ (F := F)) Variants.none c none) E (cc4__agg_kernel i arg1 harg1 arg2 harg2 arg3 harg3 arg4 harg4 arg5 harg5) K := by
  simp only [cc4__agg_kernel_eq_skeleton]; unfold cc4__agg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-! ## The pipeline's proof data -/

/-- The proof data of the pipeline on core `c`: the arrays as the region finds them (`V`); after the body at point
    `t` each input's buffer at its block and the output's at `out4_4` of the input blocks; the invariant the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 (iblk4 V c 0 t) (iblk4 V c 1 t) (iblk4 V c 2 t) (iblk4 V c 3 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' memrefs hold their blocks, so the body's triple applies; the invariant and
    the core's debt pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

end Regions

end Cert.KernelIdeal.Hand

end
-- ==== Proof.Pvnv5.lean ====
/-
  One "pvnv" region (pallas region 5): out[i] = stack[i]ᵀ · ct, the 8000 contracted rows taken 800 at a time.
  The grid is 2 × 10, point t = 10·i + k. The output window's block (slab i of the [2, 4000, 320] result) stays in its
  one staging buffer for the ten points of a slab and is written back after the last of them (k = 9). At k = 0 the body
  first stores zeros over the block and then adds the tile's product to what it reads back; at k ≠ 0 it adds the tile's
  product to what the point before left. So what the buffer holds after point t is defined by recursion on t
  (outsAt5): at k = 0 the body's result from the two input blocks alone, otherwise its result from the two input
  blocks and the contents after point t − 1. This file states that recursion, the proof data built on it, and the
  body's run at every point; it says nothing yet about which numbers the result holds.
-/
import proofs.«154590_j17119739641884_2_alg».proof.Proof.Gen.KernelIdeal.Launch
import proofs.«154590_j17119739641884_2_alg».proof.Proof.Gen.KernelIdeal.Skeleton
import proofs.«154590_j17119739641884_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch condition: k = 0 -/

/-- The body's one conditional, from the grid coordinates: "the second coordinate is zero". -/
abbrev cond5_0 (i : grid5.Coords) : Prop :=
  (Scalar.cmpi .ne (Scalar.extui (Scalar.cmpi .eq (BitVec.ofNat 32 (i 1).val) 0#32)) 0#32) = 1#1

/-- It holds exactly at the first point of each slab. -/
theorem hcond5_0 : ∀ t : Fin cfg5.N, cond5_0 (grid5.coords t) ↔ t.val % 10 = 0 :=
  (by decide +kernel : ∀ t : Fin grid5.N, cond5_0 (grid5.coords t) ↔ t.val % 10 = 0)

/-! ## The staging memrefs at a point -/

abbrev VO5_2 : View sig .tc .vmem S1x4000x320 .f32 := (Memref.whole cc5_stg2_0 : Memref sig .tc .vmem S1x4000x320 .f32).view
abbrev ms5_0 (t : Fin cfg5.N) : Memref sig .tc .vmem S1x800x4000 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S800x320 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x4000x320 .f32 := win5_2.stage (cfg5.slots t 2)
abbrev hs5_2 (t : Fin cfg5.N) : (ms5_2 t).IsWhole := hstage5_2 ((cfg5.slots t 2).cast nbuf5_2)

/-! ## The body's run, case by case -/

set_option maxHeartbeats 1000000 in
/-- At k = 0: on whole staging memrefs, the inputs' at their contents and the output's at anything, the body runs and
    leaves the inputs as they were and the output's buffer written with the pieces the run finds. -/
noncomputable def kernelRun5_A (c : Dev nD) (i : grid5.Coords) (arg2 : Memref sig .tc .vmem S1x800x4000 .bf16) (harg2 : arg2.IsWhole)
    (arg3 : Memref sig .tc .vmem S800x320 .bf16) (harg3 : arg3.IsWhole) (arg4 : Memref sig .tc .vmem S1x4000x320 .f32) (harg4 : arg4.IsWhole)
    (hc0 : cond5_0 i) (x0 : Vec F S1x800x4000 .bf16) (x1 : Vec F S800x320 .bf16) :
    { L2 : List (View.Piece (Elt F) S1x4000x320 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc5__pvnv_kernel i arg2 harg2 arg3 harg3 arg4 harg4) K } := by
  refine ⟨?_, fun E K => ?run⟩
  case run =>
    simp only [cc5__pvnv_kernel_eq_skeleton]; unfold cc5__pvnv_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- At k ≠ 0: the same with the output's buffer at its running contents xo2, which the body reads before it stores. -/
noncomputable def kernelRun5_B (c : Dev nD) (i : grid5.Coords) (arg2 : Memref sig .tc .vmem S1x800x4000 .bf16) (harg2 : arg2.IsWhole)
    (arg3 : Memref sig .tc .vmem S800x320 .bf16) (harg3 : arg3.IsWhole) (arg4 : Memref sig .tc .vmem S1x4000x320 .f32) (harg4 : arg4.IsWhole)
    (hc0 : ¬cond5_0 i) (x0 : Vec F S1x800x4000 .bf16) (x1 : Vec F S800x320 .bf16) (xo2 : Vec F S1x4000x320 .f32) :
    { L2 : List (View.Piece (Elt F) S1x4000x320 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc5__pvnv_kernel i arg2 harg2 arg3 harg3 arg4 harg4) K } := by
  refine ⟨?_, fun E K => ?run⟩
  case run =>
    simp only [cc5__pvnv_kernel_eq_skeleton]; unfold cc5__pvnv_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

/-- At k = 0 the run's pieces tile the output block, so they cover it. -/
theorem cover5_A_2 (c : Dev nD) (i : grid5.Coords) (arg2 : Memref sig .tc .vmem S1x800x4000 .bf16) (harg2 : arg2.IsWhole)
    (arg3 : Memref sig .tc .vmem S800x320 .bf16) (harg3 : arg3.IsWhole) (arg4 : Memref sig .tc .vmem S1x4000x320 .f32) (harg4 : arg4.IsWhole)
    (hc0 : cond5_0 i) (x0 : Vec F S1x800x4000 .bf16) (x1 : Vec F S800x320 .bf16) (y : S1x4000x320.Idx) :
    ∃ pc ∈ (kernelRun5_A c i arg2 harg2 arg3 harg3 arg4 harg4 hc0 x0 x1).1, y ∈ pc.1.set :=
  View.cover_of_tiledL (kernelRun5_A c i arg2 harg2 arg3 harg3 arg4 harg4 hc0 x0 x1).1 S1x4000x320.size (by sl_kernel_rfl) y

/-- What the body leaves in the output's buffer at k = 0: its pieces read back. -/
def out5_A_2 (c : Dev nD) (i : grid5.Coords) (arg2 : Memref sig .tc .vmem S1x800x4000 .bf16) (harg2 : arg2.IsWhole)
    (arg3 : Memref sig .tc .vmem S800x320 .bf16) (harg3 : arg3.IsWhole) (arg4 : Memref sig .tc .vmem S1x4000x320 .f32) (harg4 : arg4.IsWhole)
    (hc0 : cond5_0 i) (x0 : Vec F S1x800x4000 .bf16) (x1 : Vec F S800x320 .bf16) : Vec F S1x4000x320 .f32 :=
  VO5_2.read (Elt F) (VO5_2.writes (Elt F) VO5_2.junk (kernelRun5_A c i arg2 harg2 arg3 harg3 arg4 harg4 hc0 x0 x1).1)

/-- At k ≠ 0 the run's pieces tile the output block, so they cover it. -/
theorem cover5_B_2 (c : Dev nD) (i : grid5.Coords) (arg2 : Memref sig .tc .vmem S1x800x4000 .bf16) (harg2 : arg2.IsWhole)
    (arg3 : Memref sig .tc .vmem S800x320 .bf16) (harg3 : arg3.IsWhole) (arg4 : Memref sig .tc .vmem S1x4000x320 .f32) (harg4 : arg4.IsWhole)
    (hc0 : ¬cond5_0 i) (x0 : Vec F S1x800x4000 .bf16) (x1 : Vec F S800x320 .bf16) (xo2 : Vec F S1x4000x320 .f32) (y : S1x4000x320.Idx) :
    ∃ pc ∈ (kernelRun5_B c i arg2 harg2 arg3 harg3 arg4 harg4 hc0 x0 x1 xo2).1, y ∈ pc.1.set :=
  View.cover_of_tiledL (kernelRun5_B c i arg2 harg2 arg3 harg3 arg4 harg4 hc0 x0 x1 xo2).1 S1x4000x320.size (by sl_kernel_rfl) y

/-- What the body leaves in the output's buffer at k ≠ 0, from the contents xo2 it found there. -/
def out5_B_2 (c : Dev nD) (i : grid5.Coords) (arg2 : Memref sig .tc .vmem S1x800x4000 .bf16) (harg2 : arg2.IsWhole)
    (arg3 : Memref sig .tc .vmem S800x320 .bf16) (harg3 : arg3.IsWhole) (arg4 : Memref sig .tc .vmem S1x4000x320 .f32) (harg4 : arg4.IsWhole)
    (hc0 : ¬cond5_0 i) (x0 : Vec F S1x800x4000 .bf16) (x1 : Vec F S800x320 .bf16) (xo2 : Vec F S1x4000x320 .f32) : Vec F S1x4000x320 .f32 :=
  VO5_2.read (Elt F) (VO5_2.writes (Elt F) VO5_2.junk (kernelRun5_B c i arg2 harg2 arg3 harg3 arg4 harg4 hc0 x0 x1 xo2).1)

section Region
variable (V : (c : Dev nD) → (b : Ref sig .tc) → Buf (Elt F) ((c : Thread nD τ).loc b))

/-! ## The windows' blocks, read off the arrays as the region finds them -/

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## What the output's buffer holds after each point -/

/-- The accumulation: the buffer after the body at position n. -/
def outsAt5 (c : Dev nD) : (n : ℕ) → n < cfg5.N → Vec F S1x4000x320 .f32
  | 0, hn => out5_A_2 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩)
      ((hcond5_0 ⟨0, hn⟩).mpr (Nat.zero_mod _)) (iblk5 V c 0 ⟨0, hn⟩) (iblk5 V c 1 ⟨0, hn⟩)
  | n + 1, hn =>
    if h0 : (n + 1) % 10 = 0 then
      out5_A_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩)
        ((hcond5_0 ⟨n + 1, hn⟩).mpr h0) (iblk5 V c 0 ⟨n + 1, hn⟩) (iblk5 V c 1 ⟨n + 1, hn⟩)
    else
      out5_B_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩)
        (fun h => h0 ((hcond5_0 ⟨n + 1, hn⟩).mp h)) (iblk5 V c 0 ⟨n + 1, hn⟩) (iblk5 V c 1 ⟨n + 1, hn⟩) (outsAt5 c n (Nat.lt_of_succ_lt hn))

theorem outsAt5_A (c : Dev nD) (t : Fin cfg5.N) (h0 : t.val % 10 = 0) :
    outsAt5 V c t.val t.isLt = out5_A_2 c (grid5.coords t) (ms5_0 t) (hs5_0 t) (ms5_1 t) (hs5_1 t) (ms5_2 t) (hs5_2 t)
      ((hcond5_0 t).mpr h0) (iblk5 V c 0 t) (iblk5 V c 1 t) := by
  obtain ⟨n, hn⟩ := t
  cases n with
  | zero => exact rfl
  | succ n => exact (dif_pos h0).trans rfl

theorem outsAt5_B (c : Dev nD) (t : Fin cfg5.N) (h0 : ¬t.val % 10 = 0) :
    outsAt5 V c t.val t.isLt = out5_B_2 c (grid5.coords t) (ms5_0 t) (hs5_0 t) (ms5_1 t) (hs5_1 t) (ms5_2 t) (hs5_2 t)
      (fun h => h0 ((hcond5_0 t).mp h)) (iblk5 V c 0 t) (iblk5 V c 1 t)
      (outsAt5 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => (outsAt5 V c t.val t.isLt)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = (outsAt5 V c t.val t.isLt) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- At k ≠ 0 the output's buffer holds what the body left at the point before: it was not written back between. -/
theorem before5_2_B (c : Dev nD) (t : Fin cfg5.N) (h0 : ¬t.val % 10 = 0) (d) :
    (dat5 V c).before 2 t d = (outsAt5 V c (t.val - 1) (Nat.lt_of_le_of_lt (Nat.sub_le _ _) t.isLt)) := by
  have hN : t.val < 20 := lt_of_lt_of_eq t.isLt (show cfg5.N = 20 from N_5)
  rw [Dat.before_out_kept _ 2 rfl t (by omega) (Bool.eq_false_iff.mpr fun h => by have := (flush5_2 _).mp h; dsimp only at this; omega)
    (fun _ => rfl) (fun _ _ => rfl)]
  dsimp only [dat5]

/-! ## The body obligation -/

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (ms5_0 t) fullShare ((dat5 V c).after 0 t)
    ∗ owns (c : Thread nD τ) (ms5_1 t) fullShare ((dat5 V c).after 1 t)
    ∗ owns (c : Thread nD τ) (ms5_2 t) fullShare ((dat5 V c).after 2 t))

set_option maxHeartbeats 800000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  have hN : t.val < 20 := lt_of_lt_of_eq t.isLt (show cfg5.N = 20 from N_5)
  by_cases h0 : t.val % 10 = 0
  · rw [outsAt5_A V c t h0]
    unfold out5_A_2
    iintro ⟨HΦ, Ho, ⟨%d0, H0⟩, ⟨%d1, H1⟩, ⟨%d2, H2⟩⟩
    iapply ((kernelRun5_A c (grid5.coords t) _ _ _ _ _ _ ((hcond5_0 t).mpr h0) (iblk5 V c 0 t) (iblk5 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover5_A_2 c _ _ _ _ _ _ _ _ _ _)
  · rw [outsAt5_B V c t h0]
    simp only [before5_2_B V c t h0]
    unfold out5_B_2
    iintro ⟨HΦ, Ho, ⟨%d0, H0⟩, ⟨%d1, H1⟩, ⟨%d2, H2⟩⟩
    iapply ((kernelRun5_B c (grid5.coords t) _ _ _ _ _ _ (fun h => h0 ((hcond5_0 t).mp h)) (iblk5 V c 0 t) (iblk5 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover5_B_2 c _ _ _ _ _ _ _ _ _ _ _)

theorem body_obligation5 (c : Dev nD) : BodyObligation (dat5 (F := F) V c) (defs₀ (F := F)) Variants.none () Set.univ := fun t => by
  rw [bigSep_W5, bigSep_W5]
  exact sound_body5 V c t

end Region

end Cert.KernelIdeal.Hand

end
-- ==== Proof.Outs.lean ====
/-
  What the six pallas regions leave behind, in order. Region K is entered with the buffers at a valuation that
  depends only on the outputs of regions 0 … K−1, so the outputs are defined stage by stage: oK is the final
  contents of region K's output array (its window's write-backs folded over the grid) computed from proof data
  stated at the entry valuation built from o0 … o(K−1); outsK is the table holding o0 … o(K−1). The last table is
  the one the whole-program valuations are read at, and at every entry point it agrees with the stage's table.
-/
import proofs.«154590_j17119739641884_2_alg».proof.Proof.Gen.KernelIdeal.Regions
import proofs.«154590_j17119739641884_2_alg».proof.Proof.Agg0
import proofs.«154590_j17119739641884_2_alg».proof.Proof.Pvnv1
import proofs.«154590_j17119739641884_2_alg».proof.Proof.Agg2
import proofs.«154590_j17119739641884_2_alg».proof.Proof.Pvnv3
import proofs.«154590_j17119739641884_2_alg».proof.Proof.Agg4
import proofs.«154590_j17119739641884_2_alg».proof.Proof.Pvnv5
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A valuation read at the TensorCore's references. -/
abbrev Vat (W : Dev nD → Valuation τ sig (Elt F)) : (c : Dev nD) → (b : Ref sig .tc) → Buf (Elt F) ((c : Thread nD τ).loc b) := fun c b => W c b

/-- Before any region has run: a table with nothing of interest in it (the launch contents). -/
def outs0 : Outs (F := F) := fun _ r c => m ((c : Thread nD τ).loc r)

/-- Region 0's output array after its last point. -/
def o0 (c : Dev nD) : Buf (Elt F) ((c : Thread nD τ).loc main_v7) := (dat0 (Vat (V1 m)) c).arrAt 4 cfg0.N
/-- The table after region 0. -/
def outs1 : Outs (F := F) := fun j r c => Function.update (fun r => outs0 m j r c) main_v7 (o0 m c) r

/-- Region 1's output array after its last point. -/
def o1 (c : Dev nD) : Buf (Elt F) ((c : Thread nD τ).loc main_v16) := (dat1 (Vat (V5 m (outs1 m))) c).arrAt 2 cfg1.N
/-- The table after region 1. -/
def outs2 : Outs (F := F) := fun j r c => Function.update (fun r => outs1 m j r c) main_v16 (o1 m c) r

/-- Region 2's output array after its last point. -/
def o2 (c : Dev nD) : Buf (Elt F) ((c : Thread nD τ).loc main_v37) := (dat2 (Vat (V11 m (outs2 m))) c).arrAt 4 cfg2.N
/-- The table after region 2. -/
def outs3 : Outs (F := F) := fun j r c => Function.update (fun r => outs2 m j r c) main_v37 (o2 m c) r

/-- Region 3's output array after its last point. -/
def o3 (c : Dev nD) : Buf (Elt F) ((c : Thread nD τ).loc main_v46) := (dat3 (Vat (V15 m (outs3 m))) c).arrAt 2 cfg3.N
/-- The table after region 3. -/
def outs4 : Outs (F := F) := fun j r c => Function.update (fun r => outs3 m j r c) main_v46 (o3 m c) r

/-- Region 4's output array after its last point. -/
def o4 (c : Dev nD) : Buf (Elt F) ((c : Thread nD τ).loc main_v67) := (dat4 (Vat (V21 m (outs4 m))) c).arrAt 4 cfg4.N
/-- The table after region 4. -/
def outs5 : Outs (F := F) := fun j r c => Function.update (fun r => outs4 m j r c) main_v67 (o4 m c) r

/-- Region 5's output array after its last point. -/
def o5 (c : Dev nD) : Buf (Elt F) ((c : Thread nD τ).loc main_v76) := (dat5 (Vat (V25 m (outs5 m))) c).arrAt 2 cfg5.N
/-- The table after region 5. -/
def outs6 : Outs (F := F) := fun j r c => Function.update (fun r => outs5 m j r c) main_v76 (o5 m c) r

/-- The table after the last region: what the program's valuations are read at. -/
abbrev outs : Outs (F := F) := outs6 m

/-! ## Reading the tables -/
theorem outs1_main_v7 (j : ℕ) (c : Dev nD) : outs1 m j main_v7 c = o0 m c := by
  unfold outs1; exact Function.update_self ..
theorem outs2_main_v7 (j : ℕ) (c : Dev nD) : outs2 m j main_v7 c = o0 m c := by
  unfold outs2; exact (Function.update_of_ne (by decide : main_v7 ≠ main_v16) ..).trans (outs1_main_v7 m j c)
theorem outs3_main_v7 (j : ℕ) (c : Dev nD) : outs3 m j main_v7 c = o0 m c := by
  unfold outs3; exact (Function.update_of_ne (by decide : main_v7 ≠ main_v37) ..).trans (outs2_main_v7 m j c)
theorem outs4_main_v7 (j : ℕ) (c : Dev nD) : outs4 m j main_v7 c = o0 m c := by
  unfold outs4; exact (Function.update_of_ne (by decide : main_v7 ≠ main_v46) ..).trans (outs3_main_v7 m j c)
theorem outs5_main_v7 (j : ℕ) (c : Dev nD) : outs5 m j main_v7 c = o0 m c := by
  unfold outs5; exact (Function.update_of_ne (by decide : main_v7 ≠ main_v67) ..).trans (outs4_main_v7 m j c)
theorem outs6_main_v7 (j : ℕ) (c : Dev nD) : outs6 m j main_v7 c = o0 m c := by
  unfold outs6; exact (Function.update_of_ne (by decide : main_v7 ≠ main_v76) ..).trans (outs5_main_v7 m j c)
theorem outs2_main_v16 (j : ℕ) (c : Dev nD) : outs2 m j main_v16 c = o1 m c := by
  unfold outs2; exact Function.update_self ..
theorem outs3_main_v16 (j : ℕ) (c : Dev nD) : outs3 m j main_v16 c = o1 m c := by
  unfold outs3; exact (Function.update_of_ne (by decide : main_v16 ≠ main_v37) ..).trans (outs2_main_v16 m j c)
theorem outs4_main_v16 (j : ℕ) (c : Dev nD) : outs4 m j main_v16 c = o1 m c := by
  unfold outs4; exact (Function.update_of_ne (by decide : main_v16 ≠ main_v46) ..).trans (outs3_main_v16 m j c)
theorem outs5_main_v16 (j : ℕ) (c : Dev nD) : outs5 m j main_v16 c = o1 m c := by
  unfold outs5; exact (Function.update_of_ne (by decide : main_v16 ≠ main_v67) ..).trans (outs4_main_v16 m j c)
theorem outs6_main_v16 (j : ℕ) (c : Dev nD) : outs6 m j main_v16 c = o1 m c := by
  unfold outs6; exact (Function.update_of_ne (by decide : main_v16 ≠ main_v76) ..).trans (outs5_main_v16 m j c)
theorem outs3_main_v37 (j : ℕ) (c : Dev nD) : outs3 m j main_v37 c = o2 m c := by
  unfold outs3; exact Function.update_self ..
theorem outs4_main_v37 (j : ℕ) (c : Dev nD) : outs4 m j main_v37 c = o2 m c := by
  unfold outs4; exact (Function.update_of_ne (by decide : main_v37 ≠ main_v46) ..).trans (outs3_main_v37 m j c)
theorem outs5_main_v37 (j : ℕ) (c : Dev nD) : outs5 m j main_v37 c = o2 m c := by
  unfold outs5; exact (Function.update_of_ne (by decide : main_v37 ≠ main_v67) ..).trans (outs4_main_v37 m j c)
theorem outs6_main_v37 (j : ℕ) (c : Dev nD) : outs6 m j main_v37 c = o2 m c := by
  unfold outs6; exact (Function.update_of_ne (by decide : main_v37 ≠ main_v76) ..).trans (outs5_main_v37 m j c)
theorem outs4_main_v46 (j : ℕ) (c : Dev nD) : outs4 m j main_v46 c = o3 m c := by
  unfold outs4; exact Function.update_self ..
theorem outs5_main_v46 (j : ℕ) (c : Dev nD) : outs5 m j main_v46 c = o3 m c := by
  unfold outs5; exact (Function.update_of_ne (by decide : main_v46 ≠ main_v67) ..).trans (outs4_main_v46 m j c)
theorem outs6_main_v46 (j : ℕ) (c : Dev nD) : outs6 m j main_v46 c = o3 m c := by
  unfold outs6; exact (Function.update_of_ne (by decide : main_v46 ≠ main_v76) ..).trans (outs5_main_v46 m j c)
theorem outs5_main_v67 (j : ℕ) (c : Dev nD) : outs5 m j main_v67 c = o4 m c := by
  unfold outs5; exact Function.update_self ..
theorem outs6_main_v67 (j : ℕ) (c : Dev nD) : outs6 m j main_v67 c = o4 m c := by
  unfold outs6; exact (Function.update_of_ne (by decide : main_v67 ≠ main_v76) ..).trans (outs5_main_v67 m j c)
theorem outs6_main_v76 (j : ℕ) (c : Dev nD) : outs6 m j main_v76 c = o5 m c := by
  unfold outs6; exact Function.update_self ..

/-! ## An entry valuation depends only on the outputs before it -/
theorem V5_congr (o o' : Outs (F := F)) (c : Dev nD) (h0 : o 2 main_v7 c = o' 2 main_v7 c) :
    V5 m o c = V5 m o' c := by
  unfold V5 V4 V3 V2; rw [h0]
theorem Vin1_eq (c : Dev nD) : V5 m (outs m) c = V5 m (outs1 m) c :=
  V5_congr m _ _ c ((outs6_main_v7 m 2 c).trans (outs1_main_v7 m 2 c).symm)
theorem V11_congr (o o' : Outs (F := F)) (c : Dev nD) (h0 : o 2 main_v7 c = o' 2 main_v7 c) (h1 : o 6 main_v16 c = o' 6 main_v16 c) :
    V11 m o c = V11 m o' c := by
  unfold V11 V10 V9 V8 V7 V6 V5 V4 V3 V2; rw [h0, h1]
theorem Vin2_eq (c : Dev nD) : V11 m (outs m) c = V11 m (outs2 m) c :=
  V11_congr m _ _ c ((outs6_main_v7 m 2 c).trans (outs2_main_v7 m 2 c).symm) ((outs6_main_v16 m 6 c).trans (outs2_main_v16 m 6 c).symm)
theorem V15_congr (o o' : Outs (F := F)) (c : Dev nD) (h0 : o 2 main_v7 c = o' 2 main_v7 c) (h1 : o 6 main_v16 c = o' 6 main_v16 c) (h2 : o 12 main_v37 c = o' 12 main_v37 c) :
    V15 m o c = V15 m o' c := by
  unfold V15 V14 V13 V12 V11 V10 V9 V8 V7 V6 V5 V4 V3 V2; rw [h0, h1, h2]
theorem Vin3_eq (c : Dev nD) : V15 m (outs m) c = V15 m (outs3 m) c :=
  V15_congr m _ _ c ((outs6_main_v7 m 2 c).trans (outs3_main_v7 m 2 c).symm) ((outs6_main_v16 m 6 c).trans (outs3_main_v16 m 6 c).symm) ((outs6_main_v37 m 12 c).trans (outs3_main_v37 m 12 c).symm)
theorem V21_congr (o o' : Outs (F := F)) (c : Dev nD) (h0 : o 2 main_v7 c = o' 2 main_v7 c) (h1 : o 6 main_v16 c = o' 6 main_v16 c) (h2 : o 12 main_v37 c = o' 12 main_v37 c) (h3 : o 16 main_v46 c = o' 16 main_v46 c) :
    V21 m o c = V21 m o' c := by
  unfold V21 V20 V19 V18 V17 V16 V15 V14 V13 V12 V11 V10 V9 V8 V7 V6 V5 V4 V3 V2; rw [h0, h1, h2, h3]
theorem Vin4_eq (c : Dev nD) : V21 m (outs m) c = V21 m (outs4 m) c :=
  V21_congr m _ _ c ((outs6_main_v7 m 2 c).trans (outs4_main_v7 m 2 c).symm) ((outs6_main_v16 m 6 c).trans (outs4_main_v16 m 6 c).symm) ((outs6_main_v37 m 12 c).trans (outs4_main_v37 m 12 c).symm) ((outs6_main_v46 m 16 c).trans (outs4_main_v46 m 16 c).symm)
theorem V25_congr (o o' : Outs (F := F)) (c : Dev nD) (h0 : o 2 main_v7 c = o' 2 main_v7 c) (h1 : o 6 main_v16 c = o' 6 main_v16 c) (h2 : o 12 main_v37 c = o' 12 main_v37 c) (h3 : o 16 main_v46 c = o' 16 main_v46 c) (h4 : o 22 main_v67 c = o' 22 main_v67 c) :
    V25 m o c = V25 m o' c := by
  unfold V25 V24 V23 V22 V21 V20 V19 V18 V17 V16 V15 V14 V13 V12 V11 V10 V9 V8 V7 V6 V5 V4 V3 V2; rw [h0, h1, h2, h3, h4]
theorem Vin5_eq (c : Dev nD) : V25 m (outs m) c = V25 m (outs5 m) c :=
  V25_congr m _ _ c ((outs6_main_v7 m 2 c).trans (outs5_main_v7 m 2 c).symm) ((outs6_main_v16 m 6 c).trans (outs5_main_v16 m 6 c).symm) ((outs6_main_v37 m 12 c).trans (outs5_main_v37 m 12 c).symm) ((outs6_main_v46 m 16 c).trans (outs5_main_v46 m 16 c).symm) ((outs6_main_v67 m 22 c).trans (outs5_main_v67 m 22 c).symm)

/-! ## The proof data of the six pipelines, each at its region's entry valuation -/

def pdats : (p : Fin 6) → (c : Dev nD) → Dat τ (Elt F) Unit ℕ (UR sig nD τ) ℕ (cfgs p) c
  | ⟨0, _⟩ => fun c => dat0 (Vat (V1 m)) c
  | ⟨1, _⟩ => fun c => dat1 (Vat (V5 m (outs1 m))) c
  | ⟨2, _⟩ => fun c => dat2 (Vat (V11 m (outs2 m))) c
  | ⟨3, _⟩ => fun c => dat3 (Vat (V15 m (outs3 m))) c
  | ⟨4, _⟩ => fun c => dat4 (Vat (V21 m (outs4 m))) c
  | ⟨5, _⟩ => fun c => dat5 (Vat (V25 m (outs5 m))) c

/-! ## What rides beside the buffers through every segment -/

/-- No core owes another anything: no level is assigned. -/
abbrev noLv : GSem nD τ sig → Finset Unit := fun _ => ∅
abbrev lv0 : GSem nD τ sig → Unit → ℕ := fun _ _ => 0
/-- The core's generator register at some state, and its dues at nothing. -/
abbrev Rest (c : Dev nD) : sProp 𝕄 := iprop((∃ r, prngReg c r) ∗ ∃ W, owes (c : Thread nD τ) (0 : CellTallies nD τ sig Unit) W)

end Cert.KernelIdeal.Hand

end
-- ==== Proof.Reg0.lean ====
/-
  Pallas region 0 as one segment of the program's run. It is entered with every unscoped buffer held at the entry
  valuation and left with them held at the exit valuation, which differs from the entry one only at the region's
  output array: that array ends at the fold of its window's write-backs (o0), every input array and every buffer
  the region does not stage ends as it was. The region owes nothing and has no semaphore of its own; the generator
  register passes through the pipeline's invariant untouched.
-/
import proofs.«154590_j17119739641884_2_alg».proof.Proof.Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Outside the output array the exit valuation is the entry valuation. -/
theorem hkeep0 (c : Dev nD) (b : Ref sig .tc) (hb : b ≠ main_v7) : Vat (V1 m) c b = Vat (V2 m (outs m)) c b := by
  show V1 m c b = V2 m (outs m) c b
  rw [V2_of m (outs m) c b (fun h => hb (List.mem_singleton.mp h))]

/-- At the output array the exit valuation holds the fold of the write-backs. -/
theorem hout0 (c : Dev nD) : Vat (V2 m (outs m)) c main_v7 = (pdats m 0 c).arrAt 4 cfg0.N := by
  show Function.update _ _ _ _ = _
  rw [Function.update_self]
  exact outs6_main_v7 m _ c

set_option maxHeartbeats 4000000 in
theorem hF0 (c : Dev nD) : ∀ w : Fin 5, (pdats m 0 c).arrAt w cfg0.N = Vat (V2 m (outs m)) c (Pipeline.arrRef spec0 w) := fun
  | 0 => (((pdats m 0 c).arrAt_in 0 rfl _).trans (A_eq0 _ c 0)).trans (hkeep0 m c _ (by decide))
  | 1 => (((pdats m 0 c).arrAt_in 1 rfl _).trans (A_eq0 _ c 1)).trans (hkeep0 m c _ (by decide))
  | 2 => (((pdats m 0 c).arrAt_in 2 rfl _).trans (A_eq0 _ c 2)).trans (hkeep0 m c _ (by decide))
  | 3 => (((pdats m 0 c).arrAt_in 3 rfl _).trans (A_eq0 _ c 3)).trans (hkeep0 m c _ (by decide))
  | 4 => (hout0 m c).symm
  | ⟨_ + 5, h⟩ => absurd h (Nat.not_lt.2 (Nat.le_add_left _ _))

theorem hrest0 (c : Dev nD) : ∀ b, b ∉ Finset.univ.image (Pipeline.arrRef spec0) → Vat (V2 m (outs m)) c b = Vat (V1 m) c b :=
  fun b hb => (hkeep0 m c b (fun e => hb (Finset.mem_image.mpr ⟨4, Finset.mem_univ _, e.symm⟩))).symm

set_option backward.isDefEq.respectTransparency.types false in
def reg0 : Pipeline.RegionSeg (pcfgs (F := F)) adm (pdats m) () defs₀ Variants.none noLv lv0 0 where
  win := launch0.win.to₀
  block_pos := launch0.block_pos
  stage_whole := launch0.stage_whole
  K := PEmpty
  osem k := k.elim
  ho := Pipeline.OwnSemFacts.none _
  hbody c := (body_obligation0 (Vat (V1 m)) c).loose
  hwaits := Pipeline.hwaits_of_owed_zero _ _ _ _ noLv lv0 0 fun _ _ => rfl
  pre c := iprop(StableHlo.held (c : Thread nD τ) (Pipeline.ucRefs τ sig) (V1 m c) ∗ Rest c)
  post c := iprop(StableHlo.held (c : Thread nD τ) (Pipeline.ucRefs τ sig) (V2 m (outs m) c) ∗ Rest c)
  X c := iprop(∃ r, prngReg c r)
  Y c := iprop(∃ r, prngReg c r)
  Z c := Pipeline.unscopedRest (Ix := Unit) (Name := ℕ) (U := UR sig nD τ) (Lvl := ℕ) spec0 c (Vat (V1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vat (V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vat (V1 m) c) (Vat (V2 m (outs m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg1.lean ====
/-
  Pallas region 1 as one segment of the program's run. It is entered with every unscoped buffer held at the entry
  valuation and left with them held at the exit valuation, which differs from the entry one only at the region's
  output array: that array ends at the fold of its window's write-backs (o1), every input array and every buffer
  the region does not stage ends as it was. The region owes nothing and has no semaphore of its own; the generator
  register passes through the pipeline's invariant untouched.
-/
import proofs.«154590_j17119739641884_2_alg».proof.Proof.Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Outside the output array the exit valuation is the entry valuation. -/
theorem hkeep1 (c : Dev nD) (b : Ref sig .tc) (hb : b ≠ main_v16) : Vat (V5 m (outs1 m)) c b = Vat (V6 m (outs m)) c b := by
  show V5 m (outs1 m) c b = V6 m (outs m) c b
  rw [V6_of m (outs m) c b (fun h => hb (List.mem_singleton.mp h)), Vin1_eq m c]

/-- At the output array the exit valuation holds the fold of the write-backs. -/
theorem hout1 (c : Dev nD) : Vat (V6 m (outs m)) c main_v16 = (pdats m 1 c).arrAt 2 cfg1.N := by
  show Function.update _ _ _ _ = _
  rw [Function.update_self]
  exact outs6_main_v16 m _ c

set_option maxHeartbeats 4000000 in
theorem hF1 (c : Dev nD) : ∀ w : Fin 3, (pdats m 1 c).arrAt w cfg1.N = Vat (V6 m (outs m)) c (Pipeline.arrRef spec1 w) := fun
  | 0 => (((pdats m 1 c).arrAt_in 0 rfl _).trans (A_eq1 _ c 0)).trans (hkeep1 m c _ (by decide))
  | 1 => (((pdats m 1 c).arrAt_in 1 rfl _).trans (A_eq1 _ c 1)).trans (hkeep1 m c _ (by decide))
  | 2 => (hout1 m c).symm
  | ⟨_ + 3, h⟩ => absurd h (Nat.not_lt.2 (Nat.le_add_left _ _))

theorem hrest1 (c : Dev nD) : ∀ b, b ∉ Finset.univ.image (Pipeline.arrRef spec1) → Vat (V6 m (outs m)) c b = Vat (V5 m (outs1 m)) c b :=
  fun b hb => (hkeep1 m c b (fun e => hb (Finset.mem_image.mpr ⟨2, Finset.mem_univ _, e.symm⟩))).symm

set_option backward.isDefEq.respectTransparency.types false in
def reg1 : Pipeline.RegionSeg (pcfgs (F := F)) adm (pdats m) () defs₀ Variants.none noLv lv0 1 where
  win := launch1.win.to₀
  block_pos := launch1.block_pos
  stage_whole := launch1.stage_whole
  K := PEmpty
  osem k := k.elim
  ho := Pipeline.OwnSemFacts.none _
  hbody c := (body_obligation1 (Vat (V5 m (outs1 m))) c).loose
  hwaits := Pipeline.hwaits_of_owed_zero _ _ _ _ noLv lv0 1 fun _ _ => rfl
  pre c := iprop(StableHlo.held (c : Thread nD τ) (Pipeline.ucRefs τ sig) (V5 m (outs1 m) c) ∗ Rest c)
  post c := iprop(StableHlo.held (c : Thread nD τ) (Pipeline.ucRefs τ sig) (V6 m (outs m) c) ∗ Rest c)
  X c := iprop(∃ r, prngReg c r)
  Y c := iprop(∃ r, prngReg c r)
  Z c := Pipeline.unscopedRest (Ix := Unit) (Name := ℕ) (U := UR sig nD τ) (Lvl := ℕ) spec1 c (Vat (V5 m (outs1 m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vat (V5 m (outs1 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vat (V5 m (outs1 m)) c) (Vat (V6 m (outs m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg2.lean ====
/-
  Pallas region 2 as one segment of the program's run. It is entered with every unscoped buffer held at the entry
  valuation and left with them held at the exit valuation, which differs from the entry one only at the region's
  output array: that array ends at the fold of its window's write-backs (o2), every input array and every buffer
  the region does not stage ends as it was. The region owes nothing and has no semaphore of its own; the generator
  register passes through the pipeline's invariant untouched.
-/
import proofs.«154590_j17119739641884_2_alg».proof.Proof.Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Outside the output array the exit valuation is the entry valuation. -/
theorem hkeep2 (c : Dev nD) (b : Ref sig .tc) (hb : b ≠ main_v37) : Vat (V11 m (outs2 m)) c b = Vat (V12 m (outs m)) c b := by
  show V11 m (outs2 m) c b = V12 m (outs m) c b
  rw [V12_of m (outs m) c b (fun h => hb (List.mem_singleton.mp h)), Vin2_eq m c]

/-- At the output array the exit valuation holds the fold of the write-backs. -/
theorem hout2 (c : Dev nD) : Vat (V12 m (outs m)) c main_v37 = (pdats m 2 c).arrAt 4 cfg2.N := by
  show Function.update _ _ _ _ = _
  rw [Function.update_self]
  exact outs6_main_v37 m _ c

set_option maxHeartbeats 4000000 in
theorem hF2 (c : Dev nD) : ∀ w : Fin 5, (pdats m 2 c).arrAt w cfg2.N = Vat (V12 m (outs m)) c (Pipeline.arrRef spec2 w) := fun
  | 0 => (((pdats m 2 c).arrAt_in 0 rfl _).trans (A_eq2 _ c 0)).trans (hkeep2 m c _ (by decide))
  | 1 => (((pdats m 2 c).arrAt_in 1 rfl _).trans (A_eq2 _ c 1)).trans (hkeep2 m c _ (by decide))
  | 2 => (((pdats m 2 c).arrAt_in 2 rfl _).trans (A_eq2 _ c 2)).trans (hkeep2 m c _ (by decide))
  | 3 => (((pdats m 2 c).arrAt_in 3 rfl _).trans (A_eq2 _ c 3)).trans (hkeep2 m c _ (by decide))
  | 4 => (hout2 m c).symm
  | ⟨_ + 5, h⟩ => absurd h (Nat.not_lt.2 (Nat.le_add_left _ _))

theorem hrest2 (c : Dev nD) : ∀ b, b ∉ Finset.univ.image (Pipeline.arrRef spec2) → Vat (V12 m (outs m)) c b = Vat (V11 m (outs2 m)) c b :=
  fun b hb => (hkeep2 m c b (fun e => hb (Finset.mem_image.mpr ⟨4, Finset.mem_univ _, e.symm⟩))).symm

set_option backward.isDefEq.respectTransparency.types false in
def reg2 : Pipeline.RegionSeg (pcfgs (F := F)) adm (pdats m) () defs₀ Variants.none noLv lv0 2 where
  win := launch2.win.to₀
  block_pos := launch2.block_pos
  stage_whole := launch2.stage_whole
  K := PEmpty
  osem k := k.elim
  ho := Pipeline.OwnSemFacts.none _
  hbody c := (body_obligation2 (Vat (V11 m (outs2 m))) c).loose
  hwaits := Pipeline.hwaits_of_owed_zero _ _ _ _ noLv lv0 2 fun _ _ => rfl
  pre c := iprop(StableHlo.held (c : Thread nD τ) (Pipeline.ucRefs τ sig) (V11 m (outs2 m) c) ∗ Rest c)
  post c := iprop(StableHlo.held (c : Thread nD τ) (Pipeline.ucRefs τ sig) (V12 m (outs m) c) ∗ Rest c)
  X c := iprop(∃ r, prngReg c r)
  Y c := iprop(∃ r, prngReg c r)
  Z c := Pipeline.unscopedRest (Ix := Unit) (Name := ℕ) (U := UR sig nD τ) (Lvl := ℕ) spec2 c (Vat (V11 m (outs2 m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vat (V11 m (outs2 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vat (V11 m (outs2 m)) c) (Vat (V12 m (outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg3.lean ====
/-
  Pallas region 3 as one segment of the program's run. It is entered with every unscoped buffer held at the entry
  valuation and left with them held at the exit valuation, which differs from the entry one only at the region's
  output array: that array ends at the fold of its window's write-backs (o3), every input array and every buffer
  the region does not stage ends as it was. The region owes nothing and has no semaphore of its own; the generator
  register passes through the pipeline's invariant untouched.
-/
import proofs.«154590_j17119739641884_2_alg».proof.Proof.Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Outside the output array the exit valuation is the entry valuation. -/
theorem hkeep3 (c : Dev nD) (b : Ref sig .tc) (hb : b ≠ main_v46) : Vat (V15 m (outs3 m)) c b = Vat (V16 m (outs m)) c b := by
  show V15 m (outs3 m) c b = V16 m (outs m) c b
  rw [V16_of m (outs m) c b (fun h => hb (List.mem_singleton.mp h)), Vin3_eq m c]

/-- At the output array the exit valuation holds the fold of the write-backs. -/
theorem hout3 (c : Dev nD) : Vat (V16 m (outs m)) c main_v46 = (pdats m 3 c).arrAt 2 cfg3.N := by
  show Function.update _ _ _ _ = _
  rw [Function.update_self]
  exact outs6_main_v46 m _ c

set_option maxHeartbeats 4000000 in
theorem hF3 (c : Dev nD) : ∀ w : Fin 3, (pdats m 3 c).arrAt w cfg3.N = Vat (V16 m (outs m)) c (Pipeline.arrRef spec3 w) := fun
  | 0 => (((pdats m 3 c).arrAt_in 0 rfl _).trans (A_eq3 _ c 0)).trans (hkeep3 m c _ (by decide))
  | 1 => (((pdats m 3 c).arrAt_in 1 rfl _).trans (A_eq3 _ c 1)).trans (hkeep3 m c _ (by decide))
  | 2 => (hout3 m c).symm
  | ⟨_ + 3, h⟩ => absurd h (Nat.not_lt.2 (Nat.le_add_left _ _))

theorem hrest3 (c : Dev nD) : ∀ b, b ∉ Finset.univ.image (Pipeline.arrRef spec3) → Vat (V16 m (outs m)) c b = Vat (V15 m (outs3 m)) c b :=
  fun b hb => (hkeep3 m c b (fun e => hb (Finset.mem_image.mpr ⟨2, Finset.mem_univ _, e.symm⟩))).symm

set_option backward.isDefEq.respectTransparency.types false in
def reg3 : Pipeline.RegionSeg (pcfgs (F := F)) adm (pdats m) () defs₀ Variants.none noLv lv0 3 where
  win := launch3.win.to₀
  block_pos := launch3.block_pos
  stage_whole := launch3.stage_whole
  K := PEmpty
  osem k := k.elim
  ho := Pipeline.OwnSemFacts.none _
  hbody c := (body_obligation3 (Vat (V15 m (outs3 m))) c).loose
  hwaits := Pipeline.hwaits_of_owed_zero _ _ _ _ noLv lv0 3 fun _ _ => rfl
  pre c := iprop(StableHlo.held (c : Thread nD τ) (Pipeline.ucRefs τ sig) (V15 m (outs3 m) c) ∗ Rest c)
  post c := iprop(StableHlo.held (c : Thread nD τ) (Pipeline.ucRefs τ sig) (V16 m (outs m) c) ∗ Rest c)
  X c := iprop(∃ r, prngReg c r)
  Y c := iprop(∃ r, prngReg c r)
  Z c := Pipeline.unscopedRest (Ix := Unit) (Name := ℕ) (U := UR sig nD τ) (Lvl := ℕ) spec3 c (Vat (V15 m (outs3 m)) c)
  hentry c := by
    rw [Pipeline.ownSems0_none]
    have hsplit := Pipeline.arrays_of_unscopedBufs (p := 3) (pcfgs (F := F)) adm (pdats m) launch3.win launch3.arr_whole c
      ((pdats m 3 c).share_full fun _ => rfl) (Vat (V15 m (outs3 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Vat (V15 m (outs3 m)) c) (Vat (V16 m (outs m)) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg4.lean ====
/-
  Pallas region 4 as one segment of the program's run. It is entered with every unscoped buffer held at the entry
  valuation and left with them held at the exit valuation, which differs from the entry one only at the region's
  output array: that array ends at the fold of its window's write-backs (o4), every input array and every buffer
  the region does not stage ends as it was. The region owes nothing and has no semaphore of its own; the generator
  register passes through the pipeline's invariant untouched.
-/
import proofs.«154590_j17119739641884_2_alg».proof.Proof.Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Outside the output array the exit valuation is the entry valuation. -/
theorem hkeep4 (c : Dev nD) (b : Ref sig .tc) (hb : b ≠ main_v67) : Vat (V21 m (outs4 m)) c b = Vat (V22 m (outs m)) c b := by
  show V21 m (outs4 m) c b = V22 m (outs m) c b
  rw [V22_of m (outs m) c b (fun h => hb (List.mem_singleton.mp h)), Vin4_eq m c]

/-- At the output array the exit valuation holds the fold of the write-backs. -/
theorem hout4 (c : Dev nD) : Vat (V22 m (outs m)) c main_v67 = (pdats m 4 c).arrAt 4 cfg4.N := by
  show Function.update _ _ _ _ = _
  rw [Function.update_self]
  exact outs6_main_v67 m _ c

set_option maxHeartbeats 4000000 in
theorem hF4 (c : Dev nD) : ∀ w : Fin 5, (pdats m 4 c).arrAt w cfg4.N = Vat (V22 m (outs m)) c (Pipeline.arrRef spec4 w) := fun
  | 0 => (((pdats m 4 c).arrAt_in 0 rfl _).trans (A_eq4 _ c 0)).trans (hkeep4 m c _ (by decide))
  | 1 => (((pdats m 4 c).arrAt_in 1 rfl _).trans (A_eq4 _ c 1)).trans (hkeep4 m c _ (by decide))
  | 2 => (((pdats m 4 c).arrAt_in 2 rfl _).trans (A_eq4 _ c 2)).trans (hkeep4 m c _ (by decide))
  | 3 => (((pdats m 4 c).arrAt_in 3 rfl _).trans (A_eq4 _ c 3)).trans (hkeep4 m c _ (by decide))
  | 4 => (hout4 m c).symm
  | ⟨_ + 5, h⟩ => absurd h (Nat.not_lt.2 (Nat.le_add_left _ _))

theorem hrest4 (c : Dev nD) : ∀ b, b ∉ Finset.univ.image (Pipeline.arrRef spec4) → Vat (V22 m (outs m)) c b = Vat (V21 m (outs4 m)) c b :=
  fun b hb => (hkeep4 m c b (fun e => hb (Finset.mem_image.mpr ⟨4, Finset.mem_univ _, e.symm⟩))).symm

set_option backward.isDefEq.respectTransparency.types false in
def reg4 : Pipeline.RegionSeg (pcfgs (F := F)) adm (pdats m) () defs₀ Variants.none noLv lv0 4 where
  win := launch4.win.to₀
  block_pos := launch4.block_pos
  stage_whole := launch4.stage_whole
  K := PEmpty
  osem k := k.elim
  ho := Pipeline.OwnSemFacts.none _
  hbody c := (body_obligation4 (Vat (V21 m (outs4 m))) c).loose
  hwaits := Pipeline.hwaits_of_owed_zero _ _ _ _ noLv lv0 4 fun _ _ => rfl
  pre c := iprop(StableHlo.held (c : Thread nD τ) (Pipeline.ucRefs τ sig) (V21 m (outs4 m) c) ∗ Rest c)
  post c := iprop(StableHlo.held (c : Thread nD τ) (Pipeline.ucRefs τ sig) (V22 m (outs m) c) ∗ Rest c)
  X c := iprop(∃ r, prngReg c r)
  Y c := iprop(∃ r, prngReg c r)
  Z c := Pipeline.unscopedRest (Ix := Unit) (Name := ℕ) (U := UR sig nD τ) (Lvl := ℕ) spec4 c (Vat (V21 m (outs4 m)) c)
  hentry c := by
    rw [Pipeline.ownSems0_none]
    have hsplit := Pipeline.arrays_of_unscopedBufs (p := 4) (pcfgs (F := F)) adm (pdats m) launch4.win launch4.arr_whole c
      ((pdats m 4 c).share_full fun _ => rfl) (Vat (V21 m (outs4 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Vat (V21 m (outs4 m)) c) (Vat (V22 m (outs m)) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg5.lean ====
/-
  Pallas region 5 as one segment of the program's run. It is entered with every unscoped buffer held at the entry
  valuation and left with them held at the exit valuation, which differs from the entry one only at the region's
  output array: that array ends at the fold of its window's write-backs (o5), every input array and every buffer
  the region does not stage ends as it was. The region owes nothing and has no semaphore of its own; the generator
  register passes through the pipeline's invariant untouched.
-/
import proofs.«154590_j17119739641884_2_alg».proof.Proof.Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Outside the output array the exit valuation is the entry valuation. -/
theorem hkeep5 (c : Dev nD) (b : Ref sig .tc) (hb : b ≠ main_v76) : Vat (V25 m (outs5 m)) c b = Vat (V26 m (outs m)) c b := by
  show V25 m (outs5 m) c b = V26 m (outs m) c b
  rw [V26_of m (outs m) c b (fun h => hb (List.mem_singleton.mp h)), Vin5_eq m c]

/-- At the output array the exit valuation holds the fold of the write-backs. -/
theorem hout5 (c : Dev nD) : Vat (V26 m (outs m)) c main_v76 = (pdats m 5 c).arrAt 2 cfg5.N := by
  show Function.update _ _ _ _ = _
  rw [Function.update_self]
  exact outs6_main_v76 m _ c

set_option maxHeartbeats 4000000 in
theorem hF5 (c : Dev nD) : ∀ w : Fin 3, (pdats m 5 c).arrAt w cfg5.N = Vat (V26 m (outs m)) c (Pipeline.arrRef spec5 w) := fun
  | 0 => (((pdats m 5 c).arrAt_in 0 rfl _).trans (A_eq5 _ c 0)).trans (hkeep5 m c _ (by decide))
  | 1 => (((pdats m 5 c).arrAt_in 1 rfl _).trans (A_eq5 _ c 1)).trans (hkeep5 m c _ (by decide))
  | 2 => (hout5 m c).symm
  | ⟨_ + 3, h⟩ => absurd h (Nat.not_lt.2 (Nat.le_add_left _ _))

theorem hrest5 (c : Dev nD) : ∀ b, b ∉ Finset.univ.image (Pipeline.arrRef spec5) → Vat (V26 m (outs m)) c b = Vat (V25 m (outs5 m)) c b :=
  fun b hb => (hkeep5 m c b (fun e => hb (Finset.mem_image.mpr ⟨2, Finset.mem_univ _, e.symm⟩))).symm

set_option backward.isDefEq.respectTransparency.types false in
def reg5 : Pipeline.RegionSeg (pcfgs (F := F)) adm (pdats m) () defs₀ Variants.none noLv lv0 5 where
  win := launch5.win.to₀
  block_pos := launch5.block_pos
  stage_whole := launch5.stage_whole
  K := PEmpty
  osem k := k.elim
  ho := Pipeline.OwnSemFacts.none _
  hbody c := (body_obligation5 (Vat (V25 m (outs5 m))) c).loose
  hwaits := Pipeline.hwaits_of_owed_zero _ _ _ _ noLv lv0 5 fun _ _ => rfl
  pre c := iprop(StableHlo.held (c : Thread nD τ) (Pipeline.ucRefs τ sig) (V25 m (outs5 m) c) ∗ Rest c)
  post c := iprop(StableHlo.held (c : Thread nD τ) (Pipeline.ucRefs τ sig) (V26 m (outs m) c) ∗ Rest c)
  X c := iprop(∃ r, prngReg c r)
  Y c := iprop(∃ r, prngReg c r)
  Z c := Pipeline.unscopedRest (Ix := Unit) (Name := ℕ) (U := UR sig nD τ) (Lvl := ℕ) spec5 c (Vat (V25 m (outs5 m)) c)
  hentry c := by
    rw [Pipeline.ownSems0_none]
    have hsplit := Pipeline.arrays_of_unscopedBufs (p := 5) (pcfgs (F := F)) adm (pdats m) launch5.win launch5.arr_whole c
      ((pdats m 5 c).share_full fun _ => rfl) (Vat (V25 m (outs5 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (Vat (V25 m (outs5 m)) c) (Vat (V26 m (outs m)) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.FrameAll.lean ====
/-
  The frame of the whole program: it runs to the end from any memory, faults nowhere, and every argument array ends
  as launched. The six regions' segments are chained through the host stretches between them; beside the buffers
  every segment carries only the core's generator register and its dues, which are nothing from launch to return.
-/
import proofs.«154590_j17119739641884_2_alg».proof.Proof.Reg0
import proofs.«154590_j17119739641884_2_alg».proof.Proof.Reg1
import proofs.«154590_j17119739641884_2_alg».proof.Proof.Reg2
import proofs.«154590_j17119739641884_2_alg».proof.Proof.Reg3
import proofs.«154590_j17119739641884_2_alg».proof.Proof.Reg4
import proofs.«154590_j17119739641884_2_alg».proof.Proof.Reg5

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_cond m emb₁ () Variants.none noLv lv0 (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rest c)
    (hE0 := by
      have h1 : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ (BI.emp : sProp 𝕄)))
          ⊢ (bigSep Finset.univ (fun c : Dev nD => Rest (F := F) c) : sProp 𝕄) :=
        have hc : ∀ c : Dev nD, (iprop(unscopedSems0 c ∗ owes (c : Thread nD τ) ((0 : Dev nD → CellTallies nD τ sig Unit) c) ∅
              ∗ Pipeline.launchCred (0 : Dev nD → CellTallies nD τ sig Unit) c ∗ prngReg c (ρ c) ∗ (BI.emp : sProp 𝕄)) : sProp 𝕄) ⊢ Rest (F := F) c := fun c => by
          iintro ⟨-, HO, -, Hp, -⟩
          isplitl [Hp]; · iexists _; iexact Hp
          iexists ∅; iexact HO
        bigSep_mono fun c _ => hc c
      iintro ⟨H, -⟩
      imodintro
      iapply h1; iexact H)
    (hE6 := fun c => by iintro ⟨-, HO⟩; iexact HO)
    (R0 := reg0 m) (hpre0 := fun c => .rfl) (hpost0 := fun c => .rfl)
    (R1 := reg1 m) (hpre1 := fun c => by rw [Vin1_eq m c]; exact .rfl) (hpost1 := fun c => .rfl)
    (R2 := reg2 m) (hpre2 := fun c => by rw [Vin2_eq m c]; exact .rfl) (hpost2 := fun c => .rfl)
    (R3 := reg3 m) (hpre3 := fun c => by rw [Vin3_eq m c]; exact .rfl) (hpost3 := fun c => .rfl)
    (R4 := reg4 m) (hpre4 := fun c => by rw [Vin4_eq m c]; exact .rfl) (hpost4 := fun c => .rfl)
    (R5 := reg5 m) (hpre5 := fun c => by rw [Vin5_eq m c]; exact .rfl) (hpost5 := fun c => .rfl)

end Cert.KernelIdeal.Hand

end
-- ==== Proof.KAgg0.lean ====
/- The body obligation and the proof data of the region whose kernel computes, per 400-row tile,
   out = x0 * x2 + x1 * x3 (two products over the whole contracted axis, then one sum), at width 64.
   At the region's entry contents `V`: each window's block at a point, the output buffer after the body as a
   function of the four input blocks, the body's triple, the proof data and the body obligation. -/
import proofs.«154590_j17119739641884_2_alg».proof.Proof.Gen.Kernel.Launch
import proofs.«154590_j17119739641884_2_alg».proof.Proof.Gen.Kernel.Skeleton
import proofs.«154590_j17119739641884_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (unfetched, the
    block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (unfetched, the
    block index has not moved), for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (unfetched, the
    block index has not moved), for any proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (unfetched, the
    block index has not moved), for any proof data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev r0_a : Rect S400x4000 := Rect.unit (s := S400x4000) ![0, 0] S400x4000.size inb_S400x4000_S400x4000_0_0
abbrev r0_b : Rect S4000x64 := Rect.unit (s := S4000x64) ![0, 0] S4000x64.size inb_S4000x64_S4000x64_0_0
abbrev r0_o : Rect S400x64 := Rect.unit (s := S400x64) ![0, 0] S400x64.size inb_S400x64_S400x64_0_0

/-! ## What the body leaves in the output window's buffer -/

/-- Window 4's staging buffer after the body, from the four input windows' blocks: its one store, of the sum of
    the two products (window 0 by window 2, window 1 by window 3). -/
def out0_4 (x0 : Vec F S400x4000 .bf16) (x1 : Vec F S400x4000 .bf16) (x2 : Vec F S4000x64 .bf16) (x3 : Vec F S4000x64 .bf16) : Vec F S400x64 .f32 :=
  View.canon [⟨r0_o, k0_pay1 (View.ld x0 r0_a) (View.ld x2 r0_b) (View.ld x1 r0_a) (View.ld x3 r0_b)⟩]

/-- The one store is of the whole buffer, so it covers it. -/
theorem cover0_4 (p0 : Vec F S400x64 .f32) (y : S400x64.Idx) :
    ∃ pc ∈ ([⟨r0_o, p0⟩] : List (View.Piece (Elt F) S400x64 .f32)), y ∈ pc.1.set :=
  View.cover_of_tiled [⟨r0_o, p0⟩] S400x64.size (by rfl) y

/-! ## The body's triple -/

set_option maxHeartbeats 1000000 in
/-- The kernel body on whole staging memrefs, the inputs' at read contents `xW` and the output's at anything, runs to
    the continuation holding the inputs' as they were and the output's at `out0_4` of the inputs'. -/
theorem sound_kernel0 (c : Dev nD) (E : Set ℕ) (i : grid0.Coords)
    (arg1 : Memref sig .tc .vmem S400x4000 .bf16) (harg1 : arg1.IsWhole) (arg2 : Memref sig .tc .vmem S400x4000 .bf16) (harg2 : arg2.IsWhole)
    (arg3 : Memref sig .tc .vmem S4000x64 .bf16) (harg3 : arg3.IsWhole) (arg4 : Memref sig .tc .vmem S4000x64 .bf16) (harg4 : arg4.IsWhole)
    (arg5 : Memref sig .tc .vmem S400x64 .f32) (harg5 : arg5.IsWhole)
    (x0 : Vec F S400x4000 .bf16) (x1 : Vec F S400x4000 .bf16) (x2 : Vec F S4000x64 .bf16) (x3 : Vec F S4000x64 .bf16) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E (cc0__agg_kernel i arg1 harg1 arg2 harg2 arg3 harg3 arg4 harg4 arg5 harg5) K := by
  simp only [cc0__agg_kernel_eq_skeleton]; unfold cc0__agg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of the pipeline on core `c`: the arrays as the region finds them (`V`); after the body at point
    `t` each input's buffer at its block and the output's at `out0_4` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.KPvnv1.lean ====
/-
  One "pvnv" region (pallas region 1): out[i] = stack[i]ᵀ · ct, the 8000 contracted rows taken 800 at a time.
  The grid is 2 × 10, point t = 10·i + k. The output window's block (slab i of the [2, 4000, 320] result) stays in its
  one staging buffer for the ten points of a slab and is written back after the last of them (k = 9). At k = 0 the body
  first stores zeros over the block and then adds the tile's product to what it reads back; at k ≠ 0 it adds the tile's
  product to what the point before left. So what the buffer holds after point t is defined by recursion on t
  (outsAt1): at k = 0 the body's result from the two input blocks alone, otherwise its result from the two input
  blocks and the contents after point t − 1. This file states that recursion, the proof data built on it, and the
  body's run at every point; it says nothing yet about which numbers the result holds.
-/
import proofs.«154590_j17119739641884_2_alg».proof.Proof.Gen.Kernel.Launch
import proofs.«154590_j17119739641884_2_alg».proof.Proof.Gen.Kernel.Skeleton
import proofs.«154590_j17119739641884_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch condition: k = 0 -/

/-- The body's one conditional, from the grid coordinates: "the second coordinate is zero". -/
abbrev cond1_0 (i : grid1.Coords) : Prop :=
  (Scalar.cmpi .ne (Scalar.extui (Scalar.cmpi .eq (BitVec.ofNat 32 (i 1).val) 0#32)) 0#32) = 1#1

/-- It holds exactly at the first point of each slab. -/
theorem hcond1_0 : ∀ t : Fin cfg1.N, cond1_0 (grid1.coords t) ↔ t.val % 10 = 0 :=
  (by decide +kernel : ∀ t : Fin grid1.N, cond1_0 (grid1.coords t) ↔ t.val % 10 = 0)

/-! ## The staging memrefs at a point -/

abbrev VO1_2 : View sig .tc .vmem S1x4000x320 .f32 := (Memref.whole cc1_stg2_0 : Memref sig .tc .vmem S1x4000x320 .f32).view
abbrev ms1_0 (t : Fin cfg1.N) : Memref sig .tc .vmem S1x800x4000 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S800x320 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x4000x320 .f32 := win1_2.stage (cfg1.slots t 2)
abbrev hs1_2 (t : Fin cfg1.N) : (ms1_2 t).IsWhole := hstage1_2 ((cfg1.slots t 2).cast nbuf1_2)

/-! ## The body's run, case by case -/

set_option maxHeartbeats 1000000 in
/-- At k = 0: on whole staging memrefs, the inputs' at their contents and the output's at anything, the body runs and
    leaves the inputs as they were and the output's buffer written with the pieces the run finds. -/
noncomputable def kernelRun1_A (c : Dev nD) (i : grid1.Coords) (arg2 : Memref sig .tc .vmem S1x800x4000 .bf16) (harg2 : arg2.IsWhole)
    (arg3 : Memref sig .tc .vmem S800x320 .bf16) (harg3 : arg3.IsWhole) (arg4 : Memref sig .tc .vmem S1x4000x320 .f32) (harg4 : arg4.IsWhole)
    (hc0 : cond1_0 i) (x0 : Vec F S1x800x4000 .bf16) (x1 : Vec F S800x320 .bf16) :
    { L2 : List (View.Piece (Elt F) S1x4000x320 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc1__pvnv_kernel i arg2 harg2 arg3 harg3 arg4 harg4) K } := by
  refine ⟨?_, fun E K => ?run⟩
  case run =>
    simp only [cc1__pvnv_kernel_eq_skeleton]; unfold cc1__pvnv_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- At k ≠ 0: the same with the output's buffer at its running contents xo2, which the body reads before it stores. -/
noncomputable def kernelRun1_B (c : Dev nD) (i : grid1.Coords) (arg2 : Memref sig .tc .vmem S1x800x4000 .bf16) (harg2 : arg2.IsWhole)
    (arg3 : Memref sig .tc .vmem S800x320 .bf16) (harg3 : arg3.IsWhole) (arg4 : Memref sig .tc .vmem S1x4000x320 .f32) (harg4 : arg4.IsWhole)
    (hc0 : ¬cond1_0 i) (x0 : Vec F S1x800x4000 .bf16) (x1 : Vec F S800x320 .bf16) (xo2 : Vec F S1x4000x320 .f32) :
    { L2 : List (View.Piece (Elt F) S1x4000x320 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc1__pvnv_kernel i arg2 harg2 arg3 harg3 arg4 harg4) K } := by
  refine ⟨?_, fun E K => ?run⟩
  case run =>
    simp only [cc1__pvnv_kernel_eq_skeleton]; unfold cc1__pvnv_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

/-- At k = 0 the run's pieces tile the output block, so they cover it. -/
theorem cover1_A_2 (c : Dev nD) (i : grid1.Coords) (arg2 : Memref sig .tc .vmem S1x800x4000 .bf16) (harg2 : arg2.IsWhole)
    (arg3 : Memref sig .tc .vmem S800x320 .bf16) (harg3 : arg3.IsWhole) (arg4 : Memref sig .tc .vmem S1x4000x320 .f32) (harg4 : arg4.IsWhole)
    (hc0 : cond1_0 i) (x0 : Vec F S1x800x4000 .bf16) (x1 : Vec F S800x320 .bf16) (y : S1x4000x320.Idx) :
    ∃ pc ∈ (kernelRun1_A c i arg2 harg2 arg3 harg3 arg4 harg4 hc0 x0 x1).1, y ∈ pc.1.set :=
  View.cover_of_tiledL (kernelRun1_A c i arg2 harg2 arg3 harg3 arg4 harg4 hc0 x0 x1).1 S1x4000x320.size (by sl_kernel_rfl) y

/-- What the body leaves in the output's buffer at k = 0: its pieces read back. -/
def out1_A_2 (c : Dev nD) (i : grid1.Coords) (arg2 : Memref sig .tc .vmem S1x800x4000 .bf16) (harg2 : arg2.IsWhole)
    (arg3 : Memref sig .tc .vmem S800x320 .bf16) (harg3 : arg3.IsWhole) (arg4 : Memref sig .tc .vmem S1x4000x320 .f32) (harg4 : arg4.IsWhole)
    (hc0 : cond1_0 i) (x0 : Vec F S1x800x4000 .bf16) (x1 : Vec F S800x320 .bf16) : Vec F S1x4000x320 .f32 :=
  VO1_2.read (Elt F) (VO1_2.writes (Elt F) VO1_2.junk (kernelRun1_A c i arg2 harg2 arg3 harg3 arg4 harg4 hc0 x0 x1).1)

/-- At k ≠ 0 the run's pieces tile the output block, so they cover it. -/
theorem cover1_B_2 (c : Dev nD) (i : grid1.Coords) (arg2 : Memref sig .tc .vmem S1x800x4000 .bf16) (harg2 : arg2.IsWhole)
    (arg3 : Memref sig .tc .vmem S800x320 .bf16) (harg3 : arg3.IsWhole) (arg4 : Memref sig .tc .vmem S1x4000x320 .f32) (harg4 : arg4.IsWhole)
    (hc0 : ¬cond1_0 i) (x0 : Vec F S1x800x4000 .bf16) (x1 : Vec F S800x320 .bf16) (xo2 : Vec F S1x4000x320 .f32) (y : S1x4000x320.Idx) :
    ∃ pc ∈ (kernelRun1_B c i arg2 harg2 arg3 harg3 arg4 harg4 hc0 x0 x1 xo2).1, y ∈ pc.1.set :=
  View.cover_of_tiledL (kernelRun1_B c i arg2 harg2 arg3 harg3 arg4 harg4 hc0 x0 x1 xo2).1 S1x4000x320.size (by sl_kernel_rfl) y

/-- What the body leaves in the output's buffer at k ≠ 0, from the contents xo2 it found there. -/
def out1_B_2 (c : Dev nD) (i : grid1.Coords) (arg2 : Memref sig .tc .vmem S1x800x4000 .bf16) (harg2 : arg2.IsWhole)
    (arg3 : Memref sig .tc .vmem S800x320 .bf16) (harg3 : arg3.IsWhole) (arg4 : Memref sig .tc .vmem S1x4000x320 .f32) (harg4 : arg4.IsWhole)
    (hc0 : ¬cond1_0 i) (x0 : Vec F S1x800x4000 .bf16) (x1 : Vec F S800x320 .bf16) (xo2 : Vec F S1x4000x320 .f32) : Vec F S1x4000x320 .f32 :=
  VO1_2.read (Elt F) (VO1_2.writes (Elt F) VO1_2.junk (kernelRun1_B c i arg2 harg2 arg3 harg3 arg4 harg4 hc0 x0 x1 xo2).1)

section Region
variable (V : (c : Dev nD) → (b : Ref sig .tc) → Buf (Elt F) ((c : Thread nD τ).loc b))

/-! ## The windows' blocks, read off the arrays as the region finds them -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What the output's buffer holds after each point -/

/-- The accumulation: the buffer after the body at position n. -/
def outsAt1 (c : Dev nD) : (n : ℕ) → n < cfg1.N → Vec F S1x4000x320 .f32
  | 0, hn => out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩)
      ((hcond1_0 ⟨0, hn⟩).mpr (Nat.zero_mod _)) (iblk1 V c 0 ⟨0, hn⟩) (iblk1 V c 1 ⟨0, hn⟩)
  | n + 1, hn =>
    if h0 : (n + 1) % 10 = 0 then
      out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
        ((hcond1_0 ⟨n + 1, hn⟩).mpr h0) (iblk1 V c 0 ⟨n + 1, hn⟩) (iblk1 V c 1 ⟨n + 1, hn⟩)
    else
      out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
        (fun h => h0 ((hcond1_0 ⟨n + 1, hn⟩).mp h)) (iblk1 V c 0 ⟨n + 1, hn⟩) (iblk1 V c 1 ⟨n + 1, hn⟩) (outsAt1 c n (Nat.lt_of_succ_lt hn))

theorem outsAt1_A (c : Dev nD) (t : Fin cfg1.N) (h0 : t.val % 10 = 0) :
    outsAt1 V c t.val t.isLt = out1_A_2 c (grid1.coords t) (ms1_0 t) (hs1_0 t) (ms1_1 t) (hs1_1 t) (ms1_2 t) (hs1_2 t)
      ((hcond1_0 t).mpr h0) (iblk1 V c 0 t) (iblk1 V c 1 t) := by
  obtain ⟨n, hn⟩ := t
  cases n with
  | zero => exact rfl
  | succ n => exact (dif_pos h0).trans rfl

theorem outsAt1_B (c : Dev nD) (t : Fin cfg1.N) (h0 : ¬t.val % 10 = 0) :
    outsAt1 V c t.val t.isLt = out1_B_2 c (grid1.coords t) (ms1_0 t) (hs1_0 t) (ms1_1 t) (hs1_1 t) (ms1_2 t) (hs1_2 t)
      (fun h => h0 ((hcond1_0 t).mp h)) (iblk1 V c 0 t) (iblk1 V c 1 t)
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- At k ≠ 0 the output's buffer holds what the body left at the point before: it was not written back between. -/
theorem before1_2_B (c : Dev nD) (t : Fin cfg1.N) (h0 : ¬t.val % 10 = 0) (d) :
    (dat1 V c).before 2 t d = (outsAt1 V c (t.val - 1) (Nat.lt_of_le_of_lt (Nat.sub_le _ _) t.isLt)) := by
  have hN : t.val < 20 := lt_of_lt_of_eq t.isLt (show cfg1.N = 20 from N_1)
  rw [Dat.before_out_kept _ 2 rfl t (by omega) (Bool.eq_false_iff.mpr fun h => by have := (flush1_2 _).mp h; dsimp only at this; omega)
    (fun _ => rfl) (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  have hN : t.val < 20 := lt_of_lt_of_eq t.isLt (show cfg1.N = 20 from N_1)
  by_cases h0 : t.val % 10 = 0
  · rw [outsAt1_A V c t h0]
    unfold out1_A_2
    iintro ⟨HΦ, Ho, ⟨%d0, H0⟩, ⟨%d1, H1⟩, ⟨%d2, H2⟩⟩
    iapply ((kernelRun1_A c (grid1.coords t) _ _ _ _ _ _ ((hcond1_0 t).mpr h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_A_2 c _ _ _ _ _ _ _ _ _ _)
  · rw [outsAt1_B V c t h0]
    simp only [before1_2_B V c t h0]
    unfold out1_B_2
    iintro ⟨HΦ, Ho, ⟨%d0, H0⟩, ⟨%d1, H1⟩, ⟨%d2, H2⟩⟩
    iapply ((kernelRun1_B c (grid1.coords t) _ _ _ _ _ _ (fun h => h0 ((hcond1_0 t).mp h)) (iblk1 V c 0 t) (iblk1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Region

end Cert.Kernel.Hand

end
-- ==== Proof.KAgg2.lean ====
/- The body obligation and the proof data of the region whose kernel computes, per 400-row tile,
   out = x0 * x2 + x1 * x3 (two products over the whole contracted axis, then one sum), at width 320.
   At the region's entry contents `V`: each window's block at a point, the output buffer after the body as a
   function of the four input blocks, the body's triple, the proof data and the body obligation. -/
import proofs.«154590_j17119739641884_2_alg».proof.Proof.Gen.Kernel.Launch
import proofs.«154590_j17119739641884_2_alg».proof.Proof.Gen.Kernel.Skeleton
import proofs.«154590_j17119739641884_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (unfetched, the
    block index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (unfetched, the
    block index has not moved), for any proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (unfetched, the
    block index has not moved), for any proof data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (unfetched, the
    block index has not moved), for any proof data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each a whole buffer -/

abbrev r2_a : Rect S400x4000 := Rect.unit (s := S400x4000) ![0, 0] S400x4000.size inb_S400x4000_S400x4000_0_0
abbrev r2_b : Rect S4000x320 := Rect.unit (s := S4000x320) ![0, 0] S4000x320.size inb_S4000x320_S4000x320_0_0
abbrev r2_o : Rect S400x320 := Rect.unit (s := S400x320) ![0, 0] S400x320.size inb_S400x320_S400x320_0_0

/-! ## What the body leaves in the output window's buffer -/

/-- Window 4's staging buffer after the body, from the four input windows' blocks: its one store, of the sum of
    the two products (window 0 by window 2, window 1 by window 3). -/
def out2_4 (x0 : Vec F S400x4000 .bf16) (x1 : Vec F S400x4000 .bf16) (x2 : Vec F S4000x320 .bf16) (x3 : Vec F S4000x320 .bf16) : Vec F S400x320 .f32 :=
  View.canon [⟨r2_o, k2_pay1 (View.ld x0 r2_a) (View.ld x2 r2_b) (View.ld x1 r2_a) (View.ld x3 r2_b)⟩]

/-- The one store is of the whole buffer, so it covers it. -/
theorem cover2_4 (p0 : Vec F S400x320 .f32) (y : S400x320.Idx) :
    ∃ pc ∈ ([⟨r2_o, p0⟩] : List (View.Piece (Elt F) S400x320 .f32)), y ∈ pc.1.set :=
  View.cover_of_tiled [⟨r2_o, p0⟩] S400x320.size (by rfl) y

/-! ## The body's triple -/

set_option maxHeartbeats 1000000 in
/-- The kernel body on whole staging memrefs, the inputs' at read contents `xW` and the output's at anything, runs to
    the continuation holding the inputs' as they were and the output's at `out2_4` of the inputs'. -/
theorem sound_kernel2 (c : Dev nD) (E : Set ℕ) (i : grid2.Coords)
    (arg1 : Memref sig .tc .vmem S400x4000 .bf16) (harg1 : arg1.IsWhole) (arg2 : Memref sig .tc .vmem S400x4000 .bf16) (harg2 : arg2.IsWhole)
    (arg3 : Memref sig .tc .vmem S4000x320 .bf16) (harg3 : arg3.IsWhole) (arg4 : Memref sig .tc .vmem S4000x320 .bf16) (harg4 : arg4.IsWhole)
    (arg5 : Memref sig .tc .vmem S400x320 .f32) (harg5 : arg5.IsWhole)
    (x0 : Vec F S400x4000 .bf16) (x1 : Vec F S400x4000 .bf16) (x2 : Vec F S4000x320 .bf16) (x3 : Vec F S4000x320 .bf16) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out2_4 x0 x1 x2 x3)) -∗ K ⟨⟩))
      ⊢ wp frame (wpE (defs₀ (F := F)) Variants.none c none) E (cc2__agg_kernel i arg1 harg1 arg2 harg2 arg3 harg3 arg4 harg4 arg5 harg5) K := by
  simp only [cc2__agg_kernel_eq_skeleton]; unfold cc2__agg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of the pipeline on core `c`: the arrays as the region finds them (`V`); after the body at point
    `t` each input's buffer at its block and the output's at `out2_4` of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the body's triple applies; the invariant and
    the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.Kernel.Hand

end
-- ==== Proof.KPvnv3.lean ====
/-
  One "pvnv" region (pallas region 3): out[i] = stack[i]ᵀ · ct, the 8000 contracted rows taken 800 at a time.
  The grid is 2 × 10, point t = 10·i + k. The output window's block (slab i of the [2, 4000, 320] result) stays in its
  one staging buffer for the ten points of a slab and is written back after the last of them (k = 9). At k = 0 the body
  first stores zeros over the block and then adds the tile's product to what it reads back; at k ≠ 0 it adds the tile's
  product to what the point before left. So what the buffer holds after point t is defined by recursion on t
  (outsAt3): at k = 0 the body's result from the two input blocks alone, otherwise its result from the two input
  blocks and the contents after point t − 1. This file states that recursion, the proof data built on it, and the
  body's run at every point; it says nothing yet about which numbers the result holds.
-/
import proofs.«154590_j17119739641884_2_alg».proof.Proof.Gen.Kernel.Launch
import proofs.«154590_j17119739641884_2_alg».proof.Proof.Gen.Kernel.Skeleton
import proofs.«154590_j17119739641884_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch condition: k = 0 -/

/-- The body's one conditional, from the grid coordinates: "the second coordinate is zero". -/
abbrev cond3_0 (i : grid3.Coords) : Prop :=
  (Scalar.cmpi .ne (Scalar.extui (Scalar.cmpi .eq (BitVec.ofNat 32 (i 1).val) 0#32)) 0#32) = 1#1

/-- It holds exactly at the first point of each slab. -/
theorem hcond3_0 : ∀ t : Fin cfg3.N, cond3_0 (grid3.coords t) ↔ t.val % 10 = 0 :=
  (by decide +kernel : ∀ t : Fin grid3.N, cond3_0 (grid3.coords t) ↔ t.val % 10 = 0)

/-! ## The staging memrefs at a point -/

abbrev VO3_2 : View sig .tc .vmem S1x4000x320 .f32 := (Memref.whole cc3_stg2_0 : Memref sig .tc .vmem S1x4000x320 .f32).view
abbrev ms3_0 (t : Fin cfg3.N) : Memref sig .tc .vmem S1x800x4000 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S800x320 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x4000x320 .f32 := win3_2.stage (cfg3.slots t 2)
abbrev hs3_2 (t : Fin cfg3.N) : (ms3_2 t).IsWhole := hstage3_2 ((cfg3.slots t 2).cast nbuf3_2)

/-! ## The body's run, case by case -/

set_option maxHeartbeats 1000000 in
/-- At k = 0: on whole staging memrefs, the inputs' at their contents and the output's at anything, the body runs and
    leaves the inputs as they were and the output's buffer written with the pieces the run finds. -/
noncomputable def kernelRun3_A (c : Dev nD) (i : grid3.Coords) (arg2 : Memref sig .tc .vmem S1x800x4000 .bf16) (harg2 : arg2.IsWhole)
    (arg3 : Memref sig .tc .vmem S800x320 .bf16) (harg3 : arg3.IsWhole) (arg4 : Memref sig .tc .vmem S1x4000x320 .f32) (harg4 : arg4.IsWhole)
    (hc0 : cond3_0 i) (x0 : Vec F S1x800x4000 .bf16) (x1 : Vec F S800x320 .bf16) :
    { L2 : List (View.Piece (Elt F) S1x4000x320 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc3__pvnv_kernel i arg2 harg2 arg3 harg3 arg4 harg4) K } := by
  refine ⟨?_, fun E K => ?run⟩
  case run =>
    simp only [cc3__pvnv_kernel_eq_skeleton]; unfold cc3__pvnv_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- At k ≠ 0: the same with the output's buffer at its running contents xo2, which the body reads before it stores. -/
noncomputable def kernelRun3_B (c : Dev nD) (i : grid3.Coords) (arg2 : Memref sig .tc .vmem S1x800x4000 .bf16) (harg2 : arg2.IsWhole)
    (arg3 : Memref sig .tc .vmem S800x320 .bf16) (harg3 : arg3.IsWhole) (arg4 : Memref sig .tc .vmem S1x4000x320 .f32) (harg4 : arg4.IsWhole)
    (hc0 : ¬cond3_0 i) (x0 : Vec F S1x800x4000 .bf16) (x1 : Vec F S800x320 .bf16) (xo2 : Vec F S1x4000x320 .f32) :
    { L2 : List (View.Piece (Elt F) S1x4000x320 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc3__pvnv_kernel i arg2 harg2 arg3 harg3 arg4 harg4) K } := by
  refine ⟨?_, fun E K => ?run⟩
  case run =>
    simp only [cc3__pvnv_kernel_eq_skeleton]; unfold cc3__pvnv_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

/-- At k = 0 the run's pieces tile the output block, so they cover it. -/
theorem cover3_A_2 (c : Dev nD) (i : grid3.Coords) (arg2 : Memref sig .tc .vmem S1x800x4000 .bf16) (harg2 : arg2.IsWhole)
    (arg3 : Memref sig .tc .vmem S800x320 .bf16) (harg3 : arg3.IsWhole) (arg4 : Memref sig .tc .vmem S1x4000x320 .f32) (harg4 : arg4.IsWhole)
    (hc0 : cond3_0 i) (x0 : Vec F S1x800x4000 .bf16) (x1 : Vec F S800x320 .bf16) (y : S1x4000x320.Idx) :
    ∃ pc ∈ (kernelRun3_A c i arg2 harg2 arg3 harg3 arg4 harg4 hc0 x0 x1).1, y ∈ pc.1.set :=
  View.cover_of_tiledL (kernelRun3_A c i arg2 harg2 arg3 harg3 arg4 harg4 hc0 x0 x1).1 S1x4000x320.size (by sl_kernel_rfl) y

/-- What the body leaves in the output's buffer at k = 0: its pieces read back. -/
def out3_A_2 (c : Dev nD) (i : grid3.Coords) (arg2 : Memref sig .tc .vmem S1x800x4000 .bf16) (harg2 : arg2.IsWhole)
    (arg3 : Memref sig .tc .vmem S800x320 .bf16) (harg3 : arg3.IsWhole) (arg4 : Memref sig .tc .vmem S1x4000x320 .f32) (harg4 : arg4.IsWhole)
    (hc0 : cond3_0 i) (x0 : Vec F S1x800x4000 .bf16) (x1 : Vec F S800x320 .bf16) : Vec F S1x4000x320 .f32 :=
  VO3_2.read (Elt F) (VO3_2.writes (Elt F) VO3_2.junk (kernelRun3_A c i arg2 harg2 arg3 harg3 arg4 harg4 hc0 x0 x1).1)

/-- At k ≠ 0 the run's pieces tile the output block, so they cover it. -/
theorem cover3_B_2 (c : Dev nD) (i : grid3.Coords) (arg2 : Memref sig .tc .vmem S1x800x4000 .bf16) (harg2 : arg2.IsWhole)
    (arg3 : Memref sig .tc .vmem S800x320 .bf16) (harg3 : arg3.IsWhole) (arg4 : Memref sig .tc .vmem S1x4000x320 .f32) (harg4 : arg4.IsWhole)
    (hc0 : ¬cond3_0 i) (x0 : Vec F S1x800x4000 .bf16) (x1 : Vec F S800x320 .bf16) (xo2 : Vec F S1x4000x320 .f32) (y : S1x4000x320.Idx) :
    ∃ pc ∈ (kernelRun3_B c i arg2 harg2 arg3 harg3 arg4 harg4 hc0 x0 x1 xo2).1, y ∈ pc.1.set :=
  View.cover_of_tiledL (kernelRun3_B c i arg2 harg2 arg3 harg3 arg4 harg4 hc0 x0 x1 xo2).1 S1x4000x320.size (by sl_kernel_rfl) y

/-- What the body leaves in the output's buffer at k ≠ 0, from the contents xo2 it found there. -/
def out3_B_2 (c : Dev nD) (i : grid3.Coords) (arg2 : Memref sig .tc .vmem S1x800x4000 .bf16) (harg2 : arg2.IsWhole)
    (arg3 : Memref sig .tc .vmem S800x320 .bf16) (harg3 : arg3.IsWhole) (arg4 : Memref sig .tc .vmem S1x4000x320 .f32) (harg4 : arg4.IsWhole)
    (hc0 : ¬cond3_0 i) (x0 : Vec F S1x800x4000 .bf16) (x1 : Vec F S800x320 .bf16) (xo2 : Vec F S1x4000x320 .f32) : Vec F S1x4000x320 .f32 :=
  VO3_2.read (Elt F) (VO3_2.writes (Elt F) VO3_2.junk (kernelRun3_B c i arg2 harg2 arg3 harg3 arg4 harg4 hc0 x0 x1 xo2).1)

section Region
variable (V : (c : Dev nD) → (b : Ref sig .tc) → Buf (Elt F) ((c : Thread nD τ).loc b))

/-! ## The windows' blocks, read off the arrays as the region finds them -/

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## What the output's buffer holds after each point -/

/-- The accumulation: the buffer after the body at position n. -/
def outsAt3 (c : Dev nD) : (n : ℕ) → n < cfg3.N → Vec F S1x4000x320 .f32
  | 0, hn => out3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩)
      ((hcond3_0 ⟨0, hn⟩).mpr (Nat.zero_mod _)) (iblk3 V c 0 ⟨0, hn⟩) (iblk3 V c 1 ⟨0, hn⟩)
  | n + 1, hn =>
    if h0 : (n + 1) % 10 = 0 then
      out3_A_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩)
        ((hcond3_0 ⟨n + 1, hn⟩).mpr h0) (iblk3 V c 0 ⟨n + 1, hn⟩) (iblk3 V c 1 ⟨n + 1, hn⟩)
    else
      out3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩)
        (fun h => h0 ((hcond3_0 ⟨n + 1, hn⟩).mp h)) (iblk3 V c 0 ⟨n + 1, hn⟩) (iblk3 V c 1 ⟨n + 1, hn⟩) (outsAt3 c n (Nat.lt_of_succ_lt hn))

theorem outsAt3_A (c : Dev nD) (t : Fin cfg3.N) (h0 : t.val % 10 = 0) :
    outsAt3 V c t.val t.isLt = out3_A_2 c (grid3.coords t) (ms3_0 t) (hs3_0 t) (ms3_1 t) (hs3_1 t) (ms3_2 t) (hs3_2 t)
      ((hcond3_0 t).mpr h0) (iblk3 V c 0 t) (iblk3 V c 1 t) := by
  obtain ⟨n, hn⟩ := t
  cases n with
  | zero => exact rfl
  | succ n => exact (dif_pos h0).trans rfl

theorem outsAt3_B (c : Dev nD) (t : Fin cfg3.N) (h0 : ¬t.val % 10 = 0) :
    outsAt3 V c t.val t.isLt = out3_B_2 c (grid3.coords t) (ms3_0 t) (hs3_0 t) (ms3_1 t) (hs3_1 t) (ms3_2 t) (hs3_2 t)
      (fun h => h0 ((hcond3_0 t).mp h)) (iblk3 V c 0 t) (iblk3 V c 1 t)
      (outsAt3 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- At k ≠ 0 the output's buffer holds what the body left at the point before: it was not written back between. -/
theorem before3_2_B (c : Dev nD) (t : Fin cfg3.N) (h0 : ¬t.val % 10 = 0) (d) :
    (dat3 V c).before 2 t d = (outsAt3 V c (t.val - 1) (Nat.lt_of_le_of_lt (Nat.sub_le _ _) t.isLt)) := by
  have hN : t.val < 20 := lt_of_lt_of_eq t.isLt (show cfg3.N = 20 from N_3)
  rw [Dat.before_out_kept _ 2 rfl t (by omega) (Bool.eq_false_iff.mpr fun h => by have := (flush3_2 _).mp h; dsimp only at this; omega)
    (fun _ => rfl) (fun _ _ => rfl)]
  dsimp only [dat3]

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t))

set_option maxHeartbeats 800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  have hN : t.val < 20 := lt_of_lt_of_eq t.isLt (show cfg3.N = 20 from N_3)
  by_cases h0 : t.val % 10 = 0
  · rw [outsAt3_A V c t h0]
    unfold out3_A_2
    iintro ⟨HΦ, Ho, ⟨%d0, H0⟩, ⟨%d1, H1⟩, ⟨%d2, H2⟩⟩
    iapply ((kernelRun3_A c (grid3.coords t) _ _ _ _ _ _ ((hcond3_0 t).mpr h0) (iblk3 V c 0 t) (iblk3 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover3_A_2 c _ _ _ _ _ _ _ _ _ _)
  · rw [outsAt3_B V c t h0]
    simp only [before3_2_B V c t h0]
    unfold out3_B_2
    iintro ⟨HΦ, Ho, ⟨%d0, H0⟩, ⟨%d1, H1⟩, ⟨%d2, H2⟩⟩
    iapply ((kernelRun3_B c (grid3.coords t) _ _ _ _ _ _ (fun h => h0 ((hcond3_0 t).mp h)) (iblk3 V c 0 t) (iblk3 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover3_B_2 c _ _ _ _ _ _ _ _ _ _ _)

theorem body_obligation3 (c : Dev nD) : BodyObligation (dat3 (F := F) V c) (defs₀ (F := F)) Variants.none () Set.univ := fun t => by
  rw [bigSep_W3, bigSep_W3]
  exact sound_body3 V c t

end Region

end Cert.Kernel.Hand

end
-- ==== Proof.KAgg4.lean ====
/- The body obligation and the proof data of the region whose kernel computes, per 400-row tile,
   out = x0 * x2 + x1 * x3 (two products over the whole contracted axis, then one sum), at width 576.
   At the region's entry contents `V`: each window's block at a point, the output buffer after the body as a
   function of the four input blocks, the body's triple, the proof data and the body obligation. -/
import proofs.«154590_j17119739641884_2_alg».proof.Proof.Gen.Kernel.Launch
import proofs.«154590_j17119739641884_2_alg».proof.Proof.Gen.Kernel.Skeleton
import proofs.«154590_j17119739641884_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not (unfetched, the
    block index has not moved), for any proof data whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not (unfetched, the
    block index has not moved), for any proof data whose array is `V`'s and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not (unfetched, the
    block index has not moved), for any proof data whose array is `V`'s and whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not (unfetched, the
    block index has not moved), for any proof data whose array is `V`'s and whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each a whole buffer -/

abbrev r4_a : Rect S400x4000 := Rect.unit (s := S400x4000) ![0, 0] S400x4000.size inb_S400x4000_S400x4000_0_0
abbrev r4_b : Rect S4000x576 := Rect.unit (s := S4000x576) ![0, 0] S4000x576.size inb_S4000x576_S4000x576_0_0
abbrev r4_o : Rect S400x576 := Rect.unit (s := S400x576) ![0, 0] S400x576.size inb_S400x576_S400x576_0_0

/-! ## What the body leaves in the output window's buffer -/

/-- Window 4's staging buffer after the body, from the four input windows' blocks: its one store, of the sum of
    the two products (window 0 by window 2, window 1 by window 3). -/
def out4_4 (x0 : Vec F S400x4000 .bf16) (x1 : Vec F S400x4000 .bf16) (x2 : Vec F S4000x576 .bf16) (x3 : Vec F S4000x576 .bf16) : Vec F S400x576 .f32 :=
  View.canon [⟨r4_o, k4_pay1 (View.ld x0 r4_a) (View.ld x2 r4_b) (View.ld x1 r4_a) (View.ld x3 r4_b)⟩]

/-- The one store is of the whole buffer, so it covers it. -/
theorem cover4_4 (p0 : Vec F S400x576 .f32) (y : S400x576.Idx) :
    ∃ pc ∈ ([⟨r4_o, p0⟩] : List (View.Piece (Elt F) S400x576 .f32)), y ∈ pc.1.set :=
  View.cover_of_tiled [⟨r4_o, p0⟩] S400x576.size (by rfl) y

/-! ## The body's triple -/

set_option maxHeartbeats 1000000 in
/-- The kernel body on whole staging memrefs, the inputs' at read contents `xW` and the output's at anything, runs to
    the continuation holding the inputs' as they were and the output's at `out4_4` of the inputs'. -/
theorem sound_kernel4 (c : Dev nD) (E : Set ℕ) (i : grid4.Coords)
    (arg1 : Memref sig .tc .vmem S400x4000 .bf16) (harg1 : arg1.IsWhole) (arg2 : Memref sig .tc .vmem S400x4000 .bf16) (harg2 : arg2.IsWhole)
    (arg3 : Memref sig .tc .vmem S4000x576 .bf16) (harg3 : arg3.IsWhole) (arg4 : Memref sig .tc .vmem S4000x576 .bf16) (harg4 : arg4.IsWhole)
    (arg5 : Memref sig .tc .vmem S400x576 .f32) (harg5 : arg5.IsWhole)
    (x0 : Vec F S400x4000 .bf16) (x1 : Vec F S400x4000 .bf16) (x2 : Vec F S4000x576 .bf16) (x3 : Vec F S4000x576 .bf16) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out4_4 x0 x1 x2 x3)) -∗ K ⟨⟩))
      ⊢ wp frame (wpE (defs₀ (F := F)) Variants.none c none) E (cc4__agg_kernel i arg1 harg1 arg2 harg2 arg3 harg3 arg4 harg4 arg5 harg5) K := by
  simp only [cc4__agg_kernel_eq_skeleton]; unfold cc4__agg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-! ## The pipeline's proof data -/

/-- The proof data of the pipeline on core `c`: the arrays as the region finds them (`V`); after the body at point
    `t` each input's buffer at its block and the output's at `out4_4` of the input blocks; the invariant the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 (iblk4 V c 0 t) (iblk4 V c 1 t) (iblk4 V c 2 t) (iblk4 V c 3 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' memrefs hold their blocks, so the body's triple applies; the invariant and
    the core's debt pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

end Regions

end Cert.Kernel.Hand

end
-- ==== Proof.KPvnv5.lean ====
/-
  One "pvnv" region (pallas region 5): out[i] = stack[i]ᵀ · ct, the 8000 contracted rows taken 800 at a time.
  The grid is 2 × 10, point t = 10·i + k. The output window's block (slab i of the [2, 4000, 320] result) stays in its
  one staging buffer for the ten points of a slab and is written back after the last of them (k = 9). At k = 0 the body
  first stores zeros over the block and then adds the tile's product to what it reads back; at k ≠ 0 it adds the tile's
  product to what the point before left. So what the buffer holds after point t is defined by recursion on t
  (outsAt5): at k = 0 the body's result from the two input blocks alone, otherwise its result from the two input
  blocks and the contents after point t − 1. This file states that recursion, the proof data built on it, and the
  body's run at every point; it says nothing yet about which numbers the result holds.
-/
import proofs.«154590_j17119739641884_2_alg».proof.Proof.Gen.Kernel.Launch
import proofs.«154590_j17119739641884_2_alg».proof.Proof.Gen.Kernel.Skeleton
import proofs.«154590_j17119739641884_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch condition: k = 0 -/

/-- The body's one conditional, from the grid coordinates: "the second coordinate is zero". -/
abbrev cond5_0 (i : grid5.Coords) : Prop :=
  (Scalar.cmpi .ne (Scalar.extui (Scalar.cmpi .eq (BitVec.ofNat 32 (i 1).val) 0#32)) 0#32) = 1#1

/-- It holds exactly at the first point of each slab. -/
theorem hcond5_0 : ∀ t : Fin cfg5.N, cond5_0 (grid5.coords t) ↔ t.val % 10 = 0 :=
  (by decide +kernel : ∀ t : Fin grid5.N, cond5_0 (grid5.coords t) ↔ t.val % 10 = 0)

/-! ## The staging memrefs at a point -/

abbrev VO5_2 : View sig .tc .vmem S1x4000x320 .f32 := (Memref.whole cc5_stg2_0 : Memref sig .tc .vmem S1x4000x320 .f32).view
abbrev ms5_0 (t : Fin cfg5.N) : Memref sig .tc .vmem S1x800x4000 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S800x320 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x4000x320 .f32 := win5_2.stage (cfg5.slots t 2)
abbrev hs5_2 (t : Fin cfg5.N) : (ms5_2 t).IsWhole := hstage5_2 ((cfg5.slots t 2).cast nbuf5_2)

/-! ## The body's run, case by case -/

set_option maxHeartbeats 1000000 in
/-- At k = 0: on whole staging memrefs, the inputs' at their contents and the output's at anything, the body runs and
    leaves the inputs as they were and the output's buffer written with the pieces the run finds. -/
noncomputable def kernelRun5_A (c : Dev nD) (i : grid5.Coords) (arg2 : Memref sig .tc .vmem S1x800x4000 .bf16) (harg2 : arg2.IsWhole)
    (arg3 : Memref sig .tc .vmem S800x320 .bf16) (harg3 : arg3.IsWhole) (arg4 : Memref sig .tc .vmem S1x4000x320 .f32) (harg4 : arg4.IsWhole)
    (hc0 : cond5_0 i) (x0 : Vec F S1x800x4000 .bf16) (x1 : Vec F S800x320 .bf16) :
    { L2 : List (View.Piece (Elt F) S1x4000x320 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc5__pvnv_kernel i arg2 harg2 arg3 harg3 arg4 harg4) K } := by
  refine ⟨?_, fun E K => ?run⟩
  case run =>
    simp only [cc5__pvnv_kernel_eq_skeleton]; unfold cc5__pvnv_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- At k ≠ 0: the same with the output's buffer at its running contents xo2, which the body reads before it stores. -/
noncomputable def kernelRun5_B (c : Dev nD) (i : grid5.Coords) (arg2 : Memref sig .tc .vmem S1x800x4000 .bf16) (harg2 : arg2.IsWhole)
    (arg3 : Memref sig .tc .vmem S800x320 .bf16) (harg3 : arg3.IsWhole) (arg4 : Memref sig .tc .vmem S1x4000x320 .f32) (harg4 : arg4.IsWhole)
    (hc0 : ¬cond5_0 i) (x0 : Vec F S1x800x4000 .bf16) (x1 : Vec F S800x320 .bf16) (xo2 : Vec F S1x4000x320 .f32) :
    { L2 : List (View.Piece (Elt F) S1x4000x320 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc5__pvnv_kernel i arg2 harg2 arg3 harg3 arg4 harg4) K } := by
  refine ⟨?_, fun E K => ?run⟩
  case run =>
    simp only [cc5__pvnv_kernel_eq_skeleton]; unfold cc5__pvnv_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

/-- At k = 0 the run's pieces tile the output block, so they cover it. -/
theorem cover5_A_2 (c : Dev nD) (i : grid5.Coords) (arg2 : Memref sig .tc .vmem S1x800x4000 .bf16) (harg2 : arg2.IsWhole)
    (arg3 : Memref sig .tc .vmem S800x320 .bf16) (harg3 : arg3.IsWhole) (arg4 : Memref sig .tc .vmem S1x4000x320 .f32) (harg4 : arg4.IsWhole)
    (hc0 : cond5_0 i) (x0 : Vec F S1x800x4000 .bf16) (x1 : Vec F S800x320 .bf16) (y : S1x4000x320.Idx) :
    ∃ pc ∈ (kernelRun5_A c i arg2 harg2 arg3 harg3 arg4 harg4 hc0 x0 x1).1, y ∈ pc.1.set :=
  View.cover_of_tiledL (kernelRun5_A c i arg2 harg2 arg3 harg3 arg4 harg4 hc0 x0 x1).1 S1x4000x320.size (by sl_kernel_rfl) y

/-- What the body leaves in the output's buffer at k = 0: its pieces read back. -/
def out5_A_2 (c : Dev nD) (i : grid5.Coords) (arg2 : Memref sig .tc .vmem S1x800x4000 .bf16) (harg2 : arg2.IsWhole)
    (arg3 : Memref sig .tc .vmem S800x320 .bf16) (harg3 : arg3.IsWhole) (arg4 : Memref sig .tc .vmem S1x4000x320 .f32) (harg4 : arg4.IsWhole)
    (hc0 : cond5_0 i) (x0 : Vec F S1x800x4000 .bf16) (x1 : Vec F S800x320 .bf16) : Vec F S1x4000x320 .f32 :=
  VO5_2.read (Elt F) (VO5_2.writes (Elt F) VO5_2.junk (kernelRun5_A c i arg2 harg2 arg3 harg3 arg4 harg4 hc0 x0 x1).1)

/-- At k ≠ 0 the run's pieces tile the output block, so they cover it. -/
theorem cover5_B_2 (c : Dev nD) (i : grid5.Coords) (arg2 : Memref sig .tc .vmem S1x800x4000 .bf16) (harg2 : arg2.IsWhole)
    (arg3 : Memref sig .tc .vmem S800x320 .bf16) (harg3 : arg3.IsWhole) (arg4 : Memref sig .tc .vmem S1x4000x320 .f32) (harg4 : arg4.IsWhole)
    (hc0 : ¬cond5_0 i) (x0 : Vec F S1x800x4000 .bf16) (x1 : Vec F S800x320 .bf16) (xo2 : Vec F S1x4000x320 .f32) (y : S1x4000x320.Idx) :
    ∃ pc ∈ (kernelRun5_B c i arg2 harg2 arg3 harg3 arg4 harg4 hc0 x0 x1 xo2).1, y ∈ pc.1.set :=
  View.cover_of_tiledL (kernelRun5_B c i arg2 harg2 arg3 harg3 arg4 harg4 hc0 x0 x1 xo2).1 S1x4000x320.size (by sl_kernel_rfl) y

/-- What the body leaves in the output's buffer at k ≠ 0, from the contents xo2 it found there. -/
def out5_B_2 (c : Dev nD) (i : grid5.Coords) (arg2 : Memref sig .tc .vmem S1x800x4000 .bf16) (harg2 : arg2.IsWhole)
    (arg3 : Memref sig .tc .vmem S800x320 .bf16) (harg3 : arg3.IsWhole) (arg4 : Memref sig .tc .vmem S1x4000x320 .f32) (harg4 : arg4.IsWhole)
    (hc0 : ¬cond5_0 i) (x0 : Vec F S1x800x4000 .bf16) (x1 : Vec F S800x320 .bf16) (xo2 : Vec F S1x4000x320 .f32) : Vec F S1x4000x320 .f32 :=
  VO5_2.read (Elt F) (VO5_2.writes (Elt F) VO5_2.junk (kernelRun5_B c i arg2 harg2 arg3 harg3 arg4 harg4 hc0 x0 x1 xo2).1)

section Region
variable (V : (c : Dev nD) → (b : Ref sig .tc) → Buf (Elt F) ((c : Thread nD τ).loc b))

/-! ## The windows' blocks, read off the arrays as the region finds them -/

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## What the output's buffer holds after each point -/

/-- The accumulation: the buffer after the body at position n. -/
def outsAt5 (c : Dev nD) : (n : ℕ) → n < cfg5.N → Vec F S1x4000x320 .f32
  | 0, hn => out5_A_2 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩)
      ((hcond5_0 ⟨0, hn⟩).mpr (Nat.zero_mod _)) (iblk5 V c 0 ⟨0, hn⟩) (iblk5 V c 1 ⟨0, hn⟩)
  | n + 1, hn =>
    if h0 : (n + 1) % 10 = 0 then
      out5_A_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩)
        ((hcond5_0 ⟨n + 1, hn⟩).mpr h0) (iblk5 V c 0 ⟨n + 1, hn⟩) (iblk5 V c 1 ⟨n + 1, hn⟩)
    else
      out5_B_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩)
        (fun h => h0 ((hcond5_0 ⟨n + 1, hn⟩).mp h)) (iblk5 V c 0 ⟨n + 1, hn⟩) (iblk5 V c 1 ⟨n + 1, hn⟩) (outsAt5 c n (Nat.lt_of_succ_lt hn))

theorem outsAt5_A (c : Dev nD) (t : Fin cfg5.N) (h0 : t.val % 10 = 0) :
    outsAt5 V c t.val t.isLt = out5_A_2 c (grid5.coords t) (ms5_0 t) (hs5_0 t) (ms5_1 t) (hs5_1 t) (ms5_2 t) (hs5_2 t)
      ((hcond5_0 t).mpr h0) (iblk5 V c 0 t) (iblk5 V c 1 t) := by
  obtain ⟨n, hn⟩ := t
  cases n with
  | zero => exact rfl
  | succ n => exact (dif_pos h0).trans rfl

theorem outsAt5_B (c : Dev nD) (t : Fin cfg5.N) (h0 : ¬t.val % 10 = 0) :
    outsAt5 V c t.val t.isLt = out5_B_2 c (grid5.coords t) (ms5_0 t) (hs5_0 t) (ms5_1 t) (hs5_1 t) (ms5_2 t) (hs5_2 t)
      (fun h => h0 ((hcond5_0 t).mp h)) (iblk5 V c 0 t) (iblk5 V c 1 t)
      (outsAt5 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => (outsAt5 V c t.val t.isLt)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = (outsAt5 V c t.val t.isLt) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- At k ≠ 0 the output's buffer holds what the body left at the point before: it was not written back between. -/
theorem before5_2_B (c : Dev nD) (t : Fin cfg5.N) (h0 : ¬t.val % 10 = 0) (d) :
    (dat5 V c).before 2 t d = (outsAt5 V c (t.val - 1) (Nat.lt_of_le_of_lt (Nat.sub_le _ _) t.isLt)) := by
  have hN : t.val < 20 := lt_of_lt_of_eq t.isLt (show cfg5.N = 20 from N_5)
  rw [Dat.before_out_kept _ 2 rfl t (by omega) (Bool.eq_false_iff.mpr fun h => by have := (flush5_2 _).mp h; dsimp only at this; omega)
    (fun _ => rfl) (fun _ _ => rfl)]
  dsimp only [dat5]

/-! ## The body obligation -/

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (ms5_0 t) fullShare ((dat5 V c).after 0 t)
    ∗ owns (c : Thread nD τ) (ms5_1 t) fullShare ((dat5 V c).after 1 t)
    ∗ owns (c : Thread nD τ) (ms5_2 t) fullShare ((dat5 V c).after 2 t))

set_option maxHeartbeats 800000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  have hN : t.val < 20 := lt_of_lt_of_eq t.isLt (show cfg5.N = 20 from N_5)
  by_cases h0 : t.val % 10 = 0
  · rw [outsAt5_A V c t h0]
    unfold out5_A_2
    iintro ⟨HΦ, Ho, ⟨%d0, H0⟩, ⟨%d1, H1⟩, ⟨%d2, H2⟩⟩
    iapply ((kernelRun5_A c (grid5.coords t) _ _ _ _ _ _ ((hcond5_0 t).mpr h0) (iblk5 V c 0 t) (iblk5 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover5_A_2 c _ _ _ _ _ _ _ _ _ _)
  · rw [outsAt5_B V c t h0]
    simp only [before5_2_B V c t h0]
    unfold out5_B_2
    iintro ⟨HΦ, Ho, ⟨%d0, H0⟩, ⟨%d1, H1⟩, ⟨%d2, H2⟩⟩
    iapply ((kernelRun5_B c (grid5.coords t) _ _ _ _ _ _ (fun h => h0 ((hcond5_0 t).mp h)) (iblk5 V c 0 t) (iblk5 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover5_B_2 c _ _ _ _ _ _ _ _ _ _ _)

theorem body_obligation5 (c : Dev nD) : BodyObligation (dat5 (F := F) V c) (defs₀ (F := F)) Variants.none () Set.univ := fun t => by
  rw [bigSep_W5, bigSep_W5]
  exact sound_body5 V c t

end Region

end Cert.Kernel.Hand

end
-- ==== Proof.KOuts.lean ====
/-
  What the six pallas regions leave behind, in order. Region K is entered with the buffers at a valuation that
  depends only on the outputs of regions 0 … K−1, so the outputs are defined stage by stage: oK is the final
  contents of region K's output array (its window's write-backs folded over the grid) computed from proof data
  stated at the entry valuation built from o0 … o(K−1); outsK is the table holding o0 … o(K−1). The last table is
  the one the whole-program valuations are read at, and at every entry point it agrees with the stage's table.
-/
import proofs.«154590_j17119739641884_2_alg».proof.Proof.Gen.Kernel.Regions
import proofs.«154590_j17119739641884_2_alg».proof.Proof.KAgg0
import proofs.«154590_j17119739641884_2_alg».proof.Proof.KPvnv1
import proofs.«154590_j17119739641884_2_alg».proof.Proof.KAgg2
import proofs.«154590_j17119739641884_2_alg».proof.Proof.KPvnv3
import proofs.«154590_j17119739641884_2_alg».proof.Proof.KAgg4
import proofs.«154590_j17119739641884_2_alg».proof.Proof.KPvnv5
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A valuation read at the TensorCore's references. -/
abbrev Vat (W : Dev nD → Valuation τ sig (Elt F)) : (c : Dev nD) → (b : Ref sig .tc) → Buf (Elt F) ((c : Thread nD τ).loc b) := fun c b => W c b

/-- Before any region has run: a table with nothing of interest in it (the launch contents). -/
def outs0 : Outs (F := F) := fun _ r c => m ((c : Thread nD τ).loc r)

/-- Region 0's output array after its last point. -/
def o0 (c : Dev nD) : Buf (Elt F) ((c : Thread nD τ).loc main_v7) := (dat0 (Vat (V1 m)) c).arrAt 4 cfg0.N
/-- The table after region 0. -/
def outs1 : Outs (F := F) := fun j r c => Function.update (fun r => outs0 m j r c) main_v7 (o0 m c) r

/-- Region 1's output array after its last point. -/
def o1 (c : Dev nD) : Buf (Elt F) ((c : Thread nD τ).loc main_v16) := (dat1 (Vat (V5 m (outs1 m))) c).arrAt 2 cfg1.N
/-- The table after region 1. -/
def outs2 : Outs (F := F) := fun j r c => Function.update (fun r => outs1 m j r c) main_v16 (o1 m c) r

/-- Region 2's output array after its last point. -/
def o2 (c : Dev nD) : Buf (Elt F) ((c : Thread nD τ).loc main_v37) := (dat2 (Vat (V11 m (outs2 m))) c).arrAt 4 cfg2.N
/-- The table after region 2. -/
def outs3 : Outs (F := F) := fun j r c => Function.update (fun r => outs2 m j r c) main_v37 (o2 m c) r

/-- Region 3's output array after its last point. -/
def o3 (c : Dev nD) : Buf (Elt F) ((c : Thread nD τ).loc main_v46) := (dat3 (Vat (V15 m (outs3 m))) c).arrAt 2 cfg3.N
/-- The table after region 3. -/
def outs4 : Outs (F := F) := fun j r c => Function.update (fun r => outs3 m j r c) main_v46 (o3 m c) r

/-- Region 4's output array after its last point. -/
def o4 (c : Dev nD) : Buf (Elt F) ((c : Thread nD τ).loc main_v67) := (dat4 (Vat (V21 m (outs4 m))) c).arrAt 4 cfg4.N
/-- The table after region 4. -/
def outs5 : Outs (F := F) := fun j r c => Function.update (fun r => outs4 m j r c) main_v67 (o4 m c) r

/-- Region 5's output array after its last point. -/
def o5 (c : Dev nD) : Buf (Elt F) ((c : Thread nD τ).loc main_v76) := (dat5 (Vat (V25 m (outs5 m))) c).arrAt 2 cfg5.N
/-- The table after region 5. -/
def outs6 : Outs (F := F) := fun j r c => Function.update (fun r => outs5 m j r c) main_v76 (o5 m c) r

/-- The table after the last region: what the program's valuations are read at. -/
abbrev outs : Outs (F := F) := outs6 m

/-! ## Reading the tables -/
theorem outs1_main_v7 (j : ℕ) (c : Dev nD) : outs1 m j main_v7 c = o0 m c := by
  unfold outs1; exact Function.update_self ..
theorem outs2_main_v7 (j : ℕ) (c : Dev nD) : outs2 m j main_v7 c = o0 m c := by
  unfold outs2; exact (Function.update_of_ne (by decide : main_v7 ≠ main_v16) ..).trans (outs1_main_v7 m j c)
theorem outs3_main_v7 (j : ℕ) (c : Dev nD) : outs3 m j main_v7 c = o0 m c := by
  unfold outs3; exact (Function.update_of_ne (by decide : main_v7 ≠ main_v37) ..).trans (outs2_main_v7 m j c)
theorem outs4_main_v7 (j : ℕ) (c : Dev nD) : outs4 m j main_v7 c = o0 m c := by
  unfold outs4; exact (Function.update_of_ne (by decide : main_v7 ≠ main_v46) ..).trans (outs3_main_v7 m j c)
theorem outs5_main_v7 (j : ℕ) (c : Dev nD) : outs5 m j main_v7 c = o0 m c := by
  unfold outs5; exact (Function.update_of_ne (by decide : main_v7 ≠ main_v67) ..).trans (outs4_main_v7 m j c)
theorem outs6_main_v7 (j : ℕ) (c : Dev nD) : outs6 m j main_v7 c = o0 m c := by
  unfold outs6; exact (Function.update_of_ne (by decide : main_v7 ≠ main_v76) ..).trans (outs5_main_v7 m j c)
theorem outs2_main_v16 (j : ℕ) (c : Dev nD) : outs2 m j main_v16 c = o1 m c := by
  unfold outs2; exact Function.update_self ..
theorem outs3_main_v16 (j : ℕ) (c : Dev nD) : outs3 m j main_v16 c = o1 m c := by
  unfold outs3; exact (Function.update_of_ne (by decide : main_v16 ≠ main_v37) ..).trans (outs2_main_v16 m j c)
theorem outs4_main_v16 (j : ℕ) (c : Dev nD) : outs4 m j main_v16 c = o1 m c := by
  unfold outs4; exact (Function.update_of_ne (by decide : main_v16 ≠ main_v46) ..).trans (outs3_main_v16 m j c)
theorem outs5_main_v16 (j : ℕ) (c : Dev nD) : outs5 m j main_v16 c = o1 m c := by
  unfold outs5; exact (Function.update_of_ne (by decide : main_v16 ≠ main_v67) ..).trans (outs4_main_v16 m j c)
theorem outs6_main_v16 (j : ℕ) (c : Dev nD) : outs6 m j main_v16 c = o1 m c := by
  unfold outs6; exact (Function.update_of_ne (by decide : main_v16 ≠ main_v76) ..).trans (outs5_main_v16 m j c)
theorem outs3_main_v37 (j : ℕ) (c : Dev nD) : outs3 m j main_v37 c = o2 m c := by
  unfold outs3; exact Function.update_self ..
theorem outs4_main_v37 (j : ℕ) (c : Dev nD) : outs4 m j main_v37 c = o2 m c := by
  unfold outs4; exact (Function.update_of_ne (by decide : main_v37 ≠ main_v46) ..).trans (outs3_main_v37 m j c)
theorem outs5_main_v37 (j : ℕ) (c : Dev nD) : outs5 m j main_v37 c = o2 m c := by
  unfold outs5; exact (Function.update_of_ne (by decide : main_v37 ≠ main_v67) ..).trans (outs4_main_v37 m j c)
theorem outs6_main_v37 (j : ℕ) (c : Dev nD) : outs6 m j main_v37 c = o2 m c := by
  unfold outs6; exact (Function.update_of_ne (by decide : main_v37 ≠ main_v76) ..).trans (outs5_main_v37 m j c)
theorem outs4_main_v46 (j : ℕ) (c : Dev nD) : outs4 m j main_v46 c = o3 m c := by
  unfold outs4; exact Function.update_self ..
theorem outs5_main_v46 (j : ℕ) (c : Dev nD) : outs5 m j main_v46 c = o3 m c := by
  unfold outs5; exact (Function.update_of_ne (by decide : main_v46 ≠ main_v67) ..).trans (outs4_main_v46 m j c)
theorem outs6_main_v46 (j : ℕ) (c : Dev nD) : outs6 m j main_v46 c = o3 m c := by
  unfold outs6; exact (Function.update_of_ne (by decide : main_v46 ≠ main_v76) ..).trans (outs5_main_v46 m j c)
theorem outs5_main_v67 (j : ℕ) (c : Dev nD) : outs5 m j main_v67 c = o4 m c := by
  unfold outs5; exact Function.update_self ..
theorem outs6_main_v67 (j : ℕ) (c : Dev nD) : outs6 m j main_v67 c = o4 m c := by
  unfold outs6; exact (Function.update_of_ne (by decide : main_v67 ≠ main_v76) ..).trans (outs5_main_v67 m j c)
theorem outs6_main_v76 (j : ℕ) (c : Dev nD) : outs6 m j main_v76 c = o5 m c := by
  unfold outs6; exact Function.update_self ..

/-! ## An entry valuation depends only on the outputs before it -/
theorem V5_congr (o o' : Outs (F := F)) (c : Dev nD) (h0 : o 2 main_v7 c = o' 2 main_v7 c) :
    V5 m o c = V5 m o' c := by
  unfold V5 V4 V3 V2; rw [h0]
theorem Vin1_eq (c : Dev nD) : V5 m (outs m) c = V5 m (outs1 m) c :=
  V5_congr m _ _ c ((outs6_main_v7 m 2 c).trans (outs1_main_v7 m 2 c).symm)
theorem V11_congr (o o' : Outs (F := F)) (c : Dev nD) (h0 : o 2 main_v7 c = o' 2 main_v7 c) (h1 : o 6 main_v16 c = o' 6 main_v16 c) :
    V11 m o c = V11 m o' c := by
  unfold V11 V10 V9 V8 V7 V6 V5 V4 V3 V2; rw [h0, h1]
theorem Vin2_eq (c : Dev nD) : V11 m (outs m) c = V11 m (outs2 m) c :=
  V11_congr m _ _ c ((outs6_main_v7 m 2 c).trans (outs2_main_v7 m 2 c).symm) ((outs6_main_v16 m 6 c).trans (outs2_main_v16 m 6 c).symm)
theorem V15_congr (o o' : Outs (F := F)) (c : Dev nD) (h0 : o 2 main_v7 c = o' 2 main_v7 c) (h1 : o 6 main_v16 c = o' 6 main_v16 c) (h2 : o 12 main_v37 c = o' 12 main_v37 c) :
    V15 m o c = V15 m o' c := by
  unfold V15 V14 V13 V12 V11 V10 V9 V8 V7 V6 V5 V4 V3 V2; rw [h0, h1, h2]
theorem Vin3_eq (c : Dev nD) : V15 m (outs m) c = V15 m (outs3 m) c :=
  V15_congr m _ _ c ((outs6_main_v7 m 2 c).trans (outs3_main_v7 m 2 c).symm) ((outs6_main_v16 m 6 c).trans (outs3_main_v16 m 6 c).symm) ((outs6_main_v37 m 12 c).trans (outs3_main_v37 m 12 c).symm)
theorem V21_congr (o o' : Outs (F := F)) (c : Dev nD) (h0 : o 2 main_v7 c = o' 2 main_v7 c) (h1 : o 6 main_v16 c = o' 6 main_v16 c) (h2 : o 12 main_v37 c = o' 12 main_v37 c) (h3 : o 16 main_v46 c = o' 16 main_v46 c) :
    V21 m o c = V21 m o' c := by
  unfold V21 V20 V19 V18 V17 V16 V15 V14 V13 V12 V11 V10 V9 V8 V7 V6 V5 V4 V3 V2; rw [h0, h1, h2, h3]
theorem Vin4_eq (c : Dev nD) : V21 m (outs m) c = V21 m (outs4 m) c :=
  V21_congr m _ _ c ((outs6_main_v7 m 2 c).trans (outs4_main_v7 m 2 c).symm) ((outs6_main_v16 m 6 c).trans (outs4_main_v16 m 6 c).symm) ((outs6_main_v37 m 12 c).trans (outs4_main_v37 m 12 c).symm) ((outs6_main_v46 m 16 c).trans (outs4_main_v46 m 16 c).symm)
theorem V25_congr (o o' : Outs (F := F)) (c : Dev nD) (h0 : o 2 main_v7 c = o' 2 main_v7 c) (h1 : o 6 main_v16 c = o' 6 main_v16 c) (h2 : o 12 main_v37 c = o' 12 main_v37 c) (h3 : o 16 main_v46 c = o' 16 main_v46 c) (h4 : o 22 main_v67 c = o' 22 main_v67 c) :
    V25 m o c = V25 m o' c := by
  unfold V25 V24 V23 V22 V21 V20 V19 V18 V17 V16 V15 V14 V13 V12 V11 V10 V9 V8 V7 V6 V5 V4 V3 V2; rw [h0, h1, h2, h3, h4]
theorem Vin5_eq (c : Dev nD) : V25 m (outs m) c = V25 m (outs5 m) c :=
  V25_congr m _ _ c ((outs6_main_v7 m 2 c).trans (outs5_main_v7 m 2 c).symm) ((outs6_main_v16 m 6 c).trans (outs5_main_v16 m 6 c).symm) ((outs6_main_v37 m 12 c).trans (outs5_main_v37 m 12 c).symm) ((outs6_main_v46 m 16 c).trans (outs5_main_v46 m 16 c).symm) ((outs6_main_v67 m 22 c).trans (outs5_main_v67 m 22 c).symm)

/-! ## The proof data of the six pipelines, each at its region's entry valuation -/

def pdats : (p : Fin 6) → (c : Dev nD) → Dat τ (Elt F) Unit ℕ (UR sig nD τ) ℕ (cfgs p) c
  | ⟨0, _⟩ => fun c => dat0 (Vat (V1 m)) c
  | ⟨1, _⟩ => fun c => dat1 (Vat (V5 m (outs1 m))) c
  | ⟨2, _⟩ => fun c => dat2 (Vat (V11 m (outs2 m))) c
  | ⟨3, _⟩ => fun c => dat3 (Vat (V15 m (outs3 m))) c
  | ⟨4, _⟩ => fun c => dat4 (Vat (V21 m (outs4 m))) c
  | ⟨5, _⟩ => fun c => dat5 (Vat (V25 m (outs5 m))) c

/-! ## What rides beside the buffers through every segment -/

/-- No core owes another anything: no level is assigned. -/
abbrev noLv : GSem nD τ sig → Finset Unit := fun _ => ∅
abbrev lv0 : GSem nD τ sig → Unit → ℕ := fun _ _ => 0
/-- The core's generator register at some state, and its dues at nothing. -/
abbrev Rest (c : Dev nD) : sProp 𝕄 := iprop((∃ r, prngReg c r) ∗ ∃ W, owes (c : Thread nD τ) (0 : CellTallies nD τ sig Unit) W)

end Cert.Kernel.Hand

end
-- ==== Proof.KReg0.lean ====
/-
  Pallas region 0 as one segment of the program's run. It is entered with every unscoped buffer held at the entry
  valuation and left with them held at the exit valuation, which differs from the entry one only at the region's
  output array: that array ends at the fold of its window's write-backs (o0), every input array and every buffer
  the region does not stage ends as it was. The region owes nothing and has no semaphore of its own; the generator
  register passes through the pipeline's invariant untouched.
-/
import proofs.«154590_j17119739641884_2_alg».proof.Proof.KOuts

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Outside the output array the exit valuation is the entry valuation. -/
theorem hkeep0 (c : Dev nD) (b : Ref sig .tc) (hb : b ≠ main_v7) : Vat (V1 m) c b = Vat (V2 m (outs m)) c b := by
  show V1 m c b = V2 m (outs m) c b
  rw [V2_of m (outs m) c b (fun h => hb (List.mem_singleton.mp h))]

/-- At the output array the exit valuation holds the fold of the write-backs. -/
theorem hout0 (c : Dev nD) : Vat (V2 m (outs m)) c main_v7 = (pdats m 0 c).arrAt 4 cfg0.N := by
  show Function.update _ _ _ _ = _
  rw [Function.update_self]
  exact outs6_main_v7 m _ c

set_option maxHeartbeats 4000000 in
theorem hF0 (c : Dev nD) : ∀ w : Fin 5, (pdats m 0 c).arrAt w cfg0.N = Vat (V2 m (outs m)) c (Pipeline.arrRef spec0 w) := fun
  | 0 => (((pdats m 0 c).arrAt_in 0 rfl _).trans (A_eq0 _ c 0)).trans (hkeep0 m c _ (by decide))
  | 1 => (((pdats m 0 c).arrAt_in 1 rfl _).trans (A_eq0 _ c 1)).trans (hkeep0 m c _ (by decide))
  | 2 => (((pdats m 0 c).arrAt_in 2 rfl _).trans (A_eq0 _ c 2)).trans (hkeep0 m c _ (by decide))
  | 3 => (((pdats m 0 c).arrAt_in 3 rfl _).trans (A_eq0 _ c 3)).trans (hkeep0 m c _ (by decide))
  | 4 => (hout0 m c).symm
  | ⟨_ + 5, h⟩ => absurd h (Nat.not_lt.2 (Nat.le_add_left _ _))

theorem hrest0 (c : Dev nD) : ∀ b, b ∉ Finset.univ.image (Pipeline.arrRef spec0) → Vat (V2 m (outs m)) c b = Vat (V1 m) c b :=
  fun b hb => (hkeep0 m c b (fun e => hb (Finset.mem_image.mpr ⟨4, Finset.mem_univ _, e.symm⟩))).symm

set_option backward.isDefEq.respectTransparency.types false in
def reg0 : Pipeline.RegionSeg (pcfgs (F := F)) adm (pdats m) () defs₀ Variants.none noLv lv0 0 where
  win := launch0.win.to₀
  block_pos := launch0.block_pos
  stage_whole := launch0.stage_whole
  K := PEmpty
  osem k := k.elim
  ho := Pipeline.OwnSemFacts.none _
  hbody c := (body_obligation0 (Vat (V1 m)) c).loose
  hwaits := Pipeline.hwaits_of_owed_zero _ _ _ _ noLv lv0 0 fun _ _ => rfl
  pre c := iprop(StableHlo.held (c : Thread nD τ) (Pipeline.ucRefs τ sig) (V1 m c) ∗ Rest c)
  post c := iprop(StableHlo.held (c : Thread nD τ) (Pipeline.ucRefs τ sig) (V2 m (outs m) c) ∗ Rest c)
  X c := iprop(∃ r, prngReg c r)
  Y c := iprop(∃ r, prngReg c r)
  Z c := Pipeline.unscopedRest (Ix := Unit) (Name := ℕ) (U := UR sig nD τ) (Lvl := ℕ) spec0 c (Vat (V1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vat (V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vat (V1 m) c) (Vat (V2 m (outs m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KReg1.lean ====
/-
  Pallas region 1 as one segment of the program's run. It is entered with every unscoped buffer held at the entry
  valuation and left with them held at the exit valuation, which differs from the entry one only at the region's
  output array: that array ends at the fold of its window's write-backs (o1), every input array and every buffer
  the region does not stage ends as it was. The region owes nothing and has no semaphore of its own; the generator
  register passes through the pipeline's invariant untouched.
-/
import proofs.«154590_j17119739641884_2_alg».proof.Proof.KOuts

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Outside the output array the exit valuation is the entry valuation. -/
theorem hkeep1 (c : Dev nD) (b : Ref sig .tc) (hb : b ≠ main_v16) : Vat (V5 m (outs1 m)) c b = Vat (V6 m (outs m)) c b := by
  show V5 m (outs1 m) c b = V6 m (outs m) c b
  rw [V6_of m (outs m) c b (fun h => hb (List.mem_singleton.mp h)), Vin1_eq m c]

/-- At the output array the exit valuation holds the fold of the write-backs. -/
theorem hout1 (c : Dev nD) : Vat (V6 m (outs m)) c main_v16 = (pdats m 1 c).arrAt 2 cfg1.N := by
  show Function.update _ _ _ _ = _
  rw [Function.update_self]
  exact outs6_main_v16 m _ c

set_option maxHeartbeats 4000000 in
theorem hF1 (c : Dev nD) : ∀ w : Fin 3, (pdats m 1 c).arrAt w cfg1.N = Vat (V6 m (outs m)) c (Pipeline.arrRef spec1 w) := fun
  | 0 => (((pdats m 1 c).arrAt_in 0 rfl _).trans (A_eq1 _ c 0)).trans (hkeep1 m c _ (by decide))
  | 1 => (((pdats m 1 c).arrAt_in 1 rfl _).trans (A_eq1 _ c 1)).trans (hkeep1 m c _ (by decide))
  | 2 => (hout1 m c).symm
  | ⟨_ + 3, h⟩ => absurd h (Nat.not_lt.2 (Nat.le_add_left _ _))

theorem hrest1 (c : Dev nD) : ∀ b, b ∉ Finset.univ.image (Pipeline.arrRef spec1) → Vat (V6 m (outs m)) c b = Vat (V5 m (outs1 m)) c b :=
  fun b hb => (hkeep1 m c b (fun e => hb (Finset.mem_image.mpr ⟨2, Finset.mem_univ _, e.symm⟩))).symm

set_option backward.isDefEq.respectTransparency.types false in
def reg1 : Pipeline.RegionSeg (pcfgs (F := F)) adm (pdats m) () defs₀ Variants.none noLv lv0 1 where
  win := launch1.win.to₀
  block_pos := launch1.block_pos
  stage_whole := launch1.stage_whole
  K := PEmpty
  osem k := k.elim
  ho := Pipeline.OwnSemFacts.none _
  hbody c := (body_obligation1 (Vat (V5 m (outs1 m))) c).loose
  hwaits := Pipeline.hwaits_of_owed_zero _ _ _ _ noLv lv0 1 fun _ _ => rfl
  pre c := iprop(StableHlo.held (c : Thread nD τ) (Pipeline.ucRefs τ sig) (V5 m (outs1 m) c) ∗ Rest c)
  post c := iprop(StableHlo.held (c : Thread nD τ) (Pipeline.ucRefs τ sig) (V6 m (outs m) c) ∗ Rest c)
  X c := iprop(∃ r, prngReg c r)
  Y c := iprop(∃ r, prngReg c r)
  Z c := Pipeline.unscopedRest (Ix := Unit) (Name := ℕ) (U := UR sig nD τ) (Lvl := ℕ) spec1 c (Vat (V5 m (outs1 m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vat (V5 m (outs1 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vat (V5 m (outs1 m)) c) (Vat (V6 m (outs m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KReg2.lean ====
/-
  Pallas region 2 as one segment of the program's run. It is entered with every unscoped buffer held at the entry
  valuation and left with them held at the exit valuation, which differs from the entry one only at the region's
  output array: that array ends at the fold of its window's write-backs (o2), every input array and every buffer
  the region does not stage ends as it was. The region owes nothing and has no semaphore of its own; the generator
  register passes through the pipeline's invariant untouched.
-/
import proofs.«154590_j17119739641884_2_alg».proof.Proof.KOuts

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Outside the output array the exit valuation is the entry valuation. -/
theorem hkeep2 (c : Dev nD) (b : Ref sig .tc) (hb : b ≠ main_v37) : Vat (V11 m (outs2 m)) c b = Vat (V12 m (outs m)) c b := by
  show V11 m (outs2 m) c b = V12 m (outs m) c b
  rw [V12_of m (outs m) c b (fun h => hb (List.mem_singleton.mp h)), Vin2_eq m c]

/-- At the output array the exit valuation holds the fold of the write-backs. -/
theorem hout2 (c : Dev nD) : Vat (V12 m (outs m)) c main_v37 = (pdats m 2 c).arrAt 4 cfg2.N := by
  show Function.update _ _ _ _ = _
  rw [Function.update_self]
  exact outs6_main_v37 m _ c

set_option maxHeartbeats 4000000 in
theorem hF2 (c : Dev nD) : ∀ w : Fin 5, (pdats m 2 c).arrAt w cfg2.N = Vat (V12 m (outs m)) c (Pipeline.arrRef spec2 w) := fun
  | 0 => (((pdats m 2 c).arrAt_in 0 rfl _).trans (A_eq2 _ c 0)).trans (hkeep2 m c _ (by decide))
  | 1 => (((pdats m 2 c).arrAt_in 1 rfl _).trans (A_eq2 _ c 1)).trans (hkeep2 m c _ (by decide))
  | 2 => (((pdats m 2 c).arrAt_in 2 rfl _).trans (A_eq2 _ c 2)).trans (hkeep2 m c _ (by decide))
  | 3 => (((pdats m 2 c).arrAt_in 3 rfl _).trans (A_eq2 _ c 3)).trans (hkeep2 m c _ (by decide))
  | 4 => (hout2 m c).symm
  | ⟨_ + 5, h⟩ => absurd h (Nat.not_lt.2 (Nat.le_add_left _ _))

theorem hrest2 (c : Dev nD) : ∀ b, b ∉ Finset.univ.image (Pipeline.arrRef spec2) → Vat (V12 m (outs m)) c b = Vat (V11 m (outs2 m)) c b :=
  fun b hb => (hkeep2 m c b (fun e => hb (Finset.mem_image.mpr ⟨4, Finset.mem_univ _, e.symm⟩))).symm

set_option backward.isDefEq.respectTransparency.types false in
def reg2 : Pipeline.RegionSeg (pcfgs (F := F)) adm (pdats m) () defs₀ Variants.none noLv lv0 2 where
  win := launch2.win.to₀
  block_pos := launch2.block_pos
  stage_whole := launch2.stage_whole
  K := PEmpty
  osem k := k.elim
  ho := Pipeline.OwnSemFacts.none _
  hbody c := (body_obligation2 (Vat (V11 m (outs2 m))) c).loose
  hwaits := Pipeline.hwaits_of_owed_zero _ _ _ _ noLv lv0 2 fun _ _ => rfl
  pre c := iprop(StableHlo.held (c : Thread nD τ) (Pipeline.ucRefs τ sig) (V11 m (outs2 m) c) ∗ Rest c)
  post c := iprop(StableHlo.held (c : Thread nD τ) (Pipeline.ucRefs τ sig) (V12 m (outs m) c) ∗ Rest c)
  X c := iprop(∃ r, prngReg c r)
  Y c := iprop(∃ r, prngReg c r)
  Z c := Pipeline.unscopedRest (Ix := Unit) (Name := ℕ) (U := UR sig nD τ) (Lvl := ℕ) spec2 c (Vat (V11 m (outs2 m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vat (V11 m (outs2 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vat (V11 m (outs2 m)) c) (Vat (V12 m (outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KReg3.lean ====
/-
  Pallas region 3 as one segment of the program's run. It is entered with every unscoped buffer held at the entry
  valuation and left with them held at the exit valuation, which differs from the entry one only at the region's
  output array: that array ends at the fold of its window's write-backs (o3), every input array and every buffer
  the region does not stage ends as it was. The region owes nothing and has no semaphore of its own; the generator
  register passes through the pipeline's invariant untouched.
-/
import proofs.«154590_j17119739641884_2_alg».proof.Proof.KOuts

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Outside the output array the exit valuation is the entry valuation. -/
theorem hkeep3 (c : Dev nD) (b : Ref sig .tc) (hb : b ≠ main_v46) : Vat (V15 m (outs3 m)) c b = Vat (V16 m (outs m)) c b := by
  show V15 m (outs3 m) c b = V16 m (outs m) c b
  rw [V16_of m (outs m) c b (fun h => hb (List.mem_singleton.mp h)), Vin3_eq m c]

/-- At the output array the exit valuation holds the fold of the write-backs. -/
theorem hout3 (c : Dev nD) : Vat (V16 m (outs m)) c main_v46 = (pdats m 3 c).arrAt 2 cfg3.N := by
  show Function.update _ _ _ _ = _
  rw [Function.update_self]
  exact outs6_main_v46 m _ c

set_option maxHeartbeats 4000000 in
theorem hF3 (c : Dev nD) : ∀ w : Fin 3, (pdats m 3 c).arrAt w cfg3.N = Vat (V16 m (outs m)) c (Pipeline.arrRef spec3 w) := fun
  | 0 => (((pdats m 3 c).arrAt_in 0 rfl _).trans (A_eq3 _ c 0)).trans (hkeep3 m c _ (by decide))
  | 1 => (((pdats m 3 c).arrAt_in 1 rfl _).trans (A_eq3 _ c 1)).trans (hkeep3 m c _ (by decide))
  | 2 => (hout3 m c).symm
  | ⟨_ + 3, h⟩ => absurd h (Nat.not_lt.2 (Nat.le_add_left _ _))

theorem hrest3 (c : Dev nD) : ∀ b, b ∉ Finset.univ.image (Pipeline.arrRef spec3) → Vat (V16 m (outs m)) c b = Vat (V15 m (outs3 m)) c b :=
  fun b hb => (hkeep3 m c b (fun e => hb (Finset.mem_image.mpr ⟨2, Finset.mem_univ _, e.symm⟩))).symm

set_option backward.isDefEq.respectTransparency.types false in
def reg3 : Pipeline.RegionSeg (pcfgs (F := F)) adm (pdats m) () defs₀ Variants.none noLv lv0 3 where
  win := launch3.win.to₀
  block_pos := launch3.block_pos
  stage_whole := launch3.stage_whole
  K := PEmpty
  osem k := k.elim
  ho := Pipeline.OwnSemFacts.none _
  hbody c := (body_obligation3 (Vat (V15 m (outs3 m))) c).loose
  hwaits := Pipeline.hwaits_of_owed_zero _ _ _ _ noLv lv0 3 fun _ _ => rfl
  pre c := iprop(StableHlo.held (c : Thread nD τ) (Pipeline.ucRefs τ sig) (V15 m (outs3 m) c) ∗ Rest c)
  post c := iprop(StableHlo.held (c : Thread nD τ) (Pipeline.ucRefs τ sig) (V16 m (outs m) c) ∗ Rest c)
  X c := iprop(∃ r, prngReg c r)
  Y c := iprop(∃ r, prngReg c r)
  Z c := Pipeline.unscopedRest (Ix := Unit) (Name := ℕ) (U := UR sig nD τ) (Lvl := ℕ) spec3 c (Vat (V15 m (outs3 m)) c)
  hentry c := by
    rw [Pipeline.ownSems0_none]
    have hsplit := Pipeline.arrays_of_unscopedBufs (p := 3) (pcfgs (F := F)) adm (pdats m) launch3.win launch3.arr_whole c
      ((pdats m 3 c).share_full fun _ => rfl) (Vat (V15 m (outs3 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Vat (V15 m (outs3 m)) c) (Vat (V16 m (outs m)) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KReg4.lean ====
/-
  Pallas region 4 as one segment of the program's run. It is entered with every unscoped buffer held at the entry
  valuation and left with them held at the exit valuation, which differs from the entry one only at the region's
  output array: that array ends at the fold of its window's write-backs (o4), every input array and every buffer
  the region does not stage ends as it was. The region owes nothing and has no semaphore of its own; the generator
  register passes through the pipeline's invariant untouched.
-/
import proofs.«154590_j17119739641884_2_alg».proof.Proof.KOuts

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Outside the output array the exit valuation is the entry valuation. -/
theorem hkeep4 (c : Dev nD) (b : Ref sig .tc) (hb : b ≠ main_v67) : Vat (V21 m (outs4 m)) c b = Vat (V22 m (outs m)) c b := by
  show V21 m (outs4 m) c b = V22 m (outs m) c b
  rw [V22_of m (outs m) c b (fun h => hb (List.mem_singleton.mp h)), Vin4_eq m c]

/-- At the output array the exit valuation holds the fold of the write-backs. -/
theorem hout4 (c : Dev nD) : Vat (V22 m (outs m)) c main_v67 = (pdats m 4 c).arrAt 4 cfg4.N := by
  show Function.update _ _ _ _ = _
  rw [Function.update_self]
  exact outs6_main_v67 m _ c

set_option maxHeartbeats 4000000 in
theorem hF4 (c : Dev nD) : ∀ w : Fin 5, (pdats m 4 c).arrAt w cfg4.N = Vat (V22 m (outs m)) c (Pipeline.arrRef spec4 w) := fun
  | 0 => (((pdats m 4 c).arrAt_in 0 rfl _).trans (A_eq4 _ c 0)).trans (hkeep4 m c _ (by decide))
  | 1 => (((pdats m 4 c).arrAt_in 1 rfl _).trans (A_eq4 _ c 1)).trans (hkeep4 m c _ (by decide))
  | 2 => (((pdats m 4 c).arrAt_in 2 rfl _).trans (A_eq4 _ c 2)).trans (hkeep4 m c _ (by decide))
  | 3 => (((pdats m 4 c).arrAt_in 3 rfl _).trans (A_eq4 _ c 3)).trans (hkeep4 m c _ (by decide))
  | 4 => (hout4 m c).symm
  | ⟨_ + 5, h⟩ => absurd h (Nat.not_lt.2 (Nat.le_add_left _ _))

theorem hrest4 (c : Dev nD) : ∀ b, b ∉ Finset.univ.image (Pipeline.arrRef spec4) → Vat (V22 m (outs m)) c b = Vat (V21 m (outs4 m)) c b :=
  fun b hb => (hkeep4 m c b (fun e => hb (Finset.mem_image.mpr ⟨4, Finset.mem_univ _, e.symm⟩))).symm

set_option backward.isDefEq.respectTransparency.types false in
def reg4 : Pipeline.RegionSeg (pcfgs (F := F)) adm (pdats m) () defs₀ Variants.none noLv lv0 4 where
  win := launch4.win.to₀
  block_pos := launch4.block_pos
  stage_whole := launch4.stage_whole
  K := PEmpty
  osem k := k.elim
  ho := Pipeline.OwnSemFacts.none _
  hbody c := (body_obligation4 (Vat (V21 m (outs4 m))) c).loose
  hwaits := Pipeline.hwaits_of_owed_zero _ _ _ _ noLv lv0 4 fun _ _ => rfl
  pre c := iprop(StableHlo.held (c : Thread nD τ) (Pipeline.ucRefs τ sig) (V21 m (outs4 m) c) ∗ Rest c)
  post c := iprop(StableHlo.held (c : Thread nD τ) (Pipeline.ucRefs τ sig) (V22 m (outs m) c) ∗ Rest c)
  X c := iprop(∃ r, prngReg c r)
  Y c := iprop(∃ r, prngReg c r)
  Z c := Pipeline.unscopedRest (Ix := Unit) (Name := ℕ) (U := UR sig nD τ) (Lvl := ℕ) spec4 c (Vat (V21 m (outs4 m)) c)
  hentry c := by
    rw [Pipeline.ownSems0_none]
    have hsplit := Pipeline.arrays_of_unscopedBufs (p := 4) (pcfgs (F := F)) adm (pdats m) launch4.win launch4.arr_whole c
      ((pdats m 4 c).share_full fun _ => rfl) (Vat (V21 m (outs4 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Vat (V21 m (outs4 m)) c) (Vat (V22 m (outs m)) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KReg5.lean ====
/-
  Pallas region 5 as one segment of the program's run. It is entered with every unscoped buffer held at the entry
  valuation and left with them held at the exit valuation, which differs from the entry one only at the region's
  output array: that array ends at the fold of its window's write-backs (o5), every input array and every buffer
  the region does not stage ends as it was. The region owes nothing and has no semaphore of its own; the generator
  register passes through the pipeline's invariant untouched.
-/
import proofs.«154590_j17119739641884_2_alg».proof.Proof.KOuts

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Outside the output array the exit valuation is the entry valuation. -/
theorem hkeep5 (c : Dev nD) (b : Ref sig .tc) (hb : b ≠ main_v76) : Vat (V25 m (outs5 m)) c b = Vat (V26 m (outs m)) c b := by
  show V25 m (outs5 m) c b = V26 m (outs m) c b
  rw [V26_of m (outs m) c b (fun h => hb (List.mem_singleton.mp h)), Vin5_eq m c]

/-- At the output array the exit valuation holds the fold of the write-backs. -/
theorem hout5 (c : Dev nD) : Vat (V26 m (outs m)) c main_v76 = (pdats m 5 c).arrAt 2 cfg5.N := by
  show Function.update _ _ _ _ = _
  rw [Function.update_self]
  exact outs6_main_v76 m _ c

set_option maxHeartbeats 4000000 in
theorem hF5 (c : Dev nD) : ∀ w : Fin 3, (pdats m 5 c).arrAt w cfg5.N = Vat (V26 m (outs m)) c (Pipeline.arrRef spec5 w) := fun
  | 0 => (((pdats m 5 c).arrAt_in 0 rfl _).trans (A_eq5 _ c 0)).trans (hkeep5 m c _ (by decide))
  | 1 => (((pdats m 5 c).arrAt_in 1 rfl _).trans (A_eq5 _ c 1)).trans (hkeep5 m c _ (by decide))
  | 2 => (hout5 m c).symm
  | ⟨_ + 3, h⟩ => absurd h (Nat.not_lt.2 (Nat.le_add_left _ _))

theorem hrest5 (c : Dev nD) : ∀ b, b ∉ Finset.univ.image (Pipeline.arrRef spec5) → Vat (V26 m (outs m)) c b = Vat (V25 m (outs5 m)) c b :=
  fun b hb => (hkeep5 m c b (fun e => hb (Finset.mem_image.mpr ⟨2, Finset.mem_univ _, e.symm⟩))).symm

set_option backward.isDefEq.respectTransparency.types false in
def reg5 : Pipeline.RegionSeg (pcfgs (F := F)) adm (pdats m) () defs₀ Variants.none noLv lv0 5 where
  win := launch5.win.to₀
  block_pos := launch5.block_pos
  stage_whole := launch5.stage_whole
  K := PEmpty
  osem k := k.elim
  ho := Pipeline.OwnSemFacts.none _
  hbody c := (body_obligation5 (Vat (V25 m (outs5 m))) c).loose
  hwaits := Pipeline.hwaits_of_owed_zero _ _ _ _ noLv lv0 5 fun _ _ => rfl
  pre c := iprop(StableHlo.held (c : Thread nD τ) (Pipeline.ucRefs τ sig) (V25 m (outs5 m) c) ∗ Rest c)
  post c := iprop(StableHlo.held (c : Thread nD τ) (Pipeline.ucRefs τ sig) (V26 m (outs m) c) ∗ Rest c)
  X c := iprop(∃ r, prngReg c r)
  Y c := iprop(∃ r, prngReg c r)
  Z c := Pipeline.unscopedRest (Ix := Unit) (Name := ℕ) (U := UR sig nD τ) (Lvl := ℕ) spec5 c (Vat (V25 m (outs5 m)) c)
  hentry c := by
    rw [Pipeline.ownSems0_none]
    have hsplit := Pipeline.arrays_of_unscopedBufs (p := 5) (pcfgs (F := F)) adm (pdats m) launch5.win launch5.arr_whole c
      ((pdats m 5 c).share_full fun _ => rfl) (Vat (V25 m (outs5 m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (Vat (V25 m (outs5 m)) c) (Vat (V26 m (outs m)) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KFrameAll.lean ====
/-
  The frame of the whole program: it runs to the end from any memory, faults nowhere, and every argument array ends
  as launched. The six regions' segments are chained through the host stretches between them; beside the buffers
  every segment carries only the core's generator register and its dues, which are nothing from launch to return.
-/
import proofs.«154590_j17119739641884_2_alg».proof.Proof.KReg0
import proofs.«154590_j17119739641884_2_alg».proof.Proof.KReg1
import proofs.«154590_j17119739641884_2_alg».proof.Proof.KReg2
import proofs.«154590_j17119739641884_2_alg».proof.Proof.KReg3
import proofs.«154590_j17119739641884_2_alg».proof.Proof.KReg4
import proofs.«154590_j17119739641884_2_alg».proof.Proof.KReg5

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_cond m emb₁ () Variants.none noLv lv0 (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rest c)
    (hE0 := by
      have h1 : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ (BI.emp : sProp 𝕄)))
          ⊢ (bigSep Finset.univ (fun c : Dev nD => Rest (F := F) c) : sProp 𝕄) :=
        have hc : ∀ c : Dev nD, (iprop(unscopedSems0 c ∗ owes (c : Thread nD τ) ((0 : Dev nD → CellTallies nD τ sig Unit) c) ∅
              ∗ Pipeline.launchCred (0 : Dev nD → CellTallies nD τ sig Unit) c ∗ prngReg c (ρ c) ∗ (BI.emp : sProp 𝕄)) : sProp 𝕄) ⊢ Rest (F := F) c := fun c => by
          iintro ⟨-, HO, -, Hp, -⟩
          isplitl [Hp]; · iexists _; iexact Hp
          iexists ∅; iexact HO
        bigSep_mono fun c _ => hc c
      iintro ⟨H, -⟩
      imodintro
      iapply h1; iexact H)
    (hE6 := fun c => by iintro ⟨-, HO⟩; iexact HO)
    (R0 := reg0 m) (hpre0 := fun c => .rfl) (hpost0 := fun c => .rfl)
    (R1 := reg1 m) (hpre1 := fun c => by rw [Vin1_eq m c]; exact .rfl) (hpost1 := fun c => .rfl)
    (R2 := reg2 m) (hpre2 := fun c => by rw [Vin2_eq m c]; exact .rfl) (hpost2 := fun c => .rfl)
    (R3 := reg3 m) (hpre3 := fun c => by rw [Vin3_eq m c]; exact .rfl) (hpost3 := fun c => .rfl)
    (R4 := reg4 m) (hpre4 := fun c => by rw [Vin4_eq m c]; exact .rfl) (hpost4 := fun c => .rfl)
    (R5 := reg5 m) (hpre5 := fun c => by rw [Vin5_eq m c]; exact .rfl) (hpost5 := fun c => .rfl)

end Cert.Kernel.Hand

end
-- ==== Proof.RunCond.lean ====
/-
  The whole program's run with every buffer named, given the six regions' segments: from any memory, every weakly
  fair execution ends, and in the final memory every unscoped buffer of a core holds what the last valuation says —
  the launch contents pushed through the host stretches and the regions' outputs in order. Stated for ANY segments,
  outputs and proof data that chain (as the frame is), so that the chaining is checked once, over variables.
-/
import proofs.«154590_j17119739641884_2_alg».proof.Proof.Gen.KernelIdeal.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
theorem run_cond (ρ : Dev nD → PrngReg) (outs : Outs (F := F))
    (L : GSem nD τ sig → Finset Unit) (lv : GSem nD τ sig → Unit → ℕ) (hL : ∀ g : GSem nD τ sig, g.1.2 ≠ .tc → L g = ∅)
    (pdats : (p : Fin 6) → (c : Dev nD) → Dat τ (Elt F) Unit ℕ (UR sig nD τ) ℕ (cfgs p) c)
    (E : Fin 7 → Dev nD → sProp 𝕄)
    (hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (E 0) : sProp 𝕄))
    (hE6 : ∀ c : Dev nD, E 6 c ⊢ (iprop(∃ W, owes (c : Thread nD τ) (0 : CellTallies nD τ sig Unit) W) : sProp 𝕄))
    (R0 : Pipeline.RegionSeg (pcfgs (F := F)) adm pdats () defs₀ Variants.none L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : Pipeline.RegionSeg (pcfgs (F := F)) adm pdats () defs₀ Variants.none L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : Pipeline.RegionSeg (pcfgs (F := F)) adm pdats () defs₀ Variants.none L lv 2)
    (hpre2 : ∀ c : Dev nD, iprop(StableHlo.held (c : Thread nD τ) (Pipeline.ucRefs τ sig) (V11 m outs c) ∗ E 2 c) ⊢ R2.pre c)
    (hpost2 : ∀ c : Dev nD, R2.post c ⊢ iprop(StableHlo.held (c : Thread nD τ) (Pipeline.ucRefs τ sig) (V12 m outs c) ∗ E 3 c))
    (R3 : Pipeline.RegionSeg (pcfgs (F := F)) adm pdats () defs₀ Variants.none L lv 3)
    (hpre3 : ∀ c : Dev nD, iprop(StableHlo.held (c : Thread nD τ) (Pipeline.ucRefs τ sig) (V15 m outs c) ∗ E 3 c) ⊢ R3.pre c)
    (hpost3 : ∀ c : Dev nD, R3.post c ⊢ iprop(StableHlo.held (c : Thread nD τ) (Pipeline.ucRefs τ sig) (V16 m outs c) ∗ E 4 c))
    (R4 : Pipeline.RegionSeg (pcfgs (F := F)) adm pdats () defs₀ Variants.none L lv 4)
    (hpre4 : ∀ c : Dev nD, iprop(StableHlo.held (c : Thread nD τ) (Pipeline.ucRefs τ sig) (V21 m outs c) ∗ E 4 c) ⊢ R4.pre c)
    (hpost4 : ∀ c : Dev nD, R4.post c ⊢ iprop(StableHlo.held (c : Thread nD τ) (Pipeline.ucRefs τ sig) (V22 m outs c) ∗ E 5 c))
    (R5 : Pipeline.RegionSeg (pcfgs (F := F)) adm pdats () defs₀ Variants.none L lv 5)
    (hpre5 : ∀ c : Dev nD, iprop(StableHlo.held (c : Thread nD τ) (Pipeline.ucRefs τ sig) (V25 m outs c) ∗ E 5 c) ⊢ R5.pre c)
    (hpost5 : ∀ c : Dev nD, R5.post c ⊢ iprop(StableHlo.held (c : Thread nD τ) (Pipeline.ucRefs τ sig) (V26 m outs c) ∗ E 6 c)) :
    θ_run defs (onTc (τ := τ) (main (F := F))) ⟨m, fun _ => 0, ρ⟩
      (fun r => ∀ c : Dev nD, ∀ b ∈ Pipeline.ucRefs τ sig, r.2.mem ((c : Thread nD τ).1, b) = V31 m outs c b) := by
  refine Pipeline.θ_run_regions_kit_dev (pcfgs (F := F)) adm pdats () cellOf_inj emb₁ defs₀ Variants.none L lv m ρ main
    (segs m outs Variants.none L lv E () pdats R0 R1 R2 R3 R4 R5)
    (fun c Q => by
      rewrite [main_chain c, Pipeline.Seg.run_eq_chain,
        show ((segs m outs Variants.none L lv E () pdats R0 R1 R2 R3 R4 R5) c).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()),
          StableHlo.seq hostOps3,
          StableHlo.seq hostOps3_1,
          StableHlo.seq hostOps3_2,
          Prog.lift (.customCall (Pipeline.entry 3) ()),
          StableHlo.seq hostOps4,
          StableHlo.seq hostOps4_1,
          StableHlo.seq hostOps4_2,
          StableHlo.seq hostOps4_3,
          StableHlo.seq hostOps4_4,
          Prog.lift (.customCall (Pipeline.entry 4) ()),
          StableHlo.seq hostOps5,
          StableHlo.seq hostOps5_1,
          StableHlo.seq hostOps5_2,
          Prog.lift (.customCall (Pipeline.entry 5) ()),
          StableHlo.seq hostOps6,
          StableHlo.seq hostOps6_1,
          StableHlo.seq hostOps6_2,
          StableHlo.seq hostOps6_3,
          StableHlo.seq hostOps6_4 ] from rfl]
      exact .rfl)
    (fun c => by simp only [segs, Pipeline.Seg.pipes_host, Pipeline.Seg.pipes_region, Pipeline.Seg.pipes_nil]; decide)
    (O₀ := 0) (hL := hL) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V31 m outs c))
    (hch := fun c => ⟨.rfl, hpre0 c, hpost0 c, .rfl, .rfl, hpre1 c, hpost1 c, .rfl, .rfl, .rfl, .rfl, hpre2 c, hpost2 c, .rfl, .rfl, hpre3 c, hpost3 c, .rfl, .rfl, .rfl, .rfl, hpre4 c, hpost4 c, .rfl, .rfl, hpre5 c, hpost5 c, .rfl, .rfl, .rfl, .rfl, sep_mono .rfl (hE6 c)⟩)
    (hinit := ?_)
    (QY := fun c s => ∀ b ∈ Pipeline.ucRefs τ sig, s.mem ((c : Thread nD τ).1, b) = V31 m outs c b)
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅
              ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · iintro ⟨Hh, HSI⟩
    unfold StableHlo.held
    imodintro
    iapply (pointsTo_read_all (Pipeline.ucRefs τ sig) (fun b => (((c : Thread nD τ)).1, b)) (V31 m outs c) s')
    isplitl [Hh] <;> iassumption

end Cert.KernelIdeal.Hand

end
-- ==== Proof.RunAll.lean ====
/-
  The whole program's run with every buffer named, at the six regions' segments: in the final memory every unscoped
  buffer of a core holds the last valuation's contents at the regions' actual outputs.
-/
import proofs.«154590_j17119739641884_2_alg».proof.Proof.RunCond
import proofs.«154590_j17119739641884_2_alg».proof.Proof.Reg0
import proofs.«154590_j17119739641884_2_alg».proof.Proof.Reg1
import proofs.«154590_j17119739641884_2_alg».proof.Proof.Reg2
import proofs.«154590_j17119739641884_2_alg».proof.Proof.Reg3
import proofs.«154590_j17119739641884_2_alg».proof.Proof.Reg4
import proofs.«154590_j17119739641884_2_alg».proof.Proof.Reg5

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
theorem run_all (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = V31 m (outs m) c b) :=
  run_cond m ρ (outs m) noLv lv0 (fun _ _ => rfl) (pdats m) (fun _ c => Rest c)
    (by
      have h1 : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ (BI.emp : sProp 𝕄)))
          ⊢ (bigSep Finset.univ (fun c : Dev nD => Rest (F := F) c) : sProp 𝕄) :=
        have hc : ∀ c : Dev nD, (iprop(unscopedSems0 c ∗ owes (c : Thread nD τ) ((0 : Dev nD → CellTallies nD τ sig Unit) c) ∅
              ∗ Pipeline.launchCred (0 : Dev nD → CellTallies nD τ sig Unit) c ∗ prngReg c (ρ c) ∗ (BI.emp : sProp 𝕄)) : sProp 𝕄) ⊢ Rest (F := F) c := fun c => by
          iintro ⟨-, HO, -, Hp, -⟩
          isplitl [Hp]; · iexists _; iexact Hp
          iexists ∅; iexact HO
        bigSep_mono fun c _ => hc c
      iintro ⟨H, -⟩
      imodintro
      iapply h1; iexact H)
    (fun c => by iintro ⟨-, HO⟩; iexact HO)
    (reg0 m) (fun c => .rfl) (fun c => .rfl)
    (reg1 m) (fun c => by rw [Vin1_eq m c]; exact .rfl) (fun c => .rfl)
    (reg2 m) (fun c => by rw [Vin2_eq m c]; exact .rfl) (fun c => .rfl)
    (reg3 m) (fun c => by rw [Vin3_eq m c]; exact .rfl) (fun c => .rfl)
    (reg4 m) (fun c => by rw [Vin4_eq m c]; exact .rfl) (fun c => .rfl)
    (reg5 m) (fun c => by rw [Vin5_eq m c]; exact .rfl) (fun c => .rfl)

end Cert.KernelIdeal.Hand

end
-- ==== Proof.Spec.lean ====
/-
  The encoder as one composition of whole-array functions, in the reference program's spelling.
  Per iteration t (widths d = 64, 320, 576):
    agg  = cmat_pos · pos + cmat_neg · neg                       (two products over the 4000 variables, added)
    c    = [ clabels | relu(agg · W_Lᵀ + B_L) ]                  (8000 × 320)
    pv   = cmat_posᵀ · c ,  nv = cmat_negᵀ · c                   (products over the 8000 clauses)
    pv'  = relu(pv · W_Cᵀ + B_C) ,  nv' likewise                  (4000 × 128)
    pos ← [ pos | pv' | nv' ] ,  neg ← [ neg | nv' | pv' ]
  starting from pos = neg = vlabels; the results are pos and neg after the third iteration (4000 × 832).
-/
import proofs.«154590_j17119739641884_2_alg».proof.Proof.Gen.ReferenceIdeal
import Idealize.ShloMosaic.PureOps.Ideal

noncomputable section

namespace Cert.ReferenceIdeal.Spec

open Cert.ReferenceIdeal Cert.ReferenceIdeal.Gen Idealize.ShloMosaic Idealize.ShloMosaic.TcCoe

variable {F : FTy → Type} [FloatOps F]

/-- relu on a clause-side array. -/
def reluC (x : (⟨S8000x256, .f32⟩ : BufTy).Contents (Elt F)) : (⟨S8000x256, .f32⟩ : BufTy).Contents (Elt F) :=
  maximumf x (broadcastInDim S8000x256 ![] bcast_S_S8000x256 (constant S_ .f32 0x00000000#32))
/-- relu on a variable-side array. -/
def reluV (x : (⟨S4000x128, .f32⟩ : BufTy).Contents (Elt F)) : (⟨S4000x128, .f32⟩ : BufTy).Contents (Elt F) :=
  maximumf x (broadcastInDim S4000x128 ![] bcast_S_S4000x128 (constant S_ .f32 0x00000000#32))

/-- The clause aggregation at width 64. -/
def agg64 (cp cn : (⟨S8000x4000, .f32⟩ : BufTy).Contents (Elt F)) (pos neg : (⟨S4000x64, .f32⟩ : BufTy).Contents (Elt F)) : (⟨S8000x64, .f32⟩ : BufTy).Contents (Elt F) :=
  addf (Host.dotGeneral dot_S8000x4000_S4000x64_S8000x64_1_0_0_1_n_n none cp pos)
    (Host.dotGeneral dot_S8000x4000_S4000x64_S8000x64_1_0_0_1_n_n none cn neg)
/-- The clause embedding from the aggregation at width 64, beside the clause labels. -/
def clause64 (W : (⟨S256x64, .f32⟩ : BufTy).Contents (Elt F)) (b : (⟨S256, .f32⟩ : BufTy).Contents (Elt F)) (cl : (⟨S8000x64, .f32⟩ : BufTy).Contents (Elt F)) (agg : (⟨S8000x64, .f32⟩ : BufTy).Contents (Elt F)) : (⟨S8000x320, .f32⟩ : BufTy).Contents (Elt F) :=
  concatenate S8000x320 1 [⟨S8000x64, cl⟩, ⟨S8000x256, reluC (addf
    (Host.dotGeneral dot_S8000x64_S64x256_S8000x256_1_0_0_1_n_n none agg (transpose S64x256 [1, 0] W transposes_S256x64_S64x256_1_0))
    (broadcastInDim S8000x256 ![0, 1] bcast_S1x256_S8000x256_0_1 (broadcastInDim S1x256 ![1] bcast_S256_S1x256_1 b)))⟩]
    concatenates_S8000x64_S8000x256_S8000x320_d1
/-- The clause aggregation at width 320. -/
def agg320 (cp cn : (⟨S8000x4000, .f32⟩ : BufTy).Contents (Elt F)) (pos neg : (⟨S4000x320, .f32⟩ : BufTy).Contents (Elt F)) : (⟨S8000x320, .f32⟩ : BufTy).Contents (Elt F) :=
  addf (Host.dotGeneral dot_S8000x4000_S4000x320_S8000x320_1_0_0_1_n_n none cp pos)
    (Host.dotGeneral dot_S8000x4000_S4000x320_S8000x320_1_0_0_1_n_n none cn neg)
/-- The clause embedding from the aggregation at width 320, beside the clause labels. -/
def clause320 (W : (⟨S256x320, .f32⟩ : BufTy).Contents (Elt F)) (b : (⟨S256, .f32⟩ : BufTy).Contents (Elt F)) (cl : (⟨S8000x64, .f32⟩ : BufTy).Contents (Elt F)) (agg : (⟨S8000x320, .f32⟩ : BufTy).Contents (Elt F)) : (⟨S8000x320, .f32⟩ : BufTy).Contents (Elt F) :=
  concatenate S8000x320 1 [⟨S8000x64, cl⟩, ⟨S8000x256, reluC (addf
    (Host.dotGeneral dot_S8000x320_S320x256_S8000x256_1_0_0_1_n_n none agg (transpose S320x256 [1, 0] W transposes_S256x320_S320x256_1_0))
    (broadcastInDim S8000x256 ![0, 1] bcast_S1x256_S8000x256_0_1 (broadcastInDim S1x256 ![1] bcast_S256_S1x256_1 b)))⟩]
    concatenates_S8000x64_S8000x256_S8000x320_d1
/-- The clause aggregation at width 576. -/
def agg576 (cp cn : (⟨S8000x4000, .f32⟩ : BufTy).Contents (Elt F)) (pos neg : (⟨S4000x576, .f32⟩ : BufTy).Contents (Elt F)) : (⟨S8000x576, .f32⟩ : BufTy).Contents (Elt F) :=
  addf (Host.dotGeneral dot_S8000x4000_S4000x576_S8000x576_1_0_0_1_n_n none cp pos)
    (Host.dotGeneral dot_S8000x4000_S4000x576_S8000x576_1_0_0_1_n_n none cn neg)
/-- The clause embedding from the aggregation at width 576, beside the clause labels. -/
def clause576 (W : (⟨S256x576, .f32⟩ : BufTy).Contents (Elt F)) (b : (⟨S256, .f32⟩ : BufTy).Contents (Elt F)) (cl : (⟨S8000x64, .f32⟩ : BufTy).Contents (Elt F)) (agg : (⟨S8000x576, .f32⟩ : BufTy).Contents (Elt F)) : (⟨S8000x320, .f32⟩ : BufTy).Contents (Elt F) :=
  concatenate S8000x320 1 [⟨S8000x64, cl⟩, ⟨S8000x256, reluC (addf
    (Host.dotGeneral dot_S8000x576_S576x256_S8000x256_1_0_0_1_n_n none agg (transpose S576x256 [1, 0] W transposes_S256x576_S576x256_1_0))
    (broadcastInDim S8000x256 ![0, 1] bcast_S1x256_S8000x256_0_1 (broadcastInDim S1x256 ![1] bcast_S256_S1x256_1 b)))⟩]
    concatenates_S8000x64_S8000x256_S8000x320_d1

/-- A clause matrix transposed, times the clause embeddings. -/
def pvT (cm : (⟨S8000x4000, .f32⟩ : BufTy).Contents (Elt F)) (ct : (⟨S8000x320, .f32⟩ : BufTy).Contents (Elt F)) : (⟨S4000x320, .f32⟩ : BufTy).Contents (Elt F) :=
  Host.dotGeneral dot_S4000x8000_S8000x320_S4000x320_1_0_0_1_n_n none (transpose S4000x8000 [1, 0] cm transposes_S8000x4000_S4000x8000_1_0) ct

/-- The variable embedding from such a product. -/
def varPre (W : (⟨S128x320, .f32⟩ : BufTy).Contents (Elt F)) (b : (⟨S128, .f32⟩ : BufTy).Contents (Elt F)) (pv : (⟨S4000x320, .f32⟩ : BufTy).Contents (Elt F)) : (⟨S4000x128, .f32⟩ : BufTy).Contents (Elt F) :=
  reluV (addf
    (Host.dotGeneral dot_S4000x320_S320x128_S4000x128_1_0_0_1_n_n none pv (transpose S320x128 [1, 0] W transposes_S128x320_S320x128_1_0))
    (broadcastInDim S4000x128 ![0, 1] bcast_S1x128_S4000x128_0_1 (broadcastInDim S1x128 ![1] bcast_S128_S1x128_1 b)))

def cat320 (x : (⟨S4000x64, .f32⟩ : BufTy).Contents (Elt F)) (y z : (⟨S4000x128, .f32⟩ : BufTy).Contents (Elt F)) : (⟨S4000x320, .f32⟩ : BufTy).Contents (Elt F) :=
  concatenate S4000x320 1 [⟨S4000x64, x⟩, ⟨S4000x128, y⟩, ⟨S4000x128, z⟩] concatenates_S4000x64_S4000x128_S4000x128_S4000x320_d1
def cat576 (x : (⟨S4000x320, .f32⟩ : BufTy).Contents (Elt F)) (y z : (⟨S4000x128, .f32⟩ : BufTy).Contents (Elt F)) : (⟨S4000x576, .f32⟩ : BufTy).Contents (Elt F) :=
  concatenate S4000x576 1 [⟨S4000x320, x⟩, ⟨S4000x128, y⟩, ⟨S4000x128, z⟩] concatenates_S4000x320_S4000x128_S4000x128_S4000x576_d1
def cat832 (x : (⟨S4000x576, .f32⟩ : BufTy).Contents (Elt F)) (y z : (⟨S4000x128, .f32⟩ : BufTy).Contents (Elt F)) : (⟨S4000x832, .f32⟩ : BufTy).Contents (Elt F) :=
  concatenate S4000x832 1 [⟨S4000x576, x⟩, ⟨S4000x128, y⟩, ⟨S4000x128, z⟩] concatenates_S4000x576_S4000x128_S4000x128_S4000x832_d1

/-- The sixteen argument arrays. -/
structure Args (F : FTy → Type) [FloatOps F] where
  vlabels : (⟨S4000x64, .f32⟩ : BufTy).Contents (Elt F)
  clabels : (⟨S8000x64, .f32⟩ : BufTy).Contents (Elt F)
  cp : (⟨S8000x4000, .f32⟩ : BufTy).Contents (Elt F)
  cn : (⟨S8000x4000, .f32⟩ : BufTy).Contents (Elt F)
  wl0 : (⟨S256x64, .f32⟩ : BufTy).Contents (Elt F)
  wl1 : (⟨S256x320, .f32⟩ : BufTy).Contents (Elt F)
  wl2 : (⟨S256x576, .f32⟩ : BufTy).Contents (Elt F)
  bl0 : (⟨S256, .f32⟩ : BufTy).Contents (Elt F)
  bl1 : (⟨S256, .f32⟩ : BufTy).Contents (Elt F)
  bl2 : (⟨S256, .f32⟩ : BufTy).Contents (Elt F)
  wc0 : (⟨S128x320, .f32⟩ : BufTy).Contents (Elt F)
  wc1 : (⟨S128x320, .f32⟩ : BufTy).Contents (Elt F)
  wc2 : (⟨S128x320, .f32⟩ : BufTy).Contents (Elt F)
  bc0 : (⟨S128, .f32⟩ : BufTy).Contents (Elt F)
  bc1 : (⟨S128, .f32⟩ : BufTy).Contents (Elt F)
  bc2 : (⟨S128, .f32⟩ : BufTy).Contents (Elt F)

variable (A : Args F)

def c0 := clause64 A.wl0 A.bl0 A.clabels (agg64 A.cp A.cn A.vlabels A.vlabels)
def pv0 := varPre A.wc0 A.bc0 (pvT A.cp (c0 A))
def nv0 := varPre A.wc0 A.bc0 (pvT A.cn (c0 A))
def pos1 := cat320 A.vlabels (pv0 A) (nv0 A)
def neg1 := cat320 A.vlabels (nv0 A) (pv0 A)
def c1 := clause320 A.wl1 A.bl1 A.clabels (agg320 A.cp A.cn (pos1 A) (neg1 A))
def pv1 := varPre A.wc1 A.bc1 (pvT A.cp (c1 A))
def nv1 := varPre A.wc1 A.bc1 (pvT A.cn (c1 A))
def pos2 := cat576 (pos1 A) (pv1 A) (nv1 A)
def neg2 := cat576 (neg1 A) (nv1 A) (pv1 A)
def c2 := clause576 A.wl2 A.bl2 A.clabels (agg576 A.cp A.cn (pos2 A) (neg2 A))
def pv2 := varPre A.wc2 A.bc2 (pvT A.cp (c2 A))
def nv2 := varPre A.wc2 A.bc2 (pvT A.cn (c2 A))
/-- The first result. -/
def pos3 := cat832 (pos2 A) (pv2 A) (nv2 A)
/-- The second result. -/
def neg3 := cat832 (neg2 A) (nv2 A) (pv2 A)

end Cert.ReferenceIdeal.Spec

end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.AggPayload.lean ====
/-
  The aggregation step's arithmetic, read at one entry.

  One grid point of the aggregation kernel holds a 400-row tile of each of the two coefficient matrices and both whole
  4000-row feature matrices, and stores  tile_p · pos + tile_n · neg : two matrix products, each accumulated from zero
  over the whole contraction axis (K = 4000) in one step, then added entry by entry. At the exact reading of floats the
  narrow float format of the operands is no rounding, a cast of a shape to itself is the identity, and a product into
  the zero accumulator is the plain sum of products. So entry (p, q) of the stored tile is

      (∑ k < 4000, tile_p[p, k] · pos[k, q]) + (∑ k < 4000, tile_n[p, k] · neg[k, q]).

  Proved once for any sizes M, K, N, and then read off for the three feature widths 64, 320 and 576.
-/
import proofs.«154590_j17119739641884_2_alg».proof.Proof.Gen.KernelIdeal.Skeleton
import proofs.«154590_j17119739641884_2_alg».proof.Proof.LibPlainContract
import Idealize.ShloMosaic.Lib.ValueLayout

noncomputable section

namespace Cert.KernelIdeal.AggValue

open Idealize.ShloMosaic Idealize.ShloMosaic.ValueIdx Cert.KernelIdeal Cert.KernelIdeal.Gen

/-- Two plain [M, K] by [K, N] products into zero accumulators, added: entry (p, q) is the sum of the two sums of
    products. `D` is any record of plain dimension numbers (contract the left operand's axis 1 with the right
    operand's axis 0). -/
theorem two_products_apply (M K N : Nat) (D : DotDims ⟨2, ![M, K]⟩ ⟨2, ![K, N]⟩ ⟨2, ![M, N]⟩)
    (hD : D = DotDims.plain M K N)
    (h1 : (⟨2, ![M, K]⟩ : Shape).ShapeCasts ⟨2, ![M, K]⟩) (h2 : (⟨2, ![K, N]⟩ : Shape).ShapeCasts ⟨2, ![K, N]⟩)
    (a c : FVec Ideal ⟨2, ![M, K]⟩ .bf16) (b d : FVec Ideal ⟨2, ![K, N]⟩ .bf16) (p : Fin M) (q : Fin N) :
    addf (matmul D none (shapeCast ⟨2, ![M, K]⟩ a h1) (shapeCast ⟨2, ![K, N]⟩ b h2)
            (constant (F := Ideal) ⟨2, ![M, N]⟩ .f32 0x00000000#32))
         (matmul D none (shapeCast ⟨2, ![M, K]⟩ c h1) (shapeCast ⟨2, ![K, N]⟩ d h2)
            (constant (F := Ideal) ⟨2, ![M, N]⟩ .f32 0x00000000#32)) (ix2 p q)
      = (∑ k : Fin K, a (ix2 p k) * b (ix2 k q)) + (∑ k : Fin K, c (ix2 p k) * d (ix2 k q)) := by
  subst hD
  rw [shapeCast_self a h1, shapeCast_self b h2, shapeCast_self c h1, shapeCast_self d h2]
  exact congrArg₂ (· + ·) (LibPlainContract.matmul_plain_apply M K N none a b p q)
    (LibPlainContract.matmul_plain_apply M K N none c d p q)

/-- Feature width 64: entry (p, q) of the tile the first aggregation stores. -/
theorem k0_pay1_apply (v0 : Vec Ideal S400x4000 .bf16) (v2 : Vec Ideal S4000x64 .bf16)
    (v5 : Vec Ideal S400x4000 .bf16) (v7 : Vec Ideal S4000x64 .bf16) (p : Fin 400) (q : Fin 64) :
    k0_pay1 (F := Ideal) v0 v2 v5 v7 (ix2 p q)
      = (∑ k : Fin 4000, v0 (ix2 p k) * v2 (ix2 k q)) + (∑ k : Fin 4000, v5 (ix2 p k) * v7 (ix2 k q)) :=
  two_products_apply 400 4000 64 dot_S400x4000_S4000x64_S400x64_1_0_0_1_n_n rfl _ _ v0 v5 v2 v7 p q

/-- Feature width 320: entry (p, q) of the tile the second aggregation stores. -/
theorem k2_pay1_apply (v0 : Vec Ideal S400x4000 .bf16) (v2 : Vec Ideal S4000x320 .bf16)
    (v5 : Vec Ideal S400x4000 .bf16) (v7 : Vec Ideal S4000x320 .bf16) (p : Fin 400) (q : Fin 320) :
    k2_pay1 (F := Ideal) v0 v2 v5 v7 (ix2 p q)
      = (∑ k : Fin 4000, v0 (ix2 p k) * v2 (ix2 k q)) + (∑ k : Fin 4000, v5 (ix2 p k) * v7 (ix2 k q)) :=
  two_products_apply 400 4000 320 dot_S400x4000_S4000x320_S400x320_1_0_0_1_n_n rfl _ _ v0 v5 v2 v7 p q

/-- Feature width 576: entry (p, q) of the tile the third aggregation stores. -/
theorem k4_pay1_apply (v0 : Vec Ideal S400x4000 .bf16) (v2 : Vec Ideal S4000x576 .bf16)
    (v5 : Vec Ideal S400x4000 .bf16) (v7 : Vec Ideal S4000x576 .bf16) (p : Fin 400) (q : Fin 576) :
    k4_pay1 (F := Ideal) v0 v2 v5 v7 (ix2 p q)
      = (∑ k : Fin 4000, v0 (ix2 p k) * v2 (ix2 k q)) + (∑ k : Fin 4000, v5 (ix2 p k) * v7 (ix2 k q)) :=
  two_products_apply 400 4000 576 dot_S400x4000_S4000x576_S400x576_1_0_0_1_n_n rfl _ _ v0 v5 v2 v7 p q

end Cert.KernelIdeal.AggValue

end
-- ==== Proof.AggFinal0.lean ====
/- The value of the region whose kernel computes, per 400-row tile, out = x0 * x2 + x1 * x3 at width 64: from what each
   grid point writes back to the whole output array. Point `t` holds rows 400 t … 400 t + 399 of the two [8000, 4000]
   matrices and both [4000, 64] operands whole, and writes rows 400 t … 400 t + 399 of the output; the twenty row
   blocks tile the output, so after the run entry (P, q) of the output is the sum over the contracted axis of row P of
   the first matrix against column q of the first operand, plus the same for the second pair. -/
import proofs.«154590_j17119739641884_2_alg».proof.Proof.Agg0
import proofs.«154590_j17119739641884_2_alg».proof.Proof.AggPayload
import Idealize.ShloMosaic.Lib.Pipeline.Value
import Idealize.ShloMosaic.Lib.ValueLayout

set_option maxRecDepth 16384

noncomputable section

namespace Cert.KernelIdeal.AggValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

-- the buffer contents when the region is entered
variable (V : (c : Dev nD) → (b : Ref sig .tc) → Buf (Elt Ideal) ((c : Thread nD τ).loc b))

theorem hz0 : (![0, 0] : Fin 2 → Nat) = fun _ => 0 := funext fun a => by fin_cases a <;> rfl

/-- Entry (P, q) of the result, from the two [8000, 4000] matrices `a0`, `a1` and the two [4000, 64] operands `b0`, `b1`:
    row P of `a0` against column q of `b0`, plus row P of `a1` against column q of `b1`, each summed over the whole
    contracted axis. -/
def g0 (a0 a1 : S8000x4000.Idx → Elt Ideal .bf16) (b0 b1 : S4000x64.Idx → Elt Ideal .bf16) (P : Fin 8000) (q : Fin 64) : Elt Ideal .f32 :=
  (∑ k : Fin 4000, a0 (ix2 P k) * b0 (ix2 k q)) + (∑ k : Fin 4000, a1 (ix2 P k) * b1 (ix2 k q))

theorem g0_def (a0 a1 : S8000x4000.Idx → Elt Ideal .bf16) (b0 b1 : S4000x64.Idx → Elt Ideal .bf16) (P : Fin 8000) (q : Fin 64) :
    g0 a0 a1 b0 b1 P q = (∑ k : Fin 4000, a0 (ix2 P k) * b0 (ix2 k q)) + (∑ k : Fin 4000, a1 (ix2 P k) * b1 (ix2 k q)) := rfl

/-- The result array as one function of the arrays the region finds. -/
abbrev G0 (c : Dev nD) : S8000x64.Idx → Elt Ideal .f32 := fun i => g0 (V c main_v0) (V c main_v1) (V c main_v5) (V c main_v6) (i 0) (i 1)

/-- The index maps over the grid: point `t` takes row block `t` of the two matrices and of the output, and the two
    operands whole. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- A matrix window's block at point `t` is rows `400 t … 400 t + 399` of its array. -/
theorem iblk0_0_apply (c : Dev nD) (t : Fin cfg0.N) (x : S400x4000.Idx) (k : S8000x4000.Idx)
    (hk0 : (k 0).val = 400 * t.val + (x 0).val) (hk1 : (k 1).val = (x 1).val) :
    (iblk0 V c 0 t : Vec Ideal S400x4000 .bf16) x = (V c main_v0 : S8000x4000.Idx → Elt Ideal .bf16) k := by
  obtain ⟨e0, e1, -⟩ := idx_facts0 t
  unfold iblk0
  rw [View.read_apply]
  show V c main_v0 _ = V c main_v0 _
  congr 1
  funext a
  apply Fin.ext
  match a with
  | ⟨0, _⟩ => show win0_0.index t 0 * 400 + 1 * (x 0).val = (k 0).val; rw [e0, hk0]; omega
  | ⟨1, _⟩ => show win0_0.index t 1 * 4000 + 1 * (x 1).val = (k 1).val; rw [e1, hk1]; omega

theorem iblk0_1_apply (c : Dev nD) (t : Fin cfg0.N) (x : S400x4000.Idx) (k : S8000x4000.Idx)
    (hk0 : (k 0).val = 400 * t.val + (x 0).val) (hk1 : (k 1).val = (x 1).val) :
    (iblk0 V c 1 t : Vec Ideal S400x4000 .bf16) x = (V c main_v1 : S8000x4000.Idx → Elt Ideal .bf16) k := by
  obtain ⟨-, -, e0, e1, -⟩ := idx_facts0 t
  unfold iblk0
  rw [View.read_apply]
  show V c main_v1 _ = V c main_v1 _
  congr 1
  funext a
  apply Fin.ext
  match a with
  | ⟨0, _⟩ => show win0_1.index t 0 * 400 + 1 * (x 0).val = (k 0).val; rw [e0, hk0]; omega
  | ⟨1, _⟩ => show win0_1.index t 1 * 4000 + 1 * (x 1).val = (k 1).val; rw [e1, hk1]; omega

/-- An operand window's block at any point is its whole array. -/
theorem iblk0_2_apply (c : Dev nD) (t : Fin cfg0.N) (x : S4000x64.Idx) :
    (iblk0 V c 2 t : Vec Ideal S4000x64 .bf16) x = (V c main_v5 : S4000x64.Idx → Elt Ideal .bf16) x := by
  obtain ⟨-, -, -, -, e0, e1, -⟩ := idx_facts0 t
  unfold iblk0
  rw [View.read_apply]
  show V c main_v5 _ = V c main_v5 _
  congr 1
  funext a
  apply Fin.ext
  match a with
  | ⟨0, _⟩ => show win0_2.index t 0 * 4000 + 1 * (x 0).val = (x 0).val; rw [e0]; omega
  | ⟨1, _⟩ => show win0_2.index t 1 * 64 + 1 * (x 1).val = (x 1).val; rw [e1]; omega

theorem iblk0_3_apply (c : Dev nD) (t : Fin cfg0.N) (x : S4000x64.Idx) :
    (iblk0 V c 3 t : Vec Ideal S4000x64 .bf16) x = (V c main_v6 : S4000x64.Idx → Elt Ideal .bf16) x := by
  obtain ⟨-, -, -, -, -, -, e0, e1, -⟩ := idx_facts0 t
  unfold iblk0
  rw [View.read_apply]
  show V c main_v6 _ = V c main_v6 _
  congr 1
  funext a
  apply Fin.ext
  match a with
  | ⟨0, _⟩ => show win0_3.index t 0 * 4000 + 1 * (x 0).val = (x 0).val; rw [e0]; omega
  | ⟨1, _⟩ => show win0_3.index t 1 * 64 + 1 * (x 1).val = (x 1).val; rw [e1]; omega

/-- What point `t` writes back is block `t` of `G0`. -/
theorem flushed0_4_eq (c : Dev nD) (t : Fin cfg0.N) :
    (dat0 (F := Ideal) V c).flushed 4 t = ((cfg0.win 4).blk t).view.read (Elt Ideal) (G0 V c) := by
  show (cfg0.win 4).cut (grid0.coords t) ((dat0 V c).after 4 t) = _
  rw [after0_4]
  unfold out0_4
  rw [View.canon_unit_zero hz0]
  simp only [View.ld_unit_zero (S := S400x4000) hz0, View.ld_unit_zero (S := S4000x64) hz0]
  obtain ⟨-, -, -, -, -, -, -, -, e0, e1⟩ := idx_facts0 t
  funext j
  obtain ⟨p, q, rfl⟩ : ∃ (p : Fin 400) (q : Fin 64), j = ix2 p q := ⟨j 0, j 1, eq_ix2 j⟩
  show k0_pay1 (F := Ideal) (iblk0 V c 0 t) (iblk0 V c 2 t) (iblk0 V c 1 t) (iblk0 V c 3 t) (ix2 p q)
    = G0 V c (((cfg0.win 4).blk t).view.emb (ix2 p q))
  rw [k0_pay1_apply]
  have hr : ((((cfg0.win 4).blk t).view.emb (ix2 p q)) 0).val = 400 * t.val + p.val := by
    show win0_4.index t 0 * 400 + 1 * p.val = 400 * t.val + p.val; rw [e0]; omega
  have hc : ((((cfg0.win 4).blk t).view.emb (ix2 p q)) 1).val = q.val := by
    show win0_4.index t 1 * 64 + 1 * q.val = q.val; rw [e1]; omega
  show _ = g0 (V c main_v0) (V c main_v1) (V c main_v5) (V c main_v6) _ _
  refine Eq.trans ?_ (g0_def _ _ _ _ _ _).symm
  refine congrArg₂ (· + ·) (Finset.sum_congr rfl fun k _ => congrArg₂ (· * ·) ?_ ?_)
    (Finset.sum_congr rfl fun k _ => congrArg₂ (· * ·) ?_ ?_)
  · exact iblk0_0_apply V c t (ix2 p k) _ hr rfl
  · rw [iblk0_2_apply]; congr 1; funext a; apply Fin.ext
    match a with
    | ⟨0, _⟩ => rfl
    | ⟨1, _⟩ => exact hc.symm
  · exact iblk0_1_apply V c t (ix2 p k) _ hr rfl
  · rw [iblk0_3_apply]; congr 1; funext a; apply Fin.ext
    match a with
    | ⟨0, _⟩ => rfl
    | ⟨1, _⟩ => exact hc.symm

/-- An index of the array is in point `t`'s block iff each coordinate is in the block's range on its axis. -/
theorem mem_blk0_4 (t : Fin cfg0.N) (i : S8000x64.Idx) :
    i ∈ ((cfg0.win 4).blk t).view.set ↔ ∀ a : Fin 2, win0_4.index t a * S400x64.size a ≤ (i a).val ∧ (i a).val < win0_4.index t a * S400x64.size a + S400x64.size a := by
  show i ∈ ((View.whole main_v7).slice (win0_4.rect t)).set ↔ _
  rw [View.set_slice_whole, Rect.mem_set_unit]
  exact Iff.rfl

/-- Every index of the array is in the block of the point its row belongs to (row P to point P / 400). -/
theorem cover0_arr (i : S8000x64.Idx) : ∃ t : Fin cfg0.N, (cfg0.win 4).flush t = true ∧ i ∈ ((cfg0.win 4).blk t).view.set := by
  have hi0 : (i 0).val < 8000 := (i 0).isLt
  have hi1 : (i 1).val < 64 := (i 1).isLt
  have hN : cfg0.N = 20 := N_0
  let t : Fin cfg0.N := ⟨(i 0).val / 400, by rw [hN]; omega⟩
  obtain ⟨-, -, -, -, -, -, -, -, e0, e1⟩ := idx_facts0 t
  have ht : t.val = (i 0).val / 400 := rfl
  refine ⟨t, flush0_4 t, ?_⟩
  rw [mem_blk0_4]
  intro a
  match a with
  | ⟨0, _⟩ => show win0_4.index t (0 : Fin 2) * 400 ≤ (i 0).val ∧ (i 0).val < win0_4.index t (0 : Fin 2) * 400 + 400; rw [e0, ht]; omega
  | ⟨1, _⟩ => show win0_4.index t (1 : Fin 2) * 64 ≤ (i 1).val ∧ (i 1).val < win0_4.index t (1 : Fin 2) * 64 + 64; rw [e1]; omega

/-- The output array after the region's run is `G0` of the arrays the region finds. -/
theorem final0_fun (c : Dev nD) : (dat0 (F := Ideal) V c).arrAt 4 cfg0.N = G0 V c :=
  (dat0 (F := Ideal) V c).arrAt_eq_of_cover 4 (G0 V c) (fun t _ => flushed0_4_eq V c t) (cover0_arr)

/-- Entry (P, q) of the output array after the region's run. -/
theorem final0 (c : Dev nD) (P : Fin 8000) (q : Fin 64) :
    (dat0 (F := Ideal) V c).arrAt 4 cfg0.N (ix2 P q) = g0 (V c main_v0) (V c main_v1) (V c main_v5) (V c main_v6) P q :=
  congrFun (final0_fun V c) (ix2 P q)

end Cert.KernelIdeal.AggValue

end
-- ==== Proof.HostStages.lean ====
/- The host stretches between the kernel regions, read as whole-array functions of the buffers they start from, at
   the exact reading of floats: each stretch is a literal list of array operations, so what a buffer holds after it is the
   operations' functions composed; a conversion to the narrow float format is the identity. -/
import proofs.«154590_j17119739641884_2_alg».proof.Proof.Gen.KernelIdeal.Launch
import proofs.«154590_j17119739641884_2_alg».proof.Proof.Spec
import Idealize.ShloMosaic.Lib.StableHlo.Run
import Idealize.ShloMosaic.Lib.ValueLayout
import Idealize.ShloMosaic.Lib.Pipeline.Value
import Idealize.ShloMosaic.PureOps.Ideal

noncomputable section

namespace Cert.KernelIdeal.HostValue

section Nary3
open Idealize.ShloMosaic Idealize.ShloMosaic.StableHlo
variable {τ : Topo} {sig : RefSig} {Val : EltTy → Type} {x a b y : Ref sig .tc}

/-- A three-operand operation's result at its own result buffer, each operand's contents at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F
end Nary3

open Cert.KernelIdeal Cert.KernelIdeal.Gen Cert.ReferenceIdeal.Spec
open Idealize.ShloMosaic Idealize.ShloMosaic.TcCoe Idealize.ShloMosaic.StableHlo Idealize.ShloMosaic.ValueIdx

/-- What one buffer holds after a literal list of operations: each operation's result at its own result buffer is its
    function's value, at any other reference what was there. -/
macro "host_results" : tactic =>
  `(tactic| (simp (disch := decide) only [after_cons, after_nil,
      nullary_result', unary_result', binary_result', reshape_result', nary3_result',
      nullary_result_ne', unary_result_ne', binary_result_ne', reshape_result_ne', nary_result_ne']))

variable (W : Valuation τ sig (Elt Ideal))

/-- Slab 0 of a stacked [2, 4000, 320] array, as a [4000, 320] array. -/
def slab0 (x : (⟨S2x4000x320, .f32⟩ : BufTy).Contents (Elt Ideal)) : (⟨S4000x320, .f32⟩ : BufTy).Contents (Elt Ideal) :=
  shapeCast S4000x320 (extractStridedSlice S1x4000x320 ![0, 0, 0] x slices_S2x4000x320_S1x4000x320_0_0_0) shapeCasts_S1x4000x320_S4000x320
/-- Slab 1 of a stacked [2, 4000, 320] array, as a [4000, 320] array. -/
def slab1 (x : (⟨S2x4000x320, .f32⟩ : BufTy).Contents (Elt Ideal)) : (⟨S4000x320, .f32⟩ : BufTy).Contents (Elt Ideal) :=
  shapeCast S4000x320 (extractStridedSlice S1x4000x320 ![1, 0, 0] x slices_S2x4000x320_S1x4000x320_1_0_0) shapeCasts_S1x4000x320_S4000x320

theorem s0_main_v0 : StableHlo.after hostOps0 W (Proc.devRef .tc main_v0) = (W (Proc.devRef .tc main_arg2)) := by
  host_results
  rfl

theorem s0_main_v1 : StableHlo.after hostOps0 W (Proc.devRef .tc main_v1) = (W (Proc.devRef .tc main_arg3)) := by
  host_results
  rfl

theorem s0_main_v5 : StableHlo.after hostOps0 W (Proc.devRef .tc main_v5) = (W (Proc.devRef .tc main_arg0)) := by
  host_results
  rfl

theorem s0_main_v6 : StableHlo.after hostOps0 W (Proc.devRef .tc main_v6) = (W (Proc.devRef .tc main_arg0)) := by
  host_results
  rfl

set_option maxHeartbeats 2000000 in
theorem s1_main_v15 : (StableHlo.after hostOps1_2 (StableHlo.after hostOps1_1 (StableHlo.after hostOps1 W))) (Proc.devRef .tc main_v15)
    = clause64 (W (Proc.devRef .tc main_arg4)) (W (Proc.devRef .tc main_arg7)) (W (Proc.devRef .tc main_arg1)) (W (Proc.devRef .tc main_v7)) := by
  host_results
  rfl

set_option maxHeartbeats 2000000 in
theorem s3_main_v45 : (StableHlo.after hostOps3_2 (StableHlo.after hostOps3_1 (StableHlo.after hostOps3 W))) (Proc.devRef .tc main_v45)
    = clause320 (W (Proc.devRef .tc main_arg5)) (W (Proc.devRef .tc main_arg8)) (W (Proc.devRef .tc main_arg1)) (W (Proc.devRef .tc main_v37)) := by
  host_results
  rfl

set_option maxHeartbeats 2000000 in
theorem s5_main_v75 : (StableHlo.after hostOps5_2 (StableHlo.after hostOps5_1 (StableHlo.after hostOps5 W))) (Proc.devRef .tc main_v75)
    = clause576 (W (Proc.devRef .tc main_arg6)) (W (Proc.devRef .tc main_arg9)) (W (Proc.devRef .tc main_arg1)) (W (Proc.devRef .tc main_v67)) := by
  host_results
  rfl

set_option maxHeartbeats 2000000 in
theorem s2_main_v33 : (StableHlo.after hostOps2_4 (StableHlo.after hostOps2_3 (StableHlo.after hostOps2_2 (StableHlo.after hostOps2_1 (StableHlo.after hostOps2 W))))) (Proc.devRef .tc main_v33)
    = cat320 (W (Proc.devRef .tc main_arg0)) (varPre (W (Proc.devRef .tc main_arg10)) (W (Proc.devRef .tc main_arg13)) (slab0 (W (Proc.devRef .tc main_v16)))) (varPre (W (Proc.devRef .tc main_arg10)) (W (Proc.devRef .tc main_arg13)) (slab1 (W (Proc.devRef .tc main_v16)))) := by
  host_results
  rfl

set_option maxHeartbeats 2000000 in
theorem s2_main_v34 : (StableHlo.after hostOps2_4 (StableHlo.after hostOps2_3 (StableHlo.after hostOps2_2 (StableHlo.after hostOps2_1 (StableHlo.after hostOps2 W))))) (Proc.devRef .tc main_v34)
    = cat320 (W (Proc.devRef .tc main_arg0)) (varPre (W (Proc.devRef .tc main_arg10)) (W (Proc.devRef .tc main_arg13)) (slab1 (W (Proc.devRef .tc main_v16)))) (varPre (W (Proc.devRef .tc main_arg10)) (W (Proc.devRef .tc main_arg13)) (slab0 (W (Proc.devRef .tc main_v16)))) := by
  host_results
  rfl

set_option maxHeartbeats 2000000 in
theorem s2_main_v35 : (StableHlo.after hostOps2_4 (StableHlo.after hostOps2_3 (StableHlo.after hostOps2_2 (StableHlo.after hostOps2_1 (StableHlo.after hostOps2 W))))) (Proc.devRef .tc main_v35)
    = cat320 (W (Proc.devRef .tc main_arg0)) (varPre (W (Proc.devRef .tc main_arg10)) (W (Proc.devRef .tc main_arg13)) (slab0 (W (Proc.devRef .tc main_v16)))) (varPre (W (Proc.devRef .tc main_arg10)) (W (Proc.devRef .tc main_arg13)) (slab1 (W (Proc.devRef .tc main_v16)))) := by
  host_results
  rfl

set_option maxHeartbeats 2000000 in
theorem s2_main_v36 : (StableHlo.after hostOps2_4 (StableHlo.after hostOps2_3 (StableHlo.after hostOps2_2 (StableHlo.after hostOps2_1 (StableHlo.after hostOps2 W))))) (Proc.devRef .tc main_v36)
    = cat320 (W (Proc.devRef .tc main_arg0)) (varPre (W (Proc.devRef .tc main_arg10)) (W (Proc.devRef .tc main_arg13)) (slab1 (W (Proc.devRef .tc main_v16)))) (varPre (W (Proc.devRef .tc main_arg10)) (W (Proc.devRef .tc main_arg13)) (slab0 (W (Proc.devRef .tc main_v16)))) := by
  host_results
  rfl

set_option maxHeartbeats 2000000 in
theorem s4_main_v63 : (StableHlo.after hostOps4_4 (StableHlo.after hostOps4_3 (StableHlo.after hostOps4_2 (StableHlo.after hostOps4_1 (StableHlo.after hostOps4 W))))) (Proc.devRef .tc main_v63)
    = cat576 (W (Proc.devRef .tc main_v33)) (varPre (W (Proc.devRef .tc main_arg11)) (W (Proc.devRef .tc main_arg14)) (slab0 (W (Proc.devRef .tc main_v46)))) (varPre (W (Proc.devRef .tc main_arg11)) (W (Proc.devRef .tc main_arg14)) (slab1 (W (Proc.devRef .tc main_v46)))) := by
  host_results
  rfl

set_option maxHeartbeats 2000000 in
theorem s4_main_v64 : (StableHlo.after hostOps4_4 (StableHlo.after hostOps4_3 (StableHlo.after hostOps4_2 (StableHlo.after hostOps4_1 (StableHlo.after hostOps4 W))))) (Proc.devRef .tc main_v64)
    = cat576 (W (Proc.devRef .tc main_v34)) (varPre (W (Proc.devRef .tc main_arg11)) (W (Proc.devRef .tc main_arg14)) (slab1 (W (Proc.devRef .tc main_v46)))) (varPre (W (Proc.devRef .tc main_arg11)) (W (Proc.devRef .tc main_arg14)) (slab0 (W (Proc.devRef .tc main_v46)))) := by
  host_results
  rfl

set_option maxHeartbeats 2000000 in
theorem s4_main_v65 : (StableHlo.after hostOps4_4 (StableHlo.after hostOps4_3 (StableHlo.after hostOps4_2 (StableHlo.after hostOps4_1 (StableHlo.after hostOps4 W))))) (Proc.devRef .tc main_v65)
    = cat576 (W (Proc.devRef .tc main_v33)) (varPre (W (Proc.devRef .tc main_arg11)) (W (Proc.devRef .tc main_arg14)) (slab0 (W (Proc.devRef .tc main_v46)))) (varPre (W (Proc.devRef .tc main_arg11)) (W (Proc.devRef .tc main_arg14)) (slab1 (W (Proc.devRef .tc main_v46)))) := by
  host_results
  rfl

set_option maxHeartbeats 2000000 in
theorem s4_main_v66 : (StableHlo.after hostOps4_4 (StableHlo.after hostOps4_3 (StableHlo.after hostOps4_2 (StableHlo.after hostOps4_1 (StableHlo.after hostOps4 W))))) (Proc.devRef .tc main_v66)
    = cat576 (W (Proc.devRef .tc main_v34)) (varPre (W (Proc.devRef .tc main_arg11)) (W (Proc.devRef .tc main_arg14)) (slab1 (W (Proc.devRef .tc main_v46)))) (varPre (W (Proc.devRef .tc main_arg11)) (W (Proc.devRef .tc main_arg14)) (slab0 (W (Proc.devRef .tc main_v46)))) := by
  host_results
  rfl

set_option maxHeartbeats 2000000 in
theorem s6_main_v93 : (StableHlo.after hostOps6_4 (StableHlo.after hostOps6_3 (StableHlo.after hostOps6_2 (StableHlo.after hostOps6_1 (StableHlo.after hostOps6 W))))) (Proc.devRef .tc main_v93)
    = cat832 (W (Proc.devRef .tc main_v63)) (varPre (W (Proc.devRef .tc main_arg12)) (W (Proc.devRef .tc main_arg15)) (slab0 (W (Proc.devRef .tc main_v76)))) (varPre (W (Proc.devRef .tc main_arg12)) (W (Proc.devRef .tc main_arg15)) (slab1 (W (Proc.devRef .tc main_v76)))) := by
  host_results
  rfl

set_option maxHeartbeats 2000000 in
theorem s6_main_v94 : (StableHlo.after hostOps6_4 (StableHlo.after hostOps6_3 (StableHlo.after hostOps6_2 (StableHlo.after hostOps6_1 (StableHlo.after hostOps6 W))))) (Proc.devRef .tc main_v94)
    = cat832 (W (Proc.devRef .tc main_v64)) (varPre (W (Proc.devRef .tc main_arg12)) (W (Proc.devRef .tc main_arg15)) (slab1 (W (Proc.devRef .tc main_v76)))) (varPre (W (Proc.devRef .tc main_arg12)) (W (Proc.devRef .tc main_arg15)) (slab0 (W (Proc.devRef .tc main_v76)))) := by
  host_results
  rfl

/-! ## The layout operations of the stretches read at an index -/

/-- Slab 0 read at (p, q) is the stacked array at (0, p, q). -/
theorem slab0_apply (x : (⟨S2x4000x320, .f32⟩ : BufTy).Contents (Elt Ideal)) (p : Fin 4000) (q : Fin 320) :
    slab0 x (ix2 p q) = x (ix3 (0 : Fin 2) p q) := by
  unfold slab0
  refine (shapeCast_dropUnit_apply ![4000, 320] _ _ (ix2 p q)).trans ?_
  refine extractStridedSlice_apply _ x _ _ (ix3 (0 : Fin 2) p q) ?_
  intro a
  match a with
  | ⟨0, _⟩ => rfl
  | ⟨1, _⟩ => show p.val = 0 + p.val; omega
  | ⟨2, _⟩ => show q.val = 0 + q.val; omega

/-- Slab 1 read at (p, q) is the stacked array at (1, p, q). -/
theorem slab1_apply (x : (⟨S2x4000x320, .f32⟩ : BufTy).Contents (Elt Ideal)) (p : Fin 4000) (q : Fin 320) :
    slab1 x (ix2 p q) = x (ix3 (1 : Fin 2) p q) := by
  unfold slab1
  refine (shapeCast_dropUnit_apply ![4000, 320] _ _ (ix2 p q)).trans ?_
  refine extractStridedSlice_apply _ x _ _ (ix3 (1 : Fin 2) p q) ?_
  intro a
  match a with
  | ⟨0, _⟩ => rfl
  | ⟨1, _⟩ => show p.val = 0 + p.val; omega
  | ⟨2, _⟩ => show q.val = 0 + q.val; omega

/-- The two [8000, 4000] matrices stacked along a new leading axis, read at (i, k, p): the first at i = 0, the second at
    i = 1. -/
theorem s0_main_v4_apply (i : Fin 2) (k : Fin 8000) (p : Fin 4000) :
    StableHlo.after hostOps0 W (Proc.devRef .tc main_v4) (ix3 i k p)
      = if i = 0 then (W (Proc.devRef .tc main_arg2)) (ix2 k p) else (W (Proc.devRef .tc main_arg3)) (ix2 k p) := by
  by_cases hi : i = 0
  · subst hi
    rw [if_pos rfl]
    host_results
    refine Eq.trans (concatenate_pair_apply_left (t := S2x8000x4000) (s₁ := S1x8000x4000) (s₂ := S1x8000x4000) (0 : Fin 3) _ _ _
      (ix3 (0 : Fin 2) k p) rfl (ix3 (0 : Fin 1) k p) ?_) ?_
    · intro b
      match b with
      | ⟨0, _⟩ => rfl
      | ⟨1, _⟩ => rfl
      | ⟨2, _⟩ => rfl
    · refine Eq.trans (broadcastInDim_apply (s := S8000x4000) (t := S1x8000x4000) _ _ _ (ix3 (0 : Fin 1) k p) (ix2 k p) ?_) rfl
      intro a
      match a with
      | ⟨0, _⟩ => rfl
      | ⟨1, _⟩ => rfl
  · have h1 : i = 1 := by
      apply Fin.ext
      have h2 := i.isLt
      have h3 : i.val ≠ 0 := fun h => hi (Fin.ext h)
      show i.val = 1
      omega
    subst h1
    rw [if_neg (by decide)]
    host_results
    refine Eq.trans (concatenate_pair_apply_right (t := S2x8000x4000) (s₁ := S1x8000x4000) (s₂ := S1x8000x4000) (0 : Fin 3) _ _ _
      (ix3 (1 : Fin 2) k p) rfl rfl (ix3 (0 : Fin 1) k p) ?_ ?_) ?_
    · intro b hb
      match b with
      | ⟨0, _⟩ => exact absurd rfl hb
      | ⟨1, _⟩ => rfl
      | ⟨2, _⟩ => rfl
    · rfl
    · refine Eq.trans (broadcastInDim_apply (s := S8000x4000) (t := S1x8000x4000) _ _ _ (ix3 (0 : Fin 1) k p) (ix2 k p) ?_) rfl
      intro a
      match a with
      | ⟨0, _⟩ => rfl
      | ⟨1, _⟩ => rfl

end Cert.KernelIdeal.HostValue

end
-- ==== Proof.LibGroupedSum.lean ====
/-
  A sum over consecutive positions, grouped.

  The sum of f over the first K·n natural numbers is the sum, over the n consecutive groups of K positions, of each group's
  sum: position K·g + k is the k-th of group g. In any additive commutative monoid, so with no finiteness or
  cancellation asked: it holds for the extended reals as it stands. This is what equates one contraction over K·n
  features with the same contraction accumulated group by group.
-/
import Idealize.ShloMosaic.Lib.ValueIdx

namespace Cert.LibGroupedSum

/-- The sum over the first K·n positions is the sum over the n groups of the sums over each group's K positions. -/
theorem sum_range_mul_groups {M : Type*} [AddCommMonoid M] (K : ℕ) (f : ℕ → M) :
    ∀ n : ℕ, ∑ i ∈ Finset.range (K * n), f i = ∑ g ∈ Finset.range n, ∑ k : Fin K, f (K * g + k.val)
  | 0 => by simp
  | n + 1 => by
    have h1 : ∑ i ∈ Finset.range (K * (n + 1)), f i
        = ∑ i ∈ Finset.range (K * n), f i + ∑ k ∈ Finset.range K, f (K * n + k) := by
      rw [show K * (n + 1) = K * n + K from by ring, Finset.sum_range_add]
    rw [h1, sum_range_mul_groups K f n, Finset.sum_range_succ (fun g => ∑ k : Fin K, f (K * g + k.val)) n]
    exact congrArg (_ + ·) (Finset.sum_range (fun k => f (K * n + k)))

end Cert.LibGroupedSum
-- ==== Proof.RefForms.lean ====
/-
  The reference's matrix products, read at one entry, and the regrouping of a long sum into tiles.

  The reference computes each aggregation as a whole-array product  c · x  of an [8000, 4000] coefficient matrix with a
  [4000, N] feature matrix (N = 64, 320, 576), and each accumulation as  cᵀ · y : the coefficient matrix transposed to
  [4000, 8000], times an [8000, 320] matrix. At the exact reading of floats a host product at entry (P, q) is the sum
  over the contraction index of the operands' products, and a transposed matrix at (p, k) is the matrix at (k, p). So

      (c · x)[P, q]  = ∑ k < 4000, c[P, k] · x[k, q],
      (cᵀ · y)[p, q] = ∑ k < 8000, c[k, p] · y[k, q].

  Last, a sum over 8000 consecutive positions is the sum over 10 groups of 800 of each group's sum (position
  800·g + j is the j-th of group g). This holds in any additive commutative monoid, so for the extended reals with no
  finiteness asked: it is what equates the reference's one contraction over 8000 rows with a contraction accumulated
  tile by tile.
-/
import proofs.«154590_j17119739641884_2_alg».proof.Proof.Gen.ReferenceIdeal
import proofs.«154590_j17119739641884_2_alg».proof.Proof.LibPlainContract
import proofs.«154590_j17119739641884_2_alg».proof.Proof.LibGroupedSum
import Idealize.ShloMosaic.Lib.ValueLayout

noncomputable section

namespace Cert.ReferenceIdeal.RefForms

open Idealize.ShloMosaic Idealize.ShloMosaic.ValueIdx Cert.ReferenceIdeal

/-- A host product with plain dimension numbers (contract the left operand's axis 1 with the right operand's axis 0)
    at entry (p, q). `D` is any record of those dimension numbers. -/
theorem host_plain_apply (M K N : Nat) (D : DotDims ⟨2, ![M, K]⟩ ⟨2, ![K, N]⟩ ⟨2, ![M, N]⟩)
    (hD : D = DotDims.plain M K N) (l : FVec Ideal ⟨2, ![M, K]⟩ .f32) (r : FVec Ideal ⟨2, ![K, N]⟩ .f32)
    (p : Fin M) (q : Fin N) :
    Host.dotGeneral (F := Ideal) D none l r (ix2 p q) = ∑ k : Fin K, l (ix2 p k) * r (ix2 k q) := by
  subst hD
  exact LibPlainContract.dotGeneral_plain_apply M K N none .single l r p q

/-- The reference's [8000, 4000] by [4000, 64] product at entry (P, q). -/
theorem dot_8000x4000_4000x64_apply (l : FVec Ideal S8000x4000 .f32) (r : FVec Ideal S4000x64 .f32)
    (P : Fin 8000) (q : Fin 64) :
    Host.dotGeneral (F := Ideal) dot_S8000x4000_S4000x64_S8000x64_1_0_0_1_n_n none l r (ix2 P q)
      = ∑ k : Fin 4000, l (ix2 P k) * r (ix2 k q) :=
  host_plain_apply 8000 4000 64 _ rfl l r P q

/-- The reference's [8000, 4000] by [4000, 320] product at entry (P, q). -/
theorem dot_8000x4000_4000x320_apply (l : FVec Ideal S8000x4000 .f32) (r : FVec Ideal S4000x320 .f32)
    (P : Fin 8000) (q : Fin 320) :
    Host.dotGeneral (F := Ideal) dot_S8000x4000_S4000x320_S8000x320_1_0_0_1_n_n none l r (ix2 P q)
      = ∑ k : Fin 4000, l (ix2 P k) * r (ix2 k q) :=
  host_plain_apply 8000 4000 320 _ rfl l r P q

/-- The reference's [8000, 4000] by [4000, 576] product at entry (P, q). -/
theorem dot_8000x4000_4000x576_apply (l : FVec Ideal S8000x4000 .f32) (r : FVec Ideal S4000x576 .f32)
    (P : Fin 8000) (q : Fin 576) :
    Host.dotGeneral (F := Ideal) dot_S8000x4000_S4000x576_S8000x576_1_0_0_1_n_n none l r (ix2 P q)
      = ∑ k : Fin 4000, l (ix2 P k) * r (ix2 k q) :=
  host_plain_apply 8000 4000 576 _ rfl l r P q

/-- The transpose of a [K, M] matrix times a [K, N] matrix, as the host computes it (transpose, then a plain
    product), at entry (p, q): the sum over k of c[k, p] · y[k, q]. -/
theorem host_transpose_plain_apply (K M N : Nat) (D : DotDims ⟨2, ![M, K]⟩ ⟨2, ![K, N]⟩ ⟨2, ![M, N]⟩)
    (hD : D = DotDims.plain M K N) (h : (⟨2, ![K, M]⟩ : Shape).Transposes [1, 0] ⟨2, ![M, K]⟩)
    (c : FVec Ideal ⟨2, ![K, M]⟩ .f32) (y : FVec Ideal ⟨2, ![K, N]⟩ .f32) (p : Fin M) (q : Fin N) :
    Host.dotGeneral (F := Ideal) D none (transpose ⟨2, ![M, K]⟩ [1, 0] c h) y (ix2 p q)
      = ∑ k : Fin K, c (ix2 k p) * y (ix2 k q) :=
  (host_plain_apply M K N D hD _ y p q).trans
    (Finset.sum_congr rfl fun k _ => congrArg (· * y (ix2 k q)) (transpose_ix2_apply c h p k))

/-- The reference's  cᵀ · y  for an [8000, 4000] coefficient matrix and an [8000, 320] matrix, at entry (p, q). -/
theorem transpose_dot_8000_apply (h : S8000x4000.Transposes [1, 0] S4000x8000)
    (c : FVec Ideal S8000x4000 .f32) (y : FVec Ideal S8000x320 .f32) (p : Fin 4000) (q : Fin 320) :
    Host.dotGeneral (F := Ideal) dot_S4000x8000_S8000x320_S4000x320_1_0_0_1_n_n none
        (transpose S4000x8000 [1, 0] c h) y (ix2 p q)
      = ∑ k : Fin 8000, c (ix2 k p) * y (ix2 k q) :=
  host_transpose_plain_apply 8000 4000 320 _ rfl h c y p q

/-- A sum over K·n positions is the sum over the n groups of K consecutive positions of each group's sum. -/
theorem sum_fin_groups {A : Type*} [AddCommMonoid A] (K n : Nat) (f : Fin (K * n) → A) :
    ∑ i : Fin (K * n), f i
      = ∑ g : Fin n, ∑ j : Fin K, f ⟨K * g.val + j.val, by
          have hg := g.isLt
          have hj := j.isLt
          calc K * g.val + j.val < K * g.val + K := Nat.add_lt_add_left hj _
            _ = K * (g.val + 1) := (Nat.mul_succ K g.val).symm
            _ ≤ K * n := Nat.mul_le_mul_left K hg⟩ := by
  -- extend f by zero beyond K·n, so that the sum is one over the first K·n naturals
  have hF : ∀ (i : Nat) (h : i < K * n), (if h' : i < K * n then f ⟨i, h'⟩ else 0) = f ⟨i, h⟩ := fun i h => dif_pos h
  have hl : ∑ i : Fin (K * n), f i = ∑ i ∈ Finset.range (K * n), (if h : i < K * n then f ⟨i, h⟩ else 0) := by
    rw [← Fin.sum_univ_eq_sum_range (fun i => if h : i < K * n then f ⟨i, h⟩ else 0)]
    exact Finset.sum_congr rfl fun i _ => (hF i.val i.isLt).symm
  rw [hl, LibGroupedSum.sum_range_mul_groups K _ n,
    ← Fin.sum_univ_eq_sum_range
      (fun g => ∑ k : Fin K, (if h : K * g + k.val < K * n then f ⟨K * g + k.val, h⟩ else 0)) n]
  exact Finset.sum_congr rfl fun g _ => Finset.sum_congr rfl fun j _ => hF _ _

/-- 8000 rows are 10 tiles of 800: row 800·g + j is row j of tile g. -/
theorem sum_8000_tiles {A : Type*} [AddCommMonoid A] (f : Fin 8000 → A) :
    ∑ k : Fin 8000, f k = ∑ g : Fin 10, ∑ j : Fin 800, f ⟨800 * g.val + j.val, by
      have hg := g.isLt
      have hj := j.isLt
      omega⟩ :=
  sum_fin_groups 800 10 f

end Cert.ReferenceIdeal.RefForms

end
-- ==== Proof.AggFinal2.lean ====
/- The value of the region whose kernel computes, per 400-row tile, out = x0 * x2 + x1 * x3 at width 320: from what each
   grid point writes back to the whole output array. Point `t` holds rows 400 t … 400 t + 399 of the two [8000, 4000]
   matrices and both [4000, 320] operands whole, and writes rows 400 t … 400 t + 399 of the output; the twenty row
   blocks tile the output, so after the run entry (P, q) of the output is the sum over the contracted axis of row P of
   the first matrix against column q of the first operand, plus the same for the second pair. -/
import proofs.«154590_j17119739641884_2_alg».proof.Proof.Agg2
import proofs.«154590_j17119739641884_2_alg».proof.Proof.AggPayload
import Idealize.ShloMosaic.Lib.Pipeline.Value
import Idealize.ShloMosaic.Lib.ValueLayout

set_option maxRecDepth 16384

noncomputable section

namespace Cert.KernelIdeal.AggValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

-- the buffer contents when the region is entered
variable (V : (c : Dev nD) → (b : Ref sig .tc) → Buf (Elt Ideal) ((c : Thread nD τ).loc b))

theorem hz2 : (![0, 0] : Fin 2 → Nat) = fun _ => 0 := funext fun a => by fin_cases a <;> rfl

/-- Entry (P, q) of the result, from the two [8000, 4000] matrices `a0`, `a1` and the two [4000, 320] operands `b0`, `b1`:
    row P of `a0` against column q of `b0`, plus row P of `a1` against column q of `b1`, each summed over the whole
    contracted axis. -/
def g2 (a0 a1 : S8000x4000.Idx → Elt Ideal .bf16) (b0 b1 : S4000x320.Idx → Elt Ideal .bf16) (P : Fin 8000) (q : Fin 320) : Elt Ideal .f32 :=
  (∑ k : Fin 4000, a0 (ix2 P k) * b0 (ix2 k q)) + (∑ k : Fin 4000, a1 (ix2 P k) * b1 (ix2 k q))

theorem g2_def (a0 a1 : S8000x4000.Idx → Elt Ideal .bf16) (b0 b1 : S4000x320.Idx → Elt Ideal .bf16) (P : Fin 8000) (q : Fin 320) :
    g2 a0 a1 b0 b1 P q = (∑ k : Fin 4000, a0 (ix2 P k) * b0 (ix2 k q)) + (∑ k : Fin 4000, a1 (ix2 P k) * b1 (ix2 k q)) := rfl

/-- The result array as one function of the arrays the region finds. -/
abbrev G2 (c : Dev nD) : S8000x320.Idx → Elt Ideal .f32 := fun i => g2 (V c main_v0) (V c main_v1) (V c main_v35) (V c main_v36) (i 0) (i 1)

/-- The index maps over the grid: point `t` takes row block `t` of the two matrices and of the output, and the two
    operands whole. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- A matrix window's block at point `t` is rows `400 t … 400 t + 399` of its array. -/
theorem iblk2_0_apply (c : Dev nD) (t : Fin cfg2.N) (x : S400x4000.Idx) (k : S8000x4000.Idx)
    (hk0 : (k 0).val = 400 * t.val + (x 0).val) (hk1 : (k 1).val = (x 1).val) :
    (iblk2 V c 0 t : Vec Ideal S400x4000 .bf16) x = (V c main_v0 : S8000x4000.Idx → Elt Ideal .bf16) k := by
  obtain ⟨e0, e1, -⟩ := idx_facts2 t
  unfold iblk2
  rw [View.read_apply]
  show V c main_v0 _ = V c main_v0 _
  congr 1
  funext a
  apply Fin.ext
  match a with
  | ⟨0, _⟩ => show win2_0.index t 0 * 400 + 1 * (x 0).val = (k 0).val; rw [e0, hk0]; omega
  | ⟨1, _⟩ => show win2_0.index t 1 * 4000 + 1 * (x 1).val = (k 1).val; rw [e1, hk1]; omega

theorem iblk2_1_apply (c : Dev nD) (t : Fin cfg2.N) (x : S400x4000.Idx) (k : S8000x4000.Idx)
    (hk0 : (k 0).val = 400 * t.val + (x 0).val) (hk1 : (k 1).val = (x 1).val) :
    (iblk2 V c 1 t : Vec Ideal S400x4000 .bf16) x = (V c main_v1 : S8000x4000.Idx → Elt Ideal .bf16) k := by
  obtain ⟨-, -, e0, e1, -⟩ := idx_facts2 t
  unfold iblk2
  rw [View.read_apply]
  show V c main_v1 _ = V c main_v1 _
  congr 1
  funext a
  apply Fin.ext
  match a with
  | ⟨0, _⟩ => show win2_1.index t 0 * 400 + 1 * (x 0).val = (k 0).val; rw [e0, hk0]; omega
  | ⟨1, _⟩ => show win2_1.index t 1 * 4000 + 1 * (x 1).val = (k 1).val; rw [e1, hk1]; omega

/-- An operand window's block at any point is its whole array. -/
theorem iblk2_2_apply (c : Dev nD) (t : Fin cfg2.N) (x : S4000x320.Idx) :
    (iblk2 V c 2 t : Vec Ideal S4000x320 .bf16) x = (V c main_v35 : S4000x320.Idx → Elt Ideal .bf16) x := by
  obtain ⟨-, -, -, -, e0, e1, -⟩ := idx_facts2 t
  unfold iblk2
  rw [View.read_apply]
  show V c main_v35 _ = V c main_v35 _
  congr 1
  funext a
  apply Fin.ext
  match a with
  | ⟨0, _⟩ => show win2_2.index t 0 * 4000 + 1 * (x 0).val = (x 0).val; rw [e0]; omega
  | ⟨1, _⟩ => show win2_2.index t 1 * 320 + 1 * (x 1).val = (x 1).val; rw [e1]; omega

theorem iblk2_3_apply (c : Dev nD) (t : Fin cfg2.N) (x : S4000x320.Idx) :
    (iblk2 V c 3 t : Vec Ideal S4000x320 .bf16) x = (V c main_v36 : S4000x320.Idx → Elt Ideal .bf16) x := by
  obtain ⟨-, -, -, -, -, -, e0, e1, -⟩ := idx_facts2 t
  unfold iblk2
  rw [View.read_apply]
  show V c main_v36 _ = V c main_v36 _
  congr 1
  funext a
  apply Fin.ext
  match a with
  | ⟨0, _⟩ => show win2_3.index t 0 * 4000 + 1 * (x 0).val = (x 0).val; rw [e0]; omega
  | ⟨1, _⟩ => show win2_3.index t 1 * 320 + 1 * (x 1).val = (x 1).val; rw [e1]; omega

/-- What point `t` writes back is block `t` of `G2`. -/
theorem flushed2_4_eq (c : Dev nD) (t : Fin cfg2.N) :
    (dat2 (F := Ideal) V c).flushed 4 t = ((cfg2.win 4).blk t).view.read (Elt Ideal) (G2 V c) := by
  show (cfg2.win 4).cut (grid2.coords t) ((dat2 V c).after 4 t) = _
  rw [after2_4]
  unfold out2_4
  rw [View.canon_unit_zero hz2]
  simp only [View.ld_unit_zero (S := S400x4000) hz2, View.ld_unit_zero (S := S4000x320) hz2]
  obtain ⟨-, -, -, -, -, -, -, -, e0, e1⟩ := idx_facts2 t
  funext j
  obtain ⟨p, q, rfl⟩ : ∃ (p : Fin 400) (q : Fin 320), j = ix2 p q := ⟨j 0, j 1, eq_ix2 j⟩
  show k2_pay1 (F := Ideal) (iblk2 V c 0 t) (iblk2 V c 2 t) (iblk2 V c 1 t) (iblk2 V c 3 t) (ix2 p q)
    = G2 V c (((cfg2.win 4).blk t).view.emb (ix2 p q))
  rw [k2_pay1_apply]
  have hr : ((((cfg2.win 4).blk t).view.emb (ix2 p q)) 0).val = 400 * t.val + p.val := by
    show win2_4.index t 0 * 400 + 1 * p.val = 400 * t.val + p.val; rw [e0]; omega
  have hc : ((((cfg2.win 4).blk t).view.emb (ix2 p q)) 1).val = q.val := by
    show win2_4.index t 1 * 320 + 1 * q.val = q.val; rw [e1]; omega
  show _ = g2 (V c main_v0) (V c main_v1) (V c main_v35) (V c main_v36) _ _
  refine Eq.trans ?_ (g2_def _ _ _ _ _ _).symm
  refine congrArg₂ (· + ·) (Finset.sum_congr rfl fun k _ => congrArg₂ (· * ·) ?_ ?_)
    (Finset.sum_congr rfl fun k _ => congrArg₂ (· * ·) ?_ ?_)
  · exact iblk2_0_apply V c t (ix2 p k) _ hr rfl
  · rw [iblk2_2_apply]; congr 1; funext a; apply Fin.ext
    match a with
    | ⟨0, _⟩ => rfl
    | ⟨1, _⟩ => exact hc.symm
  · exact iblk2_1_apply V c t (ix2 p k) _ hr rfl
  · rw [iblk2_3_apply]; congr 1; funext a; apply Fin.ext
    match a with
    | ⟨0, _⟩ => rfl
    | ⟨1, _⟩ => exact hc.symm

/-- An index of the array is in point `t`'s block iff each coordinate is in the block's range on its axis. -/
theorem mem_blk2_4 (t : Fin cfg2.N) (i : S8000x320.Idx) :
    i ∈ ((cfg2.win 4).blk t).view.set ↔ ∀ a : Fin 2, win2_4.index t a * S400x320.size a ≤ (i a).val ∧ (i a).val < win2_4.index t a * S400x320.size a + S400x320.size a := by
  show i ∈ ((View.whole main_v37).slice (win2_4.rect t)).set ↔ _
  rw [View.set_slice_whole, Rect.mem_set_unit]
  exact Iff.rfl

/-- Every index of the array is in the block of the point its row belongs to (row P to point P / 400). -/
theorem cover2_arr (i : S8000x320.Idx) : ∃ t : Fin cfg2.N, (cfg2.win 4).flush t = true ∧ i ∈ ((cfg2.win 4).blk t).view.set := by
  have hi0 : (i 0).val < 8000 := (i 0).isLt
  have hi1 : (i 1).val < 320 := (i 1).isLt
  have hN : cfg2.N = 20 := N_2
  let t : Fin cfg2.N := ⟨(i 0).val / 400, by rw [hN]; omega⟩
  obtain ⟨-, -, -, -, -, -, -, -, e0, e1⟩ := idx_facts2 t
  have ht : t.val = (i 0).val / 400 := rfl
  refine ⟨t, flush2_4 t, ?_⟩
  rw [mem_blk2_4]
  intro a
  match a with
  | ⟨0, _⟩ => show win2_4.index t (0 : Fin 2) * 400 ≤ (i 0).val ∧ (i 0).val < win2_4.index t (0 : Fin 2) * 400 + 400; rw [e0, ht]; omega
  | ⟨1, _⟩ => show win2_4.index t (1 : Fin 2) * 320 ≤ (i 1).val ∧ (i 1).val < win2_4.index t (1 : Fin 2) * 320 + 320; rw [e1]; omega

/-- The output array after the region's run is `G2` of the arrays the region finds. -/
theorem final2_fun (c : Dev nD) : (dat2 (F := Ideal) V c).arrAt 4 cfg2.N = G2 V c :=
  (dat2 (F := Ideal) V c).arrAt_eq_of_cover 4 (G2 V c) (fun t _ => flushed2_4_eq V c t) (cover2_arr)

/-- Entry (P, q) of the output array after the region's run. -/
theorem final2 (c : Dev nD) (P : Fin 8000) (q : Fin 320) :
    (dat2 (F := Ideal) V c).arrAt 4 cfg2.N (ix2 P q) = g2 (V c main_v0) (V c main_v1) (V c main_v35) (V c main_v36) P q :=
  congrFun (final2_fun V c) (ix2 P q)

end Cert.KernelIdeal.AggValue

end
-- ==== Proof.AggFinal4.lean ====
/- The value of the region whose kernel computes, per 400-row tile, out = x0 * x2 + x1 * x3 at width 576: from what each
   grid point writes back to the whole output array. Point `t` holds rows 400 t … 400 t + 399 of the two [8000, 4000]
   matrices and both [4000, 576] operands whole, and writes rows 400 t … 400 t + 399 of the output; the twenty row
   blocks tile the output, so after the run entry (P, q) of the output is the sum over the contracted axis of row P of
   the first matrix against column q of the first operand, plus the same for the second pair. -/
import proofs.«154590_j17119739641884_2_alg».proof.Proof.Agg4
import proofs.«154590_j17119739641884_2_alg».proof.Proof.AggPayload
import Idealize.ShloMosaic.Lib.Pipeline.Value
import Idealize.ShloMosaic.Lib.ValueLayout

set_option maxRecDepth 16384

noncomputable section

namespace Cert.KernelIdeal.AggValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

-- the buffer contents when the region is entered
variable (V : (c : Dev nD) → (b : Ref sig .tc) → Buf (Elt Ideal) ((c : Thread nD τ).loc b))

theorem hz4 : (![0, 0] : Fin 2 → Nat) = fun _ => 0 := funext fun a => by fin_cases a <;> rfl

/-- Entry (P, q) of the result, from the two [8000, 4000] matrices `a0`, `a1` and the two [4000, 576] operands `b0`, `b1`:
    row P of `a0` against column q of `b0`, plus row P of `a1` against column q of `b1`, each summed over the whole
    contracted axis. -/
def g4 (a0 a1 : S8000x4000.Idx → Elt Ideal .bf16) (b0 b1 : S4000x576.Idx → Elt Ideal .bf16) (P : Fin 8000) (q : Fin 576) : Elt Ideal .f32 :=
  (∑ k : Fin 4000, a0 (ix2 P k) * b0 (ix2 k q)) + (∑ k : Fin 4000, a1 (ix2 P k) * b1 (ix2 k q))

theorem g4_def (a0 a1 : S8000x4000.Idx → Elt Ideal .bf16) (b0 b1 : S4000x576.Idx → Elt Ideal .bf16) (P : Fin 8000) (q : Fin 576) :
    g4 a0 a1 b0 b1 P q = (∑ k : Fin 4000, a0 (ix2 P k) * b0 (ix2 k q)) + (∑ k : Fin 4000, a1 (ix2 P k) * b1 (ix2 k q)) := rfl

/-- The result array as one function of the arrays the region finds. -/
abbrev G4 (c : Dev nD) : S8000x576.Idx → Elt Ideal .f32 := fun i => g4 (V c main_v0) (V c main_v1) (V c main_v65) (V c main_v66) (i 0) (i 1)

/-- The index maps over the grid: point `t` takes row block `t` of the two matrices and of the output, and the two
    operands whole. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- A matrix window's block at point `t` is rows `400 t … 400 t + 399` of its array. -/
theorem iblk4_0_apply (c : Dev nD) (t : Fin cfg4.N) (x : S400x4000.Idx) (k : S8000x4000.Idx)
    (hk0 : (k 0).val = 400 * t.val + (x 0).val) (hk1 : (k 1).val = (x 1).val) :
    (iblk4 V c 0 t : Vec Ideal S400x4000 .bf16) x = (V c main_v0 : S8000x4000.Idx → Elt Ideal .bf16) k := by
  obtain ⟨e0, e1, -⟩ := idx_facts4 t
  unfold iblk4
  rw [View.read_apply]
  show V c main_v0 _ = V c main_v0 _
  congr 1
  funext a
  apply Fin.ext
  match a with
  | ⟨0, _⟩ => show win4_0.index t 0 * 400 + 1 * (x 0).val = (k 0).val; rw [e0, hk0]; omega
  | ⟨1, _⟩ => show win4_0.index t 1 * 4000 + 1 * (x 1).val = (k 1).val; rw [e1, hk1]; omega

theorem iblk4_1_apply (c : Dev nD) (t : Fin cfg4.N) (x : S400x4000.Idx) (k : S8000x4000.Idx)
    (hk0 : (k 0).val = 400 * t.val + (x 0).val) (hk1 : (k 1).val = (x 1).val) :
    (iblk4 V c 1 t : Vec Ideal S400x4000 .bf16) x = (V c main_v1 : S8000x4000.Idx → Elt Ideal .bf16) k := by
  obtain ⟨-, -, e0, e1, -⟩ := idx_facts4 t
  unfold iblk4
  rw [View.read_apply]
  show V c main_v1 _ = V c main_v1 _
  congr 1
  funext a
  apply Fin.ext
  match a with
  | ⟨0, _⟩ => show win4_1.index t 0 * 400 + 1 * (x 0).val = (k 0).val; rw [e0, hk0]; omega
  | ⟨1, _⟩ => show win4_1.index t 1 * 4000 + 1 * (x 1).val = (k 1).val; rw [e1, hk1]; omega

/-- An operand window's block at any point is its whole array. -/
theorem iblk4_2_apply (c : Dev nD) (t : Fin cfg4.N) (x : S4000x576.Idx) :
    (iblk4 V c 2 t : Vec Ideal S4000x576 .bf16) x = (V c main_v65 : S4000x576.Idx → Elt Ideal .bf16) x := by
  obtain ⟨-, -, -, -, e0, e1, -⟩ := idx_facts4 t
  unfold iblk4
  rw [View.read_apply]
  show V c main_v65 _ = V c main_v65 _
  congr 1
  funext a
  apply Fin.ext
  match a with
  | ⟨0, _⟩ => show win4_2.index t 0 * 4000 + 1 * (x 0).val = (x 0).val; rw [e0]; omega
  | ⟨1, _⟩ => show win4_2.index t 1 * 576 + 1 * (x 1).val = (x 1).val; rw [e1]; omega

theorem iblk4_3_apply (c : Dev nD) (t : Fin cfg4.N) (x : S4000x576.Idx) :
    (iblk4 V c 3 t : Vec Ideal S4000x576 .bf16) x = (V c main_v66 : S4000x576.Idx → Elt Ideal .bf16) x := by
  obtain ⟨-, -, -, -, -, -, e0, e1, -⟩ := idx_facts4 t
  unfold iblk4
  rw [View.read_apply]
  show V c main_v66 _ = V c main_v66 _
  congr 1
  funext a
  apply Fin.ext
  match a with
  | ⟨0, _⟩ => show win4_3.index t 0 * 4000 + 1 * (x 0).val = (x 0).val; rw [e0]; omega
  | ⟨1, _⟩ => show win4_3.index t 1 * 576 + 1 * (x 1).val = (x 1).val; rw [e1]; omega

/-- What point `t` writes back is block `t` of `G4`. -/
theorem flushed4_4_eq (c : Dev nD) (t : Fin cfg4.N) :
    (dat4 (F := Ideal) V c).flushed 4 t = ((cfg4.win 4).blk t).view.read (Elt Ideal) (G4 V c) := by
  show (cfg4.win 4).cut (grid4.coords t) ((dat4 V c).after 4 t) = _
  rw [after4_4]
  unfold out4_4
  rw [View.canon_unit_zero hz4]
  simp only [View.ld_unit_zero (S := S400x4000) hz4, View.ld_unit_zero (S := S4000x576) hz4]
  obtain ⟨-, -, -, -, -, -, -, -, e0, e1⟩ := idx_facts4 t
  funext j
  obtain ⟨p, q, rfl⟩ : ∃ (p : Fin 400) (q : Fin 576), j = ix2 p q := ⟨j 0, j 1, eq_ix2 j⟩
  show k4_pay1 (F := Ideal) (iblk4 V c 0 t) (iblk4 V c 2 t) (iblk4 V c 1 t) (iblk4 V c 3 t) (ix2 p q)
    = G4 V c (((cfg4.win 4).blk t).view.emb (ix2 p q))
  rw [k4_pay1_apply]
  have hr : ((((cfg4.win 4).blk t).view.emb (ix2 p q)) 0).val = 400 * t.val + p.val := by
    show win4_4.index t 0 * 400 + 1 * p.val = 400 * t.val + p.val; rw [e0]; omega
  have hc : ((((cfg4.win 4).blk t).view.emb (ix2 p q)) 1).val = q.val := by
    show win4_4.index t 1 * 576 + 1 * q.val = q.val; rw [e1]; omega
  show _ = g4 (V c main_v0) (V c main_v1) (V c main_v65) (V c main_v66) _ _
  refine Eq.trans ?_ (g4_def _ _ _ _ _ _).symm
  refine congrArg₂ (· + ·) (Finset.sum_congr rfl fun k _ => congrArg₂ (· * ·) ?_ ?_)
    (Finset.sum_congr rfl fun k _ => congrArg₂ (· * ·) ?_ ?_)
  · exact iblk4_0_apply V c t (ix2 p k) _ hr rfl
  · rw [iblk4_2_apply]; congr 1; funext a; apply Fin.ext
    match a with
    | ⟨0, _⟩ => rfl
    | ⟨1, _⟩ => exact hc.symm
  · exact iblk4_1_apply V c t (ix2 p k) _ hr rfl
  · rw [iblk4_3_apply]; congr 1; funext a; apply Fin.ext
    match a with
    | ⟨0, _⟩ => rfl
    | ⟨1, _⟩ => exact hc.symm

/-- An index of the array is in point `t`'s block iff each coordinate is in the block's range on its axis. -/
theorem mem_blk4_4 (t : Fin cfg4.N) (i : S8000x576.Idx) :
    i ∈ ((cfg4.win 4).blk t).view.set ↔ ∀ a : Fin 2, win4_4.index t a * S400x576.size a ≤ (i a).val ∧ (i a).val < win4_4.index t a * S400x576.size a + S400x576.size a := by
  show i ∈ ((View.whole main_v67).slice (win4_4.rect t)).set ↔ _
  rw [View.set_slice_whole, Rect.mem_set_unit]
  exact Iff.rfl

/-- Every index of the array is in the block of the point its row belongs to (row P to point P / 400). -/
theorem cover4_arr (i : S8000x576.Idx) : ∃ t : Fin cfg4.N, (cfg4.win 4).flush t = true ∧ i ∈ ((cfg4.win 4).blk t).view.set := by
  have hi0 : (i 0).val < 8000 := (i 0).isLt
  have hi1 : (i 1).val < 576 := (i 1).isLt
  have hN : cfg4.N = 20 := N_4
  let t : Fin cfg4.N := ⟨(i 0).val / 400, by rw [hN]; omega⟩
  obtain ⟨-, -, -, -, -, -, -, -, e0, e1⟩ := idx_facts4 t
  have ht : t.val = (i 0).val / 400 := rfl
  refine ⟨t, flush4_4 t, ?_⟩
  rw [mem_blk4_4]
  intro a
  match a with
  | ⟨0, _⟩ => show win4_4.index t (0 : Fin 2) * 400 ≤ (i 0).val ∧ (i 0).val < win4_4.index t (0 : Fin 2) * 400 + 400; rw [e0, ht]; omega
  | ⟨1, _⟩ => show win4_4.index t (1 : Fin 2) * 576 ≤ (i 1).val ∧ (i 1).val < win4_4.index t (1 : Fin 2) * 576 + 576; rw [e1]; omega

/-- The output array after the region's run is `G4` of the arrays the region finds. -/
theorem final4_fun (c : Dev nD) : (dat4 (F := Ideal) V c).arrAt 4 cfg4.N = G4 V c :=
  (dat4 (F := Ideal) V c).arrAt_eq_of_cover 4 (G4 V c) (fun t _ => flushed4_4_eq V c t) (cover4_arr)

/-- Entry (P, q) of the output array after the region's run. -/
theorem final4 (c : Dev nD) (P : Fin 8000) (q : Fin 576) :
    (dat4 (F := Ideal) V c).arrAt 4 cfg4.N (ix2 P q) = g4 (V c main_v0) (V c main_v1) (V c main_v65) (V c main_v66) P q :=
  congrFun (final4_fun V c) (ix2 P q)

end Cert.KernelIdeal.AggValue

end
-- ==== Proof.SpecLinks.lean ====
/-
  The sums of products, recognised as the reference's own operations.

  The kernel side is read, entry by entry, as sums of products: an aggregation's entry (P, q) is
  (∑ k < 4000, a0[P, k] · b0[k, q]) + (∑ k < 4000, a1[P, k] · b1[k, q]), an accumulation's entry (p, q) is
  ∑ k < 8000, cm[k, p] · ct[k, q]. The reference writes the same arrays as host products: two [8000, 4000] by
  [4000, N] products added, and the product of a transposed [8000, 4000] matrix with an [8000, 320] matrix. At the exact
  reading of floats a host product at an entry is the sum over the contraction index of the operands' products, and a
  transposed matrix at (p, k) is the matrix at (k, p); so each array of sums IS the reference's array, as whole
  functions. Every float format reads as the extended reals here, so an array stored in a narrow format on one side and
  a wide one on the other is the same function.
-/
import proofs.«154590_j17119739641884_2_alg».proof.Proof.Spec
import proofs.«154590_j17119739641884_2_alg».proof.Proof.RefForms
import proofs.«154590_j17119739641884_2_alg».proof.Proof.AggFinal0
import proofs.«154590_j17119739641884_2_alg».proof.Proof.AggFinal2
import proofs.«154590_j17119739641884_2_alg».proof.Proof.AggFinal4
import Idealize.ShloMosaic.Lib.ValueIdx

noncomputable section

namespace Cert.KernelIdeal.SpecLinks

open Idealize.ShloMosaic Idealize.ShloMosaic.ValueIdx

/-- Width 64: the array whose entry (P, q) is the two sums of products, added, is the reference's two host products,
    added. -/
theorem agg64_link (a0 a1 : Cert.KernelIdeal.S8000x4000.Idx → Elt Ideal .bf16)
    (b0 b1 : Cert.KernelIdeal.S4000x64.Idx → Elt Ideal .bf16) :
    (fun i : Cert.KernelIdeal.S8000x64.Idx => Cert.KernelIdeal.AggValue.g0 a0 a1 b0 b1 (i 0) (i 1))
      = Cert.ReferenceIdeal.Spec.agg64 (F := Ideal) a0 a1 b0 b1 := by
  funext i
  obtain ⟨P, q, rfl⟩ : ∃ (P : Fin 8000) (q : Fin 64), i = ix2 P q := ⟨i 0, i 1, eq_ix2 i⟩
  unfold Cert.ReferenceIdeal.Spec.agg64
  exact (congrArg₂ (· + ·) (Cert.ReferenceIdeal.RefForms.dot_8000x4000_4000x64_apply a0 b0 P q)
    (Cert.ReferenceIdeal.RefForms.dot_8000x4000_4000x64_apply a1 b1 P q)).symm

/-- Width 320: the array whose entry (P, q) is the two sums of products, added, is the reference's two host products,
    added. -/
theorem agg320_link (a0 a1 : Cert.KernelIdeal.S8000x4000.Idx → Elt Ideal .bf16)
    (b0 b1 : Cert.KernelIdeal.S4000x320.Idx → Elt Ideal .bf16) :
    (fun i : Cert.KernelIdeal.S8000x320.Idx => Cert.KernelIdeal.AggValue.g2 a0 a1 b0 b1 (i 0) (i 1))
      = Cert.ReferenceIdeal.Spec.agg320 (F := Ideal) a0 a1 b0 b1 := by
  funext i
  obtain ⟨P, q, rfl⟩ : ∃ (P : Fin 8000) (q : Fin 320), i = ix2 P q := ⟨i 0, i 1, eq_ix2 i⟩
  unfold Cert.ReferenceIdeal.Spec.agg320
  exact (congrArg₂ (· + ·) (Cert.ReferenceIdeal.RefForms.dot_8000x4000_4000x320_apply a0 b0 P q)
    (Cert.ReferenceIdeal.RefForms.dot_8000x4000_4000x320_apply a1 b1 P q)).symm

/-- Width 576: the array whose entry (P, q) is the two sums of products, added, is the reference's two host products,
    added. -/
theorem agg576_link (a0 a1 : Cert.KernelIdeal.S8000x4000.Idx → Elt Ideal .bf16)
    (b0 b1 : Cert.KernelIdeal.S4000x576.Idx → Elt Ideal .bf16) :
    (fun i : Cert.KernelIdeal.S8000x576.Idx => Cert.KernelIdeal.AggValue.g4 a0 a1 b0 b1 (i 0) (i 1))
      = Cert.ReferenceIdeal.Spec.agg576 (F := Ideal) a0 a1 b0 b1 := by
  funext i
  obtain ⟨P, q, rfl⟩ : ∃ (P : Fin 8000) (q : Fin 576), i = ix2 P q := ⟨i 0, i 1, eq_ix2 i⟩
  unfold Cert.ReferenceIdeal.Spec.agg576
  exact (congrArg₂ (· + ·) (Cert.ReferenceIdeal.RefForms.dot_8000x4000_4000x576_apply a0 b0 P q)
    (Cert.ReferenceIdeal.RefForms.dot_8000x4000_4000x576_apply a1 b1 P q)).symm

/-- An array whose entry (p, q) is the contraction over the 8000 rows of column p of cm with column q of ct is the
    reference's product of cm transposed with ct. -/
theorem pvT_link (cm : Cert.KernelIdeal.S8000x4000.Idx → Elt Ideal .bf16) (ct : Cert.KernelIdeal.S8000x320.Idx → Elt Ideal .bf16)
    (X : Cert.KernelIdeal.S4000x320.Idx → Elt Ideal .f32)
    (hX : ∀ (p : Fin 4000) (q : Fin 320), X (ix2 p q) = ∑ k : Fin 8000, cm (ix2 k p) * ct (ix2 k q)) :
    X = Cert.ReferenceIdeal.Spec.pvT (F := Ideal) cm ct := by
  funext i
  obtain ⟨p, q, rfl⟩ : ∃ (p : Fin 4000) (q : Fin 320), i = ix2 p q := ⟨i 0, i 1, eq_ix2 i⟩
  unfold Cert.ReferenceIdeal.Spec.pvT
  exact (hX p q).trans (Cert.ReferenceIdeal.RefForms.transpose_dot_8000_apply _ cm ct p q).symm

end Cert.KernelIdeal.SpecLinks

end
-- ==== Proof.Bridge1.lean ====
/-
  The kernel program computes the encoder's composition, part one. The sixteen argument arrays as launched; region 0's
  output is the first clause aggregation (its 400-row tiles are the two products' tiles, and the bf16 copies of the
  operands are the operands themselves on the extended reals); the clause embeddings written after it are c0.
-/
import proofs.«154590_j17119739641884_2_alg».proof.Proof.Outs
import proofs.«154590_j17119739641884_2_alg».proof.Proof.Spec
import proofs.«154590_j17119739641884_2_alg».proof.Proof.AggFinal0
import proofs.«154590_j17119739641884_2_alg».proof.Proof.HostStages
import proofs.«154590_j17119739641884_2_alg».proof.Proof.SpecLinks

set_option maxRecDepth 16384

noncomputable section

namespace Cert.KernelIdeal.Bridge

open Cert.KernelIdeal Cert.KernelIdeal.Gen Cert.KernelIdeal.Hand
open Idealize.ShloMosaic Idealize.ShloMosaic.TcCoe Idealize.ShloMosaic.ValueIdx
open Idealize.SL Idealize.SL.Sem
open Cert.ReferenceIdeal (Spec.Args)

variable (m : (ℓ : Loc nD τ sig) → Buf (Elt Ideal) ℓ) (c : Dev nD)

/-- The kernel program's sixteen argument arrays on core c, as launched. -/
def argsK : Cert.ReferenceIdeal.Spec.Args Ideal where
  vlabels := m ((c.tc : Thread nD τ).loc main_arg0)
  clabels := m ((c.tc : Thread nD τ).loc main_arg1)
  cp := m ((c.tc : Thread nD τ).loc main_arg2)
  cn := m ((c.tc : Thread nD τ).loc main_arg3)
  wl0 := m ((c.tc : Thread nD τ).loc main_arg4)
  wl1 := m ((c.tc : Thread nD τ).loc main_arg5)
  wl2 := m ((c.tc : Thread nD τ).loc main_arg6)
  bl0 := m ((c.tc : Thread nD τ).loc main_arg7)
  bl1 := m ((c.tc : Thread nD τ).loc main_arg8)
  bl2 := m ((c.tc : Thread nD τ).loc main_arg9)
  wc0 := m ((c.tc : Thread nD τ).loc main_arg10)
  wc1 := m ((c.tc : Thread nD τ).loc main_arg11)
  wc2 := m ((c.tc : Thread nD τ).loc main_arg12)
  bc0 := m ((c.tc : Thread nD τ).loc main_arg13)
  bc1 := m ((c.tc : Thread nD τ).loc main_arg14)
  bc2 := m ((c.tc : Thread nD τ).loc main_arg15)

/-! ## Arguments reach every host stretch as launched -/
theorem arg4_at2 : V2 m (outs m) c main_arg4 = (argsK m c).wl0 :=
  ((V2_of m (outs m) c main_arg4 (by decide)).trans (V1_of m c main_arg4 (by decide)))
theorem arg7_at2 : V2 m (outs m) c main_arg7 = (argsK m c).bl0 :=
  ((V2_of m (outs m) c main_arg7 (by decide)).trans (V1_of m c main_arg7 (by decide)))
theorem arg1_at2 : V2 m (outs m) c main_arg1 = (argsK m c).clabels :=
  ((V2_of m (outs m) c main_arg1 (by decide)).trans (V1_of m c main_arg1 (by decide)))

/-! ## Region 0 -/

theorem v7_at2 : V2 m (outs m) c main_v7 = o0 m c := by
  show Function.update _ _ _ _ = _
  rw [Function.update_self]
  exact outs6_main_v7 m _ c

/-- The first clause aggregation. -/
theorem k0 : o0 m c = Cert.ReferenceIdeal.Spec.agg64 (argsK m c).cp (argsK m c).cn (argsK m c).vlabels (argsK m c).vlabels := by
  refine (AggValue.final0_fun (Vat (V1 m)) c).trans ?_
  show (fun i : S8000x64.Idx => AggValue.g0 (V1 m c main_v0) (V1 m c main_v1) (V1 m c main_v5) (V1 m c main_v6) (i 0) (i 1)) = _
  rw [show V1 m c main_v0 = (argsK m c).cp from HostValue.s0_main_v0 (V0 m c),
    show V1 m c main_v1 = (argsK m c).cn from HostValue.s0_main_v1 (V0 m c),
    show V1 m c main_v5 = (argsK m c).vlabels from HostValue.s0_main_v5 (V0 m c),
    show V1 m c main_v6 = (argsK m c).vlabels from HostValue.s0_main_v6 (V0 m c)]
  exact SpecLinks.agg64_link _ _ _ _

/-- The clause embeddings of the first iteration. -/
theorem k1 : V5 m (outs m) c main_v15 = Cert.ReferenceIdeal.Spec.c0 (argsK m c) := by
  have h := HostValue.s1_main_v15 (V2 m (outs m) c)
  rw [arg4_at2 m c, arg7_at2 m c, arg1_at2 m c, v7_at2 m c, k0 m c] at h
  exact h

end Cert.KernelIdeal.Bridge

end
-- ==== Proof.LibFirstAxisContract.lean ====
/-
  A matrix contraction over the FIRST axis of both operands, read at one entry.

  For the dimension numbers of a [K, M] by [K, N] product that contracts axis 0 of the left operand with axis 0 of the
  right operand (the left operand is used transposed; no batch axis), the sum over the contraction index that the exact
  product takes at result entry (p, q) is the sum over k < K of l[k, p] · r[k, q]. Stated for the sum itself, for a
  matrix unit's product into a zero accumulator, and for a host dot product, all at the exact (extended real) reading of
  floats.
-/
import Idealize.ShloMosaic.PureOps.Ideal.Laws
import Idealize.ShloMosaic.Lib.ValueIdx

noncomputable section

namespace Cert.LibFirstAxisContract

open Idealize.ShloMosaic Idealize.ShloMosaic.ValueIdx

/-- The dimension numbers: contract axis 0 with axis 0; the result's rows are the left operand's axis 1, its columns
    the right operand's axis 1. -/
def firstAxis (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- The contraction index has one axis, of extent K. -/
theorem firstAxis_rank (K M N : Nat) : (firstAxis K M N).contr.rank = 1 := rfl
theorem firstAxis_size (K M N : Nat) : (firstAxis K M N).contr.size ⟨0, Nat.one_pos⟩ = K := rfl

/-- At result entry (p, q) and contraction position k the left operand is read at (k, p) … -/
theorem firstAxis_lhsIdx (K M N : Nat) (p : Fin M) (q : Fin N) (k : Fin K) :
    (firstAxis K M N).lhsIdx (ix2 p q) ((contrEquiv1 (firstAxis K M N) K rfl rfl).symm k) = ix2 k p :=
  funext fun a => Fin.ext (by
    have hk := contrEquiv1_symm_val (firstAxis K M N) K rfl rfl k
    match a with
    | ⟨0, _⟩ => exact ((firstAxis K M N).lhsIdx_val_of_single rfl _ _).trans hk
    | ⟨1, _⟩ => rfl)

/-- … and the right operand at (k, q). -/
theorem firstAxis_rhsIdx (K M N : Nat) (p : Fin M) (q : Fin N) (k : Fin K) :
    (firstAxis K M N).rhsIdx (ix2 p q) ((contrEquiv1 (firstAxis K M N) K rfl rfl).symm k) = ix2 k q :=
  funext fun a => Fin.ext (by
    have hk := contrEquiv1_symm_val (firstAxis K M N) K rfl rfl k
    match a with
    | ⟨0, _⟩ => exact ((firstAxis K M N).rhsIdx_val_of_single rfl _ _).trans hk
    | ⟨1, _⟩ => rfl)

/-- The contraction sum at entry (p, q) is the sum over k of l[k, p] · r[k, q]. -/
theorem firstAxis_sum (K M N : Nat) (l : (⟨2, ![K, M]⟩ : Shape).Idx → EReal) (r : (⟨2, ![K, N]⟩ : Shape).Idx → EReal)
    (p : Fin M) (q : Fin N) :
    ∑ k : (firstAxis K M N).contr.Idx,
        l ((firstAxis K M N).lhsIdx (ix2 p q) k) * r ((firstAxis K M N).rhsIdx (ix2 p q) k)
      = ∑ k : Fin K, l (ix2 k p) * r (ix2 k q) := by
  rw [← Equiv.sum_comp (contrEquiv1 (firstAxis K M N) K rfl rfl).symm]
  refine Finset.sum_congr rfl fun k _ => ?_
  rw [firstAxis_lhsIdx, firstAxis_rhsIdx]

/-- A matrix unit's product into the zero accumulator, at entry (p, q). -/
theorem matmul_firstAxis_apply (K M N : Nat) {φ₁ φ₂ : FTy} (prec : Option ContractPrecision)
    (l : FVec Ideal ⟨2, ![K, M]⟩ φ₁) (r : FVec Ideal ⟨2, ![K, N]⟩ φ₂) (p : Fin M) (q : Fin N) :
    FloatOps.matmul (firstAxis K M N) prec l r (constant ⟨2, ![M, N]⟩ .f32 0x00000000#32) (ix2 p q)
      = ∑ k : Fin K, l (ix2 k p) * r (ix2 k q) :=
  (Ideal.matmul_constant_zero_apply (firstAxis K M N) prec l r (ix2 p q)).trans (firstAxis_sum K M N l r p q)

/-- A host dot product, at entry (p, q). -/
theorem dotGeneral_firstAxis_apply (K M N : Nat) {φ₁ φ₂ : FTy} (prec : Option ContractPrecision) (sched : HostSchedule)
    (l : FVec Ideal ⟨2, ![K, M]⟩ φ₁) (r : FVec Ideal ⟨2, ![K, N]⟩ φ₂) (p : Fin M) (q : Fin N) :
    FloatOps.dotGeneral (firstAxis K M N) prec sched l r (ix2 p q) = ∑ k : Fin K, l (ix2 k p) * r (ix2 k q) :=
  (Ideal.dotGeneral_apply (firstAxis K M N) prec sched l r (ix2 p q)).trans (firstAxis_sum K M N l r p q)

end Cert.LibFirstAxisContract

end
-- ==== Proof.PvnvPayload.lean ====
/-
  The accumulation step's arithmetic, read at one entry.

  The second kernel of an iteration computes, for each of the two stacked coefficient matrices, the product of its
  transpose with the 8000-row feature matrix, 800 rows at a time: the grid point (i, k) holds rows 800·k … 800·k + 799
  of coefficient matrix i (a [1, 800, 4000] block) and of the features (an [800, 320] block), and adds to the
  [1, 4000, 320] accumulator block of matrix i the product that contracts the 800 rows of both, i.e. the first axis of
  both operands. At k = 0 the accumulator block is first set to zero.

  At the exact reading of floats the narrow operand format is no rounding, the casts [1, a, b] ↔ [a, b] only drop or add
  the unit coordinate, and a product into the zero accumulator is the plain sum of products. So the zeroing block is 0
  at every entry, and entry (0, p, q) of the block stored after a tile is

      acc[0, p, q] + ∑ k < 800, tile[0, k, p] · feat[k, q].

  Proved once for any sizes, then read off for the three (textually equal) instances of the kernel.
-/
import proofs.«154590_j17119739641884_2_alg».proof.Proof.Gen.KernelIdeal.Skeleton
import proofs.«154590_j17119739641884_2_alg».proof.Proof.LibFirstAxisContract
import Idealize.ShloMosaic.Lib.ValueLayout

noncomputable section

namespace Cert.KernelIdeal.PvnvValue

open Idealize.ShloMosaic Idealize.ShloMosaic.ValueIdx Cert.KernelIdeal Cert.KernelIdeal.Gen

/-- A scalar spread over an [a, b] array and given a leading unit axis is that scalar at every entry. -/
theorem zero_block_apply (a b : Nat) (h : (⟨2, ![a, b]⟩ : Shape).ShapeCasts ⟨3, ![1, a, b]⟩)
    (u : Fin 1) (p : Fin a) (q : Fin b) :
    shapeCast ⟨3, ![1, a, b]⟩
        (broadcast ⟨2, ![a, b]⟩ (Scalar.ofBits (F := Ideal) .f32 0x00000000#32)) h (ix3 u p q)
      = Ideal.ofBits .f32 0x00000000#32 :=
  shapeCast_ab_1ab_apply _ h u p q

/-- One accumulation step for any sizes: the [1, M, N] accumulator block plus the product of the [1, K, M] block, read
    as [K, M], with the [K, N] block, contracted over the first axis of both. `D` is any record of those dimension
    numbers. -/
theorem accumulate_apply (K M N : Nat) (D : DotDims ⟨2, ![K, M]⟩ ⟨2, ![K, N]⟩ ⟨2, ![M, N]⟩)
    (hD : D = LibFirstAxisContract.firstAxis K M N)
    (h3 : (⟨3, ![1, K, M]⟩ : Shape).ShapeCasts ⟨2, ![K, M]⟩) (h5 : (⟨2, ![K, N]⟩ : Shape).ShapeCasts ⟨2, ![K, N]⟩)
    (h8 : (⟨3, ![1, M, N]⟩ : Shape).ShapeCasts ⟨2, ![M, N]⟩) (h10 : (⟨2, ![M, N]⟩ : Shape).ShapeCasts ⟨3, ![1, M, N]⟩)
    (x : FVec Ideal ⟨3, ![1, K, M]⟩ .bf16) (y : FVec Ideal ⟨2, ![K, N]⟩ .bf16) (acc : FVec Ideal ⟨3, ![1, M, N]⟩ .f32)
    (u : Fin 1) (p : Fin M) (q : Fin N) :
    shapeCast ⟨3, ![1, M, N]⟩
        (addf (shapeCast ⟨2, ![M, N]⟩ acc h8)
          (matmul D none (shapeCast ⟨2, ![K, M]⟩ x h3) (shapeCast ⟨2, ![K, N]⟩ y h5)
            (constant (F := Ideal) ⟨2, ![M, N]⟩ .f32 0x00000000#32))) h10 (ix3 u p q)
      = acc (ix3 (0 : Fin 1) p q) + ∑ k : Fin K, x (ix3 (0 : Fin 1) k p) * y (ix2 k q) := by
  subst hD
  rw [shapeCast_ab_1ab_apply _ h10 u p q, shapeCast_self y h5]
  refine congrArg₂ (· + ·) (shapeCast_1ab_ab_apply acc h8 p q) ?_
  refine (LibFirstAxisContract.matmul_firstAxis_apply K M N none _ y p q).trans ?_
  exact Finset.sum_congr rfl fun k _ => congrArg (· * y (ix2 k q)) (shapeCast_1ab_ab_apply x h3 k p)

/-- At the first point of the contraction axis the accumulator block is set to zero. -/
theorem k1_pay1_apply (u : Fin 1) (p : Fin 4000) (q : Fin 320) :
    k1_pay1 (F := Ideal) (ix3 u p q) = 0 :=
  (zero_block_apply 4000 320 _ u p q).trans Ideal.ofBits_zero_f32

/-- Entry (p, q) of the accumulator block after one more 800-row tile. -/
theorem k1_pay2_apply (v3 : Vec Ideal S1x800x4000 .bf16) (v5 : Vec Ideal S800x320 .bf16)
    (v8 : Vec Ideal S1x4000x320 .f32) (p : Fin 4000) (q : Fin 320) :
    k1_pay2 (F := Ideal) v3 v5 v8 (ix3 (0 : Fin 1) p q)
      = v8 (ix3 (0 : Fin 1) p q) + ∑ k : Fin 800, v3 (ix3 (0 : Fin 1) k p) * v5 (ix2 k q) :=
  accumulate_apply 800 4000 320 dot_S800x4000_S800x320_S4000x320_0_0_1_1_n_n rfl _ _ _ _ v3 v5 v8 (0 : Fin 1) p q

/-- At the first point of the contraction axis the accumulator block is set to zero. -/
theorem k3_pay1_apply (u : Fin 1) (p : Fin 4000) (q : Fin 320) :
    k3_pay1 (F := Ideal) (ix3 u p q) = 0 :=
  (zero_block_apply 4000 320 _ u p q).trans Ideal.ofBits_zero_f32

/-- Entry (p, q) of the accumulator block after one more 800-row tile. -/
theorem k3_pay2_apply (v3 : Vec Ideal S1x800x4000 .bf16) (v5 : Vec Ideal S800x320 .bf16)
    (v8 : Vec Ideal S1x4000x320 .f32) (p : Fin 4000) (q : Fin 320) :
    k3_pay2 (F := Ideal) v3 v5 v8 (ix3 (0 : Fin 1) p q)
      = v8 (ix3 (0 : Fin 1) p q) + ∑ k : Fin 800, v3 (ix3 (0 : Fin 1) k p) * v5 (ix2 k q) :=
  accumulate_apply 800 4000 320 dot_S800x4000_S800x320_S4000x320_0_0_1_1_n_n rfl _ _ _ _ v3 v5 v8 (0 : Fin 1) p q

/-- At the first point of the contraction axis the accumulator block is set to zero. -/
theorem k5_pay1_apply (u : Fin 1) (p : Fin 4000) (q : Fin 320) :
    k5_pay1 (F := Ideal) (ix3 u p q) = 0 :=
  (zero_block_apply 4000 320 _ u p q).trans Ideal.ofBits_zero_f32

/-- Entry (p, q) of the accumulator block after one more 800-row tile. -/
theorem k5_pay2_apply (v3 : Vec Ideal S1x800x4000 .bf16) (v5 : Vec Ideal S800x320 .bf16)
    (v8 : Vec Ideal S1x4000x320 .f32) (p : Fin 4000) (q : Fin 320) :
    k5_pay2 (F := Ideal) v3 v5 v8 (ix3 (0 : Fin 1) p q)
      = v8 (ix3 (0 : Fin 1) p q) + ∑ k : Fin 800, v3 (ix3 (0 : Fin 1) k p) * v5 (ix2 k q) :=
  accumulate_apply 800 4000 320 dot_S800x4000_S800x320_S4000x320_0_0_1_1_n_n rfl _ _ _ _ v3 v5 v8 (0 : Fin 1) p q

end Cert.KernelIdeal.PvnvValue

end
-- ==== Proof.PvnvFinal1.lean ====
/-
  The value of one accumulation region: each slab of its result is a whole contraction.

  The region runs over a 2 × 10 grid, point t = 10·i + k. It reads the stack of two [8000, 4000] coefficient matrices
  in [1, 800, 4000] blocks at (i, k, 0), the [8000, 320] feature matrix in [800, 320] blocks at (k, 0), and keeps the
  [1, 4000, 320] block (i, 0, 0) of the [2, 4000, 320] result in one buffer for the ten points of slab i, writing it
  back after the last of them.

  The steps. (1) What the body leaves in the buffer, read back from the stores its run finds: at k ≠ 0 the accumulation
  step of the two input blocks and of the contents found; at k = 0 the same step of the two input blocks and of the zero
  block it has just stored. (2) Where a block's entry sits in its array: block coordinate times block size plus the
  coordinate inside the block, on each axis. (3) By induction on the point: after point t the buffer holds at (0, p, q)
  the sum of the tiles 0 … t % 10 of slab t / 10, tile g being ∑ j < 800, c[i, 800·g + j, p] · y[800·g + j, q]. Only
  0 + x = x and the extension of a finite sum by one term are used, which hold for the extended reals as they stand: no
  finiteness is asked. (4) At t % 10 = 9 the ten tiles are the whole sum over 8000 rows, regrouped. (5) Every index
  (i, p, q) of the result lies in the block written back at point 10·i + 9, so the array ends holding, at (i, p, q),

      ∑ k < 8000, c[i, k, p] · y[k, q].
-/
import proofs.«154590_j17119739641884_2_alg».proof.Proof.Pvnv1
import proofs.«154590_j17119739641884_2_alg».proof.Proof.PvnvPayload
import proofs.«154590_j17119739641884_2_alg».proof.Proof.RefForms
import Idealize.ShloMosaic.Lib.Pipeline.Value
import Idealize.ShloMosaic.Lib.ValueIdx

set_option maxRecDepth 16384

noncomputable section

namespace Cert.KernelIdeal.PvnvFinal1

open Cert.KernelIdeal Cert.KernelIdeal.Gen Cert.KernelIdeal.Hand
open Idealize.ShloMosaic Idealize.ShloMosaic.TcCoe Idealize.SL.Sem Idealize.ShloMosaic.Tactic Idealize.ShloMosaic.ValueIdx
open Idealize.ShloMosaic.Pipeline (Dat)

/-! ## What the body leaves in the accumulator block -/

section Pieces
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- At k ≠ 0 the body's one store covers the block: it leaves the accumulation step of the two input blocks and of
    the contents it found. -/
theorem out_B (c : Dev nD) (i : grid1.Coords) (a2 : Memref sig .tc .vmem S1x800x4000 .bf16) (h2 : a2.IsWhole)
    (a3 : Memref sig .tc .vmem S800x320 .bf16) (h3 : a3.IsWhole) (a4 : Memref sig .tc .vmem S1x4000x320 .f32) (h4 : a4.IsWhole)
    (hc : ¬cond1_0 i) (x0 : Vec F S1x800x4000 .bf16) (x1 : Vec F S800x320 .bf16) (xo : Vec F S1x4000x320 .f32) :
    out1_B_2 c i a2 h2 a3 h3 a4 h4 hc x0 x1 xo = k1_pay2 x0 x1 xo := by
  unfold out1_B_2
  rw [View.read_writes_eq_canon _ _ _ (cover1_B_2 c i a2 h2 a3 h3 a4 h4 hc x0 x1 xo)]
  unfold kernelRun1_B
  dsimp only
  rw [View.canon_unit_zero hz3]
  simp only [View.readAt_eq_ld, h2.read_unread, h3.read_unread, h4.read_unread, View.ld_unit_zero (S := S1x800x4000) hz3,
    View.ld_unit_zero (S := S800x320) hz2, View.ld_unit_zero (S := S1x4000x320) hz3]

/-- At k = 0 the body first stores the zero block over the whole accumulator block, reads it back, and stores the
    accumulation step of the two input blocks and of that zero block. -/
theorem out_A (c : Dev nD) (i : grid1.Coords) (a2 : Memref sig .tc .vmem S1x800x4000 .bf16) (h2 : a2.IsWhole)
    (a3 : Memref sig .tc .vmem S800x320 .bf16) (h3 : a3.IsWhole) (a4 : Memref sig .tc .vmem S1x4000x320 .f32) (h4 : a4.IsWhole)
    (hc : cond1_0 i) (x0 : Vec F S1x800x4000 .bf16) (x1 : Vec F S800x320 .bf16) :
    out1_A_2 c i a2 h2 a3 h3 a4 h4 hc x0 x1 = k1_pay2 x0 x1 k1_pay1 := by
  unfold out1_A_2
  rw [View.read_writes_eq_canon _ _ _ (cover1_A_2 c i a2 h2 a3 h3 a4 h4 hc x0 x1)]
  unfold kernelRun1_A
  dsimp only
  sl_unfold_words
  rw [View.canon_cons_unit_zero (S := S1x4000x320) hz3, View.readCov_unit_zero (S := S1x4000x320) _ hz3]
  simp only [View.readAt_eq_ld, h2.read_unread, h3.read_unread, View.ld_unit_zero (S := S1x800x4000) hz3,
    View.ld_unit_zero (S := S800x320) hz2]

/-! ## Where the blocks sit in their arrays -/

/-- The block indices at point t = 10·i + k: the coefficient block is (i, k, 0), the feature block (k, 0), the
    accumulator block (i, 0, 0). -/
theorem idx_facts : ∀ t : Fin cfg1.N, win1_0.index t (0 : Fin 3) = t.val / 10 ∧ win1_0.index t (1 : Fin 3) = t.val % 10
    ∧ win1_0.index t (2 : Fin 3) = 0 ∧ win1_1.index t (0 : Fin 2) = t.val % 10 ∧ win1_1.index t (1 : Fin 2) = 0
    ∧ win1_2.index t (0 : Fin 3) = t.val / 10 ∧ win1_2.index t (1 : Fin 3) = 0 ∧ win1_2.index t (2 : Fin 3) = 0 :=
  (by decide +kernel : ∀ t : Fin grid1.N, _)

variable (V : (c : Dev nD) → (b : Ref sig .tc) → Buf (Elt F) ((c : Thread nD τ).loc b))

/-- Entry (0, j, p) of the coefficient block at point t is entry (t / 10, 800·(t % 10) + j, p) of the stack. -/
theorem coef_block_apply (c : Dev nD) (t : Fin cfg1.N) (j : Fin 800) (p : Fin 4000) (i : Fin 2) (k : Fin 8000)
    (hi : i.val = t.val / 10) (hk : k.val = 800 * (t.val % 10) + j.val) :
    (iblk1 V c 0 t : Vec F S1x800x4000 .bf16) (ix3 (0 : Fin 1) j p) = V c main_v4 (ix3 i k p) := by
  obtain ⟨e0, e1, e2, -⟩ := idx_facts t
  unfold iblk1
  rw [View.read_apply]
  show V c main_v4 _ = V c main_v4 _
  congr 1
  funext a
  apply Fin.ext
  match a with
  | ⟨0, _⟩ => show win1_0.index t (0 : Fin 3) * 1 + 1 * 0 = i.val; omega
  | ⟨1, _⟩ => show win1_0.index t (1 : Fin 3) * 800 + 1 * j.val = k.val; omega
  | ⟨2, _⟩ => show win1_0.index t (2 : Fin 3) * 4000 + 1 * p.val = p.val; omega

/-- Entry (j, q) of the feature block at point t is entry (800·(t % 10) + j, q) of the feature matrix. -/
theorem feat_block_apply (c : Dev nD) (t : Fin cfg1.N) (j : Fin 800) (q : Fin 320) (k : Fin 8000)
    (hk : k.val = 800 * (t.val % 10) + j.val) :
    (iblk1 V c 1 t : Vec F S800x320 .bf16) (ix2 j q) = V c main_v15 (ix2 k q) := by
  obtain ⟨-, -, -, e0, e1, -⟩ := idx_facts t
  unfold iblk1
  rw [View.read_apply]
  show V c main_v15 _ = V c main_v15 _
  congr 1
  funext a
  apply Fin.ext
  match a with
  | ⟨0, _⟩ => show win1_1.index t (0 : Fin 2) * 800 + 1 * j.val = k.val; omega
  | ⟨1, _⟩ => show win1_1.index t (1 : Fin 2) * 320 + 1 * q.val = q.val; omega

end Pieces

/-! ## The numbers: one slab of the result is the whole contraction -/

section Value
variable (V : (c : Dev nD) → (b : Ref sig .tc) → Buf (Elt Ideal) ((c : Thread nD τ).loc b))

/-- The stacked coefficient matrices and the feature matrix, as the region finds them. -/
abbrev coef (c : Dev nD) : Vec Ideal S2x8000x4000 .bf16 := V c main_v4
abbrev feat (c : Dev nD) : Vec Ideal S8000x320 .bf16 := V c main_v15

/-- The two input blocks at point t, at their literal types. -/
abbrev coefBlk (c : Dev nD) (t : Fin cfg1.N) : Vec Ideal S1x800x4000 .bf16 := iblk1 V c 0 t
abbrev featBlk (c : Dev nD) (t : Fin cfg1.N) : Vec Ideal S800x320 .bf16 := iblk1 V c 1 t

/-- Tile g of slab i at entry (p, q): the 800 products of rows 800·g … 800·g + 799. -/
def tile (c : Dev nD) (i g : ℕ) (p : Fin 4000) (q : Fin 320) : EReal :=
  if h : i < 2 ∧ g < 10 then
    ∑ j : Fin 800, coef V c (ix3 (⟨i, h.1⟩ : Fin 2) (⟨800 * g + j.val, by have := j.isLt; omega⟩ : Fin 8000) p)
      * feat V c (ix2 (⟨800 * g + j.val, by have := j.isLt; omega⟩ : Fin 8000) q)
  else 0

/-- The tile the body adds at point t is tile t % 10 of slab t / 10. -/
theorem point_tile (c : Dev nD) (t : Fin cfg1.N) (p : Fin 4000) (q : Fin 320) :
    ∑ j : Fin 800, coefBlk V c t (ix3 (0 : Fin 1) j p) * featBlk V c t (ix2 j q)
      = tile V c (t.val / 10) (t.val % 10) p q := by
  have hN : t.val < 20 := lt_of_lt_of_eq t.isLt (show cfg1.N = 20 from N_1)
  unfold tile
  rw [dif_pos ⟨by omega, by omega⟩]
  refine Finset.sum_congr rfl fun j _ => ?_
  exact congrArg₂ (· * ·)
    (coef_block_apply V c t j p ⟨t.val / 10, by omega⟩ ⟨800 * (t.val % 10) + j.val, by have := j.isLt; omega⟩ rfl rfl)
    (feat_block_apply V c t j q ⟨800 * (t.val % 10) + j.val, by have := j.isLt; omega⟩ rfl)

/-- After point n the accumulator block holds, at (0, p, q), the tiles 0 … n % 10 of slab n / 10, added up. Zero plus
    a sum is that sum and a sum extends by one term on the extended reals as anywhere: no finiteness is asked. -/
theorem outsAt_apply (c : Dev nD) : ∀ (n : ℕ) (hn : n < cfg1.N) (p : Fin 4000) (q : Fin 320),
    outsAt1 V c n hn (ix3 (0 : Fin 1) p q) = ∑ g ∈ Finset.range (n % 10 + 1), tile V c (n / 10) g p q
  | 0, hn, p, q => by
    rw [outsAt1_A V c ⟨0, hn⟩ rfl, out_A]
    refine (PvnvValue.k1_pay2_apply _ _ _ p q).trans ?_
    rw [PvnvValue.k1_pay1_apply, zero_add]
    refine (point_tile V c ⟨0, hn⟩ p q).trans ?_
    show tile V c (0 / 10) (0 % 10) p q = ∑ g ∈ Finset.range (0 % 10 + 1), tile V c (0 / 10) g p q
    rw [Nat.zero_div, Nat.zero_mod]
    exact (Finset.sum_range_one (fun g => tile V c 0 g p q)).symm
  | n + 1, hn, p, q => by
    by_cases h0 : (n + 1) % 10 = 0
    · rw [outsAt1_A V c ⟨n + 1, hn⟩ h0, out_A]
      refine (PvnvValue.k1_pay2_apply _ _ _ p q).trans ?_
      rw [PvnvValue.k1_pay1_apply, zero_add]
      refine (point_tile V c ⟨n + 1, hn⟩ p q).trans ?_
      show tile V c ((n + 1) / 10) ((n + 1) % 10) p q = _
      rw [h0]
      exact (Finset.sum_range_one (fun g => tile V c ((n + 1) / 10) g p q)).symm
    · rw [outsAt1_B V c ⟨n + 1, hn⟩ h0, out_B]
      refine (PvnvValue.k1_pay2_apply _ _ _ p q).trans ?_
      refine (congrArg₂ (· + ·) (outsAt_apply c n (Nat.lt_of_succ_lt hn) p q) (point_tile V c ⟨n + 1, hn⟩ p q)).trans ?_
      show ∑ g ∈ Finset.range (n % 10 + 1), tile V c (n / 10) g p q + tile V c ((n + 1) / 10) ((n + 1) % 10) p q = _
      rw [show n / 10 = (n + 1) / 10 from by omega, show n % 10 + 1 = (n + 1) % 10 from by omega]
      exact (Finset.sum_range_succ (fun g => tile V c ((n + 1) / 10) g p q) ((n + 1) % 10)).symm

/-- The ten tiles of a slab make up the whole contraction over the 8000 rows. -/
theorem tiles_sum (c : Dev nD) (i : Fin 2) (p : Fin 4000) (q : Fin 320) :
    ∑ g ∈ Finset.range 10, tile V c i.val g p q
      = ∑ k : Fin 8000, coef V c (ix3 i k p) * feat V c (ix2 k q) := by
  rw [Cert.ReferenceIdeal.RefForms.sum_8000_tiles, ← Fin.sum_univ_eq_sum_range (fun g => tile V c i.val g p q) 10]
  refine Finset.sum_congr rfl fun g _ => ?_
  unfold tile
  rw [dif_pos ⟨i.isLt, g.isLt⟩]

/-- The result array as one function of the two arrays the region reads: entry (i, p, q) is the contraction, over the
    8000 rows, of column p of coefficient matrix i with column q of the features. -/
def G (c : Dev nD) : Vec Ideal S2x4000x320 .f32 :=
  fun x => ∑ k : Fin 8000, coef V c (ix3 (⟨(x 0).val, (x 0).isLt⟩ : Fin 2) k (⟨(x 1).val, (x 1).isLt⟩ : Fin 4000))
    * feat V c (ix2 k (⟨(x 2).val, (x 2).isLt⟩ : Fin 320))

theorem G_apply (c : Dev nD) (i : Fin 2) (p : Fin 4000) (q : Fin 320) :
    G V c (ix3 i p q) = ∑ k : Fin 8000, coef V c (ix3 i k p) * feat V c (ix2 k q) := rfl

end Value

/-! ## From the blocks to the array -/

section Array
variable (V : (c : Dev nD) → (b : Ref sig .tc) → Buf (Elt Ideal) ((c : Thread nD τ).loc b))

/-- After the last point of slab t / 10 (t % 10 = 9) the accumulator block holds that slab of G. -/
theorem last_point (c : Dev nD) (t : Fin cfg1.N) (h9 : t.val % 10 = 9) (u : Fin 1) (p : Fin 4000) (q : Fin 320)
    (x : S2x4000x320.Idx) (hx0 : (x 0).val = t.val / 10) (hx1 : (x 1).val = p.val) (hx2 : (x 2).val = q.val) :
    outsAt1 V c t.val t.isLt (ix3 u p q) = G V c x := by
  have hN : t.val < 20 := lt_of_lt_of_eq t.isLt (show cfg1.N = 20 from N_1)
  obtain rfl : u = 0 := Subsingleton.elim _ _
  have a0 : (⟨(x 0).val, (x 0).isLt⟩ : Fin 2) = ⟨t.val / 10, by omega⟩ := Fin.ext hx0
  have a1 : (⟨(x 1).val, (x 1).isLt⟩ : Fin 4000) = p := Fin.ext hx1
  have a2 : (⟨(x 2).val, (x 2).isLt⟩ : Fin 320) = q := Fin.ext hx2
  rw [outsAt_apply V c t.val t.isLt p q, h9]
  unfold G
  rw [a0, a1, a2]
  exact tiles_sum V c ⟨t.val / 10, by omega⟩ p q

/-- What a flushing point writes back is its block of G. -/
theorem flushed_eq (c : Dev nD) (t : Fin cfg1.N) (hf : (cfg1.win 2).flush t = true) :
    (dat1 V c).flushed 2 t = ((cfg1.win 2).blk t).view.read (Elt Ideal) (G V c) := by
  have h9 : t.val % 10 = 9 := (flush1_2 t).mp hf
  obtain ⟨-, -, -, -, -, e0, e1, e2⟩ := idx_facts t
  show (cfg1.win 2).cut (grid1.coords t) ((dat1 V c).after 2 t) = _
  rw [after1_2]
  funext y
  show outsAt1 V c t.val t.isLt y = G V c (((cfg1.win 2).blk t).view.emb y)
  have hy0 : (y 0).val < 1 := (y 0).isLt
  refine (congrArg (outsAt1 V c t.val t.isLt) (@eq_ix3 1 4000 320 y)).trans
    (last_point V c t h9 (y 0) (y 1) (y 2) _ ?_ ?_ ?_)
  · show win1_2.index t (0 : Fin 3) * 1 + 1 * (y 0).val = t.val / 10; omega
  · show win1_2.index t (1 : Fin 3) * 4000 + 1 * (y 1).val = (y 1).val; omega
  · show win1_2.index t (2 : Fin 3) * 320 + 1 * (y 2).val = (y 2).val; omega

/-- An index of the result array is in point t's block iff each coordinate is in the block's range on its axis. -/
theorem mem_blk (t : Fin cfg1.N) (x : S2x4000x320.Idx) :
    x ∈ ((cfg1.win 2).blk t).view.set ↔ ∀ a : Fin 3, win1_2.index t a * S1x4000x320.size a ≤ (x a).val
      ∧ (x a).val < win1_2.index t a * S1x4000x320.size a + S1x4000x320.size a := by
  show x ∈ ((View.whole main_v16).slice (win1_2.rect t)).set ↔ _
  rw [View.set_slice_whole, Rect.mem_set_unit]
  exact Iff.rfl

/-- Slab i of the result is written back by point 10·i + 9: every index is in a flushing point's block. -/
theorem cover (x : S2x4000x320.Idx) :
    ∃ t : Fin cfg1.N, (cfg1.win 2).flush t = true ∧ x ∈ ((cfg1.win 2).blk t).view.set := by
  have hN : cfg1.N = 20 := N_1
  have h0 : (x 0).val < 2 := (x 0).isLt
  have h1 : (x 1).val < 4000 := (x 1).isLt
  have h2 : (x 2).val < 320 := (x 2).isLt
  have ht : 10 * (x 0).val + 9 < cfg1.N := by rw [hN]; omega
  obtain ⟨-, -, -, -, -, e0, e1, e2⟩ := idx_facts ⟨10 * (x 0).val + 9, ht⟩
  have e0' : win1_2.index ⟨10 * (x 0).val + 9, ht⟩ (0 : Fin 3) = (x 0).val := by
    rw [e0]; show (10 * (x 0).val + 9) / 10 = (x 0).val; omega
  refine ⟨⟨10 * (x 0).val + 9, ht⟩, (flush1_2 _).mpr (by show (10 * (x 0).val + 9) % 10 = 9; omega), ?_⟩
  rw [mem_blk]
  intro a
  match a with
  | ⟨0, _⟩ =>
    show win1_2.index ⟨10 * (x 0).val + 9, ht⟩ (0 : Fin 3) * 1 ≤ (x 0).val
      ∧ (x 0).val < win1_2.index ⟨10 * (x 0).val + 9, ht⟩ (0 : Fin 3) * 1 + 1
    omega
  | ⟨1, _⟩ =>
    show win1_2.index ⟨10 * (x 0).val + 9, ht⟩ (1 : Fin 3) * 4000 ≤ (x 1).val
      ∧ (x 1).val < win1_2.index ⟨10 * (x 0).val + 9, ht⟩ (1 : Fin 3) * 4000 + 4000
    omega
  | ⟨2, _⟩ =>
    show win1_2.index ⟨10 * (x 0).val + 9, ht⟩ (2 : Fin 3) * 320 ≤ (x 2).val
      ∧ (x 2).val < win1_2.index ⟨10 * (x 0).val + 9, ht⟩ (2 : Fin 3) * 320 + 320
    omega

/-- The result array after the region's last point is G. -/
theorem final_eq (c : Dev nD) : (dat1 V c).arrAt 2 cfg1.N = G V c :=
  (dat1 V c).arrAt_eq_of_cover 2 (G V c) (flushed_eq V c) cover

/-- The result array after the region's last point, at its literal type. -/
abbrev result (c : Dev nD) : Vec Ideal S2x4000x320 .f32 := (dat1 V c).arrAt 2 cfg1.N

/-- Entry (i, p, q) of the result: the contraction over all 8000 rows. -/
theorem final1 (c : Dev nD) (i : Fin 2) (p : Fin 4000) (q : Fin 320) :
    result V c (ix3 i p q) = ∑ k : Fin 8000, coef V c (ix3 i k p) * feat V c (ix2 k q) :=
  (congrFun (final_eq V c) (ix3 i p q)).trans (G_apply V c i p q)

end Array

end Cert.KernelIdeal.PvnvFinal1

end
-- ==== Proof.Bridge2.lean ====
/-
  The kernel program computes the encoder's composition, iteration 0:
  the products over the clauses — slab i of the accumulated output is the transposed clause matrix i times the clause
  embeddings, the ten 800-row tiles adding up to the whole contraction —, the variable embeddings, and pos / neg grown by
  them. Every buffer a later stage reads reaches it unchanged through the items that do not write it.
-/
import proofs.«154590_j17119739641884_2_alg».proof.Proof.Bridge1
import proofs.«154590_j17119739641884_2_alg».proof.Proof.PvnvFinal1

set_option maxRecDepth 16384

noncomputable section

namespace Cert.KernelIdeal.Bridge

open Cert.KernelIdeal Cert.KernelIdeal.Gen Cert.KernelIdeal.Hand
open Idealize.ShloMosaic Idealize.ShloMosaic.TcCoe Idealize.ShloMosaic.ValueIdx
open Idealize.SL Idealize.SL.Sem
open Cert.ReferenceIdeal (Spec.Args)

variable (m : (ℓ : Loc nD τ sig) → Buf (Elt Ideal) ℓ) (c : Dev nD)

/-! ## Iteration 0: the products over the clauses (region 1) -/

theorem coef0_apply (i : Fin 2) (k : Fin 8000) (p : Fin 4000) :
    PvnvFinal1.coef (Vat (V5 m (outs1 m))) c (ix3 i k p) = if i = 0 then (argsK m c).cp (ix2 k p) else (argsK m c).cn (ix2 k p) := by
  have e : V5 m (outs1 m) c main_v4 = V1 m c main_v4 := by
    rw [← Vin1_eq m c]; exact ((V5_of m (outs m) c main_v4 (by decide)).trans ((V4_of m (outs m) c main_v4 (by decide)).trans ((V3_of m (outs m) c main_v4 (by decide)).trans (V2_of m (outs m) c main_v4 (by decide)))))
  exact (congrFun e (ix3 i k p)).trans (HostValue.s0_main_v4_apply (V0 m c) i k p)

theorem feat0_eq : PvnvFinal1.feat (Vat (V5 m (outs1 m))) c = Cert.ReferenceIdeal.Spec.c0 (argsK m c) := by
  show V5 m (outs1 m) c main_v15 = _
  rw [← Vin1_eq m c]; exact k1 m c

theorem main_v16_at6 : V6 m (outs m) c main_v16 = o1 m c := by
  show Function.update _ _ _ _ = _
  rw [Function.update_self]
  exact outs6_main_v16 m _ c

theorem kSlab0_0 : HostValue.slab0 (o1 m c) = Cert.ReferenceIdeal.Spec.pvT (argsK m c).cp (Cert.ReferenceIdeal.Spec.c0 (argsK m c)) := by
  refine SpecLinks.pvT_link _ _ _ (fun p q => ?_)
  rw [HostValue.slab0_apply]
  show PvnvFinal1.result (Vat (V5 m (outs1 m))) c (ix3 0 p q) = _
  rw [PvnvFinal1.final1 (Vat (V5 m (outs1 m))) c 0 p q]
  refine Finset.sum_congr rfl (fun k _ => ?_)
  rw [coef0_apply m c, feat0_eq m c, if_pos rfl]

theorem kSlab0_1 : HostValue.slab1 (o1 m c) = Cert.ReferenceIdeal.Spec.pvT (argsK m c).cn (Cert.ReferenceIdeal.Spec.c0 (argsK m c)) := by
  refine SpecLinks.pvT_link _ _ _ (fun p q => ?_)
  rw [HostValue.slab1_apply]
  show PvnvFinal1.result (Vat (V5 m (outs1 m))) c (ix3 1 p q) = _
  rw [PvnvFinal1.final1 (Vat (V5 m (outs1 m))) c 1 p q]
  refine Finset.sum_congr rfl (fun k _ => ?_)
  rw [coef0_apply m c, feat0_eq m c, if_neg (by decide)]

/-! ## Iteration 0: the variable embeddings, and pos / neg grown by them -/
theorem arg10_at6 : V6 m (outs m) c main_arg10 = (argsK m c).wc0 :=
  ((V6_of m (outs m) c main_arg10 (by decide)).trans ((V5_of m (outs m) c main_arg10 (by decide)).trans ((V4_of m (outs m) c main_arg10 (by decide)).trans ((V3_of m (outs m) c main_arg10 (by decide)).trans ((V2_of m (outs m) c main_arg10 (by decide)).trans (V1_of m c main_arg10 (by decide)))))))
theorem arg13_at6 : V6 m (outs m) c main_arg13 = (argsK m c).bc0 :=
  ((V6_of m (outs m) c main_arg13 (by decide)).trans ((V5_of m (outs m) c main_arg13 (by decide)).trans ((V4_of m (outs m) c main_arg13 (by decide)).trans ((V3_of m (outs m) c main_arg13 (by decide)).trans ((V2_of m (outs m) c main_arg13 (by decide)).trans (V1_of m c main_arg13 (by decide)))))))
theorem arg0_at6 : V6 m (outs m) c main_arg0 = (argsK m c).vlabels :=
  ((V6_of m (outs m) c main_arg0 (by decide)).trans ((V5_of m (outs m) c main_arg0 (by decide)).trans ((V4_of m (outs m) c main_arg0 (by decide)).trans ((V3_of m (outs m) c main_arg0 (by decide)).trans ((V2_of m (outs m) c main_arg0 (by decide)).trans (V1_of m c main_arg0 (by decide)))))))

theorem kPos1 : V11 m (outs m) c main_v33 = Cert.ReferenceIdeal.Spec.pos1 (argsK m c) := by
  have h := HostValue.s2_main_v33 (V6 m (outs m) c)
  rw [arg0_at6 m c, arg10_at6 m c, arg13_at6 m c, main_v16_at6 m c, kSlab0_0 m c, kSlab0_1 m c] at h
  exact h

theorem kNeg1 : V11 m (outs m) c main_v34 = Cert.ReferenceIdeal.Spec.neg1 (argsK m c) := by
  have h := HostValue.s2_main_v34 (V6 m (outs m) c)
  rw [arg0_at6 m c, arg10_at6 m c, arg13_at6 m c, main_v16_at6 m c, kSlab0_0 m c, kSlab0_1 m c] at h
  exact h

theorem kPosB1 : V11 m (outs m) c main_v35 = Cert.ReferenceIdeal.Spec.pos1 (argsK m c) := by
  have h := HostValue.s2_main_v35 (V6 m (outs m) c)
  rw [arg0_at6 m c, arg10_at6 m c, arg13_at6 m c, main_v16_at6 m c, kSlab0_0 m c, kSlab0_1 m c] at h
  exact h

theorem kNegB1 : V11 m (outs m) c main_v36 = Cert.ReferenceIdeal.Spec.neg1 (argsK m c) := by
  have h := HostValue.s2_main_v36 (V6 m (outs m) c)
  rw [arg0_at6 m c, arg10_at6 m c, arg13_at6 m c, main_v16_at6 m c, kSlab0_0 m c, kSlab0_1 m c] at h
  exact h

end Cert.KernelIdeal.Bridge

end
-- ==== Proof.PvnvFinal3.lean ====
/-
  The value of one accumulation region: each slab of its result is a whole contraction.

  The region runs over a 2 × 10 grid, point t = 10·i + k. It reads the stack of two [8000, 4000] coefficient matrices
  in [1, 800, 4000] blocks at (i, k, 0), the [8000, 320] feature matrix in [800, 320] blocks at (k, 0), and keeps the
  [1, 4000, 320] block (i, 0, 0) of the [2, 4000, 320] result in one buffer for the ten points of slab i, writing it
  back after the last of them.

  The steps. (1) What the body leaves in the buffer, read back from the stores its run finds: at k ≠ 0 the accumulation
  step of the two input blocks and of the contents found; at k = 0 the same step of the two input blocks and of the zero
  block it has just stored. (2) Where a block's entry sits in its array: block coordinate times block size plus the
  coordinate inside the block, on each axis. (3) By induction on the point: after point t the buffer holds at (0, p, q)
  the sum of the tiles 0 … t % 10 of slab t / 10, tile g being ∑ j < 800, c[i, 800·g + j, p] · y[800·g + j, q]. Only
  0 + x = x and the extension of a finite sum by one term are used, which hold for the extended reals as they stand: no
  finiteness is asked. (4) At t % 10 = 9 the ten tiles are the whole sum over 8000 rows, regrouped. (5) Every index
  (i, p, q) of the result lies in the block written back at point 10·i + 9, so the array ends holding, at (i, p, q),

      ∑ k < 8000, c[i, k, p] · y[k, q].
-/
import proofs.«154590_j17119739641884_2_alg».proof.Proof.Pvnv3
import proofs.«154590_j17119739641884_2_alg».proof.Proof.PvnvPayload
import proofs.«154590_j17119739641884_2_alg».proof.Proof.RefForms
import Idealize.ShloMosaic.Lib.Pipeline.Value
import Idealize.ShloMosaic.Lib.ValueIdx

set_option maxRecDepth 16384

noncomputable section

namespace Cert.KernelIdeal.PvnvFinal3

open Cert.KernelIdeal Cert.KernelIdeal.Gen Cert.KernelIdeal.Hand
open Idealize.ShloMosaic Idealize.ShloMosaic.TcCoe Idealize.SL.Sem Idealize.ShloMosaic.Tactic Idealize.ShloMosaic.ValueIdx
open Idealize.ShloMosaic.Pipeline (Dat)

/-! ## What the body leaves in the accumulator block -/

section Pieces
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- At k ≠ 0 the body's one store covers the block: it leaves the accumulation step of the two input blocks and of
    the contents it found. -/
theorem out_B (c : Dev nD) (i : grid3.Coords) (a2 : Memref sig .tc .vmem S1x800x4000 .bf16) (h2 : a2.IsWhole)
    (a3 : Memref sig .tc .vmem S800x320 .bf16) (h3 : a3.IsWhole) (a4 : Memref sig .tc .vmem S1x4000x320 .f32) (h4 : a4.IsWhole)
    (hc : ¬cond3_0 i) (x0 : Vec F S1x800x4000 .bf16) (x1 : Vec F S800x320 .bf16) (xo : Vec F S1x4000x320 .f32) :
    out3_B_2 c i a2 h2 a3 h3 a4 h4 hc x0 x1 xo = k3_pay2 x0 x1 xo := by
  unfold out3_B_2
  rw [View.read_writes_eq_canon _ _ _ (cover3_B_2 c i a2 h2 a3 h3 a4 h4 hc x0 x1 xo)]
  unfold kernelRun3_B
  dsimp only
  rw [View.canon_unit_zero hz3]
  simp only [View.readAt_eq_ld, h2.read_unread, h3.read_unread, h4.read_unread, View.ld_unit_zero (S := S1x800x4000) hz3,
    View.ld_unit_zero (S := S800x320) hz2, View.ld_unit_zero (S := S1x4000x320) hz3]

/-- At k = 0 the body first stores the zero block over the whole accumulator block, reads it back, and stores the
    accumulation step of the two input blocks and of that zero block. -/
theorem out_A (c : Dev nD) (i : grid3.Coords) (a2 : Memref sig .tc .vmem S1x800x4000 .bf16) (h2 : a2.IsWhole)
    (a3 : Memref sig .tc .vmem S800x320 .bf16) (h3 : a3.IsWhole) (a4 : Memref sig .tc .vmem S1x4000x320 .f32) (h4 : a4.IsWhole)
    (hc : cond3_0 i) (x0 : Vec F S1x800x4000 .bf16) (x1 : Vec F S800x320 .bf16) :
    out3_A_2 c i a2 h2 a3 h3 a4 h4 hc x0 x1 = k3_pay2 x0 x1 k3_pay1 := by
  unfold out3_A_2
  rw [View.read_writes_eq_canon _ _ _ (cover3_A_2 c i a2 h2 a3 h3 a4 h4 hc x0 x1)]
  unfold kernelRun3_A
  dsimp only
  sl_unfold_words
  rw [View.canon_cons_unit_zero (S := S1x4000x320) hz3, View.readCov_unit_zero (S := S1x4000x320) _ hz3]
  simp only [View.readAt_eq_ld, h2.read_unread, h3.read_unread, View.ld_unit_zero (S := S1x800x4000) hz3,
    View.ld_unit_zero (S := S800x320) hz2]

/-! ## Where the blocks sit in their arrays -/

/-- The block indices at point t = 10·i + k: the coefficient block is (i, k, 0), the feature block (k, 0), the
    accumulator block (i, 0, 0). -/
theorem idx_facts : ∀ t : Fin cfg3.N, win3_0.index t (0 : Fin 3) = t.val / 10 ∧ win3_0.index t (1 : Fin 3) = t.val % 10
    ∧ win3_0.index t (2 : Fin 3) = 0 ∧ win3_1.index t (0 : Fin 2) = t.val % 10 ∧ win3_1.index t (1 : Fin 2) = 0
    ∧ win3_2.index t (0 : Fin 3) = t.val / 10 ∧ win3_2.index t (1 : Fin 3) = 0 ∧ win3_2.index t (2 : Fin 3) = 0 :=
  (by decide +kernel : ∀ t : Fin grid3.N, _)

variable (V : (c : Dev nD) → (b : Ref sig .tc) → Buf (Elt F) ((c : Thread nD τ).loc b))

/-- Entry (0, j, p) of the coefficient block at point t is entry (t / 10, 800·(t % 10) + j, p) of the stack. -/
theorem coef_block_apply (c : Dev nD) (t : Fin cfg3.N) (j : Fin 800) (p : Fin 4000) (i : Fin 2) (k : Fin 8000)
    (hi : i.val = t.val / 10) (hk : k.val = 800 * (t.val % 10) + j.val) :
    (iblk3 V c 0 t : Vec F S1x800x4000 .bf16) (ix3 (0 : Fin 1) j p) = V c main_v4 (ix3 i k p) := by
  obtain ⟨e0, e1, e2, -⟩ := idx_facts t
  unfold iblk3
  rw [View.read_apply]
  show V c main_v4 _ = V c main_v4 _
  congr 1
  funext a
  apply Fin.ext
  match a with
  | ⟨0, _⟩ => show win3_0.index t (0 : Fin 3) * 1 + 1 * 0 = i.val; omega
  | ⟨1, _⟩ => show win3_0.index t (1 : Fin 3) * 800 + 1 * j.val = k.val; omega
  | ⟨2, _⟩ => show win3_0.index t (2 : Fin 3) * 4000 + 1 * p.val = p.val; omega

/-- Entry (j, q) of the feature block at point t is entry (800·(t % 10) + j, q) of the feature matrix. -/
theorem feat_block_apply (c : Dev nD) (t : Fin cfg3.N) (j : Fin 800) (q : Fin 320) (k : Fin 8000)
    (hk : k.val = 800 * (t.val % 10) + j.val) :
    (iblk3 V c 1 t : Vec F S800x320 .bf16) (ix2 j q) = V c main_v45 (ix2 k q) := by
  obtain ⟨-, -, -, e0, e1, -⟩ := idx_facts t
  unfold iblk3
  rw [View.read_apply]
  show V c main_v45 _ = V c main_v45 _
  congr 1
  funext a
  apply Fin.ext
  match a with
  | ⟨0, _⟩ => show win3_1.index t (0 : Fin 2) * 800 + 1 * j.val = k.val; omega
  | ⟨1, _⟩ => show win3_1.index t (1 : Fin 2) * 320 + 1 * q.val = q.val; omega

end Pieces

/-! ## The numbers: one slab of the result is the whole contraction -/

section Value
variable (V : (c : Dev nD) → (b : Ref sig .tc) → Buf (Elt Ideal) ((c : Thread nD τ).loc b))

/-- The stacked coefficient matrices and the feature matrix, as the region finds them. -/
abbrev coef (c : Dev nD) : Vec Ideal S2x8000x4000 .bf16 := V c main_v4
abbrev feat (c : Dev nD) : Vec Ideal S8000x320 .bf16 := V c main_v45

/-- The two input blocks at point t, at their literal types. -/
abbrev coefBlk (c : Dev nD) (t : Fin cfg3.N) : Vec Ideal S1x800x4000 .bf16 := iblk3 V c 0 t
abbrev featBlk (c : Dev nD) (t : Fin cfg3.N) : Vec Ideal S800x320 .bf16 := iblk3 V c 1 t

/-- Tile g of slab i at entry (p, q): the 800 products of rows 800·g … 800·g + 799. -/
def tile (c : Dev nD) (i g : ℕ) (p : Fin 4000) (q : Fin 320) : EReal :=
  if h : i < 2 ∧ g < 10 then
    ∑ j : Fin 800, coef V c (ix3 (⟨i, h.1⟩ : Fin 2) (⟨800 * g + j.val, by have := j.isLt; omega⟩ : Fin 8000) p)
      * feat V c (ix2 (⟨800 * g + j.val, by have := j.isLt; omega⟩ : Fin 8000) q)
  else 0

/-- The tile the body adds at point t is tile t % 10 of slab t / 10. -/
theorem point_tile (c : Dev nD) (t : Fin cfg3.N) (p : Fin 4000) (q : Fin 320) :
    ∑ j : Fin 800, coefBlk V c t (ix3 (0 : Fin 1) j p) * featBlk V c t (ix2 j q)
      = tile V c (t.val / 10) (t.val % 10) p q := by
  have hN : t.val < 20 := lt_of_lt_of_eq t.isLt (show cfg3.N = 20 from N_3)
  unfold tile
  rw [dif_pos ⟨by omega, by omega⟩]
  refine Finset.sum_congr rfl fun j _ => ?_
  exact congrArg₂ (· * ·)
    (coef_block_apply V c t j p ⟨t.val / 10, by omega⟩ ⟨800 * (t.val % 10) + j.val, by have := j.isLt; omega⟩ rfl rfl)
    (feat_block_apply V c t j q ⟨800 * (t.val % 10) + j.val, by have := j.isLt; omega⟩ rfl)

/-- After point n the accumulator block holds, at (0, p, q), the tiles 0 … n % 10 of slab n / 10, added up. Zero plus
    a sum is that sum and a sum extends by one term on the extended reals as anywhere: no finiteness is asked. -/
theorem outsAt_apply (c : Dev nD) : ∀ (n : ℕ) (hn : n < cfg3.N) (p : Fin 4000) (q : Fin 320),
    outsAt3 V c n hn (ix3 (0 : Fin 1) p q) = ∑ g ∈ Finset.range (n % 10 + 1), tile V c (n / 10) g p q
  | 0, hn, p, q => by
    rw [outsAt3_A V c ⟨0, hn⟩ rfl, out_A]
    refine (PvnvValue.k3_pay2_apply _ _ _ p q).trans ?_
    rw [PvnvValue.k3_pay1_apply, zero_add]
    refine (point_tile V c ⟨0, hn⟩ p q).trans ?_
    show tile V c (0 / 10) (0 % 10) p q = ∑ g ∈ Finset.range (0 % 10 + 1), tile V c (0 / 10) g p q
    rw [Nat.zero_div, Nat.zero_mod]
    exact (Finset.sum_range_one (fun g => tile V c 0 g p q)).symm
  | n + 1, hn, p, q => by
    by_cases h0 : (n + 1) % 10 = 0
    · rw [outsAt3_A V c ⟨n + 1, hn⟩ h0, out_A]
      refine (PvnvValue.k3_pay2_apply _ _ _ p q).trans ?_
      rw [PvnvValue.k3_pay1_apply, zero_add]
      refine (point_tile V c ⟨n + 1, hn⟩ p q).trans ?_
      show tile V c ((n + 1) / 10) ((n + 1) % 10) p q = _
      rw [h0]
      exact (Finset.sum_range_one (fun g => tile V c ((n + 1) / 10) g p q)).symm
    · rw [outsAt3_B V c ⟨n + 1, hn⟩ h0, out_B]
      refine (PvnvValue.k3_pay2_apply _ _ _ p q).trans ?_
      refine (congrArg₂ (· + ·) (outsAt_apply c n (Nat.lt_of_succ_lt hn) p q) (point_tile V c ⟨n + 1, hn⟩ p q)).trans ?_
      show ∑ g ∈ Finset.range (n % 10 + 1), tile V c (n / 10) g p q + tile V c ((n + 1) / 10) ((n + 1) % 10) p q = _
      rw [show n / 10 = (n + 1) / 10 from by omega, show n % 10 + 1 = (n + 1) % 10 from by omega]
      exact (Finset.sum_range_succ (fun g => tile V c ((n + 1) / 10) g p q) ((n + 1) % 10)).symm

/-- The ten tiles of a slab make up the whole contraction over the 8000 rows. -/
theorem tiles_sum (c : Dev nD) (i : Fin 2) (p : Fin 4000) (q : Fin 320) :
    ∑ g ∈ Finset.range 10, tile V c i.val g p q
      = ∑ k : Fin 8000, coef V c (ix3 i k p) * feat V c (ix2 k q) := by
  rw [Cert.ReferenceIdeal.RefForms.sum_8000_tiles, ← Fin.sum_univ_eq_sum_range (fun g => tile V c i.val g p q) 10]
  refine Finset.sum_congr rfl fun g _ => ?_
  unfold tile
  rw [dif_pos ⟨i.isLt, g.isLt⟩]

/-- The result array as one function of the two arrays the region reads: entry (i, p, q) is the contraction, over the
    8000 rows, of column p of coefficient matrix i with column q of the features. -/
def G (c : Dev nD) : Vec Ideal S2x4000x320 .f32 :=
  fun x => ∑ k : Fin 8000, coef V c (ix3 (⟨(x 0).val, (x 0).isLt⟩ : Fin 2) k (⟨(x 1).val, (x 1).isLt⟩ : Fin 4000))
    * feat V c (ix2 k (⟨(x 2).val, (x 2).isLt⟩ : Fin 320))

theorem G_apply (c : Dev nD) (i : Fin 2) (p : Fin 4000) (q : Fin 320) :
    G V c (ix3 i p q) = ∑ k : Fin 8000, coef V c (ix3 i k p) * feat V c (ix2 k q) := rfl

end Value

/-! ## From the blocks to the array -/

section Array
variable (V : (c : Dev nD) → (b : Ref sig .tc) → Buf (Elt Ideal) ((c : Thread nD τ).loc b))

/-- After the last point of slab t / 10 (t % 10 = 9) the accumulator block holds that slab of G. -/
theorem last_point (c : Dev nD) (t : Fin cfg3.N) (h9 : t.val % 10 = 9) (u : Fin 1) (p : Fin 4000) (q : Fin 320)
    (x : S2x4000x320.Idx) (hx0 : (x 0).val = t.val / 10) (hx1 : (x 1).val = p.val) (hx2 : (x 2).val = q.val) :
    outsAt3 V c t.val t.isLt (ix3 u p q) = G V c x := by
  have hN : t.val < 20 := lt_of_lt_of_eq t.isLt (show cfg3.N = 20 from N_3)
  obtain rfl : u = 0 := Subsingleton.elim _ _
  have a0 : (⟨(x 0).val, (x 0).isLt⟩ : Fin 2) = ⟨t.val / 10, by omega⟩ := Fin.ext hx0
  have a1 : (⟨(x 1).val, (x 1).isLt⟩ : Fin 4000) = p := Fin.ext hx1
  have a2 : (⟨(x 2).val, (x 2).isLt⟩ : Fin 320) = q := Fin.ext hx2
  rw [outsAt_apply V c t.val t.isLt p q, h9]
  unfold G
  rw [a0, a1, a2]
  exact tiles_sum V c ⟨t.val / 10, by omega⟩ p q

/-- What a flushing point writes back is its block of G. -/
theorem flushed_eq (c : Dev nD) (t : Fin cfg3.N) (hf : (cfg3.win 2).flush t = true) :
    (dat3 V c).flushed 2 t = ((cfg3.win 2).blk t).view.read (Elt Ideal) (G V c) := by
  have h9 : t.val % 10 = 9 := (flush3_2 t).mp hf
  obtain ⟨-, -, -, -, -, e0, e1, e2⟩ := idx_facts t
  show (cfg3.win 2).cut (grid3.coords t) ((dat3 V c).after 2 t) = _
  rw [after3_2]
  funext y
  show outsAt3 V c t.val t.isLt y = G V c (((cfg3.win 2).blk t).view.emb y)
  have hy0 : (y 0).val < 1 := (y 0).isLt
  refine (congrArg (outsAt3 V c t.val t.isLt) (@eq_ix3 1 4000 320 y)).trans
    (last_point V c t h9 (y 0) (y 1) (y 2) _ ?_ ?_ ?_)
  · show win3_2.index t (0 : Fin 3) * 1 + 1 * (y 0).val = t.val / 10; omega
  · show win3_2.index t (1 : Fin 3) * 4000 + 1 * (y 1).val = (y 1).val; omega
  · show win3_2.index t (2 : Fin 3) * 320 + 1 * (y 2).val = (y 2).val; omega

/-- An index of the result array is in point t's block iff each coordinate is in the block's range on its axis. -/
theorem mem_blk (t : Fin cfg3.N) (x : S2x4000x320.Idx) :
    x ∈ ((cfg3.win 2).blk t).view.set ↔ ∀ a : Fin 3, win3_2.index t a * S1x4000x320.size a ≤ (x a).val
      ∧ (x a).val < win3_2.index t a * S1x4000x320.size a + S1x4000x320.size a := by
  show x ∈ ((View.whole main_v46).slice (win3_2.rect t)).set ↔ _
  rw [View.set_slice_whole, Rect.mem_set_unit]
  exact Iff.rfl

/-- Slab i of the result is written back by point 10·i + 9: every index is in a flushing point's block. -/
theorem cover (x : S2x4000x320.Idx) :
    ∃ t : Fin cfg3.N, (cfg3.win 2).flush t = true ∧ x ∈ ((cfg3.win 2).blk t).view.set := by
  have hN : cfg3.N = 20 := N_3
  have h0 : (x 0).val < 2 := (x 0).isLt
  have h1 : (x 1).val < 4000 := (x 1).isLt
  have h2 : (x 2).val < 320 := (x 2).isLt
  have ht : 10 * (x 0).val + 9 < cfg3.N := by rw [hN]; omega
  obtain ⟨-, -, -, -, -, e0, e1, e2⟩ := idx_facts ⟨10 * (x 0).val + 9, ht⟩
  have e0' : win3_2.index ⟨10 * (x 0).val + 9, ht⟩ (0 : Fin 3) = (x 0).val := by
    rw [e0]; show (10 * (x 0).val + 9) / 10 = (x 0).val; omega
  refine ⟨⟨10 * (x 0).val + 9, ht⟩, (flush3_2 _).mpr (by show (10 * (x 0).val + 9) % 10 = 9; omega), ?_⟩
  rw [mem_blk]
  intro a
  match a with
  | ⟨0, _⟩ =>
    show win3_2.index ⟨10 * (x 0).val + 9, ht⟩ (0 : Fin 3) * 1 ≤ (x 0).val
      ∧ (x 0).val < win3_2.index ⟨10 * (x 0).val + 9, ht⟩ (0 : Fin 3) * 1 + 1
    omega
  | ⟨1, _⟩ =>
    show win3_2.index ⟨10 * (x 0).val + 9, ht⟩ (1 : Fin 3) * 4000 ≤ (x 1).val
      ∧ (x 1).val < win3_2.index ⟨10 * (x 0).val + 9, ht⟩ (1 : Fin 3) * 4000 + 4000
    omega
  | ⟨2, _⟩ =>
    show win3_2.index ⟨10 * (x 0).val + 9, ht⟩ (2 : Fin 3) * 320 ≤ (x 2).val
      ∧ (x 2).val < win3_2.index ⟨10 * (x 0).val + 9, ht⟩ (2 : Fin 3) * 320 + 320
    omega

/-- The result array after the region's last point is G. -/
theorem final_eq (c : Dev nD) : (dat3 V c).arrAt 2 cfg3.N = G V c :=
  (dat3 V c).arrAt_eq_of_cover 2 (G V c) (flushed_eq V c) cover

/-- The result array after the region's last point, at its literal type. -/
abbrev result (c : Dev nD) : Vec Ideal S2x4000x320 .f32 := (dat3 V c).arrAt 2 cfg3.N

/-- Entry (i, p, q) of the result: the contraction over all 8000 rows. -/
theorem final3 (c : Dev nD) (i : Fin 2) (p : Fin 4000) (q : Fin 320) :
    result V c (ix3 i p q) = ∑ k : Fin 8000, coef V c (ix3 i k p) * feat V c (ix2 k q) :=
  (congrFun (final_eq V c) (ix3 i p q)).trans (G_apply V c i p q)

end Array

end Cert.KernelIdeal.PvnvFinal3

end
-- ==== Proof.Bridge3.lean ====
/-
  The kernel program computes the encoder's composition, iteration 1: the clause aggregation over the grown pos / neg,
  the products over the clauses — slab i of the accumulated output is the transposed clause matrix i times the clause
  embeddings, the ten 800-row tiles adding up to the whole contraction —, the variable embeddings, and pos / neg grown by
  them. Every buffer a later stage reads reaches it unchanged through the items that do not write it.
-/
import proofs.«154590_j17119739641884_2_alg».proof.Proof.Bridge2
import proofs.«154590_j17119739641884_2_alg».proof.Proof.PvnvFinal3
import proofs.«154590_j17119739641884_2_alg».proof.Proof.AggFinal2

set_option maxRecDepth 16384

noncomputable section

namespace Cert.KernelIdeal.Bridge

open Cert.KernelIdeal Cert.KernelIdeal.Gen Cert.KernelIdeal.Hand
open Idealize.ShloMosaic Idealize.ShloMosaic.TcCoe Idealize.ShloMosaic.ValueIdx
open Idealize.SL Idealize.SL.Sem
open Cert.ReferenceIdeal (Spec.Args)

variable (m : (ℓ : Loc nD τ sig) → Buf (Elt Ideal) ℓ) (c : Dev nD)

/-! ## Iteration 1: the clause aggregation (region 2) -/
theorem arg5_at12 : V12 m (outs m) c main_arg5 = (argsK m c).wl1 :=
  ((V12_of m (outs m) c main_arg5 (by decide)).trans ((V11_of m (outs m) c main_arg5 (by decide)).trans ((V10_of m (outs m) c main_arg5 (by decide)).trans ((V9_of m (outs m) c main_arg5 (by decide)).trans ((V8_of m (outs m) c main_arg5 (by decide)).trans ((V7_of m (outs m) c main_arg5 (by decide)).trans ((V6_of m (outs m) c main_arg5 (by decide)).trans ((V5_of m (outs m) c main_arg5 (by decide)).trans ((V4_of m (outs m) c main_arg5 (by decide)).trans ((V3_of m (outs m) c main_arg5 (by decide)).trans ((V2_of m (outs m) c main_arg5 (by decide)).trans (V1_of m c main_arg5 (by decide)))))))))))))
theorem arg8_at12 : V12 m (outs m) c main_arg8 = (argsK m c).bl1 :=
  ((V12_of m (outs m) c main_arg8 (by decide)).trans ((V11_of m (outs m) c main_arg8 (by decide)).trans ((V10_of m (outs m) c main_arg8 (by decide)).trans ((V9_of m (outs m) c main_arg8 (by decide)).trans ((V8_of m (outs m) c main_arg8 (by decide)).trans ((V7_of m (outs m) c main_arg8 (by decide)).trans ((V6_of m (outs m) c main_arg8 (by decide)).trans ((V5_of m (outs m) c main_arg8 (by decide)).trans ((V4_of m (outs m) c main_arg8 (by decide)).trans ((V3_of m (outs m) c main_arg8 (by decide)).trans ((V2_of m (outs m) c main_arg8 (by decide)).trans (V1_of m c main_arg8 (by decide)))))))))))))
theorem arg1_at12 : V12 m (outs m) c main_arg1 = (argsK m c).clabels :=
  ((V12_of m (outs m) c main_arg1 (by decide)).trans ((V11_of m (outs m) c main_arg1 (by decide)).trans ((V10_of m (outs m) c main_arg1 (by decide)).trans ((V9_of m (outs m) c main_arg1 (by decide)).trans ((V8_of m (outs m) c main_arg1 (by decide)).trans ((V7_of m (outs m) c main_arg1 (by decide)).trans ((V6_of m (outs m) c main_arg1 (by decide)).trans ((V5_of m (outs m) c main_arg1 (by decide)).trans ((V4_of m (outs m) c main_arg1 (by decide)).trans ((V3_of m (outs m) c main_arg1 (by decide)).trans ((V2_of m (outs m) c main_arg1 (by decide)).trans (V1_of m c main_arg1 (by decide)))))))))))))
theorem main_v37_at12 : V12 m (outs m) c main_v37 = o2 m c := by
  show Function.update _ _ _ _ = _
  rw [Function.update_self]
  exact outs6_main_v37 m _ c

theorem kAgg1 : o2 m c = Cert.ReferenceIdeal.Spec.agg320 (argsK m c).cp (argsK m c).cn (Cert.ReferenceIdeal.Spec.pos1 (argsK m c)) (Cert.ReferenceIdeal.Spec.neg1 (argsK m c)) := by
  refine (AggValue.final2_fun (Vat (V11 m (outs2 m))) c).trans ?_
  show (fun i : S8000x320.Idx => AggValue.g2 (V11 m (outs2 m) c main_v0) (V11 m (outs2 m) c main_v1) (V11 m (outs2 m) c main_v35) (V11 m (outs2 m) c main_v36) (i 0) (i 1)) = _
  rw [← Vin2_eq m c]
  rw [show V11 m (outs m) c main_v0 = (argsK m c).cp from ((V11_of m (outs m) c main_v0 (by decide)).trans ((V10_of m (outs m) c main_v0 (by decide)).trans ((V9_of m (outs m) c main_v0 (by decide)).trans ((V8_of m (outs m) c main_v0 (by decide)).trans ((V7_of m (outs m) c main_v0 (by decide)).trans ((V6_of m (outs m) c main_v0 (by decide)).trans ((V5_of m (outs m) c main_v0 (by decide)).trans ((V4_of m (outs m) c main_v0 (by decide)).trans ((V3_of m (outs m) c main_v0 (by decide)).trans (V2_of m (outs m) c main_v0 (by decide))))))))))).trans (HostValue.s0_main_v0 (V0 m c)),
    show V11 m (outs m) c main_v1 = (argsK m c).cn from ((V11_of m (outs m) c main_v1 (by decide)).trans ((V10_of m (outs m) c main_v1 (by decide)).trans ((V9_of m (outs m) c main_v1 (by decide)).trans ((V8_of m (outs m) c main_v1 (by decide)).trans ((V7_of m (outs m) c main_v1 (by decide)).trans ((V6_of m (outs m) c main_v1 (by decide)).trans ((V5_of m (outs m) c main_v1 (by decide)).trans ((V4_of m (outs m) c main_v1 (by decide)).trans ((V3_of m (outs m) c main_v1 (by decide)).trans (V2_of m (outs m) c main_v1 (by decide))))))))))).trans (HostValue.s0_main_v1 (V0 m c)),
    show V11 m (outs m) c main_v35 = (Cert.ReferenceIdeal.Spec.pos1 (argsK m c)) from kPosB1 m c,
    show V11 m (outs m) c main_v36 = (Cert.ReferenceIdeal.Spec.neg1 (argsK m c)) from kNegB1 m c]
  exact SpecLinks.agg320_link _ _ _ _

/-- The clause embeddings of iteration 1. -/
theorem kC1 : V15 m (outs m) c main_v45 = Cert.ReferenceIdeal.Spec.c1 (argsK m c) := by
  have h := HostValue.s3_main_v45 (V12 m (outs m) c)
  rw [arg5_at12 m c, arg8_at12 m c, arg1_at12 m c, main_v37_at12 m c, kAgg1 m c] at h
  exact h

/-! ## Iteration 1: the products over the clauses (region 3) -/

theorem coef1_apply (i : Fin 2) (k : Fin 8000) (p : Fin 4000) :
    PvnvFinal3.coef (Vat (V15 m (outs3 m))) c (ix3 i k p) = if i = 0 then (argsK m c).cp (ix2 k p) else (argsK m c).cn (ix2 k p) := by
  have e : V15 m (outs3 m) c main_v4 = V1 m c main_v4 := by
    rw [← Vin3_eq m c]; exact ((V15_of m (outs m) c main_v4 (by decide)).trans ((V14_of m (outs m) c main_v4 (by decide)).trans ((V13_of m (outs m) c main_v4 (by decide)).trans ((V12_of m (outs m) c main_v4 (by decide)).trans ((V11_of m (outs m) c main_v4 (by decide)).trans ((V10_of m (outs m) c main_v4 (by decide)).trans ((V9_of m (outs m) c main_v4 (by decide)).trans ((V8_of m (outs m) c main_v4 (by decide)).trans ((V7_of m (outs m) c main_v4 (by decide)).trans ((V6_of m (outs m) c main_v4 (by decide)).trans ((V5_of m (outs m) c main_v4 (by decide)).trans ((V4_of m (outs m) c main_v4 (by decide)).trans ((V3_of m (outs m) c main_v4 (by decide)).trans (V2_of m (outs m) c main_v4 (by decide)))))))))))))))
  exact (congrFun e (ix3 i k p)).trans (HostValue.s0_main_v4_apply (V0 m c) i k p)

theorem feat1_eq : PvnvFinal3.feat (Vat (V15 m (outs3 m))) c = Cert.ReferenceIdeal.Spec.c1 (argsK m c) := by
  show V15 m (outs3 m) c main_v45 = _
  rw [← Vin3_eq m c]; exact kC1 m c

theorem main_v46_at16 : V16 m (outs m) c main_v46 = o3 m c := by
  show Function.update _ _ _ _ = _
  rw [Function.update_self]
  exact outs6_main_v46 m _ c

theorem kSlab1_0 : HostValue.slab0 (o3 m c) = Cert.ReferenceIdeal.Spec.pvT (argsK m c).cp (Cert.ReferenceIdeal.Spec.c1 (argsK m c)) := by
  refine SpecLinks.pvT_link _ _ _ (fun p q => ?_)
  rw [HostValue.slab0_apply]
  show PvnvFinal3.result (Vat (V15 m (outs3 m))) c (ix3 0 p q) = _
  rw [PvnvFinal3.final3 (Vat (V15 m (outs3 m))) c 0 p q]
  refine Finset.sum_congr rfl (fun k _ => ?_)
  rw [coef1_apply m c, feat1_eq m c, if_pos rfl]

theorem kSlab1_1 : HostValue.slab1 (o3 m c) = Cert.ReferenceIdeal.Spec.pvT (argsK m c).cn (Cert.ReferenceIdeal.Spec.c1 (argsK m c)) := by
  refine SpecLinks.pvT_link _ _ _ (fun p q => ?_)
  rw [HostValue.slab1_apply]
  show PvnvFinal3.result (Vat (V15 m (outs3 m))) c (ix3 1 p q) = _
  rw [PvnvFinal3.final3 (Vat (V15 m (outs3 m))) c 1 p q]
  refine Finset.sum_congr rfl (fun k _ => ?_)
  rw [coef1_apply m c, feat1_eq m c, if_neg (by decide)]

/-! ## Iteration 1: the variable embeddings, and pos / neg grown by them -/
theorem arg11_at16 : V16 m (outs m) c main_arg11 = (argsK m c).wc1 :=
  ((V16_of m (outs m) c main_arg11 (by decide)).trans ((V15_of m (outs m) c main_arg11 (by decide)).trans ((V14_of m (outs m) c main_arg11 (by decide)).trans ((V13_of m (outs m) c main_arg11 (by decide)).trans ((V12_of m (outs m) c main_arg11 (by decide)).trans ((V11_of m (outs m) c main_arg11 (by decide)).trans ((V10_of m (outs m) c main_arg11 (by decide)).trans ((V9_of m (outs m) c main_arg11 (by decide)).trans ((V8_of m (outs m) c main_arg11 (by decide)).trans ((V7_of m (outs m) c main_arg11 (by decide)).trans ((V6_of m (outs m) c main_arg11 (by decide)).trans ((V5_of m (outs m) c main_arg11 (by decide)).trans ((V4_of m (outs m) c main_arg11 (by decide)).trans ((V3_of m (outs m) c main_arg11 (by decide)).trans ((V2_of m (outs m) c main_arg11 (by decide)).trans (V1_of m c main_arg11 (by decide)))))))))))))))))
theorem arg14_at16 : V16 m (outs m) c main_arg14 = (argsK m c).bc1 :=
  ((V16_of m (outs m) c main_arg14 (by decide)).trans ((V15_of m (outs m) c main_arg14 (by decide)).trans ((V14_of m (outs m) c main_arg14 (by decide)).trans ((V13_of m (outs m) c main_arg14 (by decide)).trans ((V12_of m (outs m) c main_arg14 (by decide)).trans ((V11_of m (outs m) c main_arg14 (by decide)).trans ((V10_of m (outs m) c main_arg14 (by decide)).trans ((V9_of m (outs m) c main_arg14 (by decide)).trans ((V8_of m (outs m) c main_arg14 (by decide)).trans ((V7_of m (outs m) c main_arg14 (by decide)).trans ((V6_of m (outs m) c main_arg14 (by decide)).trans ((V5_of m (outs m) c main_arg14 (by decide)).trans ((V4_of m (outs m) c main_arg14 (by decide)).trans ((V3_of m (outs m) c main_arg14 (by decide)).trans ((V2_of m (outs m) c main_arg14 (by decide)).trans (V1_of m c main_arg14 (by decide)))))))))))))))))
theorem main_v33_at16 : V16 m (outs m) c main_v33 = Cert.ReferenceIdeal.Spec.pos1 (argsK m c) :=
  ((V16_of m (outs m) c main_v33 (by decide)).trans ((V15_of m (outs m) c main_v33 (by decide)).trans ((V14_of m (outs m) c main_v33 (by decide)).trans ((V13_of m (outs m) c main_v33 (by decide)).trans (V12_of m (outs m) c main_v33 (by decide)))))).trans (kPos1 m c)
theorem main_v34_at16 : V16 m (outs m) c main_v34 = Cert.ReferenceIdeal.Spec.neg1 (argsK m c) :=
  ((V16_of m (outs m) c main_v34 (by decide)).trans ((V15_of m (outs m) c main_v34 (by decide)).trans ((V14_of m (outs m) c main_v34 (by decide)).trans ((V13_of m (outs m) c main_v34 (by decide)).trans (V12_of m (outs m) c main_v34 (by decide)))))).trans (kNeg1 m c)

theorem kPos2 : V21 m (outs m) c main_v63 = Cert.ReferenceIdeal.Spec.pos2 (argsK m c) := by
  have h := HostValue.s4_main_v63 (V16 m (outs m) c)
  rw [main_v33_at16 m c, arg11_at16 m c, arg14_at16 m c, main_v46_at16 m c, kSlab1_0 m c, kSlab1_1 m c] at h
  exact h

theorem kNeg2 : V21 m (outs m) c main_v64 = Cert.ReferenceIdeal.Spec.neg2 (argsK m c) := by
  have h := HostValue.s4_main_v64 (V16 m (outs m) c)
  rw [main_v34_at16 m c, arg11_at16 m c, arg14_at16 m c, main_v46_at16 m c, kSlab1_0 m c, kSlab1_1 m c] at h
  exact h

theorem kPosB2 : V21 m (outs m) c main_v65 = Cert.ReferenceIdeal.Spec.pos2 (argsK m c) := by
  have h := HostValue.s4_main_v65 (V16 m (outs m) c)
  rw [main_v33_at16 m c, arg11_at16 m c, arg14_at16 m c, main_v46_at16 m c, kSlab1_0 m c, kSlab1_1 m c] at h
  exact h

theorem kNegB2 : V21 m (outs m) c main_v66 = Cert.ReferenceIdeal.Spec.neg2 (argsK m c) := by
  have h := HostValue.s4_main_v66 (V16 m (outs m) c)
  rw [main_v34_at16 m c, arg11_at16 m c, arg14_at16 m c, main_v46_at16 m c, kSlab1_0 m c, kSlab1_1 m c] at h
  exact h

end Cert.KernelIdeal.Bridge

end
-- ==== Proof.PvnvFinal5.lean ====
/-
  The value of one accumulation region: each slab of its result is a whole contraction.

  The region runs over a 2 × 10 grid, point t = 10·i + k. It reads the stack of two [8000, 4000] coefficient matrices
  in [1, 800, 4000] blocks at (i, k, 0), the [8000, 320] feature matrix in [800, 320] blocks at (k, 0), and keeps the
  [1, 4000, 320] block (i, 0, 0) of the [2, 4000, 320] result in one buffer for the ten points of slab i, writing it
  back after the last of them.

  The steps. (1) What the body leaves in the buffer, read back from the stores its run finds: at k ≠ 0 the accumulation
  step of the two input blocks and of the contents found; at k = 0 the same step of the two input blocks and of the zero
  block it has just stored. (2) Where a block's entry sits in its array: block coordinate times block size plus the
  coordinate inside the block, on each axis. (3) By induction on the point: after point t the buffer holds at (0, p, q)
  the sum of the tiles 0 … t % 10 of slab t / 10, tile g being ∑ j < 800, c[i, 800·g + j, p] · y[800·g + j, q]. Only
  0 + x = x and the extension of a finite sum by one term are used, which hold for the extended reals as they stand: no
  finiteness is asked. (4) At t % 10 = 9 the ten tiles are the whole sum over 8000 rows, regrouped. (5) Every index
  (i, p, q) of the result lies in the block written back at point 10·i + 9, so the array ends holding, at (i, p, q),

      ∑ k < 8000, c[i, k, p] · y[k, q].
-/
import proofs.«154590_j17119739641884_2_alg».proof.Proof.Pvnv5
import proofs.«154590_j17119739641884_2_alg».proof.Proof.PvnvPayload
import proofs.«154590_j17119739641884_2_alg».proof.Proof.RefForms
import Idealize.ShloMosaic.Lib.Pipeline.Value
import Idealize.ShloMosaic.Lib.ValueIdx

set_option maxRecDepth 16384

noncomputable section

namespace Cert.KernelIdeal.PvnvFinal5

open Cert.KernelIdeal Cert.KernelIdeal.Gen Cert.KernelIdeal.Hand
open Idealize.ShloMosaic Idealize.ShloMosaic.TcCoe Idealize.SL.Sem Idealize.ShloMosaic.Tactic Idealize.ShloMosaic.ValueIdx
open Idealize.ShloMosaic.Pipeline (Dat)

/-! ## What the body leaves in the accumulator block -/

section Pieces
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- At k ≠ 0 the body's one store covers the block: it leaves the accumulation step of the two input blocks and of
    the contents it found. -/
theorem out_B (c : Dev nD) (i : grid5.Coords) (a2 : Memref sig .tc .vmem S1x800x4000 .bf16) (h2 : a2.IsWhole)
    (a3 : Memref sig .tc .vmem S800x320 .bf16) (h3 : a3.IsWhole) (a4 : Memref sig .tc .vmem S1x4000x320 .f32) (h4 : a4.IsWhole)
    (hc : ¬cond5_0 i) (x0 : Vec F S1x800x4000 .bf16) (x1 : Vec F S800x320 .bf16) (xo : Vec F S1x4000x320 .f32) :
    out5_B_2 c i a2 h2 a3 h3 a4 h4 hc x0 x1 xo = k5_pay2 x0 x1 xo := by
  unfold out5_B_2
  rw [View.read_writes_eq_canon _ _ _ (cover5_B_2 c i a2 h2 a3 h3 a4 h4 hc x0 x1 xo)]
  unfold kernelRun5_B
  dsimp only
  rw [View.canon_unit_zero hz3]
  simp only [View.readAt_eq_ld, h2.read_unread, h3.read_unread, h4.read_unread, View.ld_unit_zero (S := S1x800x4000) hz3,
    View.ld_unit_zero (S := S800x320) hz2, View.ld_unit_zero (S := S1x4000x320) hz3]

/-- At k = 0 the body first stores the zero block over the whole accumulator block, reads it back, and stores the
    accumulation step of the two input blocks and of that zero block. -/
theorem out_A (c : Dev nD) (i : grid5.Coords) (a2 : Memref sig .tc .vmem S1x800x4000 .bf16) (h2 : a2.IsWhole)
    (a3 : Memref sig .tc .vmem S800x320 .bf16) (h3 : a3.IsWhole) (a4 : Memref sig .tc .vmem S1x4000x320 .f32) (h4 : a4.IsWhole)
    (hc : cond5_0 i) (x0 : Vec F S1x800x4000 .bf16) (x1 : Vec F S800x320 .bf16) :
    out5_A_2 c i a2 h2 a3 h3 a4 h4 hc x0 x1 = k5_pay2 x0 x1 k5_pay1 := by
  unfold out5_A_2
  rw [View.read_writes_eq_canon _ _ _ (cover5_A_2 c i a2 h2 a3 h3 a4 h4 hc x0 x1)]
  unfold kernelRun5_A
  dsimp only
  sl_unfold_words
  rw [View.canon_cons_unit_zero (S := S1x4000x320) hz3, View.readCov_unit_zero (S := S1x4000x320) _ hz3]
  simp only [View.readAt_eq_ld, h2.read_unread, h3.read_unread, View.ld_unit_zero (S := S1x800x4000) hz3,
    View.ld_unit_zero (S := S800x320) hz2]

/-! ## Where the blocks sit in their arrays -/

/-- The block indices at point t = 10·i + k: the coefficient block is (i, k, 0), the feature block (k, 0), the
    accumulator block (i, 0, 0). -/
theorem idx_facts : ∀ t : Fin cfg5.N, win5_0.index t (0 : Fin 3) = t.val / 10 ∧ win5_0.index t (1 : Fin 3) = t.val % 10
    ∧ win5_0.index t (2 : Fin 3) = 0 ∧ win5_1.index t (0 : Fin 2) = t.val % 10 ∧ win5_1.index t (1 : Fin 2) = 0
    ∧ win5_2.index t (0 : Fin 3) = t.val / 10 ∧ win5_2.index t (1 : Fin 3) = 0 ∧ win5_2.index t (2 : Fin 3) = 0 :=
  (by decide +kernel : ∀ t : Fin grid5.N, _)

variable (V : (c : Dev nD) → (b : Ref sig .tc) → Buf (Elt F) ((c : Thread nD τ).loc b))

/-- Entry (0, j, p) of the coefficient block at point t is entry (t / 10, 800·(t % 10) + j, p) of the stack. -/
theorem coef_block_apply (c : Dev nD) (t : Fin cfg5.N) (j : Fin 800) (p : Fin 4000) (i : Fin 2) (k : Fin 8000)
    (hi : i.val = t.val / 10) (hk : k.val = 800 * (t.val % 10) + j.val) :
    (iblk5 V c 0 t : Vec F S1x800x4000 .bf16) (ix3 (0 : Fin 1) j p) = V c main_v4 (ix3 i k p) := by
  obtain ⟨e0, e1, e2, -⟩ := idx_facts t
  unfold iblk5
  rw [View.read_apply]
  show V c main_v4 _ = V c main_v4 _
  congr 1
  funext a
  apply Fin.ext
  match a with
  | ⟨0, _⟩ => show win5_0.index t (0 : Fin 3) * 1 + 1 * 0 = i.val; omega
  | ⟨1, _⟩ => show win5_0.index t (1 : Fin 3) * 800 + 1 * j.val = k.val; omega
  | ⟨2, _⟩ => show win5_0.index t (2 : Fin 3) * 4000 + 1 * p.val = p.val; omega

/-- Entry (j, q) of the feature block at point t is entry (800·(t % 10) + j, q) of the feature matrix. -/
theorem feat_block_apply (c : Dev nD) (t : Fin cfg5.N) (j : Fin 800) (q : Fin 320) (k : Fin 8000)
    (hk : k.val = 800 * (t.val % 10) + j.val) :
    (iblk5 V c 1 t : Vec F S800x320 .bf16) (ix2 j q) = V c main_v75 (ix2 k q) := by
  obtain ⟨-, -, -, e0, e1, -⟩ := idx_facts t
  unfold iblk5
  rw [View.read_apply]
  show V c main_v75 _ = V c main_v75 _
  congr 1
  funext a
  apply Fin.ext
  match a with
  | ⟨0, _⟩ => show win5_1.index t (0 : Fin 2) * 800 + 1 * j.val = k.val; omega
  | ⟨1, _⟩ => show win5_1.index t (1 : Fin 2) * 320 + 1 * q.val = q.val; omega

end Pieces

/-! ## The numbers: one slab of the result is the whole contraction -/

section Value
variable (V : (c : Dev nD) → (b : Ref sig .tc) → Buf (Elt Ideal) ((c : Thread nD τ).loc b))

/-- The stacked coefficient matrices and the feature matrix, as the region finds them. -/
abbrev coef (c : Dev nD) : Vec Ideal S2x8000x4000 .bf16 := V c main_v4
abbrev feat (c : Dev nD) : Vec Ideal S8000x320 .bf16 := V c main_v75

/-- The two input blocks at point t, at their literal types. -/
abbrev coefBlk (c : Dev nD) (t : Fin cfg5.N) : Vec Ideal S1x800x4000 .bf16 := iblk5 V c 0 t
abbrev featBlk (c : Dev nD) (t : Fin cfg5.N) : Vec Ideal S800x320 .bf16 := iblk5 V c 1 t

/-- Tile g of slab i at entry (p, q): the 800 products of rows 800·g … 800·g + 799. -/
def tile (c : Dev nD) (i g : ℕ) (p : Fin 4000) (q : Fin 320) : EReal :=
  if h : i < 2 ∧ g < 10 then
    ∑ j : Fin 800, coef V c (ix3 (⟨i, h.1⟩ : Fin 2) (⟨800 * g + j.val, by have := j.isLt; omega⟩ : Fin 8000) p)
      * feat V c (ix2 (⟨800 * g + j.val, by have := j.isLt; omega⟩ : Fin 8000) q)
  else 0

/-- The tile the body adds at point t is tile t % 10 of slab t / 10. -/
theorem point_tile (c : Dev nD) (t : Fin cfg5.N) (p : Fin 4000) (q : Fin 320) :
    ∑ j : Fin 800, coefBlk V c t (ix3 (0 : Fin 1) j p) * featBlk V c t (ix2 j q)
      = tile V c (t.val / 10) (t.val % 10) p q := by
  have hN : t.val < 20 := lt_of_lt_of_eq t.isLt (show cfg5.N = 20 from N_5)
  unfold tile
  rw [dif_pos ⟨by omega, by omega⟩]
  refine Finset.sum_congr rfl fun j _ => ?_
  exact congrArg₂ (· * ·)
    (coef_block_apply V c t j p ⟨t.val / 10, by omega⟩ ⟨800 * (t.val % 10) + j.val, by have := j.isLt; omega⟩ rfl rfl)
    (feat_block_apply V c t j q ⟨800 * (t.val % 10) + j.val, by have := j.isLt; omega⟩ rfl)

/-- After point n the accumulator block holds, at (0, p, q), the tiles 0 … n % 10 of slab n / 10, added up. Zero plus
    a sum is that sum and a sum extends by one term on the extended reals as anywhere: no finiteness is asked. -/
theorem outsAt_apply (c : Dev nD) : ∀ (n : ℕ) (hn : n < cfg5.N) (p : Fin 4000) (q : Fin 320),
    outsAt5 V c n hn (ix3 (0 : Fin 1) p q) = ∑ g ∈ Finset.range (n % 10 + 1), tile V c (n / 10) g p q
  | 0, hn, p, q => by
    rw [outsAt5_A V c ⟨0, hn⟩ rfl, out_A]
    refine (PvnvValue.k5_pay2_apply _ _ _ p q).trans ?_
    rw [PvnvValue.k5_pay1_apply, zero_add]
    refine (point_tile V c ⟨0, hn⟩ p q).trans ?_
    show tile V c (0 / 10) (0 % 10) p q = ∑ g ∈ Finset.range (0 % 10 + 1), tile V c (0 / 10) g p q
    rw [Nat.zero_div, Nat.zero_mod]
    exact (Finset.sum_range_one (fun g => tile V c 0 g p q)).symm
  | n + 1, hn, p, q => by
    by_cases h0 : (n + 1) % 10 = 0
    · rw [outsAt5_A V c ⟨n + 1, hn⟩ h0, out_A]
      refine (PvnvValue.k5_pay2_apply _ _ _ p q).trans ?_
      rw [PvnvValue.k5_pay1_apply, zero_add]
      refine (point_tile V c ⟨n + 1, hn⟩ p q).trans ?_
      show tile V c ((n + 1) / 10) ((n + 1) % 10) p q = _
      rw [h0]
      exact (Finset.sum_range_one (fun g => tile V c ((n + 1) / 10) g p q)).symm
    · rw [outsAt5_B V c ⟨n + 1, hn⟩ h0, out_B]
      refine (PvnvValue.k5_pay2_apply _ _ _ p q).trans ?_
      refine (congrArg₂ (· + ·) (outsAt_apply c n (Nat.lt_of_succ_lt hn) p q) (point_tile V c ⟨n + 1, hn⟩ p q)).trans ?_
      show ∑ g ∈ Finset.range (n % 10 + 1), tile V c (n / 10) g p q + tile V c ((n + 1) / 10) ((n + 1) % 10) p q = _
      rw [show n / 10 = (n + 1) / 10 from by omega, show n % 10 + 1 = (n + 1) % 10 from by omega]
      exact (Finset.sum_range_succ (fun g => tile V c ((n + 1) / 10) g p q) ((n + 1) % 10)).symm

/-- The ten tiles of a slab make up the whole contraction over the 8000 rows. -/
theorem tiles_sum (c : Dev nD) (i : Fin 2) (p : Fin 4000) (q : Fin 320) :
    ∑ g ∈ Finset.range 10, tile V c i.val g p q
      = ∑ k : Fin 8000, coef V c (ix3 i k p) * feat V c (ix2 k q) := by
  rw [Cert.ReferenceIdeal.RefForms.sum_8000_tiles, ← Fin.sum_univ_eq_sum_range (fun g => tile V c i.val g p q) 10]
  refine Finset.sum_congr rfl fun g _ => ?_
  unfold tile
  rw [dif_pos ⟨i.isLt, g.isLt⟩]

/-- The result array as one function of the two arrays the region reads: entry (i, p, q) is the contraction, over the
    8000 rows, of column p of coefficient matrix i with column q of the features. -/
def G (c : Dev nD) : Vec Ideal S2x4000x320 .f32 :=
  fun x => ∑ k : Fin 8000, coef V c (ix3 (⟨(x 0).val, (x 0).isLt⟩ : Fin 2) k (⟨(x 1).val, (x 1).isLt⟩ : Fin 4000))
    * feat V c (ix2 k (⟨(x 2).val, (x 2).isLt⟩ : Fin 320))

theorem G_apply (c : Dev nD) (i : Fin 2) (p : Fin 4000) (q : Fin 320) :
    G V c (ix3 i p q) = ∑ k : Fin 8000, coef V c (ix3 i k p) * feat V c (ix2 k q) := rfl

end Value

/-! ## From the blocks to the array -/

section Array
variable (V : (c : Dev nD) → (b : Ref sig .tc) → Buf (Elt Ideal) ((c : Thread nD τ).loc b))

/-- After the last point of slab t / 10 (t % 10 = 9) the accumulator block holds that slab of G. -/
theorem last_point (c : Dev nD) (t : Fin cfg5.N) (h9 : t.val % 10 = 9) (u : Fin 1) (p : Fin 4000) (q : Fin 320)
    (x : S2x4000x320.Idx) (hx0 : (x 0).val = t.val / 10) (hx1 : (x 1).val = p.val) (hx2 : (x 2).val = q.val) :
    outsAt5 V c t.val t.isLt (ix3 u p q) = G V c x := by
  have hN : t.val < 20 := lt_of_lt_of_eq t.isLt (show cfg5.N = 20 from N_5)
  obtain rfl : u = 0 := Subsingleton.elim _ _
  have a0 : (⟨(x 0).val, (x 0).isLt⟩ : Fin 2) = ⟨t.val / 10, by omega⟩ := Fin.ext hx0
  have a1 : (⟨(x 1).val, (x 1).isLt⟩ : Fin 4000) = p := Fin.ext hx1
  have a2 : (⟨(x 2).val, (x 2).isLt⟩ : Fin 320) = q := Fin.ext hx2
  rw [outsAt_apply V c t.val t.isLt p q, h9]
  unfold G
  rw [a0, a1, a2]
  exact tiles_sum V c ⟨t.val / 10, by omega⟩ p q

/-- What a flushing point writes back is its block of G. -/
theorem flushed_eq (c : Dev nD) (t : Fin cfg5.N) (hf : (cfg5.win 2).flush t = true) :
    (dat5 V c).flushed 2 t = ((cfg5.win 2).blk t).view.read (Elt Ideal) (G V c) := by
  have h9 : t.val % 10 = 9 := (flush5_2 t).mp hf
  obtain ⟨-, -, -, -, -, e0, e1, e2⟩ := idx_facts t
  show (cfg5.win 2).cut (grid5.coords t) ((dat5 V c).after 2 t) = _
  rw [after5_2]
  funext y
  show outsAt5 V c t.val t.isLt y = G V c (((cfg5.win 2).blk t).view.emb y)
  have hy0 : (y 0).val < 1 := (y 0).isLt
  refine (congrArg (outsAt5 V c t.val t.isLt) (@eq_ix3 1 4000 320 y)).trans
    (last_point V c t h9 (y 0) (y 1) (y 2) _ ?_ ?_ ?_)
  · show win5_2.index t (0 : Fin 3) * 1 + 1 * (y 0).val = t.val / 10; omega
  · show win5_2.index t (1 : Fin 3) * 4000 + 1 * (y 1).val = (y 1).val; omega
  · show win5_2.index t (2 : Fin 3) * 320 + 1 * (y 2).val = (y 2).val; omega

/-- An index of the result array is in point t's block iff each coordinate is in the block's range on its axis. -/
theorem mem_blk (t : Fin cfg5.N) (x : S2x4000x320.Idx) :
    x ∈ ((cfg5.win 2).blk t).view.set ↔ ∀ a : Fin 3, win5_2.index t a * S1x4000x320.size a ≤ (x a).val
      ∧ (x a).val < win5_2.index t a * S1x4000x320.size a + S1x4000x320.size a := by
  show x ∈ ((View.whole main_v76).slice (win5_2.rect t)).set ↔ _
  rw [View.set_slice_whole, Rect.mem_set_unit]
  exact Iff.rfl

/-- Slab i of the result is written back by point 10·i + 9: every index is in a flushing point's block. -/
theorem cover (x : S2x4000x320.Idx) :
    ∃ t : Fin cfg5.N, (cfg5.win 2).flush t = true ∧ x ∈ ((cfg5.win 2).blk t).view.set := by
  have hN : cfg5.N = 20 := N_5
  have h0 : (x 0).val < 2 := (x 0).isLt
  have h1 : (x 1).val < 4000 := (x 1).isLt
  have h2 : (x 2).val < 320 := (x 2).isLt
  have ht : 10 * (x 0).val + 9 < cfg5.N := by rw [hN]; omega
  obtain ⟨-, -, -, -, -, e0, e1, e2⟩ := idx_facts ⟨10 * (x 0).val + 9, ht⟩
  have e0' : win5_2.index ⟨10 * (x 0).val + 9, ht⟩ (0 : Fin 3) = (x 0).val := by
    rw [e0]; show (10 * (x 0).val + 9) / 10 = (x 0).val; omega
  refine ⟨⟨10 * (x 0).val + 9, ht⟩, (flush5_2 _).mpr (by show (10 * (x 0).val + 9) % 10 = 9; omega), ?_⟩
  rw [mem_blk]
  intro a
  match a with
  | ⟨0, _⟩ =>
    show win5_2.index ⟨10 * (x 0).val + 9, ht⟩ (0 : Fin 3) * 1 ≤ (x 0).val
      ∧ (x 0).val < win5_2.index ⟨10 * (x 0).val + 9, ht⟩ (0 : Fin 3) * 1 + 1
    omega
  | ⟨1, _⟩ =>
    show win5_2.index ⟨10 * (x 0).val + 9, ht⟩ (1 : Fin 3) * 4000 ≤ (x 1).val
      ∧ (x 1).val < win5_2.index ⟨10 * (x 0).val + 9, ht⟩ (1 : Fin 3) * 4000 + 4000
    omega
  | ⟨2, _⟩ =>
    show win5_2.index ⟨10 * (x 0).val + 9, ht⟩ (2 : Fin 3) * 320 ≤ (x 2).val
      ∧ (x 2).val < win5_2.index ⟨10 * (x 0).val + 9, ht⟩ (2 : Fin 3) * 320 + 320
    omega

/-- The result array after the region's last point is G. -/
theorem final_eq (c : Dev nD) : (dat5 V c).arrAt 2 cfg5.N = G V c :=
  (dat5 V c).arrAt_eq_of_cover 2 (G V c) (flushed_eq V c) cover

/-- The result array after the region's last point, at its literal type. -/
abbrev result (c : Dev nD) : Vec Ideal S2x4000x320 .f32 := (dat5 V c).arrAt 2 cfg5.N

/-- Entry (i, p, q) of the result: the contraction over all 8000 rows. -/
theorem final5 (c : Dev nD) (i : Fin 2) (p : Fin 4000) (q : Fin 320) :
    result V c (ix3 i p q) = ∑ k : Fin 8000, coef V c (ix3 i k p) * feat V c (ix2 k q) :=
  (congrFun (final_eq V c) (ix3 i p q)).trans (G_apply V c i p q)

end Array

end Cert.KernelIdeal.PvnvFinal5

end
-- ==== Proof.Bridge4.lean ====
/-
  The kernel program computes the encoder's composition, iteration 2: the clause aggregation over the grown pos / neg,
  the products over the clauses — slab i of the accumulated output is the transposed clause matrix i times the clause
  embeddings, the ten 800-row tiles adding up to the whole contraction —, the variable embeddings, and pos / neg grown by
  them. Every buffer a later stage reads reaches it unchanged through the items that do not write it.
-/
import proofs.«154590_j17119739641884_2_alg».proof.Proof.Bridge3
import proofs.«154590_j17119739641884_2_alg».proof.Proof.PvnvFinal5
import proofs.«154590_j17119739641884_2_alg».proof.Proof.AggFinal4

set_option maxRecDepth 16384

noncomputable section

namespace Cert.KernelIdeal.Bridge

open Cert.KernelIdeal Cert.KernelIdeal.Gen Cert.KernelIdeal.Hand
open Idealize.ShloMosaic Idealize.ShloMosaic.TcCoe Idealize.ShloMosaic.ValueIdx
open Idealize.SL Idealize.SL.Sem
open Cert.ReferenceIdeal (Spec.Args)

variable (m : (ℓ : Loc nD τ sig) → Buf (Elt Ideal) ℓ) (c : Dev nD)

/-! ## Iteration 2: the clause aggregation (region 4) -/
theorem arg6_at22 : V22 m (outs m) c main_arg6 = (argsK m c).wl2 :=
  ((V22_of m (outs m) c main_arg6 (by decide)).trans ((V21_of m (outs m) c main_arg6 (by decide)).trans ((V20_of m (outs m) c main_arg6 (by decide)).trans ((V19_of m (outs m) c main_arg6 (by decide)).trans ((V18_of m (outs m) c main_arg6 (by decide)).trans ((V17_of m (outs m) c main_arg6 (by decide)).trans ((V16_of m (outs m) c main_arg6 (by decide)).trans ((V15_of m (outs m) c main_arg6 (by decide)).trans ((V14_of m (outs m) c main_arg6 (by decide)).trans ((V13_of m (outs m) c main_arg6 (by decide)).trans ((V12_of m (outs m) c main_arg6 (by decide)).trans ((V11_of m (outs m) c main_arg6 (by decide)).trans ((V10_of m (outs m) c main_arg6 (by decide)).trans ((V9_of m (outs m) c main_arg6 (by decide)).trans ((V8_of m (outs m) c main_arg6 (by decide)).trans ((V7_of m (outs m) c main_arg6 (by decide)).trans ((V6_of m (outs m) c main_arg6 (by decide)).trans ((V5_of m (outs m) c main_arg6 (by decide)).trans ((V4_of m (outs m) c main_arg6 (by decide)).trans ((V3_of m (outs m) c main_arg6 (by decide)).trans ((V2_of m (outs m) c main_arg6 (by decide)).trans (V1_of m c main_arg6 (by decide)))))))))))))))))))))))
theorem arg9_at22 : V22 m (outs m) c main_arg9 = (argsK m c).bl2 :=
  ((V22_of m (outs m) c main_arg9 (by decide)).trans ((V21_of m (outs m) c main_arg9 (by decide)).trans ((V20_of m (outs m) c main_arg9 (by decide)).trans ((V19_of m (outs m) c main_arg9 (by decide)).trans ((V18_of m (outs m) c main_arg9 (by decide)).trans ((V17_of m (outs m) c main_arg9 (by decide)).trans ((V16_of m (outs m) c main_arg9 (by decide)).trans ((V15_of m (outs m) c main_arg9 (by decide)).trans ((V14_of m (outs m) c main_arg9 (by decide)).trans ((V13_of m (outs m) c main_arg9 (by decide)).trans ((V12_of m (outs m) c main_arg9 (by decide)).trans ((V11_of m (outs m) c main_arg9 (by decide)).trans ((V10_of m (outs m) c main_arg9 (by decide)).trans ((V9_of m (outs m) c main_arg9 (by decide)).trans ((V8_of m (outs m) c main_arg9 (by decide)).trans ((V7_of m (outs m) c main_arg9 (by decide)).trans ((V6_of m (outs m) c main_arg9 (by decide)).trans ((V5_of m (outs m) c main_arg9 (by decide)).trans ((V4_of m (outs m) c main_arg9 (by decide)).trans ((V3_of m (outs m) c main_arg9 (by decide)).trans ((V2_of m (outs m) c main_arg9 (by decide)).trans (V1_of m c main_arg9 (by decide)))))))))))))))))))))))
theorem arg1_at22 : V22 m (outs m) c main_arg1 = (argsK m c).clabels :=
  ((V22_of m (outs m) c main_arg1 (by decide)).trans ((V21_of m (outs m) c main_arg1 (by decide)).trans ((V20_of m (outs m) c main_arg1 (by decide)).trans ((V19_of m (outs m) c main_arg1 (by decide)).trans ((V18_of m (outs m) c main_arg1 (by decide)).trans ((V17_of m (outs m) c main_arg1 (by decide)).trans ((V16_of m (outs m) c main_arg1 (by decide)).trans ((V15_of m (outs m) c main_arg1 (by decide)).trans ((V14_of m (outs m) c main_arg1 (by decide)).trans ((V13_of m (outs m) c main_arg1 (by decide)).trans ((V12_of m (outs m) c main_arg1 (by decide)).trans ((V11_of m (outs m) c main_arg1 (by decide)).trans ((V10_of m (outs m) c main_arg1 (by decide)).trans ((V9_of m (outs m) c main_arg1 (by decide)).trans ((V8_of m (outs m) c main_arg1 (by decide)).trans ((V7_of m (outs m) c main_arg1 (by decide)).trans ((V6_of m (outs m) c main_arg1 (by decide)).trans ((V5_of m (outs m) c main_arg1 (by decide)).trans ((V4_of m (outs m) c main_arg1 (by decide)).trans ((V3_of m (outs m) c main_arg1 (by decide)).trans ((V2_of m (outs m) c main_arg1 (by decide)).trans (V1_of m c main_arg1 (by decide)))))))))))))))))))))))
theorem main_v67_at22 : V22 m (outs m) c main_v67 = o4 m c := by
  show Function.update _ _ _ _ = _
  rw [Function.update_self]
  exact outs6_main_v67 m _ c

theorem kAgg2 : o4 m c = Cert.ReferenceIdeal.Spec.agg576 (argsK m c).cp (argsK m c).cn (Cert.ReferenceIdeal.Spec.pos2 (argsK m c)) (Cert.ReferenceIdeal.Spec.neg2 (argsK m c)) := by
  refine (AggValue.final4_fun (Vat (V21 m (outs4 m))) c).trans ?_
  show (fun i : S8000x576.Idx => AggValue.g4 (V21 m (outs4 m) c main_v0) (V21 m (outs4 m) c main_v1) (V21 m (outs4 m) c main_v65) (V21 m (outs4 m) c main_v66) (i 0) (i 1)) = _
  rw [← Vin4_eq m c]
  rw [show V21 m (outs m) c main_v0 = (argsK m c).cp from ((V21_of m (outs m) c main_v0 (by decide)).trans ((V20_of m (outs m) c main_v0 (by decide)).trans ((V19_of m (outs m) c main_v0 (by decide)).trans ((V18_of m (outs m) c main_v0 (by decide)).trans ((V17_of m (outs m) c main_v0 (by decide)).trans ((V16_of m (outs m) c main_v0 (by decide)).trans ((V15_of m (outs m) c main_v0 (by decide)).trans ((V14_of m (outs m) c main_v0 (by decide)).trans ((V13_of m (outs m) c main_v0 (by decide)).trans ((V12_of m (outs m) c main_v0 (by decide)).trans ((V11_of m (outs m) c main_v0 (by decide)).trans ((V10_of m (outs m) c main_v0 (by decide)).trans ((V9_of m (outs m) c main_v0 (by decide)).trans ((V8_of m (outs m) c main_v0 (by decide)).trans ((V7_of m (outs m) c main_v0 (by decide)).trans ((V6_of m (outs m) c main_v0 (by decide)).trans ((V5_of m (outs m) c main_v0 (by decide)).trans ((V4_of m (outs m) c main_v0 (by decide)).trans ((V3_of m (outs m) c main_v0 (by decide)).trans (V2_of m (outs m) c main_v0 (by decide))))))))))))))))))))).trans (HostValue.s0_main_v0 (V0 m c)),
    show V21 m (outs m) c main_v1 = (argsK m c).cn from ((V21_of m (outs m) c main_v1 (by decide)).trans ((V20_of m (outs m) c main_v1 (by decide)).trans ((V19_of m (outs m) c main_v1 (by decide)).trans ((V18_of m (outs m) c main_v1 (by decide)).trans ((V17_of m (outs m) c main_v1 (by decide)).trans ((V16_of m (outs m) c main_v1 (by decide)).trans ((V15_of m (outs m) c main_v1 (by decide)).trans ((V14_of m (outs m) c main_v1 (by decide)).trans ((V13_of m (outs m) c main_v1 (by decide)).trans ((V12_of m (outs m) c main_v1 (by decide)).trans ((V11_of m (outs m) c main_v1 (by decide)).trans ((V10_of m (outs m) c main_v1 (by decide)).trans ((V9_of m (outs m) c main_v1 (by decide)).trans ((V8_of m (outs m) c main_v1 (by decide)).trans ((V7_of m (outs m) c main_v1 (by decide)).trans ((V6_of m (outs m) c main_v1 (by decide)).trans ((V5_of m (outs m) c main_v1 (by decide)).trans ((V4_of m (outs m) c main_v1 (by decide)).trans ((V3_of m (outs m) c main_v1 (by decide)).trans (V2_of m (outs m) c main_v1 (by decide))))))))))))))))))))).trans (HostValue.s0_main_v1 (V0 m c)),
    show V21 m (outs m) c main_v65 = (Cert.ReferenceIdeal.Spec.pos2 (argsK m c)) from kPosB2 m c,
    show V21 m (outs m) c main_v66 = (Cert.ReferenceIdeal.Spec.neg2 (argsK m c)) from kNegB2 m c]
  exact SpecLinks.agg576_link _ _ _ _

/-- The clause embeddings of iteration 2. -/
theorem kC2 : V25 m (outs m) c main_v75 = Cert.ReferenceIdeal.Spec.c2 (argsK m c) := by
  have h := HostValue.s5_main_v75 (V22 m (outs m) c)
  rw [arg6_at22 m c, arg9_at22 m c, arg1_at22 m c, main_v67_at22 m c, kAgg2 m c] at h
  exact h

/-! ## Iteration 2: the products over the clauses (region 5) -/

theorem coef2_apply (i : Fin 2) (k : Fin 8000) (p : Fin 4000) :
    PvnvFinal5.coef (Vat (V25 m (outs5 m))) c (ix3 i k p) = if i = 0 then (argsK m c).cp (ix2 k p) else (argsK m c).cn (ix2 k p) := by
  have e : V25 m (outs5 m) c main_v4 = V1 m c main_v4 := by
    rw [← Vin5_eq m c]; exact ((V25_of m (outs m) c main_v4 (by decide)).trans ((V24_of m (outs m) c main_v4 (by decide)).trans ((V23_of m (outs m) c main_v4 (by decide)).trans ((V22_of m (outs m) c main_v4 (by decide)).trans ((V21_of m (outs m) c main_v4 (by decide)).trans ((V20_of m (outs m) c main_v4 (by decide)).trans ((V19_of m (outs m) c main_v4 (by decide)).trans ((V18_of m (outs m) c main_v4 (by decide)).trans ((V17_of m (outs m) c main_v4 (by decide)).trans ((V16_of m (outs m) c main_v4 (by decide)).trans ((V15_of m (outs m) c main_v4 (by decide)).trans ((V14_of m (outs m) c main_v4 (by decide)).trans ((V13_of m (outs m) c main_v4 (by decide)).trans ((V12_of m (outs m) c main_v4 (by decide)).trans ((V11_of m (outs m) c main_v4 (by decide)).trans ((V10_of m (outs m) c main_v4 (by decide)).trans ((V9_of m (outs m) c main_v4 (by decide)).trans ((V8_of m (outs m) c main_v4 (by decide)).trans ((V7_of m (outs m) c main_v4 (by decide)).trans ((V6_of m (outs m) c main_v4 (by decide)).trans ((V5_of m (outs m) c main_v4 (by decide)).trans ((V4_of m (outs m) c main_v4 (by decide)).trans ((V3_of m (outs m) c main_v4 (by decide)).trans (V2_of m (outs m) c main_v4 (by decide)))))))))))))))))))))))))
  exact (congrFun e (ix3 i k p)).trans (HostValue.s0_main_v4_apply (V0 m c) i k p)

theorem feat2_eq : PvnvFinal5.feat (Vat (V25 m (outs5 m))) c = Cert.ReferenceIdeal.Spec.c2 (argsK m c) := by
  show V25 m (outs5 m) c main_v75 = _
  rw [← Vin5_eq m c]; exact kC2 m c

theorem main_v76_at26 : V26 m (outs m) c main_v76 = o5 m c := by
  show Function.update _ _ _ _ = _
  rw [Function.update_self]
  exact outs6_main_v76 m _ c

theorem kSlab2_0 : HostValue.slab0 (o5 m c) = Cert.ReferenceIdeal.Spec.pvT (argsK m c).cp (Cert.ReferenceIdeal.Spec.c2 (argsK m c)) := by
  refine SpecLinks.pvT_link _ _ _ (fun p q => ?_)
  rw [HostValue.slab0_apply]
  show PvnvFinal5.result (Vat (V25 m (outs5 m))) c (ix3 0 p q) = _
  rw [PvnvFinal5.final5 (Vat (V25 m (outs5 m))) c 0 p q]
  refine Finset.sum_congr rfl (fun k _ => ?_)
  rw [coef2_apply m c, feat2_eq m c, if_pos rfl]

theorem kSlab2_1 : HostValue.slab1 (o5 m c) = Cert.ReferenceIdeal.Spec.pvT (argsK m c).cn (Cert.ReferenceIdeal.Spec.c2 (argsK m c)) := by
  refine SpecLinks.pvT_link _ _ _ (fun p q => ?_)
  rw [HostValue.slab1_apply]
  show PvnvFinal5.result (Vat (V25 m (outs5 m))) c (ix3 1 p q) = _
  rw [PvnvFinal5.final5 (Vat (V25 m (outs5 m))) c 1 p q]
  refine Finset.sum_congr rfl (fun k _ => ?_)
  rw [coef2_apply m c, feat2_eq m c, if_neg (by decide)]

/-! ## Iteration 2: the variable embeddings, and pos / neg grown by them -/
theorem arg12_at26 : V26 m (outs m) c main_arg12 = (argsK m c).wc2 :=
  ((V26_of m (outs m) c main_arg12 (by decide)).trans ((V25_of m (outs m) c main_arg12 (by decide)).trans ((V24_of m (outs m) c main_arg12 (by decide)).trans ((V23_of m (outs m) c main_arg12 (by decide)).trans ((V22_of m (outs m) c main_arg12 (by decide)).trans ((V21_of m (outs m) c main_arg12 (by decide)).trans ((V20_of m (outs m) c main_arg12 (by decide)).trans ((V19_of m (outs m) c main_arg12 (by decide)).trans ((V18_of m (outs m) c main_arg12 (by decide)).trans ((V17_of m (outs m) c main_arg12 (by decide)).trans ((V16_of m (outs m) c main_arg12 (by decide)).trans ((V15_of m (outs m) c main_arg12 (by decide)).trans ((V14_of m (outs m) c main_arg12 (by decide)).trans ((V13_of m (outs m) c main_arg12 (by decide)).trans ((V12_of m (outs m) c main_arg12 (by decide)).trans ((V11_of m (outs m) c main_arg12 (by decide)).trans ((V10_of m (outs m) c main_arg12 (by decide)).trans ((V9_of m (outs m) c main_arg12 (by decide)).trans ((V8_of m (outs m) c main_arg12 (by decide)).trans ((V7_of m (outs m) c main_arg12 (by decide)).trans ((V6_of m (outs m) c main_arg12 (by decide)).trans ((V5_of m (outs m) c main_arg12 (by decide)).trans ((V4_of m (outs m) c main_arg12 (by decide)).trans ((V3_of m (outs m) c main_arg12 (by decide)).trans ((V2_of m (outs m) c main_arg12 (by decide)).trans (V1_of m c main_arg12 (by decide)))))))))))))))))))))))))))
theorem arg15_at26 : V26 m (outs m) c main_arg15 = (argsK m c).bc2 :=
  ((V26_of m (outs m) c main_arg15 (by decide)).trans ((V25_of m (outs m) c main_arg15 (by decide)).trans ((V24_of m (outs m) c main_arg15 (by decide)).trans ((V23_of m (outs m) c main_arg15 (by decide)).trans ((V22_of m (outs m) c main_arg15 (by decide)).trans ((V21_of m (outs m) c main_arg15 (by decide)).trans ((V20_of m (outs m) c main_arg15 (by decide)).trans ((V19_of m (outs m) c main_arg15 (by decide)).trans ((V18_of m (outs m) c main_arg15 (by decide)).trans ((V17_of m (outs m) c main_arg15 (by decide)).trans ((V16_of m (outs m) c main_arg15 (by decide)).trans ((V15_of m (outs m) c main_arg15 (by decide)).trans ((V14_of m (outs m) c main_arg15 (by decide)).trans ((V13_of m (outs m) c main_arg15 (by decide)).trans ((V12_of m (outs m) c main_arg15 (by decide)).trans ((V11_of m (outs m) c main_arg15 (by decide)).trans ((V10_of m (outs m) c main_arg15 (by decide)).trans ((V9_of m (outs m) c main_arg15 (by decide)).trans ((V8_of m (outs m) c main_arg15 (by decide)).trans ((V7_of m (outs m) c main_arg15 (by decide)).trans ((V6_of m (outs m) c main_arg15 (by decide)).trans ((V5_of m (outs m) c main_arg15 (by decide)).trans ((V4_of m (outs m) c main_arg15 (by decide)).trans ((V3_of m (outs m) c main_arg15 (by decide)).trans ((V2_of m (outs m) c main_arg15 (by decide)).trans (V1_of m c main_arg15 (by decide)))))))))))))))))))))))))))
theorem main_v63_at26 : V26 m (outs m) c main_v63 = Cert.ReferenceIdeal.Spec.pos2 (argsK m c) :=
  ((V26_of m (outs m) c main_v63 (by decide)).trans ((V25_of m (outs m) c main_v63 (by decide)).trans ((V24_of m (outs m) c main_v63 (by decide)).trans ((V23_of m (outs m) c main_v63 (by decide)).trans (V22_of m (outs m) c main_v63 (by decide)))))).trans (kPos2 m c)
theorem main_v64_at26 : V26 m (outs m) c main_v64 = Cert.ReferenceIdeal.Spec.neg2 (argsK m c) :=
  ((V26_of m (outs m) c main_v64 (by decide)).trans ((V25_of m (outs m) c main_v64 (by decide)).trans ((V24_of m (outs m) c main_v64 (by decide)).trans ((V23_of m (outs m) c main_v64 (by decide)).trans (V22_of m (outs m) c main_v64 (by decide)))))).trans (kNeg2 m c)

theorem kPos3 : V31 m (outs m) c main_v93 = Cert.ReferenceIdeal.Spec.pos3 (argsK m c) := by
  have h := HostValue.s6_main_v93 (V26 m (outs m) c)
  rw [main_v63_at26 m c, arg12_at26 m c, arg15_at26 m c, main_v76_at26 m c, kSlab2_0 m c, kSlab2_1 m c] at h
  exact h

theorem kNeg3 : V31 m (outs m) c main_v94 = Cert.ReferenceIdeal.Spec.neg3 (argsK m c) := by
  have h := HostValue.s6_main_v94 (V26 m (outs m) c)
  rw [main_v64_at26 m c, arg12_at26 m c, arg15_at26 m c, main_v76_at26 m c, kSlab2_0 m c, kSlab2_1 m c] at h
  exact h

end Cert.KernelIdeal.Bridge

end
-- ==== Proof.RefHand.lean ====
/- The reference program's run, read iteration by iteration: its 102 array operations are three iterations of 34, and
   each iteration's two results are the encoder's stage functions of what the iteration starts from; chained from the
   launch contents, the two results are the third iteration's arrays and every argument keeps its launch contents. -/
import proofs.«154590_j17119739641884_2_alg».proof.Proof.Gen.ReferenceIdeal
import proofs.«154590_j17119739641884_2_alg».proof.Proof.Spec
import Idealize.ShloMosaic.Lib.StableHlo.Run
import Idealize.ShloMosaic.Lib.Pipeline.Frame

noncomputable section

namespace Cert.ReferenceIdeal.RefHand

section Nary3
open Idealize.ShloMosaic Idealize.ShloMosaic.StableHlo
variable {τ : Topo} {sig : RefSig} {Val : EltTy → Type} {x a b y : Ref sig .tc}

/-- A three-operand operation's result at its own result buffer, each operand's contents at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F
end Nary3

open Cert.ReferenceIdeal Cert.ReferenceIdeal.Gen Cert.ReferenceIdeal.Spec
open Idealize.ShloMosaic Idealize.ShloMosaic.TcCoe Idealize.SL.Sem Idealize.ShloMosaic.StableHlo

/-- What one buffer holds after a literal list of operations: each operation's result at its own result buffer is its
    function's value, at any other reference what was there. -/
macro "host_results" : tactic =>
  `(tactic| (simp (disch := decide) only [after_cons, after_nil,
      nullary_result', unary_result', binary_result', reshape_result', nary3_result',
      nullary_result_ne', unary_result_ne', binary_result_ne', reshape_result_ne', nary_result_ne']))

variable {F : FTy → Type} [FloatOps F]

/-- The first iteration's 34 operations. -/
def it0 : List (HloOp τ sig (Elt F)) :=
  [ binary main_arg2 main_arg0 main_v0 ((fun l r => Host.dotGeneral dot_S8000x4000_S4000x64_S8000x64_1_0_0_1_n_n none l r) : (⟨S8000x4000, .f32⟩ : BufTy).Contents (Elt F) → (⟨S4000x64, .f32⟩ : BufTy).Contents (Elt F) → (⟨S8000x64, .f32⟩ : BufTy).Contents (Elt F)),
    binary main_arg3 main_arg0 main_v1 ((fun l r => Host.dotGeneral dot_S8000x4000_S4000x64_S8000x64_1_0_0_1_n_n none l r) : (⟨S8000x4000, .f32⟩ : BufTy).Contents (Elt F) → (⟨S4000x64, .f32⟩ : BufTy).Contents (Elt F) → (⟨S8000x64, .f32⟩ : BufTy).Contents (Elt F)),
    binary main_v0 main_v1 main_v2 (addf : (⟨S8000x64, .f32⟩ : BufTy).Contents (Elt F) → (⟨S8000x64, .f32⟩ : BufTy).Contents (Elt F) → (⟨S8000x64, .f32⟩ : BufTy).Contents (Elt F)),
    unary main_arg4 main_v3 ((transpose S64x256 [1, 0] · transposes_S256x64_S64x256_1_0) : (⟨S256x64, .f32⟩ : BufTy).Contents (Elt F) → (⟨S64x256, .f32⟩ : BufTy).Contents (Elt F)),
    binary main_v2 main_v3 main_v4 ((fun l r => Host.dotGeneral dot_S8000x64_S64x256_S8000x256_1_0_0_1_n_n none l r) : (⟨S8000x64, .f32⟩ : BufTy).Contents (Elt F) → (⟨S64x256, .f32⟩ : BufTy).Contents (Elt F) → (⟨S8000x256, .f32⟩ : BufTy).Contents (Elt F)),
    unary main_arg7 main_v5 (broadcastInDim S1x256 ![1] bcast_S256_S1x256_1 : (⟨S256, .f32⟩ : BufTy).Contents (Elt F) → (⟨S1x256, .f32⟩ : BufTy).Contents (Elt F)),
    unary main_v5 main_v6 (broadcastInDim S8000x256 ![0, 1] bcast_S1x256_S8000x256_0_1 : (⟨S1x256, .f32⟩ : BufTy).Contents (Elt F) → (⟨S8000x256, .f32⟩ : BufTy).Contents (Elt F)),
    binary main_v4 main_v6 main_v7 (addf : (⟨S8000x256, .f32⟩ : BufTy).Contents (Elt F) → (⟨S8000x256, .f32⟩ : BufTy).Contents (Elt F) → (⟨S8000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S8000x256, .f32⟩) main_call0_v0) (broadcastInDim S8000x256 ![] bcast_S_S8000x256),
    TRef.binary (TRef.of (T := ⟨S8000x256, .f32⟩) main_v7) (TRef.of (T := ⟨S8000x256, .f32⟩) main_call0_v0) (TRef.of (T := ⟨S8000x256, .f32⟩) main_v8) maximumf,
    binary main_arg1 main_v8 main_v9 ((fun a b => concatenate S8000x320 1 [⟨S8000x64, a⟩, ⟨S8000x256, b⟩] concatenates_S8000x64_S8000x256_S8000x320_d1) : (⟨S8000x64, .f32⟩ : BufTy).Contents (Elt F) → (⟨S8000x256, .f32⟩ : BufTy).Contents (Elt F) → (⟨S8000x320, .f32⟩ : BufTy).Contents (Elt F)),
    unary main_arg2 main_v10 ((transpose S4000x8000 [1, 0] · transposes_S8000x4000_S4000x8000_1_0) : (⟨S8000x4000, .f32⟩ : BufTy).Contents (Elt F) → (⟨S4000x8000, .f32⟩ : BufTy).Contents (Elt F)),
    binary main_v10 main_v9 main_v11 ((fun l r => Host.dotGeneral dot_S4000x8000_S8000x320_S4000x320_1_0_0_1_n_n none l r) : (⟨S4000x8000, .f32⟩ : BufTy).Contents (Elt F) → (⟨S8000x320, .f32⟩ : BufTy).Contents (Elt F) → (⟨S4000x320, .f32⟩ : BufTy).Contents (Elt F)),
    unary main_arg3 main_v12 ((transpose S4000x8000 [1, 0] · transposes_S8000x4000_S4000x8000_1_0) : (⟨S8000x4000, .f32⟩ : BufTy).Contents (Elt F) → (⟨S4000x8000, .f32⟩ : BufTy).Contents (Elt F)),
    binary main_v12 main_v9 main_v13 ((fun l r => Host.dotGeneral dot_S4000x8000_S8000x320_S4000x320_1_0_0_1_n_n none l r) : (⟨S4000x8000, .f32⟩ : BufTy).Contents (Elt F) → (⟨S8000x320, .f32⟩ : BufTy).Contents (Elt F) → (⟨S4000x320, .f32⟩ : BufTy).Contents (Elt F)),
    unary main_arg10 main_v14 ((transpose S320x128 [1, 0] · transposes_S128x320_S320x128_1_0) : (⟨S128x320, .f32⟩ : BufTy).Contents (Elt F) → (⟨S320x128, .f32⟩ : BufTy).Contents (Elt F)),
    binary main_v11 main_v14 main_v15 ((fun l r => Host.dotGeneral dot_S4000x320_S320x128_S4000x128_1_0_0_1_n_n none l r) : (⟨S4000x320, .f32⟩ : BufTy).Contents (Elt F) → (⟨S320x128, .f32⟩ : BufTy).Contents (Elt F) → (⟨S4000x128, .f32⟩ : BufTy).Contents (Elt F)),
    unary main_arg13 main_v16 (broadcastInDim S1x128 ![1] bcast_S128_S1x128_1 : (⟨S128, .f32⟩ : BufTy).Contents (Elt F) → (⟨S1x128, .f32⟩ : BufTy).Contents (Elt F)),
    unary main_v16 main_v17 (broadcastInDim S4000x128 ![0, 1] bcast_S1x128_S4000x128_0_1 : (⟨S1x128, .f32⟩ : BufTy).Contents (Elt F) → (⟨S4000x128, .f32⟩ : BufTy).Contents (Elt F)),
    binary main_v15 main_v17 main_v18 (addf : (⟨S4000x128, .f32⟩ : BufTy).Contents (Elt F) → (⟨S4000x128, .f32⟩ : BufTy).Contents (Elt F) → (⟨S4000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S4000x128, .f32⟩) main_call1_v0) (broadcastInDim S4000x128 ![] bcast_S_S4000x128),
    TRef.binary (TRef.of (T := ⟨S4000x128, .f32⟩) main_v18) (TRef.of (T := ⟨S4000x128, .f32⟩) main_call1_v0) (TRef.of (T := ⟨S4000x128, .f32⟩) main_v19) maximumf,
    unary main_arg10 main_v20 ((transpose S320x128 [1, 0] · transposes_S128x320_S320x128_1_0) : (⟨S128x320, .f32⟩ : BufTy).Contents (Elt F) → (⟨S320x128, .f32⟩ : BufTy).Contents (Elt F)),
    binary main_v13 main_v20 main_v21 ((fun l r => Host.dotGeneral dot_S4000x320_S320x128_S4000x128_1_0_0_1_n_n none l r) : (⟨S4000x320, .f32⟩ : BufTy).Contents (Elt F) → (⟨S320x128, .f32⟩ : BufTy).Contents (Elt F) → (⟨S4000x128, .f32⟩ : BufTy).Contents (Elt F)),
    unary main_arg13 main_v22 (broadcastInDim S1x128 ![1] bcast_S128_S1x128_1 : (⟨S128, .f32⟩ : BufTy).Contents (Elt F) → (⟨S1x128, .f32⟩ : BufTy).Contents (Elt F)),
    unary main_v22 main_v23 (broadcastInDim S4000x128 ![0, 1] bcast_S1x128_S4000x128_0_1 : (⟨S1x128, .f32⟩ : BufTy).Contents (Elt F) → (⟨S4000x128, .f32⟩ : BufTy).Contents (Elt F)),
    binary main_v21 main_v23 main_v24 (addf : (⟨S4000x128, .f32⟩ : BufTy).Contents (Elt F) → (⟨S4000x128, .f32⟩ : BufTy).Contents (Elt F) → (⟨S4000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S4000x128, .f32⟩) main_call2_v0) (broadcastInDim S4000x128 ![] bcast_S_S4000x128),
    TRef.binary (TRef.of (T := ⟨S4000x128, .f32⟩) main_v24) (TRef.of (T := ⟨S4000x128, .f32⟩) main_call2_v0) (TRef.of (T := ⟨S4000x128, .f32⟩) main_v25) maximumf,
    nary ![main_arg0, main_v19, main_v25] main_v26 (fun u => concatenate S4000x320 1 [⟨S4000x64, u 0⟩, ⟨S4000x128, u 1⟩, ⟨S4000x128, u 2⟩] concatenates_S4000x64_S4000x128_S4000x128_S4000x320_d1),
    nary ![main_arg0, main_v25, main_v19] main_v27 (fun u => concatenate S4000x320 1 [⟨S4000x64, u 0⟩, ⟨S4000x128, u 1⟩, ⟨S4000x128, u 2⟩] concatenates_S4000x64_S4000x128_S4000x128_S4000x320_d1) ]
/-- The second iteration's 34 operations. -/
def it1 : List (HloOp τ sig (Elt F)) :=
  [ binary main_arg2 main_v26 main_v28 ((fun l r => Host.dotGeneral dot_S8000x4000_S4000x320_S8000x320_1_0_0_1_n_n none l r) : (⟨S8000x4000, .f32⟩ : BufTy).Contents (Elt F) → (⟨S4000x320, .f32⟩ : BufTy).Contents (Elt F) → (⟨S8000x320, .f32⟩ : BufTy).Contents (Elt F)),
    binary main_arg3 main_v27 main_v29 ((fun l r => Host.dotGeneral dot_S8000x4000_S4000x320_S8000x320_1_0_0_1_n_n none l r) : (⟨S8000x4000, .f32⟩ : BufTy).Contents (Elt F) → (⟨S4000x320, .f32⟩ : BufTy).Contents (Elt F) → (⟨S8000x320, .f32⟩ : BufTy).Contents (Elt F)),
    binary main_v28 main_v29 main_v30 (addf : (⟨S8000x320, .f32⟩ : BufTy).Contents (Elt F) → (⟨S8000x320, .f32⟩ : BufTy).Contents (Elt F) → (⟨S8000x320, .f32⟩ : BufTy).Contents (Elt F)),
    unary main_arg5 main_v31 ((transpose S320x256 [1, 0] · transposes_S256x320_S320x256_1_0) : (⟨S256x320, .f32⟩ : BufTy).Contents (Elt F) → (⟨S320x256, .f32⟩ : BufTy).Contents (Elt F)),
    binary main_v30 main_v31 main_v32 ((fun l r => Host.dotGeneral dot_S8000x320_S320x256_S8000x256_1_0_0_1_n_n none l r) : (⟨S8000x320, .f32⟩ : BufTy).Contents (Elt F) → (⟨S320x256, .f32⟩ : BufTy).Contents (Elt F) → (⟨S8000x256, .f32⟩ : BufTy).Contents (Elt F)),
    unary main_arg8 main_v33 (broadcastInDim S1x256 ![1] bcast_S256_S1x256_1 : (⟨S256, .f32⟩ : BufTy).Contents (Elt F) → (⟨S1x256, .f32⟩ : BufTy).Contents (Elt F)),
    unary main_v33 main_v34 (broadcastInDim S8000x256 ![0, 1] bcast_S1x256_S8000x256_0_1 : (⟨S1x256, .f32⟩ : BufTy).Contents (Elt F) → (⟨S8000x256, .f32⟩ : BufTy).Contents (Elt F)),
    binary main_v32 main_v34 main_v35 (addf : (⟨S8000x256, .f32⟩ : BufTy).Contents (Elt F) → (⟨S8000x256, .f32⟩ : BufTy).Contents (Elt F) → (⟨S8000x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S8000x256, .f32⟩) main_call3_v0) (broadcastInDim S8000x256 ![] bcast_S_S8000x256),
    TRef.binary (TRef.of (T := ⟨S8000x256, .f32⟩) main_v35) (TRef.of (T := ⟨S8000x256, .f32⟩) main_call3_v0) (TRef.of (T := ⟨S8000x256, .f32⟩) main_v36) maximumf,
    binary main_arg1 main_v36 main_v37 ((fun a b => concatenate S8000x320 1 [⟨S8000x64, a⟩, ⟨S8000x256, b⟩] concatenates_S8000x64_S8000x256_S8000x320_d1) : (⟨S8000x64, .f32⟩ : BufTy).Contents (Elt F) → (⟨S8000x256, .f32⟩ : BufTy).Contents (Elt F) → (⟨S8000x320, .f32⟩ : BufTy).Contents (Elt F)),
    unary main_arg2 main_v38 ((transpose S4000x8000 [1, 0] · transposes_S8000x4000_S4000x8000_1_0) : (⟨S8000x4000, .f32⟩ : BufTy).Contents (Elt F) → (⟨S4000x8000, .f32⟩ : BufTy).Contents (Elt F)),
    binary main_v38 main_v37 main_v39 ((fun l r => Host.dotGeneral dot_S4000x8000_S8000x320_S4000x320_1_0_0_1_n_n none l r) : (⟨S4000x8000, .f32⟩ : BufTy).Contents (Elt F) → (⟨S8000x320, .f32⟩ : BufTy).Contents (Elt F) → (⟨S4000x320, .f32⟩ : BufTy).Contents (Elt F)),
    unary main_arg3 main_v40 ((transpose S4000x8000 [1, 0] · transposes_S8000x4000_S4000x8000_1_0) : (⟨S8000x4000, .f32⟩ : BufTy).Contents (Elt F) → (⟨S4000x8000, .f32⟩ : BufTy).Contents (Elt F)),
    binary main_v40 main_v37 main_v41 ((fun l r => Host.dotGeneral dot_S4000x8000_S8000x320_S4000x320_1_0_0_1_n_n none l r) : (⟨S4000x8000, .f32⟩ : BufTy).Contents (Elt F) → (⟨S8000x320, .f32⟩ : BufTy).Contents (Elt F) → (⟨S4000x320, .f32⟩ : BufTy).Contents (Elt F)),
    unary main_arg11 main_v42 ((transpose S320x128 [1, 0] · transposes_S128x320_S320x128_1_0) : (⟨S128x320, .f32⟩ : BufTy).Contents (Elt F) → (⟨S320x128, .f32⟩ : BufTy).Contents (Elt F)),
    binary main_v39 main_v42 main_v43 ((fun l r => Host.dotGeneral dot_S4000x320_S320x128_S4000x128_1_0_0_1_n_n none l r) : (⟨S4000x320, .f32⟩ : BufTy).Contents (Elt F) → (⟨S320x128, .f32⟩ : BufTy).Contents (Elt F) → (⟨S4000x128, .f32⟩ : BufTy).Contents (Elt F)),
    unary main_arg14 main_v44 (broadcastInDim S1x128 ![1] bcast_S128_S1x128_1 : (⟨S128, .f32⟩ : BufTy).Contents (Elt F) → (⟨S1x128, .f32⟩ : BufTy).Contents (Elt F)),
    unary main_v44 main_v45 (broadcastInDim S4000x128 ![0, 1] bcast_S1x128_S4000x128_0_1 : (⟨S1x128, .f32⟩ : BufTy).Contents (Elt F) → (⟨S4000x128, .f32⟩ : BufTy).Contents (Elt F)),
    binary main_v43 main_v45 main_v46 (addf : (⟨S4000x128, .f32⟩ : BufTy).Contents (Elt F) → (⟨S4000x128, .f32⟩ : BufTy).Contents (Elt F) → (⟨S4000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S4000x128, .f32⟩) main_call4_v0) (broadcastInDim S4000x128 ![] bcast_S_S4000x128),
    TRef.binary (TRef.of (T := ⟨S4000x128, .f32⟩) main_v46) (TRef.of (T := ⟨S4000x128, .f32⟩) main_call4_v0) (TRef.of (T := ⟨S4000x128, .f32⟩) main_v47) maximumf,
    unary main_arg11 main_v48 ((transpose S320x128 [1, 0] · transposes_S128x320_S320x128_1_0) : (⟨S128x320, .f32⟩ : BufTy).Contents (Elt F) → (⟨S320x128, .f32⟩ : BufTy).Contents (Elt F)),
    binary main_v41 main_v48 main_v49 ((fun l r => Host.dotGeneral dot_S4000x320_S320x128_S4000x128_1_0_0_1_n_n none l r) : (⟨S4000x320, .f32⟩ : BufTy).Contents (Elt F) → (⟨S320x128, .f32⟩ : BufTy).Contents (Elt F) → (⟨S4000x128, .f32⟩ : BufTy).Contents (Elt F)),
    unary main_arg14 main_v50 (broadcastInDim S1x128 ![1] bcast_S128_S1x128_1 : (⟨S128, .f32⟩ : BufTy).Contents (Elt F) → (⟨S1x128, .f32⟩ : BufTy).Contents (Elt F)),
    unary main_v50 main_v51 (broadcastInDim S4000x128 ![0, 1] bcast_S1x128_S4000x128_0_1 : (⟨S1x128, .f32⟩ : BufTy).Contents (Elt F) → (⟨S4000x128, .f32⟩ : BufTy).Contents (Elt F)),
    binary main_v49 main_v51 main_v52 (addf : (⟨S4000x128, .f32⟩ : BufTy).Contents (Elt F) → (⟨S4000x128, .f32⟩ : BufTy).Contents (Elt F) → (⟨S4000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S4000x128, .f32⟩) main_call5_v0) (broadcastInDim S4000x128 ![] bcast_S_S4000x128),
    TRef.binary (TRef.of (T := ⟨S4000x128, .f32⟩) main_v52) (TRef.of (T := ⟨S4000x128, .f32⟩) main_call5_v0) (TRef.of (T := ⟨S4000x128, .f32⟩) main_v53) maximumf,
    nary ![main_v26, main_v47, main_v53] main_v54 (fun u => concatenate S4000x576 1 [⟨S4000x320, u 0⟩, ⟨S4000x128, u 1⟩, ⟨S4000x128, u 2⟩] concatenates_S4000x320_S4000x128_S4000x128_S4000x576_d1),
    nary ![main_v27, main_v53, main_v47] main_v55 (fun u => concatenate S4000x576 1 [⟨S4000x320, u 0⟩, ⟨S4000x128, u 1⟩, ⟨S4000x128, u 2⟩] concatenates_S4000x320_S4000x128_S4000x128_S4000x576_d1) ]
/-- The third iteration's 34 operations. -/
def it2 : List (HloOp τ sig (Elt F)) :=
  [ binary main_arg2 main_v54 main_v56 ((fun l r => Host.dotGeneral dot_S8000x4000_S4000x576_S8000x576_1_0_0_1_n_n none l r) : (⟨S8000x4000, .f32⟩ : BufTy).Contents (Elt F) → (⟨S4000x576, .f32⟩ : BufTy).Contents (Elt F) → (⟨S8000x576, .f32⟩ : BufTy).Contents (Elt F)),
    binary main_arg3 main_v55 main_v57 ((fun l r => Host.dotGeneral dot_S8000x4000_S4000x576_S8000x576_1_0_0_1_n_n none l r) : (⟨S8000x4000, .f32⟩ : BufTy).Contents (Elt F) → (⟨S4000x576, .f32⟩ : BufTy).Contents (Elt F) → (⟨S8000x576, .f32⟩ : BufTy).Contents (Elt F)),
    binary main_v56 main_v57 main_v58 (addf : (⟨S8000x576, .f32⟩ : BufTy).Contents (Elt F) → (⟨S8000x576, .f32⟩ : BufTy).Contents (Elt F) → (⟨S8000x576, .f32⟩ : BufTy).Contents (Elt F)),
    unary main_arg6 main_v59 ((transpose S576x256 [1, 0] · transposes_S256x576_S576x256_1_0) : (⟨S256x576, .f32⟩ : BufTy).Contents (Elt F) → (⟨S576x256, .f32⟩ : BufTy).Contents (Elt F)),
    binary main_v58 main_v59 main_v60 ((fun l r => Host.dotGeneral dot_S8000x576_S576x256_S8000x256_1_0_0_1_n_n none l r) : (⟨S8000x576, .f32⟩ : BufTy).Contents (Elt F) → (⟨S576x256, .f32⟩ : BufTy).Contents (Elt F) → (⟨S8000x256, .f32⟩ : BufTy).Contents (Elt F)),
    unary main_arg9 main_v61 (broadcastInDim S1x256 ![1] bcast_S256_S1x256_1 : (⟨S256, .f32⟩ : BufTy).Contents (Elt F) → (⟨S1x256, .f32⟩ : BufTy).Contents (Elt F)),
    unary main_v61 main_v62 (broadcastInDim S8000x256 ![0, 1] bcast_S1x256_S8000x256_0_1 : (⟨S1x256, .f32⟩ : BufTy).Contents (Elt F) → (⟨S8000x256, .f32⟩ : BufTy).Contents (Elt F)),
    binary main_v60 main_v62 main_v63 (addf : (⟨S8000x256, .f32⟩ : BufTy).Contents (Elt F) → (⟨S8000x256, .f32⟩ : BufTy).Contents (Elt F) → (⟨S8000x256, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S8000x256, .f32⟩) main_call6_v0) (broadcastInDim S8000x256 ![] bcast_S_S8000x256),
    TRef.binary (TRef.of (T := ⟨S8000x256, .f32⟩) main_v63) (TRef.of (T := ⟨S8000x256, .f32⟩) main_call6_v0) (TRef.of (T := ⟨S8000x256, .f32⟩) main_v64) maximumf,
    binary main_arg1 main_v64 main_v65 ((fun a b => concatenate S8000x320 1 [⟨S8000x64, a⟩, ⟨S8000x256, b⟩] concatenates_S8000x64_S8000x256_S8000x320_d1) : (⟨S8000x64, .f32⟩ : BufTy).Contents (Elt F) → (⟨S8000x256, .f32⟩ : BufTy).Contents (Elt F) → (⟨S8000x320, .f32⟩ : BufTy).Contents (Elt F)),
    unary main_arg2 main_v66 ((transpose S4000x8000 [1, 0] · transposes_S8000x4000_S4000x8000_1_0) : (⟨S8000x4000, .f32⟩ : BufTy).Contents (Elt F) → (⟨S4000x8000, .f32⟩ : BufTy).Contents (Elt F)),
    binary main_v66 main_v65 main_v67 ((fun l r => Host.dotGeneral dot_S4000x8000_S8000x320_S4000x320_1_0_0_1_n_n none l r) : (⟨S4000x8000, .f32⟩ : BufTy).Contents (Elt F) → (⟨S8000x320, .f32⟩ : BufTy).Contents (Elt F) → (⟨S4000x320, .f32⟩ : BufTy).Contents (Elt F)),
    unary main_arg3 main_v68 ((transpose S4000x8000 [1, 0] · transposes_S8000x4000_S4000x8000_1_0) : (⟨S8000x4000, .f32⟩ : BufTy).Contents (Elt F) → (⟨S4000x8000, .f32⟩ : BufTy).Contents (Elt F)),
    binary main_v68 main_v65 main_v69 ((fun l r => Host.dotGeneral dot_S4000x8000_S8000x320_S4000x320_1_0_0_1_n_n none l r) : (⟨S4000x8000, .f32⟩ : BufTy).Contents (Elt F) → (⟨S8000x320, .f32⟩ : BufTy).Contents (Elt F) → (⟨S4000x320, .f32⟩ : BufTy).Contents (Elt F)),
    unary main_arg12 main_v70 ((transpose S320x128 [1, 0] · transposes_S128x320_S320x128_1_0) : (⟨S128x320, .f32⟩ : BufTy).Contents (Elt F) → (⟨S320x128, .f32⟩ : BufTy).Contents (Elt F)),
    binary main_v67 main_v70 main_v71 ((fun l r => Host.dotGeneral dot_S4000x320_S320x128_S4000x128_1_0_0_1_n_n none l r) : (⟨S4000x320, .f32⟩ : BufTy).Contents (Elt F) → (⟨S320x128, .f32⟩ : BufTy).Contents (Elt F) → (⟨S4000x128, .f32⟩ : BufTy).Contents (Elt F)),
    unary main_arg15 main_v72 (broadcastInDim S1x128 ![1] bcast_S128_S1x128_1 : (⟨S128, .f32⟩ : BufTy).Contents (Elt F) → (⟨S1x128, .f32⟩ : BufTy).Contents (Elt F)),
    unary main_v72 main_v73 (broadcastInDim S4000x128 ![0, 1] bcast_S1x128_S4000x128_0_1 : (⟨S1x128, .f32⟩ : BufTy).Contents (Elt F) → (⟨S4000x128, .f32⟩ : BufTy).Contents (Elt F)),
    binary main_v71 main_v73 main_v74 (addf : (⟨S4000x128, .f32⟩ : BufTy).Contents (Elt F) → (⟨S4000x128, .f32⟩ : BufTy).Contents (Elt F) → (⟨S4000x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S4000x128, .f32⟩) main_call7_v0) (broadcastInDim S4000x128 ![] bcast_S_S4000x128),
    TRef.binary (TRef.of (T := ⟨S4000x128, .f32⟩) main_v74) (TRef.of (T := ⟨S4000x128, .f32⟩) main_call7_v0) (TRef.of (T := ⟨S4000x128, .f32⟩) main_v75) maximumf,
    unary main_arg12 main_v76 ((transpose S320x128 [1, 0] · transposes_S128x320_S320x128_1_0) : (⟨S128x320, .f32⟩ : BufTy).Contents (Elt F) → (⟨S320x128, .f32⟩ : BufTy).Contents (Elt F)),
    binary main_v69 main_v76 main_v77 ((fun l r => Host.dotGeneral dot_S4000x320_S320x128_S4000x128_1_0_0_1_n_n none l r) : (⟨S4000x320, .f32⟩ : BufTy).Contents (Elt F) → (⟨S320x128, .f32⟩ : BufTy).Contents (Elt F) → (⟨S4000x128, .f32⟩ : BufTy).Contents (Elt F)),
    unary main_arg15 main_v78 (broadcastInDim S1x128 ![1] bcast_S128_S1x128_1 : (⟨S128, .f32⟩ : BufTy).Contents (Elt F) → (⟨S1x128, .f32⟩ : BufTy).Contents (Elt F)),
    unary main_v78 main_v79 (broadcastInDim S4000x128 ![0, 1] bcast_S1x128_S4000x128_0_1 : (⟨S1x128, .f32⟩ : BufTy).Contents (Elt F) → (⟨S4000x128, .f32⟩ : BufTy).Contents (Elt F)),
    binary main_v77 main_v79 main_v80 (addf : (⟨S4000x128, .f32⟩ : BufTy).Contents (Elt F) → (⟨S4000x128, .f32⟩ : BufTy).Contents (Elt F) → (⟨S4000x128, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S4000x128, .f32⟩) main_call8_v0) (broadcastInDim S4000x128 ![] bcast_S_S4000x128),
    TRef.binary (TRef.of (T := ⟨S4000x128, .f32⟩) main_v80) (TRef.of (T := ⟨S4000x128, .f32⟩) main_call8_v0) (TRef.of (T := ⟨S4000x128, .f32⟩) main_v81) maximumf,
    nary ![main_v54, main_v75, main_v81] main_v82 (fun u => concatenate S4000x832 1 [⟨S4000x576, u 0⟩, ⟨S4000x128, u 1⟩, ⟨S4000x128, u 2⟩] concatenates_S4000x576_S4000x128_S4000x128_S4000x832_d1),
    nary ![main_v55, main_v81, main_v75] main_v83 (fun u => concatenate S4000x832 1 [⟨S4000x576, u 0⟩, ⟨S4000x128, u 1⟩, ⟨S4000x128, u 2⟩] concatenates_S4000x576_S4000x128_S4000x128_S4000x832_d1) ]

/-- The program's 102 operations, in order. -/
abbrev ops : List (HloOp τ sig (Elt F)) :=
  [ binary main_arg2 main_arg0 main_v0 ((fun l r => Host.dotGeneral dot_S8000x4000_S4000x64_S8000x64_1_0_0_1_n_n none l r) : (⟨S8000x4000, .f32⟩ : BufTy).Contents (Elt F) → (⟨S4000x64, .f32⟩ : BufTy).Contents (Elt F) → (⟨S8000x64, .f32⟩ : BufTy).Contents (Elt F)),
    binary main_arg3 main_arg0 main_v1 ((fun l r => Host.dotGeneral dot_S8000x4000_S4000x64_S8000x64_1_0_0_1_n_n none l r) : (⟨S8000x4000, .f32⟩ : BufTy).Contents (Elt F) → (⟨S4000x64, .f32⟩ : BufTy).Contents (Elt F) → (⟨S8000x64, .f32⟩ : BufTy).Contents (Elt F)),
    binary main_v0 main_v1 main_v2 (addf : (⟨S8000x64, .f32⟩ : BufTy).Contents (Elt F) → (⟨S8000x64, .f32⟩ : BufTy).Contents (Elt F) → (⟨S8000x64, .f32⟩ : BufTy).Contents (Elt F)),
    unary main_arg4 main_v3 ((transpose S64x256 [1, 0] · transposes_S256x64_S64x256_1_0) : (⟨S256x64, .f32⟩ : BufTy).Contents (Elt F) → (⟨S64x256, .f32⟩ : BufTy).Contents (Elt F)),
    binary main_v2 main_v3 main_v4 ((fun l r => Host.dotGeneral dot_S8000x64_S64x256_S8000x256_1_0_0_1_n_n none l r) : (⟨S8000x64, .f32⟩ : BufTy).Contents (Elt F) → (⟨S64x256, .f32⟩ : BufTy).Contents (Elt F) → (⟨S8000x256, .f32⟩ : BufTy).Contents (Elt F)),
    unary main_arg7 main_v5 (broadcastInDim S1x256 ![1] bcast_S256_S1x256_1 : (⟨S256, .f32⟩ : BufTy).Contents (Elt F) → (⟨S1x256, .f32⟩ : BufTy).Contents (Elt F)),
    unary main_v5 main_v6 (broadcastInDim S8000x256 ![0, 1] bcast_S1x256_S8000x256_0_1 : (⟨S1x256, .f32⟩ : BufTy).Contents (Elt F) → (⟨S8000x256, .f32⟩ : BufTy).Contents (Elt F)),
    binary main_v4 main_v6 main_v7 (addf : (⟨S8000x256, .f32⟩ : BufTy).Contents (Elt F) → (⟨S8000x256, .f32⟩ : BufTy).Contents (Elt F) → (⟨S8000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S8000x256, .f32⟩) main_call0_v0) (broadcastInDim S8000x256 ![] bcast_S_S8000x256),
    TRef.binary (TRef.of (T := ⟨S8000x256, .f32⟩) main_v7) (TRef.of (T := ⟨S8000x256, .f32⟩) main_call0_v0) (TRef.of (T := ⟨S8000x256, .f32⟩) main_v8) maximumf,
    binary main_arg1 main_v8 main_v9 ((fun a b => concatenate S8000x320 1 [⟨S8000x64, a⟩, ⟨S8000x256, b⟩] concatenates_S8000x64_S8000x256_S8000x320_d1) : (⟨S8000x64, .f32⟩ : BufTy).Contents (Elt F) → (⟨S8000x256, .f32⟩ : BufTy).Contents (Elt F) → (⟨S8000x320, .f32⟩ : BufTy).Contents (Elt F)),
    unary main_arg2 main_v10 ((transpose S4000x8000 [1, 0] · transposes_S8000x4000_S4000x8000_1_0) : (⟨S8000x4000, .f32⟩ : BufTy).Contents (Elt F) → (⟨S4000x8000, .f32⟩ : BufTy).Contents (Elt F)),
    binary main_v10 main_v9 main_v11 ((fun l r => Host.dotGeneral dot_S4000x8000_S8000x320_S4000x320_1_0_0_1_n_n none l r) : (⟨S4000x8000, .f32⟩ : BufTy).Contents (Elt F) → (⟨S8000x320, .f32⟩ : BufTy).Contents (Elt F) → (⟨S4000x320, .f32⟩ : BufTy).Contents (Elt F)),
    unary main_arg3 main_v12 ((transpose S4000x8000 [1, 0] · transposes_S8000x4000_S4000x8000_1_0) : (⟨S8000x4000, .f32⟩ : BufTy).Contents (Elt F) → (⟨S4000x8000, .f32⟩ : BufTy).Contents (Elt F)),
    binary main_v12 main_v9 main_v13 ((fun l r => Host.dotGeneral dot_S4000x8000_S8000x320_S4000x320_1_0_0_1_n_n none l r) : (⟨S4000x8000, .f32⟩ : BufTy).Contents (Elt F) → (⟨S8000x320, .f32⟩ : BufTy).Contents (Elt F) → (⟨S4000x320, .f32⟩ : BufTy).Contents (Elt F)),
    unary main_arg10 main_v14 ((transpose S320x128 [1, 0] · transposes_S128x320_S320x128_1_0) : (⟨S128x320, .f32⟩ : BufTy).Contents (Elt F) → (⟨S320x128, .f32⟩ : BufTy).Contents (Elt F)),
    binary main_v11 main_v14 main_v15 ((fun l r => Host.dotGeneral dot_S4000x320_S320x128_S4000x128_1_0_0_1_n_n none l r) : (⟨S4000x320, .f32⟩ : BufTy).Contents (Elt F) → (⟨S320x128, .f32⟩ : BufTy).Contents (Elt F) → (⟨S4000x128, .f32⟩ : BufTy).Contents (Elt F)),
    unary main_arg13 main_v16 (broadcastInDim S1x128 ![1] bcast_S128_S1x128_1 : (⟨S128, .f32⟩ : BufTy).Contents (Elt F) → (⟨S1x128, .f32⟩ : BufTy).Contents (Elt F)),
    unary main_v16 main_v17 (broadcastInDim S4000x128 ![0, 1] bcast_S1x128_S4000x128_0_1 : (⟨S1x128, .f32⟩ : BufTy).Contents (Elt F) → (⟨S4000x128, .f32⟩ : BufTy).Contents (Elt F)),
    binary main_v15 main_v17 main_v18 (addf : (⟨S4000x128, .f32⟩ : BufTy).Contents (Elt F) → (⟨S4000x128, .f32⟩ : BufTy).Contents (Elt F) → (⟨S4000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S4000x128, .f32⟩) main_call1_v0) (broadcastInDim S4000x128 ![] bcast_S_S4000x128),
    TRef.binary (TRef.of (T := ⟨S4000x128, .f32⟩) main_v18) (TRef.of (T := ⟨S4000x128, .f32⟩) main_call1_v0) (TRef.of (T := ⟨S4000x128, .f32⟩) main_v19) maximumf,
    unary main_arg10 main_v20 ((transpose S320x128 [1, 0] · transposes_S128x320_S320x128_1_0) : (⟨S128x320, .f32⟩ : BufTy).Contents (Elt F) → (⟨S320x128, .f32⟩ : BufTy).Contents (Elt F)),
    binary main_v13 main_v20 main_v21 ((fun l r => Host.dotGeneral dot_S4000x320_S320x128_S4000x128_1_0_0_1_n_n none l r) : (⟨S4000x320, .f32⟩ : BufTy).Contents (Elt F) → (⟨S320x128, .f32⟩ : BufTy).Contents (Elt F) → (⟨S4000x128, .f32⟩ : BufTy).Contents (Elt F)),
    unary main_arg13 main_v22 (broadcastInDim S1x128 ![1] bcast_S128_S1x128_1 : (⟨S128, .f32⟩ : BufTy).Contents (Elt F) → (⟨S1x128, .f32⟩ : BufTy).Contents (Elt F)),
    unary main_v22 main_v23 (broadcastInDim S4000x128 ![0, 1] bcast_S1x128_S4000x128_0_1 : (⟨S1x128, .f32⟩ : BufTy).Contents (Elt F) → (⟨S4000x128, .f32⟩ : BufTy).Contents (Elt F)),
    binary main_v21 main_v23 main_v24 (addf : (⟨S4000x128, .f32⟩ : BufTy).Contents (Elt F) → (⟨S4000x128, .f32⟩ : BufTy).Contents (Elt F) → (⟨S4000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S4000x128, .f32⟩) main_call2_v0) (broadcastInDim S4000x128 ![] bcast_S_S4000x128),
    TRef.binary (TRef.of (T := ⟨S4000x128, .f32⟩) main_v24) (TRef.of (T := ⟨S4000x128, .f32⟩) main_call2_v0) (TRef.of (T := ⟨S4000x128, .f32⟩) main_v25) maximumf,
    nary ![main_arg0, main_v19, main_v25] main_v26 (fun u => concatenate S4000x320 1 [⟨S4000x64, u 0⟩, ⟨S4000x128, u 1⟩, ⟨S4000x128, u 2⟩] concatenates_S4000x64_S4000x128_S4000x128_S4000x320_d1),
    nary ![main_arg0, main_v25, main_v19] main_v27 (fun u => concatenate S4000x320 1 [⟨S4000x64, u 0⟩, ⟨S4000x128, u 1⟩, ⟨S4000x128, u 2⟩] concatenates_S4000x64_S4000x128_S4000x128_S4000x320_d1),
    binary main_arg2 main_v26 main_v28 ((fun l r => Host.dotGeneral dot_S8000x4000_S4000x320_S8000x320_1_0_0_1_n_n none l r) : (⟨S8000x4000, .f32⟩ : BufTy).Contents (Elt F) → (⟨S4000x320, .f32⟩ : BufTy).Contents (Elt F) → (⟨S8000x320, .f32⟩ : BufTy).Contents (Elt F)),
    binary main_arg3 main_v27 main_v29 ((fun l r => Host.dotGeneral dot_S8000x4000_S4000x320_S8000x320_1_0_0_1_n_n none l r) : (⟨S8000x4000, .f32⟩ : BufTy).Contents (Elt F) → (⟨S4000x320, .f32⟩ : BufTy).Contents (Elt F) → (⟨S8000x320, .f32⟩ : BufTy).Contents (Elt F)),
    binary main_v28 main_v29 main_v30 (addf : (⟨S8000x320, .f32⟩ : BufTy).Contents (Elt F) → (⟨S8000x320, .f32⟩ : BufTy).Contents (Elt F) → (⟨S8000x320, .f32⟩ : BufTy).Contents (Elt F)),
    unary main_arg5 main_v31 ((transpose S320x256 [1, 0] · transposes_S256x320_S320x256_1_0) : (⟨S256x320, .f32⟩ : BufTy).Contents (Elt F) → (⟨S320x256, .f32⟩ : BufTy).Contents (Elt F)),
    binary main_v30 main_v31 main_v32 ((fun l r => Host.dotGeneral dot_S8000x320_S320x256_S8000x256_1_0_0_1_n_n none l r) : (⟨S8000x320, .f32⟩ : BufTy).Contents (Elt F) → (⟨S320x256, .f32⟩ : BufTy).Contents (Elt F) → (⟨S8000x256, .f32⟩ : BufTy).Contents (Elt F)),
    unary main_arg8 main_v33 (broadcastInDim S1x256 ![1] bcast_S256_S1x256_1 : (⟨S256, .f32⟩ : BufTy).Contents (Elt F) → (⟨S1x256, .f32⟩ : BufTy).Contents (Elt F)),
    unary main_v33 main_v34 (broadcastInDim S8000x256 ![0, 1] bcast_S1x256_S8000x256_0_1 : (⟨S1x256, .f32⟩ : BufTy).Contents (Elt F) → (⟨S8000x256, .f32⟩ : BufTy).Contents (Elt F)),
    binary main_v32 main_v34 main_v35 (addf : (⟨S8000x256, .f32⟩ : BufTy).Contents (Elt F) → (⟨S8000x256, .f32⟩ : BufTy).Contents (Elt F) → (⟨S8000x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S8000x256, .f32⟩) main_call3_v0) (broadcastInDim S8000x256 ![] bcast_S_S8000x256),
    TRef.binary (TRef.of (T := ⟨S8000x256, .f32⟩) main_v35) (TRef.of (T := ⟨S8000x256, .f32⟩) main_call3_v0) (TRef.of (T := ⟨S8000x256, .f32⟩) main_v36) maximumf,
    binary main_arg1 main_v36 main_v37 ((fun a b => concatenate S8000x320 1 [⟨S8000x64, a⟩, ⟨S8000x256, b⟩] concatenates_S8000x64_S8000x256_S8000x320_d1) : (⟨S8000x64, .f32⟩ : BufTy).Contents (Elt F) → (⟨S8000x256, .f32⟩ : BufTy).Contents (Elt F) → (⟨S8000x320, .f32⟩ : BufTy).Contents (Elt F)),
    unary main_arg2 main_v38 ((transpose S4000x8000 [1, 0] · transposes_S8000x4000_S4000x8000_1_0) : (⟨S8000x4000, .f32⟩ : BufTy).Contents (Elt F) → (⟨S4000x8000, .f32⟩ : BufTy).Contents (Elt F)),
    binary main_v38 main_v37 main_v39 ((fun l r => Host.dotGeneral dot_S4000x8000_S8000x320_S4000x320_1_0_0_1_n_n none l r) : (⟨S4000x8000, .f32⟩ : BufTy).Contents (Elt F) → (⟨S8000x320, .f32⟩ : BufTy).Contents (Elt F) → (⟨S4000x320, .f32⟩ : BufTy).Contents (Elt F)),
    unary main_arg3 main_v40 ((transpose S4000x8000 [1, 0] · transposes_S8000x4000_S4000x8000_1_0) : (⟨S8000x4000, .f32⟩ : BufTy).Contents (Elt F) → (⟨S4000x8000, .f32⟩ : BufTy).Contents (Elt F)),
    binary main_v40 main_v37 main_v41 ((fun l r => Host.dotGeneral dot_S4000x8000_S8000x320_S4000x320_1_0_0_1_n_n none l r) : (⟨S4000x8000, .f32⟩ : BufTy).Contents (Elt F) → (⟨S8000x320, .f32⟩ : BufTy).Contents (Elt F) → (⟨S4000x320, .f32⟩ : BufTy).Contents (Elt F)),
    unary main_arg11 main_v42 ((transpose S320x128 [1, 0] · transposes_S128x320_S320x128_1_0) : (⟨S128x320, .f32⟩ : BufTy).Contents (Elt F) → (⟨S320x128, .f32⟩ : BufTy).Contents (Elt F)),
    binary main_v39 main_v42 main_v43 ((fun l r => Host.dotGeneral dot_S4000x320_S320x128_S4000x128_1_0_0_1_n_n none l r) : (⟨S4000x320, .f32⟩ : BufTy).Contents (Elt F) → (⟨S320x128, .f32⟩ : BufTy).Contents (Elt F) → (⟨S4000x128, .f32⟩ : BufTy).Contents (Elt F)),
    unary main_arg14 main_v44 (broadcastInDim S1x128 ![1] bcast_S128_S1x128_1 : (⟨S128, .f32⟩ : BufTy).Contents (Elt F) → (⟨S1x128, .f32⟩ : BufTy).Contents (Elt F)),
    unary main_v44 main_v45 (broadcastInDim S4000x128 ![0, 1] bcast_S1x128_S4000x128_0_1 : (⟨S1x128, .f32⟩ : BufTy).Contents (Elt F) → (⟨S4000x128, .f32⟩ : BufTy).Contents (Elt F)),
    binary main_v43 main_v45 main_v46 (addf : (⟨S4000x128, .f32⟩ : BufTy).Contents (Elt F) → (⟨S4000x128, .f32⟩ : BufTy).Contents (Elt F) → (⟨S4000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S4000x128, .f32⟩) main_call4_v0) (broadcastInDim S4000x128 ![] bcast_S_S4000x128),
    TRef.binary (TRef.of (T := ⟨S4000x128, .f32⟩) main_v46) (TRef.of (T := ⟨S4000x128, .f32⟩) main_call4_v0) (TRef.of (T := ⟨S4000x128, .f32⟩) main_v47) maximumf,
    unary main_arg11 main_v48 ((transpose S320x128 [1, 0] · transposes_S128x320_S320x128_1_0) : (⟨S128x320, .f32⟩ : BufTy).Contents (Elt F) → (⟨S320x128, .f32⟩ : BufTy).Contents (Elt F)),
    binary main_v41 main_v48 main_v49 ((fun l r => Host.dotGeneral dot_S4000x320_S320x128_S4000x128_1_0_0_1_n_n none l r) : (⟨S4000x320, .f32⟩ : BufTy).Contents (Elt F) → (⟨S320x128, .f32⟩ : BufTy).Contents (Elt F) → (⟨S4000x128, .f32⟩ : BufTy).Contents (Elt F)),
    unary main_arg14 main_v50 (broadcastInDim S1x128 ![1] bcast_S128_S1x128_1 : (⟨S128, .f32⟩ : BufTy).Contents (Elt F) → (⟨S1x128, .f32⟩ : BufTy).Contents (Elt F)),
    unary main_v50 main_v51 (broadcastInDim S4000x128 ![0, 1] bcast_S1x128_S4000x128_0_1 : (⟨S1x128, .f32⟩ : BufTy).Contents (Elt F) → (⟨S4000x128, .f32⟩ : BufTy).Contents (Elt F)),
    binary main_v49 main_v51 main_v52 (addf : (⟨S4000x128, .f32⟩ : BufTy).Contents (Elt F) → (⟨S4000x128, .f32⟩ : BufTy).Contents (Elt F) → (⟨S4000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S4000x128, .f32⟩) main_call5_v0) (broadcastInDim S4000x128 ![] bcast_S_S4000x128),
    TRef.binary (TRef.of (T := ⟨S4000x128, .f32⟩) main_v52) (TRef.of (T := ⟨S4000x128, .f32⟩) main_call5_v0) (TRef.of (T := ⟨S4000x128, .f32⟩) main_v53) maximumf,
    nary ![main_v26, main_v47, main_v53] main_v54 (fun u => concatenate S4000x576 1 [⟨S4000x320, u 0⟩, ⟨S4000x128, u 1⟩, ⟨S4000x128, u 2⟩] concatenates_S4000x320_S4000x128_S4000x128_S4000x576_d1),
    nary ![main_v27, main_v53, main_v47] main_v55 (fun u => concatenate S4000x576 1 [⟨S4000x320, u 0⟩, ⟨S4000x128, u 1⟩, ⟨S4000x128, u 2⟩] concatenates_S4000x320_S4000x128_S4000x128_S4000x576_d1),
    binary main_arg2 main_v54 main_v56 ((fun l r => Host.dotGeneral dot_S8000x4000_S4000x576_S8000x576_1_0_0_1_n_n none l r) : (⟨S8000x4000, .f32⟩ : BufTy).Contents (Elt F) → (⟨S4000x576, .f32⟩ : BufTy).Contents (Elt F) → (⟨S8000x576, .f32⟩ : BufTy).Contents (Elt F)),
    binary main_arg3 main_v55 main_v57 ((fun l r => Host.dotGeneral dot_S8000x4000_S4000x576_S8000x576_1_0_0_1_n_n none l r) : (⟨S8000x4000, .f32⟩ : BufTy).Contents (Elt F) → (⟨S4000x576, .f32⟩ : BufTy).Contents (Elt F) → (⟨S8000x576, .f32⟩ : BufTy).Contents (Elt F)),
    binary main_v56 main_v57 main_v58 (addf : (⟨S8000x576, .f32⟩ : BufTy).Contents (Elt F) → (⟨S8000x576, .f32⟩ : BufTy).Contents (Elt F) → (⟨S8000x576, .f32⟩ : BufTy).Contents (Elt F)),
    unary main_arg6 main_v59 ((transpose S576x256 [1, 0] · transposes_S256x576_S576x256_1_0) : (⟨S256x576, .f32⟩ : BufTy).Contents (Elt F) → (⟨S576x256, .f32⟩ : BufTy).Contents (Elt F)),
    binary main_v58 main_v59 main_v60 ((fun l r => Host.dotGeneral dot_S8000x576_S576x256_S8000x256_1_0_0_1_n_n none l r) : (⟨S8000x576, .f32⟩ : BufTy).Contents (Elt F) → (⟨S576x256, .f32⟩ : BufTy).Contents (Elt F) → (⟨S8000x256, .f32⟩ : BufTy).Contents (Elt F)),
    unary main_arg9 main_v61 (broadcastInDim S1x256 ![1] bcast_S256_S1x256_1 : (⟨S256, .f32⟩ : BufTy).Contents (Elt F) → (⟨S1x256, .f32⟩ : BufTy).Contents (Elt F)),
    unary main_v61 main_v62 (broadcastInDim S8000x256 ![0, 1] bcast_S1x256_S8000x256_0_1 : (⟨S1x256, .f32⟩ : BufTy).Contents (Elt F) → (⟨S8000x256, .f32⟩ : BufTy).Contents (Elt F)),
    binary main_v60 main_v62 main_v63 (addf : (⟨S8000x256, .f32⟩ : BufTy).Contents (Elt F) → (⟨S8000x256, .f32⟩ : BufTy).Contents (Elt F) → (⟨S8000x256, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S8000x256, .f32⟩) main_call6_v0) (broadcastInDim S8000x256 ![] bcast_S_S8000x256),
    TRef.binary (TRef.of (T := ⟨S8000x256, .f32⟩) main_v63) (TRef.of (T := ⟨S8000x256, .f32⟩) main_call6_v0) (TRef.of (T := ⟨S8000x256, .f32⟩) main_v64) maximumf,
    binary main_arg1 main_v64 main_v65 ((fun a b => concatenate S8000x320 1 [⟨S8000x64, a⟩, ⟨S8000x256, b⟩] concatenates_S8000x64_S8000x256_S8000x320_d1) : (⟨S8000x64, .f32⟩ : BufTy).Contents (Elt F) → (⟨S8000x256, .f32⟩ : BufTy).Contents (Elt F) → (⟨S8000x320, .f32⟩ : BufTy).Contents (Elt F)),
    unary main_arg2 main_v66 ((transpose S4000x8000 [1, 0] · transposes_S8000x4000_S4000x8000_1_0) : (⟨S8000x4000, .f32⟩ : BufTy).Contents (Elt F) → (⟨S4000x8000, .f32⟩ : BufTy).Contents (Elt F)),
    binary main_v66 main_v65 main_v67 ((fun l r => Host.dotGeneral dot_S4000x8000_S8000x320_S4000x320_1_0_0_1_n_n none l r) : (⟨S4000x8000, .f32⟩ : BufTy).Contents (Elt F) → (⟨S8000x320, .f32⟩ : BufTy).Contents (Elt F) → (⟨S4000x320, .f32⟩ : BufTy).Contents (Elt F)),
    unary main_arg3 main_v68 ((transpose S4000x8000 [1, 0] · transposes_S8000x4000_S4000x8000_1_0) : (⟨S8000x4000, .f32⟩ : BufTy).Contents (Elt F) → (⟨S4000x8000, .f32⟩ : BufTy).Contents (Elt F)),
    binary main_v68 main_v65 main_v69 ((fun l r => Host.dotGeneral dot_S4000x8000_S8000x320_S4000x320_1_0_0_1_n_n none l r) : (⟨S4000x8000, .f32⟩ : BufTy).Contents (Elt F) → (⟨S8000x320, .f32⟩ : BufTy).Contents (Elt F) → (⟨S4000x320, .f32⟩ : BufTy).Contents (Elt F)),
    unary main_arg12 main_v70 ((transpose S320x128 [1, 0] · transposes_S128x320_S320x128_1_0) : (⟨S128x320, .f32⟩ : BufTy).Contents (Elt F) → (⟨S320x128, .f32⟩ : BufTy).Contents (Elt F)),
    binary main_v67 main_v70 main_v71 ((fun l r => Host.dotGeneral dot_S4000x320_S320x128_S4000x128_1_0_0_1_n_n none l r) : (⟨S4000x320, .f32⟩ : BufTy).Contents (Elt F) → (⟨S320x128, .f32⟩ : BufTy).Contents (Elt F) → (⟨S4000x128, .f32⟩ : BufTy).Contents (Elt F)),
    unary main_arg15 main_v72 (broadcastInDim S1x128 ![1] bcast_S128_S1x128_1 : (⟨S128, .f32⟩ : BufTy).Contents (Elt F) → (⟨S1x128, .f32⟩ : BufTy).Contents (Elt F)),
    unary main_v72 main_v73 (broadcastInDim S4000x128 ![0, 1] bcast_S1x128_S4000x128_0_1 : (⟨S1x128, .f32⟩ : BufTy).Contents (Elt F) → (⟨S4000x128, .f32⟩ : BufTy).Contents (Elt F)),
    binary main_v71 main_v73 main_v74 (addf : (⟨S4000x128, .f32⟩ : BufTy).Contents (Elt F) → (⟨S4000x128, .f32⟩ : BufTy).Contents (Elt F) → (⟨S4000x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S4000x128, .f32⟩) main_call7_v0) (broadcastInDim S4000x128 ![] bcast_S_S4000x128),
    TRef.binary (TRef.of (T := ⟨S4000x128, .f32⟩) main_v74) (TRef.of (T := ⟨S4000x128, .f32⟩) main_call7_v0) (TRef.of (T := ⟨S4000x128, .f32⟩) main_v75) maximumf,
    unary main_arg12 main_v76 ((transpose S320x128 [1, 0] · transposes_S128x320_S320x128_1_0) : (⟨S128x320, .f32⟩ : BufTy).Contents (Elt F) → (⟨S320x128, .f32⟩ : BufTy).Contents (Elt F)),
    binary main_v69 main_v76 main_v77 ((fun l r => Host.dotGeneral dot_S4000x320_S320x128_S4000x128_1_0_0_1_n_n none l r) : (⟨S4000x320, .f32⟩ : BufTy).Contents (Elt F) → (⟨S320x128, .f32⟩ : BufTy).Contents (Elt F) → (⟨S4000x128, .f32⟩ : BufTy).Contents (Elt F)),
    unary main_arg15 main_v78 (broadcastInDim S1x128 ![1] bcast_S128_S1x128_1 : (⟨S128, .f32⟩ : BufTy).Contents (Elt F) → (⟨S1x128, .f32⟩ : BufTy).Contents (Elt F)),
    unary main_v78 main_v79 (broadcastInDim S4000x128 ![0, 1] bcast_S1x128_S4000x128_0_1 : (⟨S1x128, .f32⟩ : BufTy).Contents (Elt F) → (⟨S4000x128, .f32⟩ : BufTy).Contents (Elt F)),
    binary main_v77 main_v79 main_v80 (addf : (⟨S4000x128, .f32⟩ : BufTy).Contents (Elt F) → (⟨S4000x128, .f32⟩ : BufTy).Contents (Elt F) → (⟨S4000x128, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S4000x128, .f32⟩) main_call8_v0) (broadcastInDim S4000x128 ![] bcast_S_S4000x128),
    TRef.binary (TRef.of (T := ⟨S4000x128, .f32⟩) main_v80) (TRef.of (T := ⟨S4000x128, .f32⟩) main_call8_v0) (TRef.of (T := ⟨S4000x128, .f32⟩) main_v81) maximumf,
    nary ![main_v54, main_v75, main_v81] main_v82 (fun u => concatenate S4000x832 1 [⟨S4000x576, u 0⟩, ⟨S4000x128, u 1⟩, ⟨S4000x128, u 2⟩] concatenates_S4000x576_S4000x128_S4000x128_S4000x832_d1),
    nary ![main_v55, main_v81, main_v75] main_v83 (fun u => concatenate S4000x832 1 [⟨S4000x576, u 0⟩, ⟨S4000x128, u 1⟩, ⟨S4000x128, u 2⟩] concatenates_S4000x576_S4000x128_S4000x128_S4000x832_d1) ]

set_option maxRecDepth 8192 in
theorem ops_eq : (ops : List (HloOp τ sig (Elt F))) = it0 ++ it1 ++ it2 := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., binary_bufs_sub .., binary_bufs_sub .., unary_bufs_sub .., binary_bufs_sub .., unary_bufs_sub .., unary_bufs_sub .., binary_bufs_sub .., nullary_bufs_sub .., unary_bufs_sub .., binary_bufs_sub .., binary_bufs_sub .., unary_bufs_sub .., binary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., nary_bufs_sub .., nary_bufs_sub .., binary_bufs_sub .., binary_bufs_sub .., binary_bufs_sub .., unary_bufs_sub .., binary_bufs_sub .., unary_bufs_sub .., unary_bufs_sub .., binary_bufs_sub .., nullary_bufs_sub .., unary_bufs_sub .., binary_bufs_sub .., binary_bufs_sub .., unary_bufs_sub .., binary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., nary_bufs_sub .., nary_bufs_sub .., binary_bufs_sub .., binary_bufs_sub .., binary_bufs_sub .., unary_bufs_sub .., binary_bufs_sub .., unary_bufs_sub .., unary_bufs_sub .., binary_bufs_sub .., nullary_bufs_sub .., unary_bufs_sub .., binary_bufs_sub .., binary_bufs_sub .., unary_bufs_sub .., binary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., nary_bufs_sub .., nary_bufs_sub ..⟩

/-! ## Each iteration, from any contents -/

set_option maxHeartbeats 2000000 in
theorem it0_v26 (W : Valuation τ sig (Elt F)) : after it0 W (Proc.devRef .tc main_v26)
    = cat320 (W (Proc.devRef .tc main_arg0)) (varPre (W (Proc.devRef .tc main_arg10)) (W (Proc.devRef .tc main_arg13)) (pvT (W (Proc.devRef .tc main_arg2)) (clause64 (W (Proc.devRef .tc main_arg4)) (W (Proc.devRef .tc main_arg7)) (W (Proc.devRef .tc main_arg1)) (agg64 (W (Proc.devRef .tc main_arg2)) (W (Proc.devRef .tc main_arg3)) (W (Proc.devRef .tc main_arg0)) (W (Proc.devRef .tc main_arg0)))))) (varPre (W (Proc.devRef .tc main_arg10)) (W (Proc.devRef .tc main_arg13)) (pvT (W (Proc.devRef .tc main_arg3)) (clause64 (W (Proc.devRef .tc main_arg4)) (W (Proc.devRef .tc main_arg7)) (W (Proc.devRef .tc main_arg1)) (agg64 (W (Proc.devRef .tc main_arg2)) (W (Proc.devRef .tc main_arg3)) (W (Proc.devRef .tc main_arg0)) (W (Proc.devRef .tc main_arg0)))))) := by
  unfold it0
  host_results
  rfl

set_option maxHeartbeats 2000000 in
theorem it0_v27 (W : Valuation τ sig (Elt F)) : after it0 W (Proc.devRef .tc main_v27)
    = cat320 (W (Proc.devRef .tc main_arg0)) (varPre (W (Proc.devRef .tc main_arg10)) (W (Proc.devRef .tc main_arg13)) (pvT (W (Proc.devRef .tc main_arg3)) (clause64 (W (Proc.devRef .tc main_arg4)) (W (Proc.devRef .tc main_arg7)) (W (Proc.devRef .tc main_arg1)) (agg64 (W (Proc.devRef .tc main_arg2)) (W (Proc.devRef .tc main_arg3)) (W (Proc.devRef .tc main_arg0)) (W (Proc.devRef .tc main_arg0)))))) (varPre (W (Proc.devRef .tc main_arg10)) (W (Proc.devRef .tc main_arg13)) (pvT (W (Proc.devRef .tc main_arg2)) (clause64 (W (Proc.devRef .tc main_arg4)) (W (Proc.devRef .tc main_arg7)) (W (Proc.devRef .tc main_arg1)) (agg64 (W (Proc.devRef .tc main_arg2)) (W (Proc.devRef .tc main_arg3)) (W (Proc.devRef .tc main_arg0)) (W (Proc.devRef .tc main_arg0)))))) := by
  unfold it0
  host_results
  rfl

set_option maxHeartbeats 2000000 in
theorem it1_v54 (W : Valuation τ sig (Elt F)) : after it1 W (Proc.devRef .tc main_v54)
    = cat576 (W (Proc.devRef .tc main_v26)) (varPre (W (Proc.devRef .tc main_arg11)) (W (Proc.devRef .tc main_arg14)) (pvT (W (Proc.devRef .tc main_arg2)) (clause320 (W (Proc.devRef .tc main_arg5)) (W (Proc.devRef .tc main_arg8)) (W (Proc.devRef .tc main_arg1)) (agg320 (W (Proc.devRef .tc main_arg2)) (W (Proc.devRef .tc main_arg3)) (W (Proc.devRef .tc main_v26)) (W (Proc.devRef .tc main_v27)))))) (varPre (W (Proc.devRef .tc main_arg11)) (W (Proc.devRef .tc main_arg14)) (pvT (W (Proc.devRef .tc main_arg3)) (clause320 (W (Proc.devRef .tc main_arg5)) (W (Proc.devRef .tc main_arg8)) (W (Proc.devRef .tc main_arg1)) (agg320 (W (Proc.devRef .tc main_arg2)) (W (Proc.devRef .tc main_arg3)) (W (Proc.devRef .tc main_v26)) (W (Proc.devRef .tc main_v27)))))) := by
  unfold it1
  host_results
  rfl

set_option maxHeartbeats 2000000 in
theorem it1_v55 (W : Valuation τ sig (Elt F)) : after it1 W (Proc.devRef .tc main_v55)
    = cat576 (W (Proc.devRef .tc main_v27)) (varPre (W (Proc.devRef .tc main_arg11)) (W (Proc.devRef .tc main_arg14)) (pvT (W (Proc.devRef .tc main_arg3)) (clause320 (W (Proc.devRef .tc main_arg5)) (W (Proc.devRef .tc main_arg8)) (W (Proc.devRef .tc main_arg1)) (agg320 (W (Proc.devRef .tc main_arg2)) (W (Proc.devRef .tc main_arg3)) (W (Proc.devRef .tc main_v26)) (W (Proc.devRef .tc main_v27)))))) (varPre (W (Proc.devRef .tc main_arg11)) (W (Proc.devRef .tc main_arg14)) (pvT (W (Proc.devRef .tc main_arg2)) (clause320 (W (Proc.devRef .tc main_arg5)) (W (Proc.devRef .tc main_arg8)) (W (Proc.devRef .tc main_arg1)) (agg320 (W (Proc.devRef .tc main_arg2)) (W (Proc.devRef .tc main_arg3)) (W (Proc.devRef .tc main_v26)) (W (Proc.devRef .tc main_v27)))))) := by
  unfold it1
  host_results
  rfl

set_option maxHeartbeats 2000000 in
theorem it2_v82 (W : Valuation τ sig (Elt F)) : after it2 W (Proc.devRef .tc main_v82)
    = cat832 (W (Proc.devRef .tc main_v54)) (varPre (W (Proc.devRef .tc main_arg12)) (W (Proc.devRef .tc main_arg15)) (pvT (W (Proc.devRef .tc main_arg2)) (clause576 (W (Proc.devRef .tc main_arg6)) (W (Proc.devRef .tc main_arg9)) (W (Proc.devRef .tc main_arg1)) (agg576 (W (Proc.devRef .tc main_arg2)) (W (Proc.devRef .tc main_arg3)) (W (Proc.devRef .tc main_v54)) (W (Proc.devRef .tc main_v55)))))) (varPre (W (Proc.devRef .tc main_arg12)) (W (Proc.devRef .tc main_arg15)) (pvT (W (Proc.devRef .tc main_arg3)) (clause576 (W (Proc.devRef .tc main_arg6)) (W (Proc.devRef .tc main_arg9)) (W (Proc.devRef .tc main_arg1)) (agg576 (W (Proc.devRef .tc main_arg2)) (W (Proc.devRef .tc main_arg3)) (W (Proc.devRef .tc main_v54)) (W (Proc.devRef .tc main_v55)))))) := by
  unfold it2
  host_results
  rfl

set_option maxHeartbeats 2000000 in
theorem it2_v83 (W : Valuation τ sig (Elt F)) : after it2 W (Proc.devRef .tc main_v83)
    = cat832 (W (Proc.devRef .tc main_v55)) (varPre (W (Proc.devRef .tc main_arg12)) (W (Proc.devRef .tc main_arg15)) (pvT (W (Proc.devRef .tc main_arg3)) (clause576 (W (Proc.devRef .tc main_arg6)) (W (Proc.devRef .tc main_arg9)) (W (Proc.devRef .tc main_arg1)) (agg576 (W (Proc.devRef .tc main_arg2)) (W (Proc.devRef .tc main_arg3)) (W (Proc.devRef .tc main_v54)) (W (Proc.devRef .tc main_v55)))))) (varPre (W (Proc.devRef .tc main_arg12)) (W (Proc.devRef .tc main_arg15)) (pvT (W (Proc.devRef .tc main_arg2)) (clause576 (W (Proc.devRef .tc main_arg6)) (W (Proc.devRef .tc main_arg9)) (W (Proc.devRef .tc main_arg1)) (agg576 (W (Proc.devRef .tc main_arg2)) (W (Proc.devRef .tc main_arg3)) (W (Proc.devRef .tc main_v54)) (W (Proc.devRef .tc main_v55)))))) := by
  unfold it2
  host_results
  rfl

/-! ## The arguments are written by no iteration -/

theorem it0_arg0 (W : Valuation τ sig (Elt F)) : after it0 W (Proc.devRef .tc main_arg0) = W (Proc.devRef .tc main_arg0) := by
  unfold it0
  host_results
theorem it0_arg1 (W : Valuation τ sig (Elt F)) : after it0 W (Proc.devRef .tc main_arg1) = W (Proc.devRef .tc main_arg1) := by
  unfold it0
  host_results
theorem it0_arg2 (W : Valuation τ sig (Elt F)) : after it0 W (Proc.devRef .tc main_arg2) = W (Proc.devRef .tc main_arg2) := by
  unfold it0
  host_results
theorem it0_arg3 (W : Valuation τ sig (Elt F)) : after it0 W (Proc.devRef .tc main_arg3) = W (Proc.devRef .tc main_arg3) := by
  unfold it0
  host_results
theorem it0_arg4 (W : Valuation τ sig (Elt F)) : after it0 W (Proc.devRef .tc main_arg4) = W (Proc.devRef .tc main_arg4) := by
  unfold it0
  host_results
theorem it0_arg5 (W : Valuation τ sig (Elt F)) : after it0 W (Proc.devRef .tc main_arg5) = W (Proc.devRef .tc main_arg5) := by
  unfold it0
  host_results
theorem it0_arg6 (W : Valuation τ sig (Elt F)) : after it0 W (Proc.devRef .tc main_arg6) = W (Proc.devRef .tc main_arg6) := by
  unfold it0
  host_results
theorem it0_arg7 (W : Valuation τ sig (Elt F)) : after it0 W (Proc.devRef .tc main_arg7) = W (Proc.devRef .tc main_arg7) := by
  unfold it0
  host_results
theorem it0_arg8 (W : Valuation τ sig (Elt F)) : after it0 W (Proc.devRef .tc main_arg8) = W (Proc.devRef .tc main_arg8) := by
  unfold it0
  host_results
theorem it0_arg9 (W : Valuation τ sig (Elt F)) : after it0 W (Proc.devRef .tc main_arg9) = W (Proc.devRef .tc main_arg9) := by
  unfold it0
  host_results
theorem it0_arg10 (W : Valuation τ sig (Elt F)) : after it0 W (Proc.devRef .tc main_arg10) = W (Proc.devRef .tc main_arg10) := by
  unfold it0
  host_results
theorem it0_arg11 (W : Valuation τ sig (Elt F)) : after it0 W (Proc.devRef .tc main_arg11) = W (Proc.devRef .tc main_arg11) := by
  unfold it0
  host_results
theorem it0_arg12 (W : Valuation τ sig (Elt F)) : after it0 W (Proc.devRef .tc main_arg12) = W (Proc.devRef .tc main_arg12) := by
  unfold it0
  host_results
theorem it0_arg13 (W : Valuation τ sig (Elt F)) : after it0 W (Proc.devRef .tc main_arg13) = W (Proc.devRef .tc main_arg13) := by
  unfold it0
  host_results
theorem it0_arg14 (W : Valuation τ sig (Elt F)) : after it0 W (Proc.devRef .tc main_arg14) = W (Proc.devRef .tc main_arg14) := by
  unfold it0
  host_results
theorem it0_arg15 (W : Valuation τ sig (Elt F)) : after it0 W (Proc.devRef .tc main_arg15) = W (Proc.devRef .tc main_arg15) := by
  unfold it0
  host_results
theorem it1_arg0 (W : Valuation τ sig (Elt F)) : after it1 W (Proc.devRef .tc main_arg0) = W (Proc.devRef .tc main_arg0) := by
  unfold it1
  host_results
theorem it1_arg1 (W : Valuation τ sig (Elt F)) : after it1 W (Proc.devRef .tc main_arg1) = W (Proc.devRef .tc main_arg1) := by
  unfold it1
  host_results
theorem it1_arg2 (W : Valuation τ sig (Elt F)) : after it1 W (Proc.devRef .tc main_arg2) = W (Proc.devRef .tc main_arg2) := by
  unfold it1
  host_results
theorem it1_arg3 (W : Valuation τ sig (Elt F)) : after it1 W (Proc.devRef .tc main_arg3) = W (Proc.devRef .tc main_arg3) := by
  unfold it1
  host_results
theorem it1_arg4 (W : Valuation τ sig (Elt F)) : after it1 W (Proc.devRef .tc main_arg4) = W (Proc.devRef .tc main_arg4) := by
  unfold it1
  host_results
theorem it1_arg5 (W : Valuation τ sig (Elt F)) : after it1 W (Proc.devRef .tc main_arg5) = W (Proc.devRef .tc main_arg5) := by
  unfold it1
  host_results
theorem it1_arg6 (W : Valuation τ sig (Elt F)) : after it1 W (Proc.devRef .tc main_arg6) = W (Proc.devRef .tc main_arg6) := by
  unfold it1
  host_results
theorem it1_arg7 (W : Valuation τ sig (Elt F)) : after it1 W (Proc.devRef .tc main_arg7) = W (Proc.devRef .tc main_arg7) := by
  unfold it1
  host_results
theorem it1_arg8 (W : Valuation τ sig (Elt F)) : after it1 W (Proc.devRef .tc main_arg8) = W (Proc.devRef .tc main_arg8) := by
  unfold it1
  host_results
theorem it1_arg9 (W : Valuation τ sig (Elt F)) : after it1 W (Proc.devRef .tc main_arg9) = W (Proc.devRef .tc main_arg9) := by
  unfold it1
  host_results
theorem it1_arg10 (W : Valuation τ sig (Elt F)) : after it1 W (Proc.devRef .tc main_arg10) = W (Proc.devRef .tc main_arg10) := by
  unfold it1
  host_results
theorem it1_arg11 (W : Valuation τ sig (Elt F)) : after it1 W (Proc.devRef .tc main_arg11) = W (Proc.devRef .tc main_arg11) := by
  unfold it1
  host_results
theorem it1_arg12 (W : Valuation τ sig (Elt F)) : after it1 W (Proc.devRef .tc main_arg12) = W (Proc.devRef .tc main_arg12) := by
  unfold it1
  host_results
theorem it1_arg13 (W : Valuation τ sig (Elt F)) : after it1 W (Proc.devRef .tc main_arg13) = W (Proc.devRef .tc main_arg13) := by
  unfold it1
  host_results
theorem it1_arg14 (W : Valuation τ sig (Elt F)) : after it1 W (Proc.devRef .tc main_arg14) = W (Proc.devRef .tc main_arg14) := by
  unfold it1
  host_results
theorem it1_arg15 (W : Valuation τ sig (Elt F)) : after it1 W (Proc.devRef .tc main_arg15) = W (Proc.devRef .tc main_arg15) := by
  unfold it1
  host_results
theorem it2_arg0 (W : Valuation τ sig (Elt F)) : after it2 W (Proc.devRef .tc main_arg0) = W (Proc.devRef .tc main_arg0) := by
  unfold it2
  host_results
theorem it2_arg1 (W : Valuation τ sig (Elt F)) : after it2 W (Proc.devRef .tc main_arg1) = W (Proc.devRef .tc main_arg1) := by
  unfold it2
  host_results
theorem it2_arg2 (W : Valuation τ sig (Elt F)) : after it2 W (Proc.devRef .tc main_arg2) = W (Proc.devRef .tc main_arg2) := by
  unfold it2
  host_results
theorem it2_arg3 (W : Valuation τ sig (Elt F)) : after it2 W (Proc.devRef .tc main_arg3) = W (Proc.devRef .tc main_arg3) := by
  unfold it2
  host_results
theorem it2_arg4 (W : Valuation τ sig (Elt F)) : after it2 W (Proc.devRef .tc main_arg4) = W (Proc.devRef .tc main_arg4) := by
  unfold it2
  host_results
theorem it2_arg5 (W : Valuation τ sig (Elt F)) : after it2 W (Proc.devRef .tc main_arg5) = W (Proc.devRef .tc main_arg5) := by
  unfold it2
  host_results
theorem it2_arg6 (W : Valuation τ sig (Elt F)) : after it2 W (Proc.devRef .tc main_arg6) = W (Proc.devRef .tc main_arg6) := by
  unfold it2
  host_results
theorem it2_arg7 (W : Valuation τ sig (Elt F)) : after it2 W (Proc.devRef .tc main_arg7) = W (Proc.devRef .tc main_arg7) := by
  unfold it2
  host_results
theorem it2_arg8 (W : Valuation τ sig (Elt F)) : after it2 W (Proc.devRef .tc main_arg8) = W (Proc.devRef .tc main_arg8) := by
  unfold it2
  host_results
theorem it2_arg9 (W : Valuation τ sig (Elt F)) : after it2 W (Proc.devRef .tc main_arg9) = W (Proc.devRef .tc main_arg9) := by
  unfold it2
  host_results
theorem it2_arg10 (W : Valuation τ sig (Elt F)) : after it2 W (Proc.devRef .tc main_arg10) = W (Proc.devRef .tc main_arg10) := by
  unfold it2
  host_results
theorem it2_arg11 (W : Valuation τ sig (Elt F)) : after it2 W (Proc.devRef .tc main_arg11) = W (Proc.devRef .tc main_arg11) := by
  unfold it2
  host_results
theorem it2_arg12 (W : Valuation τ sig (Elt F)) : after it2 W (Proc.devRef .tc main_arg12) = W (Proc.devRef .tc main_arg12) := by
  unfold it2
  host_results
theorem it2_arg13 (W : Valuation τ sig (Elt F)) : after it2 W (Proc.devRef .tc main_arg13) = W (Proc.devRef .tc main_arg13) := by
  unfold it2
  host_results
theorem it2_arg14 (W : Valuation τ sig (Elt F)) : after it2 W (Proc.devRef .tc main_arg14) = W (Proc.devRef .tc main_arg14) := by
  unfold it2
  host_results
theorem it2_arg15 (W : Valuation τ sig (Elt F)) : after it2 W (Proc.devRef .tc main_arg15) = W (Proc.devRef .tc main_arg15) := by
  unfold it2
  host_results

/-! ## The three iterations chained -/

/-- The sixteen argument arrays read off a valuation. -/
def argsOfV (V : Valuation τ sig (Elt F)) : Spec.Args F where
  vlabels := V (Proc.devRef .tc main_arg0)
  clabels := V (Proc.devRef .tc main_arg1)
  cp := V (Proc.devRef .tc main_arg2)
  cn := V (Proc.devRef .tc main_arg3)
  wl0 := V (Proc.devRef .tc main_arg4)
  wl1 := V (Proc.devRef .tc main_arg5)
  wl2 := V (Proc.devRef .tc main_arg6)
  bl0 := V (Proc.devRef .tc main_arg7)
  bl1 := V (Proc.devRef .tc main_arg8)
  bl2 := V (Proc.devRef .tc main_arg9)
  wc0 := V (Proc.devRef .tc main_arg10)
  wc1 := V (Proc.devRef .tc main_arg11)
  wc2 := V (Proc.devRef .tc main_arg12)
  bc0 := V (Proc.devRef .tc main_arg13)
  bc1 := V (Proc.devRef .tc main_arg14)
  bc2 := V (Proc.devRef .tc main_arg15)

/-- The sixteen argument arrays at launch, on core `c`. -/
def argsOf (m : (ℓ : Loc nD τ sig) → Buf (Elt F) ℓ) (c : Dev nD) : Spec.Args F where
  vlabels := m ((c.tc : Thread nD τ).loc main_arg0)
  clabels := m ((c.tc : Thread nD τ).loc main_arg1)
  cp := m ((c.tc : Thread nD τ).loc main_arg2)
  cn := m ((c.tc : Thread nD τ).loc main_arg3)
  wl0 := m ((c.tc : Thread nD τ).loc main_arg4)
  wl1 := m ((c.tc : Thread nD τ).loc main_arg5)
  wl2 := m ((c.tc : Thread nD τ).loc main_arg6)
  bl0 := m ((c.tc : Thread nD τ).loc main_arg7)
  bl1 := m ((c.tc : Thread nD τ).loc main_arg8)
  bl2 := m ((c.tc : Thread nD τ).loc main_arg9)
  wc0 := m ((c.tc : Thread nD τ).loc main_arg10)
  wc1 := m ((c.tc : Thread nD τ).loc main_arg11)
  wc2 := m ((c.tc : Thread nD τ).loc main_arg12)
  bc0 := m ((c.tc : Thread nD τ).loc main_arg13)
  bc1 := m ((c.tc : Thread nD τ).loc main_arg14)
  bc2 := m ((c.tc : Thread nD τ).loc main_arg15)

theorem argsOfV_launch (m : (ℓ : Loc nD τ sig) → Buf (Elt F) ℓ) (c : Dev nD) : argsOfV (launchContents m c) = argsOf m c := rfl

variable (V : Valuation τ sig (Elt F))

theorem h26 : after it0 V (Proc.devRef .tc main_v26) = Spec.pos1 (argsOfV V) := (it0_v26 V).trans rfl
theorem h27 : after it0 V (Proc.devRef .tc main_v27) = Spec.neg1 (argsOfV V) := (it0_v27 V).trans rfl

theorem h54 : after it1 (after it0 V) (Proc.devRef .tc main_v54) = Spec.pos2 (argsOfV V) := by
  rw [it1_v54, it0_arg5, it0_arg8, it0_arg1, it0_arg2, it0_arg3, it0_arg11, it0_arg14, h26, h27]
  rfl
theorem h55 : after it1 (after it0 V) (Proc.devRef .tc main_v55) = Spec.neg2 (argsOfV V) := by
  rw [it1_v55, it0_arg5, it0_arg8, it0_arg1, it0_arg2, it0_arg3, it0_arg11, it0_arg14, h26, h27]
  rfl

theorem h82 : after it2 (after it1 (after it0 V)) (Proc.devRef .tc main_v82) = Spec.pos3 (argsOfV V) := by
  rw [it2_v82, it1_arg6, it1_arg9, it1_arg1, it1_arg2, it1_arg3, it1_arg12, it1_arg15, it0_arg6, it0_arg9, it0_arg1, it0_arg2, it0_arg3, it0_arg12, it0_arg15, h54, h55]
  rfl
theorem h83 : after it2 (after it1 (after it0 V)) (Proc.devRef .tc main_v83) = Spec.neg3 (argsOfV V) := by
  rw [it2_v83, it1_arg6, it1_arg9, it1_arg1, it1_arg2, it1_arg3, it1_arg12, it1_arg15, it0_arg6, it0_arg9, it0_arg1, it0_arg2, it0_arg3, it0_arg12, it0_arg15, h54, h55]
  rfl

theorem after_ops_v82 : after ops V (Proc.devRef .tc main_v82) = Spec.pos3 (argsOfV V) := by
  rw [ops_eq, StableHlo.after_append, StableHlo.after_append]; exact h82 V
theorem after_ops_v83 : after ops V (Proc.devRef .tc main_v83) = Spec.neg3 (argsOfV V) := by
  rw [ops_eq, StableHlo.after_append, StableHlo.after_append]; exact h83 V
theorem after_ops_arg0 : after ops V (Proc.devRef .tc main_arg0) = V (Proc.devRef .tc main_arg0) := by
  rw [ops_eq, StableHlo.after_append, StableHlo.after_append, it2_arg0, it1_arg0, it0_arg0]
theorem after_ops_arg1 : after ops V (Proc.devRef .tc main_arg1) = V (Proc.devRef .tc main_arg1) := by
  rw [ops_eq, StableHlo.after_append, StableHlo.after_append, it2_arg1, it1_arg1, it0_arg1]
theorem after_ops_arg2 : after ops V (Proc.devRef .tc main_arg2) = V (Proc.devRef .tc main_arg2) := by
  rw [ops_eq, StableHlo.after_append, StableHlo.after_append, it2_arg2, it1_arg2, it0_arg2]
theorem after_ops_arg3 : after ops V (Proc.devRef .tc main_arg3) = V (Proc.devRef .tc main_arg3) := by
  rw [ops_eq, StableHlo.after_append, StableHlo.after_append, it2_arg3, it1_arg3, it0_arg3]
theorem after_ops_arg4 : after ops V (Proc.devRef .tc main_arg4) = V (Proc.devRef .tc main_arg4) := by
  rw [ops_eq, StableHlo.after_append, StableHlo.after_append, it2_arg4, it1_arg4, it0_arg4]
theorem after_ops_arg5 : after ops V (Proc.devRef .tc main_arg5) = V (Proc.devRef .tc main_arg5) := by
  rw [ops_eq, StableHlo.after_append, StableHlo.after_append, it2_arg5, it1_arg5, it0_arg5]
theorem after_ops_arg6 : after ops V (Proc.devRef .tc main_arg6) = V (Proc.devRef .tc main_arg6) := by
  rw [ops_eq, StableHlo.after_append, StableHlo.after_append, it2_arg6, it1_arg6, it0_arg6]
theorem after_ops_arg7 : after ops V (Proc.devRef .tc main_arg7) = V (Proc.devRef .tc main_arg7) := by
  rw [ops_eq, StableHlo.after_append, StableHlo.after_append, it2_arg7, it1_arg7, it0_arg7]
theorem after_ops_arg8 : after ops V (Proc.devRef .tc main_arg8) = V (Proc.devRef .tc main_arg8) := by
  rw [ops_eq, StableHlo.after_append, StableHlo.after_append, it2_arg8, it1_arg8, it0_arg8]
theorem after_ops_arg9 : after ops V (Proc.devRef .tc main_arg9) = V (Proc.devRef .tc main_arg9) := by
  rw [ops_eq, StableHlo.after_append, StableHlo.after_append, it2_arg9, it1_arg9, it0_arg9]
theorem after_ops_arg10 : after ops V (Proc.devRef .tc main_arg10) = V (Proc.devRef .tc main_arg10) := by
  rw [ops_eq, StableHlo.after_append, StableHlo.after_append, it2_arg10, it1_arg10, it0_arg10]
theorem after_ops_arg11 : after ops V (Proc.devRef .tc main_arg11) = V (Proc.devRef .tc main_arg11) := by
  rw [ops_eq, StableHlo.after_append, StableHlo.after_append, it2_arg11, it1_arg11, it0_arg11]
theorem after_ops_arg12 : after ops V (Proc.devRef .tc main_arg12) = V (Proc.devRef .tc main_arg12) := by
  rw [ops_eq, StableHlo.after_append, StableHlo.after_append, it2_arg12, it1_arg12, it0_arg12]
theorem after_ops_arg13 : after ops V (Proc.devRef .tc main_arg13) = V (Proc.devRef .tc main_arg13) := by
  rw [ops_eq, StableHlo.after_append, StableHlo.after_append, it2_arg13, it1_arg13, it0_arg13]
theorem after_ops_arg14 : after ops V (Proc.devRef .tc main_arg14) = V (Proc.devRef .tc main_arg14) := by
  rw [ops_eq, StableHlo.after_append, StableHlo.after_append, it2_arg14, it1_arg14, it0_arg14]
theorem after_ops_arg15 : after ops V (Proc.devRef .tc main_arg15) = V (Proc.devRef .tc main_arg15) := by
  rw [ops_eq, StableHlo.after_append, StableHlo.after_append, it2_arg15, it1_arg15, it0_arg15]

/-- On every core, for any float values, from any memory with zero counters: every weakly fair execution of the program
    terminates with its two results at the third iteration's arrays of the launch arguments, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v82) = Spec.pos3 (argsOf m c)
      ∧ r.2.mem ((c.tc : Thread nD τ).loc main_v83) = Spec.neg3 (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v82).trans ((after_ops_v82 (launchContents m c)).trans (congrArg Spec.pos3 (argsOfV_launch m c))),
      (h c main_v83).trans ((after_ops_v83 (launchContents m c)).trans (congrArg Spec.neg3 (argsOfV_launch m c))),
      (h c main_arg0).trans (after_ops_arg0 (launchContents m c)),
      (h c main_arg1).trans (after_ops_arg1 (launchContents m c)),
      (h c main_arg2).trans (after_ops_arg2 (launchContents m c)),
      (h c main_arg3).trans (after_ops_arg3 (launchContents m c)),
      (h c main_arg4).trans (after_ops_arg4 (launchContents m c)),
      (h c main_arg5).trans (after_ops_arg5 (launchContents m c)),
      (h c main_arg6).trans (after_ops_arg6 (launchContents m c)),
      (h c main_arg7).trans (after_ops_arg7 (launchContents m c)),
      (h c main_arg8).trans (after_ops_arg8 (launchContents m c)),
      (h c main_arg9).trans (after_ops_arg9 (launchContents m c)),
      (h c main_arg10).trans (after_ops_arg10 (launchContents m c)),
      (h c main_arg11).trans (after_ops_arg11 (launchContents m c)),
      (h c main_arg12).trans (after_ops_arg12 (launchContents m c)),
      (h c main_arg13).trans (after_ops_arg13 (launchContents m c)),
      (h c main_arg14).trans (after_ops_arg14 (launchContents m c)),
      (h c main_arg15).trans (after_ops_arg15 (launchContents m c))⟩)
    (run_seq scopedRefs_eq scopedSems_eq defs main (fun _ => ops) main_eq (fun _ => ops_sub) m ρ)

end Cert.ReferenceIdeal.RefHand

end
-- ==== Proof.Algebraic.lean ====
/-
  The five claims. The word-level kernel and its idealization are one text read at two instances, so their frames are
  one proof; the ideal pass rewrote nothing, so there is nothing to preserve; the reference's frame is its run with the
  results dropped. At the extended reals both programs end with pos and neg of the third iteration of one composition
  of whole-array functions of the sixteen arguments: the reference because its run's result term is that composition,
  the kernel because each pallas region's output is the stage it stands for — a 400-row tile of the two products added,
  a slab accumulated over ten 800-row tiles equal to the whole product over the 8000 clauses, by regrouping the sum,
  which needs no finiteness — and the host operations between them are the reference's own.
-/
import proofs.«154590_j17119739641884_2_alg».proof.Defs
import proofs.«154590_j17119739641884_2_alg».proof.Proof.Gen.Pre_finite_inputs
import proofs.«154590_j17119739641884_2_alg».proof.Proof.FrameAll
import proofs.«154590_j17119739641884_2_alg».proof.Proof.KFrameAll
import proofs.«154590_j17119739641884_2_alg».proof.Proof.RunAll
import proofs.«154590_j17119739641884_2_alg».proof.Proof.Bridge4
import proofs.«154590_j17119739641884_2_alg».proof.Proof.RefHand

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2.2) (Cert.ReferenceIdeal.RefHand.run (F := Ideal) m ρ)

theorem preserves : Cert.preserves_Kernel_KernelIdeal := trivial

/-- An unscoped TensorCore reference of the kernel program is among those the run reads back. -/
theorem memUc (b : Ref Cert.KernelIdeal.sig .tc) (h : ¬ (Proc.devRef .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

/-- Memories agreeing on the arguments give the two programs the same sixteen arrays. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.ReferenceIdeal.RefHand.argsOf m' c = Cert.KernelIdeal.Bridge.argsK m c := by
  obtain ⟨h0, h1, h2, h3, h4, h5, h6, h7, h8, h9, h10, h11, h12, h13, h14, h15⟩ := h
  unfold Cert.ReferenceIdeal.RefHand.argsOf Cert.KernelIdeal.Bridge.argsK
  rw [h0, h1, h2, h3, h4, h5, h6, h7, h8, h9, h10, h11, h12, h13, h14, h15]

theorem algebraic : Cert.algebraic_KernelIdeal_ReferenceIdeal := by
  intro m ρ m' ρ' _ hagree
  refine ⟨fun c => Cert.ReferenceIdeal.Spec.pos3 (Cert.KernelIdeal.Bridge.argsK m c), fun c => Cert.ReferenceIdeal.Spec.neg3 (Cert.KernelIdeal.Bridge.argsK m c), ?_, ?_⟩
  · refine (θ_run Cert.KernelIdeal.defs _ _).mono (fun r h c => ?_) (Cert.KernelIdeal.Hand.run_all m ρ)
    have hb := h c
    exact ⟨(hb _ (memUc Cert.KernelIdeal.main_v93 (by decide))).trans (Cert.KernelIdeal.Bridge.kPos3 m c),
      (hb _ (memUc Cert.KernelIdeal.main_v94 (by decide))).trans (Cert.KernelIdeal.Bridge.kNeg3 m c),
      (hb _ (memUc Cert.KernelIdeal.main_arg0 (by decide))).trans (Cert.KernelIdeal.Gen.V31_main_arg0 m (Cert.KernelIdeal.Hand.outs m) c),
      (hb _ (memUc Cert.KernelIdeal.main_arg1 (by decide))).trans (Cert.KernelIdeal.Gen.V31_main_arg1 m (Cert.KernelIdeal.Hand.outs m) c),
      (hb _ (memUc Cert.KernelIdeal.main_arg2 (by decide))).trans (Cert.KernelIdeal.Gen.V31_main_arg2 m (Cert.KernelIdeal.Hand.outs m) c),
      (hb _ (memUc Cert.KernelIdeal.main_arg3 (by decide))).trans (Cert.KernelIdeal.Gen.V31_main_arg3 m (Cert.KernelIdeal.Hand.outs m) c),
      (hb _ (memUc Cert.KernelIdeal.main_arg4 (by decide))).trans (Cert.KernelIdeal.Gen.V31_main_arg4 m (Cert.KernelIdeal.Hand.outs m) c),
      (hb _ (memUc Cert.KernelIdeal.main_arg5 (by decide))).trans (Cert.KernelIdeal.Gen.V31_main_arg5 m (Cert.KernelIdeal.Hand.outs m) c),
      (hb _ (memUc Cert.KernelIdeal.main_arg6 (by decide))).trans (Cert.KernelIdeal.Gen.V31_main_arg6 m (Cert.KernelIdeal.Hand.outs m) c),
      (hb _ (memUc Cert.KernelIdeal.main_arg7 (by decide))).trans (Cert.KernelIdeal.Gen.V31_main_arg7 m (Cert.KernelIdeal.Hand.outs m) c),
      (hb _ (memUc Cert.KernelIdeal.main_arg8 (by decide))).trans (Cert.KernelIdeal.Gen.V31_main_arg8 m (Cert.KernelIdeal.Hand.outs m) c),
      (hb _ (memUc Cert.KernelIdeal.main_arg9 (by decide))).trans (Cert.KernelIdeal.Gen.V31_main_arg9 m (Cert.KernelIdeal.Hand.outs m) c),
      (hb _ (memUc Cert.KernelIdeal.main_arg10 (by decide))).trans (Cert.KernelIdeal.Gen.V31_main_arg10 m (Cert.KernelIdeal.Hand.outs m) c),
      (hb _ (memUc Cert.KernelIdeal.main_arg11 (by decide))).trans (Cert.KernelIdeal.Gen.V31_main_arg11 m (Cert.KernelIdeal.Hand.outs m) c),
      (hb _ (memUc Cert.KernelIdeal.main_arg12 (by decide))).trans (Cert.KernelIdeal.Gen.V31_main_arg12 m (Cert.KernelIdeal.Hand.outs m) c),
      (hb _ (memUc Cert.KernelIdeal.main_arg13 (by decide))).trans (Cert.KernelIdeal.Gen.V31_main_arg13 m (Cert.KernelIdeal.Hand.outs m) c),
      (hb _ (memUc Cert.KernelIdeal.main_arg14 (by decide))).trans (Cert.KernelIdeal.Gen.V31_main_arg14 m (Cert.KernelIdeal.Hand.outs m) c),
      (hb _ (memUc Cert.KernelIdeal.main_arg15 (by decide))).trans (Cert.KernelIdeal.Gen.V31_main_arg15 m (Cert.KernelIdeal.Hand.outs m) c)⟩
  · refine (θ_run Cert.ReferenceIdeal.defs _ _).mono (fun r h c => ?_) (Cert.ReferenceIdeal.RefHand.run (F := Ideal) m' ρ')
    have hr := h c
    exact ⟨hr.1.trans (congrArg Cert.ReferenceIdeal.Spec.pos3 (args_agree m m' c (hagree c))),
      hr.2.1.trans (congrArg Cert.ReferenceIdeal.Spec.neg3 (args_agree m m' c (hagree c))),
      hr.2.2⟩

end Cert.Proof

end
-- ==== Proof.lean ====
/-
  The certificate of the encoder kernel against its jnp reference: the three programs' frames, the (empty) ledger of the
  idealization, and the equality of the two idealized programs' results on the extended reals. The proofs are in
  Proof/Algebraic.lean and the modules it imports.
-/
import proofs.«154590_j17119739641884_2_alg».proof.Defs
import proofs.«154590_j17119739641884_2_alg».proof.Proof.Gen.Kernel
import proofs.«154590_j17119739641884_2_alg».proof.Proof.Gen.KernelIdeal
import proofs.«154590_j17119739641884_2_alg».proof.Proof.Gen.ReferenceIdeal
import proofs.«154590_j17119739641884_2_alg».proof.Proof.Gen.Pre_finite_inputs
import proofs.«154590_j17119739641884_2_alg».proof.Proof.Algebraic

noncomputable section

namespace Cert.Proof

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
